-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S256x256 : Shape := ⟨2, ![256, 256]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg4 : FVec F S256x256 .f32) (main_arg5 : FVec F S256x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  main_v28

def fn {F : FTy → Type} [FloatOps F] (main_arg0 : FVec F S4x4096x256 .f32) (main_arg1 : FVec F S4x4096x256 .f32) (main_arg2 : FVec F S4x4096x256 .f32) (main_arg3 : FVec F S256x256 .f32) (main_arg4 : FVec F S256x256 .f32) (main_arg5 : FVec F S256x256 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S4x4096x256 .f32 := Host.absf main_arg1
  let main_cst_0 : FVec F S_ .f32 := constant S_ .f32 0x7F800000#32
  let main_v5 : FVec F S4x4096x256 .f32 := broadcastInDim S4x4096x256 ![] bcast_S_S4x4096x256 main_cst_0
  let main_v6 : IVec S4x4096x256 1 := cmpf .olt main_v4 main_v5
  let main_c_1 : IVec S_ 1 := constantI S_ 1 1#1
  let main_v7 : IVec S_ 1 := (fun x v => Host.reduce IntOp.andi x v reducesTo_S4x4096x256_S_d0_1_2 h_S_) main_v6 main_c_1
  let main_v8 : IVec S_ 1 := andi main_v3 main_v7
  let main_v9 : FVec F S4x4096x256 .f32 := Host.absf main_arg2
  let main_cst_2 : FVec F S_ .f32 := constant S_ .f32 0x7F800000#32
  let main_v10 : FVec F S4x4096x256 .f32 := broadcastInDim S4x4096x256 ![] bcast_S_S4x4096x256 main_cst_2
  let main_v11 : IVec S4x4096x256 1 := cmpf .olt main_v9 main_v10
  let main_c_3 : IVec S_ 1 := constantI S_ 1 1#1
  let main_v12 : IVec S_ 1 := (fun x v => Host.reduce IntOp.andi x v reducesTo_S4x4096x256_S_d0_1_2 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_v13 main_v16
-- ==== Kernel.lean ====
abbrev S4x4096x256 : Shape := ⟨3, ![4, 4096, 256]⟩
abbrev S256x256 : Shape := ⟨2, ![256, 256]⟩
abbrev S16384x256 : Shape := ⟨2, ![16384, 256]⟩
abbrev S1024x256 : Shape := ⟨2, ![1024, 256]⟩
abbrev S4x4096x1 : Shape := ⟨3, ![4, 4096, 1]⟩
abbrev S4x1024x256 : Shape := ⟨3, ![4, 1024, 256]⟩
abbrev S4x256x256 : Shape := ⟨3, ![4, 256, 256]⟩
abbrev S4x1024x1 : Shape := ⟨3, ![4, 1024, 1]⟩
abbrev S4x1024 : Shape := ⟨2, ![4, 1024]⟩
abbrev S4x4096x4096 : Shape := ⟨3, ![4, 4096, 4096]⟩

abbrev nBuf : Space → Nat
  | .hbm => 18
  | .vmem => 36
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S4x4096x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S16384x256, .f32⟩
  | .hbm, ⟨7, _⟩ => ⟨S16384x256, .bf16⟩
  | .hbm, ⟨8, _⟩ => ⟨S4x4096x256, .bf16⟩
  | .hbm, ⟨9, _⟩ => ⟨S16384x256, .f32⟩
  | .hbm, ⟨10, _⟩ => ⟨S16384x256, .bf16⟩
  | .hbm, ⟨11, _⟩ => ⟨S4x4096x256, .bf16⟩
  | .hbm, ⟨12, _⟩ => ⟨S16384x256, .f32⟩
  | .hbm, ⟨13, _⟩ => ⟨S16384x256, .bf16⟩
  | .hbm, ⟨14, _⟩ => ⟨S4x4096x256, .bf16⟩
  | .hbm, ⟨15, _⟩ => ⟨S4x4096x256, .f32⟩
  | .hbm, ⟨16, _⟩ => ⟨S4x4096x1, .f32⟩
  | .hbm, ⟨17, _⟩ => ⟨S4x4096x4096, .f32⟩
  | .local _ .vmem, ⟨0, _⟩ => ⟨S1024x256, .f32⟩
  | .local _ .vmem, ⟨1, _⟩ => ⟨S1024x256, .f32⟩
  | .local _ .vmem, ⟨2, _⟩ => ⟨S256x256, .f32⟩
  | .local _ .vmem, ⟨3, _⟩ => ⟨S1024x256, .bf16⟩
  | .local _ .vmem, ⟨4, _⟩ => ⟨S1024x256, .bf16⟩
  | .local _ .vmem, ⟨5, _⟩ => ⟨S1024x256, .f32⟩
  | .local _ .vmem, ⟨6, _⟩ => ⟨S1024x256, .f32⟩
  | .local _ .vmem, ⟨7, _⟩ => ⟨S256x256, .f32⟩
  | .local _ .vmem, ⟨8, _⟩ => ⟨S1024x256, .bf16⟩
  | .local _ .vmem, ⟨9, _⟩ => ⟨S1024x256, .bf16⟩
  | .local _ .vmem, ⟨10, _⟩ => ⟨S1024x256, .f32⟩
  | .local _ .vmem, ⟨11, _⟩ => ⟨S1024x256, .f32⟩
  | .local _ .vmem, ⟨12, _⟩ => ⟨S256x256, .f32⟩
  | .local _ .vmem, ⟨13, _⟩ => ⟨S1024x256, .bf16⟩
  | .local _ .vmem, ⟨14, _⟩ => ⟨S1024x256, .bf16⟩
  | .local _ .vmem, ⟨15, _⟩ => ⟨S4x1024x256, .bf16⟩
  | .local _ .vmem, ⟨16, _⟩ => ⟨S4x1024x256, .bf16⟩
  | .local _ .vmem, ⟨17, _⟩ => ⟨S4x256x256, .bf16⟩
  | .local _ .vmem, ⟨18, _⟩ => ⟨S4x256x256, .bf16⟩
  | .local _ .vmem, ⟨19, _⟩ => ⟨S4x256x256, .bf16⟩
  | .local _ .vmem, ⟨20, _⟩ => ⟨S4x256x256, .bf16⟩
  | .local _ .vmem, ⟨21, _⟩ => ⟨S4x1024x256, .f32⟩
  | .local _ .vmem, ⟨22, _⟩ => ⟨S4x1024x256, .f32⟩
  | .local _ .vmem, ⟨23, _⟩ => ⟨S4x1024x1, .f32⟩
  | .local _ .vmem, ⟨24, _⟩ => ⟨S4x1024x1, .f32⟩
  | .local _ .vmem, ⟨25, _⟩ => ⟨S4x1024x1, .f32⟩
  | .local _ .vmem, ⟨26, _⟩ => ⟨S4x1024x1, .f32⟩
  | .local _ .vmem, ⟨27, _⟩ => ⟨S4x1024x256, .f32⟩
  | .local _ .vmem, ⟨28, _⟩ => ⟨S4x1024x256, .bf16⟩
  | .local _ .vmem, ⟨29, _⟩ => ⟨S4x1024x256, .bf16⟩
  | .local _ .vmem, ⟨30, _⟩ => ⟨S4x256x256, .bf16⟩
  | .local _ .vmem, ⟨31, _⟩ => ⟨S4x256x256, .bf16⟩
  | .local _ .vmem, ⟨32, _⟩ => ⟨S4x1024x1, .f32⟩
  | .local _ .vmem, ⟨33, _⟩ => ⟨S4x1024x1, .f32⟩
  | .local _ .vmem, ⟨34, _⟩ => ⟨S4x1024x256, .f32⟩
  | .local _ .vmem, ⟨35, _⟩ => ⟨S4x1024x256, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc3_stg4_0 : Ref sig .tc := ⟨.vmem, 23, rfl⟩
abbrev cc3_stg4_1 : Ref sig .tc := ⟨.vmem, 24, rfl⟩
abbrev cc3_scratch0 : Ref sig .tc := ⟨.vmem, 25, rfl⟩
abbrev cc3_scratch1 : Ref sig .tc := ⟨.vmem, 26, rfl⟩
abbrev cc3_scratch2 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc3_sem3_0 : DmaSem sig := 21
abbrev cc3_sem3_1 : DmaSem sig := 22
abbrev cc3_sem4_0 : DmaSem sig := 23
abbrev cc3_sem4_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc4_sem3_0 : DmaSem sig := 31
abbrev cc4_sem3_1 : DmaSem sig := 32

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![4, 16], ![false, false]⟩

def k3_cond2 (i : grid3.Coords) : BitVec 1 :=
  let arg1 : BitVec 32 := BitVec.ofNat 32 (i 1).val
  let c15_i32 : BitVec 32 := 15#32
  let v42 : BitVec 1 := Scalar.cmpi .eq arg1 c15_i32
  let v43 : BitVec 32 := Scalar.extui v42
  let c0_i32_34 : BitVec 32 := 0#32
  let v44 : BitVec 1 := Scalar.cmpi .ne v43 c0_i32_34
  v44

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S4x1024x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4x256x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S4x256x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S4x1024x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S4x1024x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev grid4 : Pipeline.Grid := ⟨2, ![4, 16], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage4_0 : Fin 2 → Memref sig .tc .vmem S4x1024x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4x256x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S4x1024x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S4x1024x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

class Facts₀ : Prop where
  shapeCasts_S4x4096x256_S16384x256 : S4x4096x256.ShapeCasts S16384x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  packedbf16_S1024x256_S1024x256_0_0 : (Rect.unit (s := S1024x256) ![0, 0] S1024x256.size inb_S1024x256_S1024x256_0_0).PackedRows (EltTy.packing .bf16)
  shapeCasts_S16384x256_S4x4096x256 : S16384x256.ShapeCasts S4x4096x256
  inb_S4x1024x1_S4x1024x1_0_0_0 : ∀ a, (![0, 0, 0] : Fin 3 → Nat) a + S4x1024x1.size a ≤ S4x1024x1.size a
  h_S4x1024x1 : 0 < S4x1024x1.numel
  shapeCasts_S4x1024x1_S4x1024x1 : S4x1024x1.ShapeCasts S4x1024x1
  inb_S4x1024x256_S4x1024x256_0_0_0 : ∀ a, (![0, 0, 0] : Fin 3 → Nat) a + S4x1024x256.size a ≤ S4x1024x256.size a
  h_S4x1024x256 : 0 < S4x1024x256.numel
  shapeCasts_S4x1024x256_S4x1024x256 : S4x1024x256.ShapeCasts S4x1024x256
  inb_S4x256x256_S4x256x256_0_0_0 : ∀ a, (![0, 0, 0] : Fin 3 → Nat) a + S4x256x256.size a ≤ S4x256x256.size a
  h_S4x256x256 : 0 < S4x256x256.numel
  shapeCasts_S4x256x256_S4x256x256 : S4x256x256.ShapeCasts S4x256x256
  reduces_S4x1024x256_S4x1024 : S4x1024x256.Reduces [2] S4x1024
  shapeCasts_S4x1024_S4x1024x1 : S4x1024.ShapeCasts S4x1024x1
  broadcasts_S4x1024x1_S4x1024x256 : S4x1024x1.Broadcasts S4x1024x256
  dot_S1024x256_S256x256_S1024x256_1_1_0_0_n_n_wf : DotDims.WF S1024x256 S256x256 S1024x256 [1] [1] [0] [0] [] []
  dot_S4x1024x256_S4x256x256_S4x1024x256_2_2_1_1_0_0_wf : DotDims.WF S4x1024x256 S4x256x256 S4x1024x256 [2] [2] [1] [1] [0] [0]
  dot_S4x1024x256_S4x256x256_S4x1024x256_2_1_1_2_0_0_wf : DotDims.WF S4x1024x256 S4x256x256 S4x1024x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S16384x256.size a
  hwx0_0 : ∀ i : grid0.Coords, EltTy.bits .f32 = 32 ∨ (Rect.block (s := S16384x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S16384x256.size a
  hwx0_2 : ∀ i : grid0.Coords, EltTy.bits .bf16 = 32 ∨ (Rect.block (s := S16384x256) S1024x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S16384x256.size a
  hwx1_0 : ∀ i : grid1.Coords, EltTy.bits .f32 = 32 ∨ (Rect.block (s := S16384x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S16384x256.size a
  hwx1_2 : ∀ i : grid1.Coords, EltTy.bits .bf16 = 32 ∨ (Rect.block (s := S16384x256) S1024x256.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S16384x256.size a
  hwx2_0 : ∀ i : grid2.Coords, EltTy.bits .f32 = 32 ∨ (Rect.block (s := S16384x256) S1024x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x256.size a ≤ S16384x256.size a
  hwx2_2 : ∀ i : grid2.Coords, EltTy.bits .bf16 = 32 ∨ (Rect.block (s := S16384x256) S1024x256.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4x1024x256.size a ≤ S4x4096x256.size a
  hwx3_0 : ∀ i : grid3.Coords, EltTy.bits .bf16 = 32 ∨ (Rect.block (s := S4x4096x256) S4x1024x256.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4x256x256.size a ≤ S4x4096x256.size a
  hwx3_1 : ∀ i : grid3.Coords, EltTy.bits .bf16 = 32 ∨ (Rect.block (s := S4x4096x256) S4x256x256.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4x256x256.size a ≤ S4x4096x256.size a
  hwx3_2 : ∀ i : grid3.Coords, EltTy.bits .bf16 = 32 ∨ (Rect.block (s := S4x4096x256) S4x256x256.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4x1024x256.size a ≤ S4x4096x256.size a
  hwx3_3 : ∀ i : grid3.Coords, EltTy.bits .f32 = 32 ∨ (Rect.block (s := S4x4096x256) S4x1024x256.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4x1024x1.size a ≤ S4x4096x1.size a
  hwx3_4 : ∀ i : grid3.Coords, EltTy.bits .f32 = 32 ∨ (Rect.block (s := S4x4096x1) S4x1024x1.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4x1024x256.size a ≤ S4x4096x256.size a
  hwx4_0 : ∀ i : grid4.Coords, EltTy.bits .bf16 = 32 ∨ (Rect.block (s := S4x4096x256) S4x1024x256.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4x256x256.size a ≤ S4x4096x256.size a
  hwx4_1 : ∀ i : grid4.Coords, EltTy.bits .bf16 = 32 ∨ (Rect.block (s := S4x4096x256) S4x256x256.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4x1024x1.size a ≤ S4x4096x1.size a
  hwx4_2 : ∀ i : grid4.Coords, EltTy.bits .f32 = 32 ∨ (Rect.block (s := S4x4096x1) S4x1024x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4x1024x256.size a ≤ S4x4096x4096.size a
  hwx4_3 : ∀ i : grid4.Coords, EltTy.bits .f32 = 32 ∨ (Rect.block (s := S4x4096x4096) S4x1024x256.size (cc4_transform_3 i) (hinb4_3 i)).WholeWords (EltTy.packing .f32)

variable [Facts₀]

def dot_S1024x256_S256x256_S1024x256_1_1_0_0_n_n : DotDims S1024x256 S256x256 S1024x256 where
  lhsContracting := [1]
  rhsContracting := [1]
  lhsNonContracting := [0]
  rhsNonContracting := [0]
  lhsBatch := []
  rhsBatch := []
  wf := dot_S1024x256_S256x256_S1024x256_1_1_0_0_n_n_wf
def dot_S4x1024x256_S4x256x256_S4x1024x256_2_2_1_1_0_0 : DotDims S4x1024x256 S4x256x256 S4x1024x256 where
  lhsContracting := [2]
  rhsContracting := [2]
  lhsNonContracting := [1]
  rhsNonContracting := [1]
  lhsBatch := [0]
  rhsBatch := [0]
  wf := dot_S4x1024x256_S4x256x256_S4x1024x256_2_2_1_1_0_0_wf
def dot_S4x1024x256_S4x256x256_S4x1024x256_2_1_1_2_0_0 : DotDims S4x1024x256 S4x256x256 S4x1024x256 where
  lhsContracting := [2]
  rhsContracting := [1]
  lhsNonContracting := [1]
  rhsNonContracting := [2]
  lhsBatch := [0]
  rhsBatch := [0]
  wf := dot_S4x1024x256_S4x256x256_S4x1024x256_2_1_1_2_0_0_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1024x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v6) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1024x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v2) S4x1024x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v5) S4x256x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v8) S4x256x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v9_0) S4x1024x256.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v9_1) S4x1024x1.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun i => !(k3_cond2 i == 1#1) | 4 => fun i => !(k3_cond2 i == 1#1) | ⟨_ + 5, h⟩ => absurd h (Nat.not_lt.2 (Nat.le_add_left _ _))

abbrev win4_0 : Pipeline.Window sig grid4 :=
  Pipeline.Window.ofSpec (Memref.whole main_v2) S4x1024x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v5) S4x256x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v9_1) S4x1024x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v10) S4x1024x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S4x4096x256 : Shape := ⟨3, ![4, 4096, 256]⟩
abbrev S256x256 : Shape := ⟨2, ![256, 256]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 28
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S4x4096x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S4x4096x256, .f32⟩
  | .hbm, ⟨7, _⟩ => ⟨S4x4096x256, .f32⟩
  | .hbm, ⟨8, _⟩ => ⟨S4x4096x256, .f32⟩
  | .hbm, ⟨9, _⟩ => ⟨S4x4096x4096, .f32⟩
  | .hbm, ⟨10, _⟩ => ⟨S_, .f32⟩
  | .hbm, ⟨11, _⟩ => ⟨S4x4096x4096, .f32⟩
  | .hbm, ⟨12, _⟩ => ⟨S4x4096x4096, .f32⟩
  | .hbm, ⟨13, _⟩ => ⟨S_, .f32⟩
  | .hbm, ⟨14, _⟩ => ⟨S4x4096, .f32⟩
  | .hbm, ⟨15, _⟩ => ⟨S_, .f32⟩
  | .hbm, ⟨16, _⟩ => ⟨S4x4096, .f32⟩
  | .hbm, ⟨17, _⟩ => ⟨S4x4096, .f32⟩
  | .hbm, ⟨18, _⟩ => ⟨S4x4096x1, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S4x4096x4096, .f32⟩
  | .hbm, ⟨26, _⟩ => ⟨S4x4096x4096, .f32⟩
  | .hbm, ⟨27, _⟩ => ⟨S4x4096x256, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x256_S256x256_S4x4096x256_2_1_01_0_n_n_wf : DotDims.WF S4x4096x256 S256x256 S4x4096x256 [2] [1] [0, 1] [0] [] []
  dot_S4x4096x256_S4x4096x256_S4x4096x4096_2_2_1_1_0_0_wf : DotDims.WF S4x4096x256 S4x4096x256 S4x4096x4096 [2] [2] [1] [1] [0] [0]
  dot_S4x4096x4096_S4x4096x256_S4x4096x256_2_1_1_2_0_0_wf : DotDims.WF S4x4096x4096 S4x4096x256 S4x4096x256 [2] [1] [1] [2] [0] [0]

variable [Facts₀]

def dot_S4x4096x256_S256x256_S4x4096x256_2_1_01_0_n_n : DotDims S4x4096x256 S256x256 S4x4096x256 where
  lhsContracting := [2]
  rhsContracting := [1]
  lhsNonContracting := [0, 1]
  rhsNonContracting := [0]
  lhsBatch := []
  rhsBatch := []
  wf := dot_S4x4096x256_S256x256_S4x4096x256_2_1_01_0_n_n_wf
def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf
def dot_S4x4096x4096_S4x4096x256_S4x4096x256_2_1_1_2_0_0 : DotDims S4x4096x4096 S4x4096x256 S4x4096x256 where
  lhsContracting := [2]
  rhsContracting := [1]
  lhsNonContracting := [1]
  rhsNonContracting := [2]
  lhsBatch := [0]
  rhsBatch := [0]
  wf := dot_S4x4096x4096_S4x4096x256_S4x4096x256_2_1_1_2_0_0_wf

class Facts : Prop extends Facts₀ where

variable [Facts]
-- ==== Proof.KB.Proj0.lean ====
import proofs.«161166_j30331059044530_2_alg».proof.Proof.Gen.Kernel.Launch
import proofs.«161166_j30331059044530_2_alg».proof.Proof.Gen.Kernel.Skeleton
import proofs.«161166_j30331059044530_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Linear projection 0: the per-region half of the frame

The region computes y = x Wᵀ block by block: at each of its 16 grid points it takes one block of 1024 rows
of the flattened input (window 0), the whole 256 × 256 weight (window 1, brought in once, at the first
point, and left in place afterwards) and writes the 1024 × 256 block of the product (window 2). The body
reads both inputs whole, reads its output buffer once (the value read is not used), and overwrites the
output buffer whole with the rounded product.

Everything here is stated at a parameter V, the contents of the core's buffers when the region is
entered, and for any float instance. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window's staging buffer holds its block at every point: for any proof data whose array is
    the region-entry one and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds the whole weight at every point, though it is brought in at the
    first point only: where it is not brought in, its block index has not moved and the body left it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer read or written whole -/

abbrev r0_0 : Rect S1024x256 := Rect.unit (s := S1024x256) ![0, 0] S1024x256.size inb_S1024x256_S1024x256_0_0
abbrev r0_1 : Rect S256x256 := Rect.unit (s := S256x256) ![0, 0] S256x256.size inb_S256x256_S256x256_0_0

/-! ## What the body leaves in the output window's buffer -/

/-- The output buffer after the body, from the two input blocks: one store of the whole buffer, whose value
    is the rounded product of the two blocks read whole. -/
def out0_2 (x0 : Vec F S1024x256 .f32) (x1 : Vec F S256x256 .f32) : Vec F S1024x256 .bf16 :=
  View.canon [⟨r0_0, k0_pay1 (View.ld x0 r0_0) (View.ld x1 r0_1)⟩]

/-- The one store covers the buffer. -/
theorem cover0_2 (p0 : Vec F S1024x256 .bf16) (y : S1024x256.Idx) :
    ∃ pc ∈ ([⟨r0_0, p0⟩] : List (View.Piece (Elt F) S1024x256 .bf16)), y ∈ pc.1.set :=
  View.cover_of_tiled [⟨r0_0, p0⟩] S1024x256.size (by rfl) y

/-! ## The body's triple -/

set_option maxHeartbeats 1000000 in
/-- The body on whole staging memrefs, the inputs' at contents x0, x1 and the output's at anything, runs to
    the continuation holding the inputs' as they were and the output's at out0_2 x0 x1. The read of the
    output buffer before the store sees whatever was there, and its value goes nowhere. -/
theorem sound_kernel0 (c : Dev nD) (E : Set ℕ) (i : grid0.Coords) (arg1 : Memref sig .tc .vmem S1024x256 .f32) (harg1 : arg1.IsWhole) (arg2 : Memref sig .tc .vmem S256x256 .f32) (harg2 : arg2.IsWhole) (arg3 : Memref sig .tc .vmem S1024x256 .bf16) (harg3 : arg3.IsWhole)
    (x0 : Vec F S1024x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this pipeline on core c: the arrays as the region finds them; after the body at point
    t each input's buffer at its block and the output's at out0_2 of the input blocks; the invariant that of
    a body that touches nothing but its windows; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant
    and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Proj1.lean ====
import proofs.«161166_j30331059044530_2_alg».proof.Proof.Gen.Kernel.Launch
import proofs.«161166_j30331059044530_2_alg».proof.Proof.Gen.Kernel.Skeleton
import proofs.«161166_j30331059044530_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Linear projection 1: the per-region half of the frame

The region computes y = x Wᵀ block by block: at each of its 16 grid points it takes one block of 1024 rows
of the flattened input (window 0), the whole 256 × 256 weight (window 1, brought in once, at the first
point, and left in place afterwards) and writes the 1024 × 256 block of the product (window 2). The body
reads both inputs whole, reads its output buffer once (the value read is not used), and overwrites the
output buffer whole with the rounded product.

Everything here is stated at a parameter V, the contents of the core's buffers when the region is
entered, and for any float instance. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block window's staging buffer holds its block at every point: for any proof data whose array is
    the region-entry one and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window's staging buffer holds the whole weight at every point, though it is brought in at the
    first point only: where it is not brought in, its block index has not moved and the body left it in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer read or written whole -/

abbrev r1_0 : Rect S1024x256 := Rect.unit (s := S1024x256) ![0, 0] S1024x256.size inb_S1024x256_S1024x256_0_0
abbrev r1_1 : Rect S256x256 := Rect.unit (s := S256x256) ![0, 0] S256x256.size inb_S256x256_S256x256_0_0

/-! ## What the body leaves in the output window's buffer -/

/-- The output buffer after the body, from the two input blocks: one store of the whole buffer, whose value
    is the rounded product of the two blocks read whole. -/
def out1_2 (x0 : Vec F S1024x256 .f32) (x1 : Vec F S256x256 .f32) : Vec F S1024x256 .bf16 :=
  View.canon [⟨r1_0, k1_pay1 (View.ld x0 r1_0) (View.ld x1 r1_1)⟩]

/-- The one store covers the buffer. -/
theorem cover1_2 (p0 : Vec F S1024x256 .bf16) (y : S1024x256.Idx) :
    ∃ pc ∈ ([⟨r1_0, p0⟩] : List (View.Piece (Elt F) S1024x256 .bf16)), y ∈ pc.1.set :=
  View.cover_of_tiled [⟨r1_0, p0⟩] S1024x256.size (by rfl) y

/-! ## The body's triple -/

set_option maxHeartbeats 1000000 in
/-- The body on whole staging memrefs, the inputs' at contents x0, x1 and the output's at anything, runs to
    the continuation holding the inputs' as they were and the output's at out1_2 x0 x1. The read of the
    output buffer before the store sees whatever was there, and its value goes nowhere. -/
theorem sound_kernel1 (c : Dev nD) (E : Set ℕ) (i : grid1.Coords) (arg1 : Memref sig .tc .vmem S1024x256 .f32) (harg1 : arg1.IsWhole) (arg2 : Memref sig .tc .vmem S256x256 .f32) (harg2 : arg2.IsWhole) (arg3 : Memref sig .tc .vmem S1024x256 .bf16) (harg3 : arg3.IsWhole)
    (x0 : Vec F S1024x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__proj_kernel i arg1 harg1 arg2 harg2 arg3 harg3) K := by
  simp only [cc1__proj_kernel_eq_skeleton]; unfold cc1__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of this pipeline on core c: the arrays as the region finds them; after the body at point
    t each input's buffer at its block and the output's at out1_2 of the input blocks; the invariant that of
    a body that touches nothing but its windows; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant
    and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Proj2.lean ====
import proofs.«161166_j30331059044530_2_alg».proof.Proof.Gen.Kernel.Launch
import proofs.«161166_j30331059044530_2_alg».proof.Proof.Gen.Kernel.Skeleton
import proofs.«161166_j30331059044530_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Linear projection 2: the per-region half of the frame

The region computes y = x Wᵀ block by block: at each of its 16 grid points it takes one block of 1024 rows
of the flattened input (window 0), the whole 256 × 256 weight (window 1, brought in once, at the first
point, and left in place afterwards) and writes the 1024 × 256 block of the product (window 2). The body
reads both inputs whole, reads its output buffer once (the value read is not used), and overwrites the
output buffer whole with the rounded product.

Everything here is stated at a parameter V, the contents of the core's buffers when the region is
entered, and for any float instance. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row-block window's staging buffer holds its block at every point: for any proof data whose array is
    the region-entry one and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight window's staging buffer holds the whole weight at every point, though it is brought in at the
    first point only: where it is not brought in, its block index has not moved and the body left it in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer read or written whole -/

abbrev r2_0 : Rect S1024x256 := Rect.unit (s := S1024x256) ![0, 0] S1024x256.size inb_S1024x256_S1024x256_0_0
abbrev r2_1 : Rect S256x256 := Rect.unit (s := S256x256) ![0, 0] S256x256.size inb_S256x256_S256x256_0_0

/-! ## What the body leaves in the output window's buffer -/

/-- The output buffer after the body, from the two input blocks: one store of the whole buffer, whose value
    is the rounded product of the two blocks read whole. -/
def out2_2 (x0 : Vec F S1024x256 .f32) (x1 : Vec F S256x256 .f32) : Vec F S1024x256 .bf16 :=
  View.canon [⟨r2_0, k2_pay1 (View.ld x0 r2_0) (View.ld x1 r2_1)⟩]

/-- The one store covers the buffer. -/
theorem cover2_2 (p0 : Vec F S1024x256 .bf16) (y : S1024x256.Idx) :
    ∃ pc ∈ ([⟨r2_0, p0⟩] : List (View.Piece (Elt F) S1024x256 .bf16)), y ∈ pc.1.set :=
  View.cover_of_tiled [⟨r2_0, p0⟩] S1024x256.size (by rfl) y

/-! ## The body's triple -/

set_option maxHeartbeats 1000000 in
/-- The body on whole staging memrefs, the inputs' at contents x0, x1 and the output's at anything, runs to
    the continuation holding the inputs' as they were and the output's at out2_2 x0 x1. The read of the
    output buffer before the store sees whatever was there, and its value goes nowhere. -/
theorem sound_kernel2 (c : Dev nD) (E : Set ℕ) (i : grid2.Coords) (arg1 : Memref sig .tc .vmem S1024x256 .f32) (harg1 : arg1.IsWhole) (arg2 : Memref sig .tc .vmem S256x256 .f32) (harg2 : arg2.IsWhole) (arg3 : Memref sig .tc .vmem S1024x256 .bf16) (harg3 : arg3.IsWhole)
    (x0 : Vec F S1024x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__proj_kernel i arg1 harg1 arg2 harg2 arg3 harg3) K := by
  simp only [cc2__proj_kernel_eq_skeleton]; unfold cc2__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of this pipeline on core c: the arrays as the region finds them; after the body at point
    t each input's buffer at its block and the output's at out2_2 of the input blocks; the invariant that of
    a body that touches nothing but its windows; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant
    and the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.FlashRuns.lean ====
/-
  The flash-attention pass (the fourth kernel region): what its runs are stated over.

  The grid has 4 query tiles of 1024 rows times 16 key tiles of 256 rows, point t = 16·qi + ki. The body keeps three
  scratch arrays between points — the running maximum m and normalizer l, one number per query row, and the running
  weighted sum acc, one row of 256 features per query row. At ki = 0 it resets them (m = −∞, l = 0, acc = 0); at every
  point it folds the key tile in; at ki = 15 it also writes the two results, acc / l and m + log l. So a point is in one
  of three cases: first of a row of tiles, middle, last.
-/
import proofs.«161166_j30331059044530_2_alg».proof.Proof.Gen.Kernel.Launch
import proofs.«161166_j30331059044530_2_alg».proof.Proof.Gen.Kernel.Skeleton
import proofs.«161166_j30331059044530_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's two conditions -/

/-- "This is the first key tile": the body's first branch, from the grid coordinates. -/
abbrev cond3_0 (i : grid3.Coords) : Prop := (Scalar.cmpi .ne (Scalar.extui (Scalar.cmpi .eq (BitVec.ofNat 32 (i 1).val) 0#32)) 0#32) = 1#1
/-- It holds at the points ≡ 0 (mod 16). -/
theorem hcond3_0 : ∀ t : Fin cfg3.N, cond3_0 (grid3.coords t) ↔ t.val % 16 = 0 :=
  (by decide +kernel : ∀ t : Fin grid3.N, cond3_0 (grid3.coords t) ↔ t.val % 16 = 0)

/-- "This is the last key tile": the body's second branch. -/
abbrev cond3_1 (i : grid3.Coords) : Prop := k3_cond2 i = 1#1
/-- It holds at the points ≡ 15 (mod 16). -/
theorem hcond3_1 : ∀ t : Fin cfg3.N, cond3_1 (grid3.coords t) ↔ t.val % 16 = 15 :=
  (by decide +kernel : ∀ t : Fin grid3.N, cond3_1 (grid3.coords t) ↔ t.val % 16 = 15)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Away from the last key tile the two result windows are idle and not written back. -/
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
/-- At the last key tile they are live. -/
theorem liveAt3_3 : ∀ t : Fin cfg3.N, cond3_1 (grid3.coords t) → cfg3.idle 3 (grid3.coords t) = false := by decide +kernel
theorem liveAt3_4 : ∀ t : Fin cfg3.N, cond3_1 (grid3.coords t) → cfg3.idle 4 (grid3.coords t) = false := by decide +kernel

/-! ## The memrefs the body is called with -/

abbrev ms3_0 (t : Fin cfg3.N) : Memref sig .tc .vmem S4x1024x256 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S4x256x256 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S4x256x256 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S4x1024x256 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S4x1024x1 .f32 := win3_4.stage (cfg3.slots t 4)
abbrev hs3_4 (t : Fin cfg3.N) : (ms3_4 t).IsWhole := hstage3_4 ((cfg3.slots t 4).cast nbuf3_4)
/-- The three scratch arrays: the running maximum, the running normalizer, the running weighted sum. -/
abbrev scM3_0 : Memref sig .tc .vmem S4x1024x1 .f32 := Memref.whole cc3_scratch0
abbrev scM3_1 : Memref sig .tc .vmem S4x1024x1 .f32 := Memref.whole cc3_scratch1
abbrev scM3_2 : Memref sig .tc .vmem S4x1024x256 .f32 := Memref.whole cc3_scratch2

/-- The class invariant with the three scratch arrays opened: each owned at some contents, beside the scoped buffers
    that belong to the other regions and the generator register. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d) ∗ (∃ d, owns (c : Thread nD τ) scM3_2 fullShare d))
          ∗ Pipeline.scopedRestBut (Ix := Unit) (Name := ℕ) (U := UR sig nD τ) (Lvl := ℕ) (Val := Elt F) spec3 c [cc3_scratch0, cc3_scratch1, cc3_scratch2]) ∗ (∃ r, prngReg c r)) := by
  unfold Pipeline.ΦA; rw [scopedRest3_split]; simp only [scM3_0, scM3_1, scM3_2, owns_whole]; try rfl

end Cert.Kernel.Hand

end
-- ==== Proof.KB.FlashRunB.lean ====
/-
  The flash-attention pass at a middle key tile (neither the first nor the last of its row of tiles): the three scratch
  arrays come in at what the point before left and go out with this tile folded in; the two result buffers are not touched.
-/
import proofs.«161166_j30331059044530_2_alg».proof.Proof.KB.FlashRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each scratch array, as pieces (last first), with the proof that from whole memrefs —
    the three input blocks at their contents, the two result buffers at any contents handed back untouched, the scratch
    arrays at the contents the point before left — the body runs to the continuation holding the inputs as they were and
    each scratch array with its pieces written. The pieces are found by the run. -/
noncomputable def kernelRun3_B (c : Dev nD) (i : grid3.Coords) (arg2 : Memref sig .tc .vmem S4x1024x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x1024x256 .f32) (harg5 : arg5.IsWhole) (arg6 : Memref sig .tc .vmem S4x1024x1 .f32) (harg6 : arg6.IsWhole) (arg7 : Memref sig .tc .vmem S4x1024x1 .f32) (harg7 : arg7.IsWhole) (arg8 : Memref sig .tc .vmem S4x1024x1 .f32) (harg8 : arg8.IsWhole) (arg9 : Memref sig .tc .vmem S4x1024x256 .f32) (harg9 : arg9.IsWhole) (hc0 : ¬cond3_0 i) (hc1 : ¬cond3_1 i)
    (x0 : Vec F S4x1024x256 .bf16) (x1 x2 : Vec F S4x256x256 .bf16) (xs0 xs1 : Vec F S4x1024x1 .f32) (xs2 : Vec F S4x1024x256 .f32) :
    Σ' (LS0 : List (View.Piece (Elt F) S4x1024x1 .f32)) (LS1 : List (View.Piece (Elt F) S4x1024x1 .f32)), { LS2 : List (View.Piece (Elt F) S4x1024x256 .f32) //
      ∀ (xi5 : Vec F S4x1024x256 .f32) (xi6 : Vec F S4x1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi5 ∗ owns (c : Thread nD τ) arg6 fullShare xi6
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi5 ∗ owns (c : Thread nD τ) arg6 fullShare xi6
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc3__flash_fwd_kernel i arg2 harg2 arg3 harg3 arg4 harg4 arg5 harg5 arg6 harg6 arg7 harg7 arg8 harg8 arg9 harg9) K } := by
  refine ⟨?_, ?_, ?_, fun xi5 xi6 E K => ?run⟩
  case run =>
    simp only [cc3__flash_fwd_kernel_eq_skeleton]; unfold cc3__flash_fwd_kernel_skel
    simp only [k3_part1_eq_skeleton]
    unfold owns
    iintro ⟨⟨%f0, %hf0, H0⟩, ⟨%f1, %hf1, H1⟩, ⟨%f2, %hf2, H2⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf5; obtain rfl := harg6.eq_unread hf6
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; isplitr; · ipureintro; exact harg5.read_unread _
      iexact H5
    isplitl [H6]
    · iexists _; isplitr; · ipureintro; exact harg6.read_unread _
      iexact H6
    isplitl [HS0]; · iexists _; iexact HS0
    isplitl [HS1]; · iexists _; iexact HS1
    iexists _; iexact HS2

end Cert.Kernel.Hand

end
-- ==== Proof.KB.FlashRunA.lean ====
/-
  The flash-attention pass at the first key tile of a row of tiles: the three scratch arrays come in at anything, are
  reset (maximum −∞, normalizer 0, weighted sum 0) and go out with this tile folded in; the two result buffers are not touched.
-/
import proofs.«161166_j30331059044530_2_alg».proof.Proof.KB.FlashRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each scratch array at a first key tile, as pieces (last first), with the run. -/
noncomputable def kernelRun3_A (c : Dev nD) (i : grid3.Coords) (arg2 : Memref sig .tc .vmem S4x1024x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x1024x256 .f32) (harg5 : arg5.IsWhole) (arg6 : Memref sig .tc .vmem S4x1024x1 .f32) (harg6 : arg6.IsWhole) (arg7 : Memref sig .tc .vmem S4x1024x1 .f32) (harg7 : arg7.IsWhole) (arg8 : Memref sig .tc .vmem S4x1024x1 .f32) (harg8 : arg8.IsWhole) (arg9 : Memref sig .tc .vmem S4x1024x256 .f32) (harg9 : arg9.IsWhole) (hc0 : cond3_0 i) (hc1 : ¬cond3_1 i)
    (x0 : Vec F S4x1024x256 .bf16) (x1 x2 : Vec F S4x256x256 .bf16) :
    Σ' (LS0 : List (View.Piece (Elt F) S4x1024x1 .f32)) (LS1 : List (View.Piece (Elt F) S4x1024x1 .f32)), { LS2 : List (View.Piece (Elt F) S4x1024x256 .f32) //
      ∀ (xi5 : Vec F S4x1024x256 .f32) (xi6 : Vec F S4x1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi5 ∗ owns (c : Thread nD τ) arg6 fullShare xi6
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi5 ∗ owns (c : Thread nD τ) arg6 fullShare xi6
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc3__flash_fwd_kernel i arg2 harg2 arg3 harg3 arg4 harg4 arg5 harg5 arg6 harg6 arg7 harg7 arg8 harg8 arg9 harg9) K } := by
  refine ⟨?_, ?_, ?_, fun xi5 xi6 E K => ?run⟩
  case run =>
    simp only [cc3__flash_fwd_kernel_eq_skeleton]; unfold cc3__flash_fwd_kernel_skel
    simp only [k3_part1_eq_skeleton]
    unfold owns
    iintro ⟨⟨%f0, %hf0, H0⟩, ⟨%f1, %hf1, H1⟩, ⟨%f2, %hf2, H2⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    obtain rfl := harg5.eq_unread hf5; obtain rfl := harg6.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; isplitr; · ipureintro; exact harg5.read_unread _
      iexact H5
    isplitl [H6]
    · iexists _; isplitr; · ipureintro; exact harg6.read_unread _
      iexact H6
    isplitl [HS0]; · iexists _; iexact HS0
    isplitl [HS1]; · iexists _; iexact HS1
    iexists _; iexact HS2

end Cert.Kernel.Hand

end
-- ==== Proof.KB.FlashRunC.lean ====
/-
  The flash-attention pass at the last key tile of a row of tiles: the three scratch arrays come in at what the point
  before left and go out with this tile folded in, and the two result buffers, at anything before, are stored whole:
  the weighted sum over the normalizer, and the maximum plus the normalizer's logarithm.
-/
import proofs.«161166_j30331059044530_2_alg».proof.Proof.KB.FlashRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the two result buffers and each scratch array at a last key tile, as pieces (last
    first), with the run. -/
noncomputable def kernelRun3_C (c : Dev nD) (i : grid3.Coords) (arg2 : Memref sig .tc .vmem S4x1024x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x1024x256 .f32) (harg5 : arg5.IsWhole) (arg6 : Memref sig .tc .vmem S4x1024x1 .f32) (harg6 : arg6.IsWhole) (arg7 : Memref sig .tc .vmem S4x1024x1 .f32) (harg7 : arg7.IsWhole) (arg8 : Memref sig .tc .vmem S4x1024x1 .f32) (harg8 : arg8.IsWhole) (arg9 : Memref sig .tc .vmem S4x1024x256 .f32) (harg9 : arg9.IsWhole) (hc0 : ¬cond3_0 i) (hc1 : cond3_1 i)
    (x0 : Vec F S4x1024x256 .bf16) (x1 x2 : Vec F S4x256x256 .bf16) (xs0 xs1 : Vec F S4x1024x1 .f32) (xs2 : Vec F S4x1024x256 .f32) :
    Σ' (L5 : List (View.Piece (Elt F) S4x1024x256 .f32)) (L6 : List (View.Piece (Elt F) S4x1024x1 .f32)) (LS0 : List (View.Piece (Elt F) S4x1024x1 .f32)) (LS1 : List (View.Piece (Elt F) S4x1024x1 .f32)), { LS2 : List (View.Piece (Elt F) S4x1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc3__flash_fwd_kernel i arg2 harg2 arg3 harg3 arg4 harg4 arg5 harg5 arg6 harg6 arg7 harg7 arg8 harg8 arg9 harg9) K } := by
  refine ⟨?_, ?_, ?_, ?_, ?_, fun E K => ?run⟩
  case run =>
    simp only [cc3__flash_fwd_kernel_eq_skeleton]; unfold cc3__flash_fwd_kernel_skel
    simp only [k3_part1_eq_skeleton]
    unfold owns
    iintro ⟨⟨%f0, %hf0, H0⟩, ⟨%f1, %hf1, H1⟩, ⟨%f2, %hf2, H2⟩, ⟨%d5, %f5, -, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]; · iexists _; iexact H5
    isplitl [H6]; · iexists _; iexact H6
    isplitl [HS0]; · iexists _; iexact HS0
    isplitl [HS1]; · iexists _; iexact HS1
    iexists _; iexact HS2

end Cert.Kernel.Hand

end
-- ==== Proof.KB.Flash.lean ====
/-
  The flash-attention pass: what the three scratch arrays and the two result buffers hold after each grid point, the
  proof data built on it, and the body obligation.

  After point n the scratch arrays hold a state (m, l, acc). At the first key tile of a row of tiles the state is the
  first-tile run's; elsewhere it is the middle or last-tile run's over the state the point before left. The result
  buffers are stored at last key tiles only, from that point's state; elsewhere they are idle and nothing consults them.
-/
import proofs.«161166_j30331059044530_2_alg».proof.Proof.KB.FlashRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The state the scratch arrays carry: running maximum, running normalizer, running weighted sum. -/
abbrev St3 (F : FTy → Type) [FloatOps F] : Type := Vec F S4x1024x1 .f32 × Vec F S4x1024x1 .f32 × Vec F S4x1024x256 .f32

/-! ## The three runs at a grid point -/

abbrev runA (c : Dev nD) (t : Fin cfg3.N) (h0 : t.val % 16 = 0) (h1 : ¬t.val % 16 = 15) :=
  kernelRun3_A (F := F) c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t)
abbrev runB (c : Dev nD) (t : Fin cfg3.N) (h0 : ¬t.val % 16 = 0) (h1 : ¬t.val % 16 = 15) (s : St3 F) :=
  kernelRun3_B (F := F) c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) s.1 s.2.1 s.2.2
abbrev runC (c : Dev nD) (t : Fin cfg3.N) (h0 : ¬t.val % 16 = 0) (h1 : t.val % 16 = 15) (s : St3 F) :=
  kernelRun3_C (F := F) c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) s.1 s.2.1 s.2.2

/-- The state each run leaves: its pieces for the three scratch arrays, read as whole arrays. -/
def stOfA (c : Dev nD) (t : Fin cfg3.N) (h0 : t.val % 16 = 0) (h1 : ¬t.val % 16 = 15) : St3 F :=
  (View.canon (runA V c t h0 h1).1, View.canon (runA V c t h0 h1).2.1, View.canon (runA V c t h0 h1).2.2.1)
def stOfB (c : Dev nD) (t : Fin cfg3.N) (h0 : ¬t.val % 16 = 0) (h1 : ¬t.val % 16 = 15) (s : St3 F) : St3 F :=
  (View.canon (runB V c t h0 h1 s).1, View.canon (runB V c t h0 h1 s).2.1, View.canon (runB V c t h0 h1 s).2.2.1)
def stOfC (c : Dev nD) (t : Fin cfg3.N) (h0 : ¬t.val % 16 = 0) (h1 : t.val % 16 = 15) (s : St3 F) : St3 F :=
  (View.canon (runC V c t h0 h1 s).2.2.1, View.canon (runC V c t h0 h1 s).2.2.2.1, View.canon (runC V c t h0 h1 s).2.2.2.2.1)
/-- What a last-tile run leaves in the two result buffers. -/
def outOfC (c : Dev nD) (t : Fin cfg3.N) (h0 : ¬t.val % 16 = 0) (h1 : t.val % 16 = 15) (s : St3 F) : Vec F S4x1024x256 .f32 × Vec F S4x1024x1 .f32 :=
  (View.canon (runC V c t h0 h1 s).1, View.canon (runC V c t h0 h1 s).2.1)

/-! ## Every run's pieces cover their buffer (each list ends with a whole-buffer store) -/

theorem coverA_0 (c : Dev nD) (t : Fin cfg3.N) (h0 h1) (y : S4x1024x1.Idx) : ∃ pc ∈ (runA V c t h0 h1).1, y ∈ pc.1.set :=
  View.cover_of_tiledL _ S4x1024x1.size (by sl_kernel_rfl) y
theorem coverA_1 (c : Dev nD) (t : Fin cfg3.N) (h0 h1) (y : S4x1024x1.Idx) : ∃ pc ∈ (runA V c t h0 h1).2.1, y ∈ pc.1.set :=
  View.cover_of_tiledL _ S4x1024x1.size (by sl_kernel_rfl) y
theorem coverA_2 (c : Dev nD) (t : Fin cfg3.N) (h0 h1) (y : S4x1024x256.Idx) : ∃ pc ∈ (runA V c t h0 h1).2.2.1, y ∈ pc.1.set :=
  View.cover_of_tiledL _ S4x1024x256.size (by sl_kernel_rfl) y
theorem coverB_0 (c : Dev nD) (t : Fin cfg3.N) (h0 h1) (s : St3 F) (y : S4x1024x1.Idx) : ∃ pc ∈ (runB V c t h0 h1 s).1, y ∈ pc.1.set :=
  View.cover_of_tiledL _ S4x1024x1.size (by sl_kernel_rfl) y
theorem coverB_1 (c : Dev nD) (t : Fin cfg3.N) (h0 h1) (s : St3 F) (y : S4x1024x1.Idx) : ∃ pc ∈ (runB V c t h0 h1 s).2.1, y ∈ pc.1.set :=
  View.cover_of_tiledL _ S4x1024x1.size (by sl_kernel_rfl) y
theorem coverB_2 (c : Dev nD) (t : Fin cfg3.N) (h0 h1) (s : St3 F) (y : S4x1024x256.Idx) : ∃ pc ∈ (runB V c t h0 h1 s).2.2.1, y ∈ pc.1.set :=
  View.cover_of_tiledL _ S4x1024x256.size (by sl_kernel_rfl) y
theorem coverC_o (c : Dev nD) (t : Fin cfg3.N) (h0 h1) (s : St3 F) (y : S4x1024x256.Idx) : ∃ pc ∈ (runC V c t h0 h1 s).1, y ∈ pc.1.set :=
  View.cover_of_tiledL _ S4x1024x256.size (by sl_kernel_rfl) y
theorem coverC_e (c : Dev nD) (t : Fin cfg3.N) (h0 h1) (s : St3 F) (y : S4x1024x1.Idx) : ∃ pc ∈ (runC V c t h0 h1 s).2.1, y ∈ pc.1.set :=
  View.cover_of_tiledL _ S4x1024x1.size (by sl_kernel_rfl) y
theorem coverC_0 (c : Dev nD) (t : Fin cfg3.N) (h0 h1) (s : St3 F) (y : S4x1024x1.Idx) : ∃ pc ∈ (runC V c t h0 h1 s).2.2.1, y ∈ pc.1.set :=
  View.cover_of_tiledL _ S4x1024x1.size (by sl_kernel_rfl) y
theorem coverC_1 (c : Dev nD) (t : Fin cfg3.N) (h0 h1) (s : St3 F) (y : S4x1024x1.Idx) : ∃ pc ∈ (runC V c t h0 h1 s).2.2.2.1, y ∈ pc.1.set :=
  View.cover_of_tiledL _ S4x1024x1.size (by sl_kernel_rfl) y
theorem coverC_2 (c : Dev nD) (t : Fin cfg3.N) (h0 h1) (s : St3 F) (y : S4x1024x256.Idx) : ∃ pc ∈ (runC V c t h0 h1 s).2.2.2.2.1, y ∈ pc.1.set :=
  View.cover_of_tiledL _ S4x1024x256.size (by sl_kernel_rfl) y

/-! ## The state point by point -/

/-- The scratch arrays' contents after the body at position n. -/
def stAt3 (c : Dev nD) : (n : ℕ) → n < cfg3.N → St3 F
  | 0, hn => stOfA V c ⟨0, hn⟩ (Nat.zero_mod _) (by show ¬(0 : ℕ) % 16 = 15; decide)
  | n + 1, hn =>
    if h0 : (n + 1) % 16 = 0 then stOfA V c ⟨n + 1, hn⟩ h0 (by show ¬(n + 1) % 16 = 15; omega)
    else if h1 : (n + 1) % 16 = 15 then stOfC V c ⟨n + 1, hn⟩ h0 h1 (stAt3 c n (Nat.lt_of_succ_lt hn))
    else stOfB V c ⟨n + 1, hn⟩ h0 h1 (stAt3 c n (Nat.lt_of_succ_lt hn))

theorem stAt3_A (c : Dev nD) (t : Fin cfg3.N) (h0 : t.val % 16 = 0) (h1 : ¬t.val % 16 = 15) :
    stAt3 V c t.val t.isLt = stOfA V c t h0 h1 := by
  obtain ⟨n, hn⟩ := t
  cases n with
  | zero => exact rfl
  | succ n => exact (dif_pos h0).trans rfl

theorem stAt3_B (c : Dev nD) (t : Fin cfg3.N) (h0 : ¬t.val % 16 = 0) (h1 : ¬t.val % 16 = 15) :
    stAt3 V c t.val t.isLt = stOfB V c t h0 h1 (stAt3 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem stAt3_C (c : Dev nD) (t : Fin cfg3.N) (h0 : ¬t.val % 16 = 0) (h1 : t.val % 16 = 15) :
    stAt3 V c t.val t.isLt = stOfC V c t h0 h1 (stAt3 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The two result buffers after the body at position n: stored at last key tiles; elsewhere a placeholder nothing consults. -/
def oAt3 (c : Dev nD) (n : ℕ) (hn : n < cfg3.N) : Vec F S4x1024x256 .f32 × Vec F S4x1024x1 .f32 :=
  if h1 : n % 16 = 15 then outOfC V c ⟨n, hn⟩ (by show ¬n % 16 = 0; omega) h1 (stAt3 V c (n - 1) (Nat.lt_of_le_of_lt (Nat.sub_le _ _) hn))
  else (View.canon [], View.canon [])

theorem oAt3_C (c : Dev nD) (t : Fin cfg3.N) (h0 : ¬t.val % 16 = 0) (h1 : t.val % 16 = 15) :
    oAt3 V c t.val t.isLt = outOfC V c t h0 h1 (stAt3 V c (t.val - 1) (Nat.lt_of_le_of_lt (Nat.sub_le _ _) t.isLt)) := by
  unfold oAt3; exact (dif_pos h1).trans rfl

/-! ## The invariant -/

/-- Before position n: at the start the class's invariant (every scratch array at anything); afterwards the three scratch
    arrays at the state the point before left, beside the other regions' scoped buffers and the generator register. -/
def PhiS3 (c : Dev nD) : (n : ℕ) → n ≤ cfg3.N → sProp 𝕄
  | 0, _ => Pipeline.ΦA spec3 c
  | n + 1, hn => iprop(iprop(iprop(owns (c : Thread nD τ) scM3_0 fullShare (stAt3 V c n hn).1 ∗ owns (c : Thread nD τ) scM3_1 fullShare (stAt3 V c n hn).2.1 ∗ owns (c : Thread nD τ) scM3_2 fullShare (stAt3 V c n hn).2.2)
      ∗ Pipeline.scopedRestBut (Ix := Unit) (Name := ℕ) (U := UR sig nD τ) (Lvl := ℕ) (Val := Elt F) spec3 c [cc3_scratch0, cc3_scratch1, cc3_scratch2]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare (stAt3 V c n hn).1 ∗ owns (c : Thread nD τ) scM3_1 fullShare (stAt3 V c n hn).2.1 ∗ owns (c : Thread nD τ) scM3_2 fullShare (stAt3 V c n hn).2.2)
      ∗ Pipeline.scopedRestBut (Ix := Unit) (Name := ℕ) (U := UR sig nD τ) (Lvl := ℕ) (Val := Elt F) spec3 c [cc3_scratch0, cc3_scratch1, cc3_scratch2]) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare (stAt3 V c (n - 1) (by omega)).1 ∗ owns (c : Thread nD τ) scM3_1 fullShare (stAt3 V c (n - 1) (by omega)).2.1 ∗ owns (c : Thread nD τ) scM3_2 fullShare (stAt3 V c (n - 1) (by omega)).2.2)
      ∗ Pipeline.scopedRestBut (Ix := Unit) (Name := ℕ) (U := UR sig nD τ) (Lvl := ℕ) (Val := Elt F) spec3 c [cc3_scratch0, cc3_scratch1, cc3_scratch2]) ∗ (∃ r, prngReg c r)) := by
  cases n with
  | zero => exact absurd rfl hz
  | succ n => rfl

/-! ## The proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (oAt3 V c t.val t.isLt).1
    | ⟨4, _⟩ => (oAt3 V c t.val t.isLt).2
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (oAt3 V c t.val t.isLt).1 := by dsimp only [dat3]
theorem after3_4 (c : Dev nD) (t : Fin cfg3.N) : (dat3 V c).after 4 t = (oAt3 V c t.val t.isLt).2 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

end Cert.Kernel.Hand

end
-- ==== Proof.KB.AttnMat.lean ====
/- The attention-matrix kernel (the program's fifth TensorCore region) at a PARAMETER V, the TensorCore's buffer
   contents when the region is entered: each window's block at a point, what the body leaves in the output window's
   buffer as a function of the three input blocks, the body's triple, the proof data and the body obligation.
   Stated at any float instance. -/
import proofs.«161166_j30331059044530_2_alg».proof.Proof.Gen.Kernel.Launch
import proofs.«161166_j30331059044530_2_alg».proof.Proof.Gen.Kernel.Skeleton
import proofs.«161166_j30331059044530_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The query window's current staging buffer holds its block at every point, fetched there or not: where it is
    not fetched its block index has not moved since the point before. For any proof data whose array is V's and
    whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The same for the key window (fetched at every point). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- The same for the log-sum-exp window (fetched where the query window is). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer whole -/

abbrev r4_0 : Rect S4x1024x256 := Rect.unit (s := S4x1024x256) ![0, 0, 0] S4x1024x256.size inb_S4x1024x256_S4x1024x256_0_0_0
abbrev r4_1 : Rect S4x256x256 := Rect.unit (s := S4x256x256) ![0, 0, 0] S4x256x256.size inb_S4x256x256_S4x256x256_0_0_0
abbrev r4_2 : Rect S4x1024x1 := Rect.unit (s := S4x1024x1) ![0, 0, 0] S4x1024x1.size inb_S4x1024x1_S4x1024x1_0_0_0

/-! ## What the body leaves in the output window's buffer -/

/-- The output window's staging buffer after the body, from the three input blocks: its one store, of the whole
    buffer, of the payload exp (q · kᵀ · 2⁻⁴ − lse) computed from the three loaded blocks. -/
def out4_3 (x0 : Vec F S4x1024x256 .bf16) (x1 : Vec F S4x256x256 .bf16) (x2 : Vec F S4x1024x1 .f32) : Vec F S4x1024x256 .f32 :=
  View.canon [⟨r4_0, k4_pay1 (View.ld x0 r4_0) (View.ld x1 r4_1) (View.ld x2 r4_2)⟩]

/-- The one store covers the buffer. -/
theorem cover4_3 (p0 : Vec F S4x1024x256 .f32) (y : S4x1024x256.Idx) :
    ∃ pc ∈ ([⟨r4_0, p0⟩] : List (View.Piece (Elt F) S4x1024x256 .f32)), y ∈ pc.1.set :=
  View.cover_of_tiled [⟨r4_0, p0⟩] S4x1024x256.size (by rfl) y

/-! ## The body's triple -/

set_option maxHeartbeats 1000000 in
/-- The kernel body on whole staging memrefs, the inputs' at contents x0, x1, x2 and the output's at anything (which
    the body loads once, unused, before it stores), runs to the continuation holding the inputs' as they were and the
    output's at out4_3 of the inputs'. -/
theorem sound_kernel4 (c : Dev nD) (E : Set ℕ) (i : grid4.Coords)
    (arg2 : Memref sig .tc .vmem S4x1024x256 .bf16) (harg2 : arg2.IsWhole) (arg3 : Memref sig .tc .vmem S4x256x256 .bf16) (harg3 : arg3.IsWhole)
    (arg4 : Memref sig .tc .vmem S4x1024x1 .f32) (harg4 : arg4.IsWhole) (arg5 : Memref sig .tc .vmem S4x1024x256 .f32) (harg5 : arg5.IsWhole)
    (x0 : Vec F S4x1024x256 .bf16) (x1 : Vec F S4x256x256 .bf16) (x2 : Vec F S4x1024x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out4_3 x0 x1 x2)) -∗ K ⟨⟩))
      ⊢ wp frame (wpE (defs₀ (F := F)) Variants.none c none) E (cc4__attn_matrix_kernel i arg2 harg2 arg3 harg3 arg4 harg4 arg5 harg5) K := by
  simp only [cc4__attn_matrix_kernel_eq_skeleton]; unfold cc4__attn_matrix_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of this pipeline on core c: the arrays as the region finds them; after the body at point t each
    input's buffer at its block and the output's at out4_3 of the three input blocks; the invariant the scoped rest
    and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the body's triple applies; the invariant and
    the core's debt pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KB.RunData.lean ====
/-
  The kernel program's run, first half: what the TensorCore's buffers hold at every boundary between two pieces of the
  program, and the data every region's segment is stated over.

  The program is a stretch of host operations (a reshape), the first projection, a stretch (two reshapes), the second
  projection, a stretch (two reshapes), the third projection, a stretch (a reshape), the flash-attention pass and the
  attention-matrix pass, the last two with nothing between them. The contents are a fold from the launch memory: a
  stretch rewrites the buffers its operations write; a region leaves its input arrays as entered, its output arrays at
  what the pipeline's write-backs leave, and every other buffer as entered. Each region's proof data are taken at the
  contents the fold has when the region is entered. No piece writes an argument array, so the fold read at an argument
  walks back to the launch memory.

  Stated for any float instance.
-/
import proofs.«161166_j30331059044530_2_alg».proof.Proof.KB.Proj0
import proofs.«161166_j30331059044530_2_alg».proof.Proof.KB.Proj1
import proofs.«161166_j30331059044530_2_alg».proof.Proof.KB.Proj2
import proofs.«161166_j30331059044530_2_alg».proof.Proof.KB.Flash
import proofs.«161166_j30331059044530_2_alg».proof.Proof.KB.AttnMat
import proofs.«161166_j30331059044530_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary: a fold through the program -/

/-- Core c's buffers at launch. -/
abbrev Wk0 : Dev nD → Valuation τ sig (Elt F) := fun c b => (s₀ m ρ).mem ((c : Dev nD), b)

/-- After the host operations before the first projection (its entry). -/
abbrev Wk1 : Dev nD → Valuation τ sig (Elt F) := fun c => StableHlo.after hostOps0 (Wk0 m ρ c)
/-- The same read at the TensorCore's references: what the region's proof data take. -/
abbrev Vk1 : (c : Dev nD) → (b : Ref sig .tc) → Buf (Elt F) ((c : Thread nD τ).loc b) := fun c b => Wk1 m ρ c b
/-- At the exit of the first projection: its arrays at what the pipeline leaves (an input as entered, an output with its
    write-backs folded in), every other buffer as entered. -/
def Wk2 (c : Dev nD) : Valuation τ sig (Elt F) :=
  Pipeline.withArrays spec0 c (Wk1 m ρ c) fun w => (dat0 (Vk1 m ρ) c).arrAt w cfg0.N
theorem Wk2_arr (c : Dev nD) (w : Fin cfg0.W) :
    Wk2 m ρ c (Proc.devRef .tc (Pipeline.arrRef spec0 w)) = (dat0 (Vk1 m ρ) c).arrAt w cfg0.N := by
  unfold Wk2; exact Pipeline.withArrays_arr spec0 launch0.win.arr_inj c _ _ w
theorem Wk2_of_ne (c : Dev nD) (b : Ref sig .tc) (hb : ∀ w, Pipeline.arrRef spec0 w ≠ b) :
    Wk2 m ρ c (Proc.devRef .tc b) = Wk1 m ρ c (Proc.devRef .tc b) := by
  unfold Wk2; exact Pipeline.withArrays_of_ne spec0 c _ _ b hb
/-- The same read at the TensorCore's references. -/
abbrev Vk2 : (c : Dev nD) → (b : Ref sig .tc) → Buf (Elt F) ((c : Thread nD τ).loc b) := fun c b => Wk2 m ρ c b
/-- At the exit each of the region's arrays holds what the pipeline leaves, and every other buffer what it held at entry. -/
theorem hF0 (c : Dev nD) (w : Fin cfg0.W) : (dat0 (Vk1 m ρ) c).arrAt w cfg0.N = Vk2 m ρ c (Pipeline.arrRef spec0 w) :=
  (Wk2_arr m ρ c w).symm
theorem hrest0 (c : Dev nD) : ∀ b, b ∉ Finset.univ.image (Pipeline.arrRef spec0) → Vk2 m ρ c b = Vk1 m ρ c b :=
  fun b hb => Wk2_of_ne m ρ c b fun w e => hb (Finset.mem_image.mpr ⟨w, Finset.mem_univ _, e⟩)

/-- After the host operations before the second projection (its entry). -/
abbrev Wk3 : Dev nD → Valuation τ sig (Elt F) := fun c => StableHlo.after hostOps1 (Wk2 m ρ c)
/-- The same read at the TensorCore's references: what the region's proof data take. -/
abbrev Vk3 : (c : Dev nD) → (b : Ref sig .tc) → Buf (Elt F) ((c : Thread nD τ).loc b) := fun c b => Wk3 m ρ c b
/-- At the exit of the second projection: its arrays at what the pipeline leaves (an input as entered, an output with its
    write-backs folded in), every other buffer as entered. -/
def Wk4 (c : Dev nD) : Valuation τ sig (Elt F) :=
  Pipeline.withArrays spec1 c (Wk3 m ρ c) fun w => (dat1 (Vk3 m ρ) c).arrAt w cfg1.N
theorem Wk4_arr (c : Dev nD) (w : Fin cfg1.W) :
    Wk4 m ρ c (Proc.devRef .tc (Pipeline.arrRef spec1 w)) = (dat1 (Vk3 m ρ) c).arrAt w cfg1.N := by
  unfold Wk4; exact Pipeline.withArrays_arr spec1 launch1.win.arr_inj c _ _ w
theorem Wk4_of_ne (c : Dev nD) (b : Ref sig .tc) (hb : ∀ w, Pipeline.arrRef spec1 w ≠ b) :
    Wk4 m ρ c (Proc.devRef .tc b) = Wk3 m ρ c (Proc.devRef .tc b) := by
  unfold Wk4; exact Pipeline.withArrays_of_ne spec1 c _ _ b hb
/-- The same read at the TensorCore's references. -/
abbrev Vk4 : (c : Dev nD) → (b : Ref sig .tc) → Buf (Elt F) ((c : Thread nD τ).loc b) := fun c b => Wk4 m ρ c b
/-- At the exit each of the region's arrays holds what the pipeline leaves, and every other buffer what it held at entry. -/
theorem hF1 (c : Dev nD) (w : Fin cfg1.W) : (dat1 (Vk3 m ρ) c).arrAt w cfg1.N = Vk4 m ρ c (Pipeline.arrRef spec1 w) :=
  (Wk4_arr m ρ c w).symm
theorem hrest1 (c : Dev nD) : ∀ b, b ∉ Finset.univ.image (Pipeline.arrRef spec1) → Vk4 m ρ c b = Vk3 m ρ c b :=
  fun b hb => Wk4_of_ne m ρ c b fun w e => hb (Finset.mem_image.mpr ⟨w, Finset.mem_univ _, e⟩)

/-- After the host operations before the third projection (its entry). -/
abbrev Wk5 : Dev nD → Valuation τ sig (Elt F) := fun c => StableHlo.after hostOps2 (Wk4 m ρ c)
/-- The same read at the TensorCore's references: what the region's proof data take. -/
abbrev Vk5 : (c : Dev nD) → (b : Ref sig .tc) → Buf (Elt F) ((c : Thread nD τ).loc b) := fun c b => Wk5 m ρ c b
/-- At the exit of the third projection: its arrays at what the pipeline leaves (an input as entered, an output with its
    write-backs folded in), every other buffer as entered. -/
def Wk6 (c : Dev nD) : Valuation τ sig (Elt F) :=
  Pipeline.withArrays spec2 c (Wk5 m ρ c) fun w => (dat2 (Vk5 m ρ) c).arrAt w cfg2.N
theorem Wk6_arr (c : Dev nD) (w : Fin cfg2.W) :
    Wk6 m ρ c (Proc.devRef .tc (Pipeline.arrRef spec2 w)) = (dat2 (Vk5 m ρ) c).arrAt w cfg2.N := by
  unfold Wk6; exact Pipeline.withArrays_arr spec2 launch2.win.arr_inj c _ _ w
theorem Wk6_of_ne (c : Dev nD) (b : Ref sig .tc) (hb : ∀ w, Pipeline.arrRef spec2 w ≠ b) :
    Wk6 m ρ c (Proc.devRef .tc b) = Wk5 m ρ c (Proc.devRef .tc b) := by
  unfold Wk6; exact Pipeline.withArrays_of_ne spec2 c _ _ b hb
/-- The same read at the TensorCore's references. -/
abbrev Vk6 : (c : Dev nD) → (b : Ref sig .tc) → Buf (Elt F) ((c : Thread nD τ).loc b) := fun c b => Wk6 m ρ c b
/-- At the exit each of the region's arrays holds what the pipeline leaves, and every other buffer what it held at entry. -/
theorem hF2 (c : Dev nD) (w : Fin cfg2.W) : (dat2 (Vk5 m ρ) c).arrAt w cfg2.N = Vk6 m ρ c (Pipeline.arrRef spec2 w) :=
  (Wk6_arr m ρ c w).symm
theorem hrest2 (c : Dev nD) : ∀ b, b ∉ Finset.univ.image (Pipeline.arrRef spec2) → Vk6 m ρ c b = Vk5 m ρ c b :=
  fun b hb => Wk6_of_ne m ρ c b fun w e => hb (Finset.mem_image.mpr ⟨w, Finset.mem_univ _, e⟩)

/-- After the host operations before the flash-attention pass (its entry). -/
abbrev Wk7 : Dev nD → Valuation τ sig (Elt F) := fun c => StableHlo.after hostOps3 (Wk6 m ρ c)
/-- The same read at the TensorCore's references: what the region's proof data take. -/
abbrev Vk7 : (c : Dev nD) → (b : Ref sig .tc) → Buf (Elt F) ((c : Thread nD τ).loc b) := fun c b => Wk7 m ρ c b
/-- At the exit of the flash-attention pass: its arrays at what the pipeline leaves (an input as entered, an output with its
    write-backs folded in), every other buffer as entered. -/
def Wk8 (c : Dev nD) : Valuation τ sig (Elt F) :=
  Pipeline.withArrays spec3 c (Wk7 m ρ c) fun w => (dat3 (Vk7 m ρ) c).arrAt w cfg3.N
theorem Wk8_arr (c : Dev nD) (w : Fin cfg3.W) :
    Wk8 m ρ c (Proc.devRef .tc (Pipeline.arrRef spec3 w)) = (dat3 (Vk7 m ρ) c).arrAt w cfg3.N := by
  unfold Wk8; exact Pipeline.withArrays_arr spec3 launch3.win.arr_inj c _ _ w
theorem Wk8_of_ne (c : Dev nD) (b : Ref sig .tc) (hb : ∀ w, Pipeline.arrRef spec3 w ≠ b) :
    Wk8 m ρ c (Proc.devRef .tc b) = Wk7 m ρ c (Proc.devRef .tc b) := by
  unfold Wk8; exact Pipeline.withArrays_of_ne spec3 c _ _ b hb
/-- The same read at the TensorCore's references. -/
abbrev Vk8 : (c : Dev nD) → (b : Ref sig .tc) → Buf (Elt F) ((c : Thread nD τ).loc b) := fun c b => Wk8 m ρ c b
/-- At the exit each of the region's arrays holds what the pipeline leaves, and every other buffer what it held at entry. -/
theorem hF3 (c : Dev nD) (w : Fin cfg3.W) : (dat3 (Vk7 m ρ) c).arrAt w cfg3.N = Vk8 m ρ c (Pipeline.arrRef spec3 w) :=
  (Wk8_arr m ρ c w).symm
theorem hrest3 (c : Dev nD) : ∀ b, b ∉ Finset.univ.image (Pipeline.arrRef spec3) → Vk8 m ρ c b = Vk7 m ρ c b :=
  fun b hb => Wk8_of_ne m ρ c b fun w e => hb (Finset.mem_image.mpr ⟨w, Finset.mem_univ _, e⟩)
/-- At the exit of the attention-matrix pass: its arrays at what the pipeline leaves (an input as entered, an output with its
    write-backs folded in), every other buffer as entered. -/
def Wk9 (c : Dev nD) : Valuation τ sig (Elt F) :=
  Pipeline.withArrays spec4 c (Wk8 m ρ c) fun w => (dat4 (Vk8 m ρ) c).arrAt w cfg4.N
theorem Wk9_arr (c : Dev nD) (w : Fin cfg4.W) :
    Wk9 m ρ c (Proc.devRef .tc (Pipeline.arrRef spec4 w)) = (dat4 (Vk8 m ρ) c).arrAt w cfg4.N := by
  unfold Wk9; exact Pipeline.withArrays_arr spec4 launch4.win.arr_inj c _ _ w
theorem Wk9_of_ne (c : Dev nD) (b : Ref sig .tc) (hb : ∀ w, Pipeline.arrRef spec4 w ≠ b) :
    Wk9 m ρ c (Proc.devRef .tc b) = Wk8 m ρ c (Proc.devRef .tc b) := by
  unfold Wk9; exact Pipeline.withArrays_of_ne spec4 c _ _ b hb
/-- The same read at the TensorCore's references. -/
abbrev Vk9 : (c : Dev nD) → (b : Ref sig .tc) → Buf (Elt F) ((c : Thread nD τ).loc b) := fun c b => Wk9 m ρ c b
/-- At the exit each of the region's arrays holds what the pipeline leaves, and every other buffer what it held at entry. -/
theorem hF4 (c : Dev nD) (w : Fin cfg4.W) : (dat4 (Vk8 m ρ) c).arrAt w cfg4.N = Vk9 m ρ c (Pipeline.arrRef spec4 w) :=
  (Wk9_arr m ρ c w).symm
theorem hrest4 (c : Dev nD) : ∀ b, b ∉ Finset.univ.image (Pipeline.arrRef spec4) → Vk9 m ρ c b = Vk8 m ρ c b :=
  fun b hb => Wk9_of_ne m ρ c b fun w e => hb (Finset.mem_image.mpr ⟨w, Finset.mem_univ _, e⟩)

/-! ### The arguments end as launched

No host operation writes an argument, and a region either bypasses it or reads it through an input window, so the
fold at an argument's buffer walks back to the launch memory. -/

theorem Wk9_main_arg0 (c : Dev nD) : Wk9 m ρ c (Proc.devRef .tc main_arg0) = m ((c : Thread nD τ).loc main_arg0) :=
  calc Wk9 m ρ c (Proc.devRef .tc main_arg0)
    _ = Wk8 m ρ c (Proc.devRef .tc main_arg0) := Wk9_of_ne m ρ c main_arg0 (by decide)
    _ = Wk7 m ρ c (Proc.devRef .tc main_arg0) := Wk8_of_ne m ρ c main_arg0 (by decide)
    _ = Wk6 m ρ c (Proc.devRef .tc main_arg0) := StableHlo.after_of_writes_sub hostOps3 _ hostOps3_writes (by decide)
    _ = Wk5 m ρ c (Proc.devRef .tc main_arg0) := Wk6_of_ne m ρ c main_arg0 (by decide)
    _ = Wk4 m ρ c (Proc.devRef .tc main_arg0) := StableHlo.after_of_writes_sub hostOps2 _ hostOps2_writes (by decide)
    _ = Wk3 m ρ c (Proc.devRef .tc main_arg0) := Wk4_of_ne m ρ c main_arg0 (by decide)
    _ = Wk2 m ρ c (Proc.devRef .tc main_arg0) := StableHlo.after_of_writes_sub hostOps1 _ hostOps1_writes (by decide)
    _ = Wk1 m ρ c (Proc.devRef .tc main_arg0) := Wk2_of_ne m ρ c main_arg0 (by decide)
    _ = Wk0 m ρ c (Proc.devRef .tc main_arg0) := StableHlo.after_of_writes_sub hostOps0 _ hostOps0_writes (by decide)
    _ = m ((c : Thread nD τ).loc main_arg0) := rfl

theorem Wk9_main_arg1 (c : Dev nD) : Wk9 m ρ c (Proc.devRef .tc main_arg1) = m ((c : Thread nD τ).loc main_arg1) :=
  calc Wk9 m ρ c (Proc.devRef .tc main_arg1)
    _ = Wk8 m ρ c (Proc.devRef .tc main_arg1) := Wk9_of_ne m ρ c main_arg1 (by decide)
    _ = Wk7 m ρ c (Proc.devRef .tc main_arg1) := Wk8_of_ne m ρ c main_arg1 (by decide)
    _ = Wk6 m ρ c (Proc.devRef .tc main_arg1) := StableHlo.after_of_writes_sub hostOps3 _ hostOps3_writes (by decide)
    _ = Wk5 m ρ c (Proc.devRef .tc main_arg1) := Wk6_of_ne m ρ c main_arg1 (by decide)
    _ = Wk4 m ρ c (Proc.devRef .tc main_arg1) := StableHlo.after_of_writes_sub hostOps2 _ hostOps2_writes (by decide)
    _ = Wk3 m ρ c (Proc.devRef .tc main_arg1) := Wk4_of_ne m ρ c main_arg1 (by decide)
    _ = Wk2 m ρ c (Proc.devRef .tc main_arg1) := StableHlo.after_of_writes_sub hostOps1 _ hostOps1_writes (by decide)
    _ = Wk1 m ρ c (Proc.devRef .tc main_arg1) := Wk2_of_ne m ρ c main_arg1 (by decide)
    _ = Wk0 m ρ c (Proc.devRef .tc main_arg1) := StableHlo.after_of_writes_sub hostOps0 _ hostOps0_writes (by decide)
    _ = m ((c : Thread nD τ).loc main_arg1) := rfl

theorem Wk9_main_arg2 (c : Dev nD) : Wk9 m ρ c (Proc.devRef .tc main_arg2) = m ((c : Thread nD τ).loc main_arg2) :=
  calc Wk9 m ρ c (Proc.devRef .tc main_arg2)
    _ = Wk8 m ρ c (Proc.devRef .tc main_arg2) := Wk9_of_ne m ρ c main_arg2 (by decide)
    _ = Wk7 m ρ c (Proc.devRef .tc main_arg2) := Wk8_of_ne m ρ c main_arg2 (by decide)
    _ = Wk6 m ρ c (Proc.devRef .tc main_arg2) := StableHlo.after_of_writes_sub hostOps3 _ hostOps3_writes (by decide)
    _ = Wk5 m ρ c (Proc.devRef .tc main_arg2) := Wk6_of_ne m ρ c main_arg2 (by decide)
    _ = Wk4 m ρ c (Proc.devRef .tc main_arg2) := StableHlo.after_of_writes_sub hostOps2 _ hostOps2_writes (by decide)
    _ = Wk3 m ρ c (Proc.devRef .tc main_arg2) := Wk4_of_ne m ρ c main_arg2 (by decide)
    _ = Wk2 m ρ c (Proc.devRef .tc main_arg2) := StableHlo.after_of_writes_sub hostOps1 _ hostOps1_writes (by decide)
    _ = Wk1 m ρ c (Proc.devRef .tc main_arg2) := Wk2_of_ne m ρ c main_arg2 (by decide)
    _ = Wk0 m ρ c (Proc.devRef .tc main_arg2) := StableHlo.after_of_writes_sub hostOps0 _ hostOps0_writes (by decide)
    _ = m ((c : Thread nD τ).loc main_arg2) := rfl

theorem Wk9_main_arg3 (c : Dev nD) : Wk9 m ρ c (Proc.devRef .tc main_arg3) = m ((c : Thread nD τ).loc main_arg3) :=
  calc Wk9 m ρ c (Proc.devRef .tc main_arg3)
    _ = Wk8 m ρ c (Proc.devRef .tc main_arg3) := Wk9_of_ne m ρ c main_arg3 (by decide)
    _ = Wk7 m ρ c (Proc.devRef .tc main_arg3) := Wk8_of_ne m ρ c main_arg3 (by decide)
    _ = Wk6 m ρ c (Proc.devRef .tc main_arg3) := StableHlo.after_of_writes_sub hostOps3 _ hostOps3_writes (by decide)
    _ = Wk5 m ρ c (Proc.devRef .tc main_arg3) := Wk6_of_ne m ρ c main_arg3 (by decide)
    _ = Wk4 m ρ c (Proc.devRef .tc main_arg3) := StableHlo.after_of_writes_sub hostOps2 _ hostOps2_writes (by decide)
    _ = Wk3 m ρ c (Proc.devRef .tc main_arg3) := Wk4_of_ne m ρ c main_arg3 (by decide)
    _ = Wk2 m ρ c (Proc.devRef .tc main_arg3) := StableHlo.after_of_writes_sub hostOps1 _ hostOps1_writes (by decide)
    _ = Wk1 m ρ c (Proc.devRef .tc main_arg3) := (Wk2_arr m ρ c 1).trans (((dat0 (Vk1 m ρ) c).arrAt_in 1 rfl _).trans (A_eq0 (Vk1 m ρ) c 1))
    _ = Wk0 m ρ c (Proc.devRef .tc main_arg3) := StableHlo.after_of_writes_sub hostOps0 _ hostOps0_writes (by decide)
    _ = m ((c : Thread nD τ).loc main_arg3) := rfl

theorem Wk9_main_arg4 (c : Dev nD) : Wk9 m ρ c (Proc.devRef .tc main_arg4) = m ((c : Thread nD τ).loc main_arg4) :=
  calc Wk9 m ρ c (Proc.devRef .tc main_arg4)
    _ = Wk8 m ρ c (Proc.devRef .tc main_arg4) := Wk9_of_ne m ρ c main_arg4 (by decide)
    _ = Wk7 m ρ c (Proc.devRef .tc main_arg4) := Wk8_of_ne m ρ c main_arg4 (by decide)
    _ = Wk6 m ρ c (Proc.devRef .tc main_arg4) := StableHlo.after_of_writes_sub hostOps3 _ hostOps3_writes (by decide)
    _ = Wk5 m ρ c (Proc.devRef .tc main_arg4) := Wk6_of_ne m ρ c main_arg4 (by decide)
    _ = Wk4 m ρ c (Proc.devRef .tc main_arg4) := StableHlo.after_of_writes_sub hostOps2 _ hostOps2_writes (by decide)
    _ = Wk3 m ρ c (Proc.devRef .tc main_arg4) := (Wk4_arr m ρ c 1).trans (((dat1 (Vk3 m ρ) c).arrAt_in 1 rfl _).trans (A_eq1 (Vk3 m ρ) c 1))
    _ = Wk2 m ρ c (Proc.devRef .tc main_arg4) := StableHlo.after_of_writes_sub hostOps1 _ hostOps1_writes (by decide)
    _ = Wk1 m ρ c (Proc.devRef .tc main_arg4) := Wk2_of_ne m ρ c main_arg4 (by decide)
    _ = Wk0 m ρ c (Proc.devRef .tc main_arg4) := StableHlo.after_of_writes_sub hostOps0 _ hostOps0_writes (by decide)
    _ = m ((c : Thread nD τ).loc main_arg4) := rfl

theorem Wk9_main_arg5 (c : Dev nD) : Wk9 m ρ c (Proc.devRef .tc main_arg5) = m ((c : Thread nD τ).loc main_arg5) :=
  calc Wk9 m ρ c (Proc.devRef .tc main_arg5)
    _ = Wk8 m ρ c (Proc.devRef .tc main_arg5) := Wk9_of_ne m ρ c main_arg5 (by decide)
    _ = Wk7 m ρ c (Proc.devRef .tc main_arg5) := Wk8_of_ne m ρ c main_arg5 (by decide)
    _ = Wk6 m ρ c (Proc.devRef .tc main_arg5) := StableHlo.after_of_writes_sub hostOps3 _ hostOps3_writes (by decide)
    _ = Wk5 m ρ c (Proc.devRef .tc main_arg5) := (Wk6_arr m ρ c 1).trans (((dat2 (Vk5 m ρ) c).arrAt_in 1 rfl _).trans (A_eq2 (Vk5 m ρ) c 1))
    _ = Wk4 m ρ c (Proc.devRef .tc main_arg5) := StableHlo.after_of_writes_sub hostOps2 _ hostOps2_writes (by decide)
    _ = Wk3 m ρ c (Proc.devRef .tc main_arg5) := Wk4_of_ne m ρ c main_arg5 (by decide)
    _ = Wk2 m ρ c (Proc.devRef .tc main_arg5) := StableHlo.after_of_writes_sub hostOps1 _ hostOps1_writes (by decide)
    _ = Wk1 m ρ c (Proc.devRef .tc main_arg5) := Wk2_of_ne m ρ c main_arg5 (by decide)
    _ = Wk0 m ρ c (Proc.devRef .tc main_arg5) := StableHlo.after_of_writes_sub hostOps0 _ hostOps0_writes (by decide)
    _ = m ((c : Thread nD τ).loc main_arg5) := rfl

/-! ## The proof data family and the thread state -/

/-- Every pipeline's proof data, each at its region's entry contents: a literal match, so that the configuration
    pinned at a numeral reduces to the printed one. -/
def pdats : (p : Fin 5) → (c : Dev nD) → Dat τ (Elt F) Unit ℕ (UR sig nD τ) ℕ (Pipeline.pin (pcfgs (F := F)) adm p) c
  | ⟨0, _⟩ => fun c => dat0 (Vk1 m ρ) c
  | ⟨1, _⟩ => fun c => dat1 (Vk3 m ρ) c
  | ⟨2, _⟩ => fun c => dat2 (Vk5 m ρ) c
  | ⟨3, _⟩ => fun c => dat3 (Vk7 m ρ) c
  | ⟨4, _⟩ => fun c => dat4 (Vk8 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debts, none. -/
abbrev R (c : Dev nD) : sProp 𝕄 := iprop((∃ r, prngReg c r) ∗ ∃ W, owes (c : Thread nD τ) (0 : CellTallies nD τ sig Unit) W)
/-- A stretch of host operations as a segment: over the unscoped references from the contents W, R riding along;
    it ends at those references at the contents after the operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (Wk9 m ρ c) ∗ ∃ r, prngReg c r)

end Cert.Kernel.Hand

end
-- ==== Proof.KB.FlashBody.lean ====
/-
  The flash-attention pass: the body obligation at every grid point, by the point's case, and the invariant's two ends.
-/
import proofs.«161166_j30331059044530_2_alg».proof.Proof.KB.Flash

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t
    ∗ (dat3 V c).leavesExact 3 t ∗ (dat3 V c).leavesExact 4 t)

set_option maxHeartbeats 4800000 in
/-- The body at any point. The input buffers hold their blocks; the point's residue mod 16 says which case it is in;
    the invariant hands the body the scratch arrays at the state the point before left (at anything before the first
    point) and takes them back at this point's state; away from last key tiles the result buffers go back untouched, at
    a last key tile they come back stored whole; nothing is owed throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 64 := lt_of_lt_of_eq t.isLt (show cfg3.N = 64 from N_3)
  rw [show (dat3 V c).leavesExact 0 t = owns (c : Thread nD τ) (ms3_0 t) fullShare ((dat3 V c).after 0 t) from by
      unfold Dat.leavesExact; rw [liveAt3_0 t], after3_0]
  rw [show (dat3 V c).leavesExact 1 t = owns (c : Thread nD τ) (ms3_1 t) fullShare ((dat3 V c).after 1 t) from by
      unfold Dat.leavesExact; rw [liveAt3_1 t], after3_1]
  rw [show (dat3 V c).leavesExact 2 t = owns (c : Thread nD τ) (ms3_2 t) fullShare ((dat3 V c).after 2 t) from by
      unfold Dat.leavesExact; rw [liveAt3_2 t], after3_2]
  by_cases h0 : t.val % 16 = 0
  · have h1 : ¬t.val % 16 = 15 := by omega
    have hn1 : ¬cond3_1 (grid3.coords t) := fun h => h1 ((hcond3_1 t).mp h)
    rw [Dat.leavesExact_idle (dat3 V c) 3 t (idleAt3_3 t hn1) (noFlush3_3 t hn1)]
    rw [Dat.leavesExact_idle (dat3 V c) 4 t (idleAt3_4 t hn1) (noFlush3_4 t hn1)]
    rw [stAt3_A V c t h0 h1]
    unfold stOfA; (try dsimp only)
    by_cases hz : t.val = 0
    · rw [PhiS3_castSucc V c t, PhiS3_zero V c _ _ hz, PhiA3_eq]
      iintro ⟨⟨⟨⟨HS0, HS1, HS2⟩, Hrest⟩, Hg⟩, Ho, ⟨%d0, H0⟩, ⟨%d1, H1⟩, ⟨%d2, H2⟩, ⟨%d3, H3⟩, ⟨%d4, H4⟩⟩
      iapply ((runA V c t h0 h1).2.2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%e0, HS0⟩, ⟨%e1, HS1⟩, ⟨%e2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_eq_canon _ _ _ (coverA_0 V c t h0 h1)
            isplitl [HS1]
            · unfold owns; iexists _; isplitr
              swap; · iexact HS1
              ipureintro; exact View.read_writes_eq_canon _ _ _ (coverA_1 V c t h0 h1)
            unfold owns; iexists _; isplitr
            swap; · iexact HS2
            ipureintro; exact View.read_writes_eq_canon _ _ _ (coverA_2 V c t h0 h1)
          iexact Hrest
        iexact Hg
      isplitl [Ho]; · iexact Ho
      isplitl [H0]; · iexact H0
      isplitl [H1]; · iexact H1
      isplitl [H2]; · iexact H2
      isplitl [H3]; · iexists _; iexact H3
      iexists _; iexact H4
    · rw [PhiS3_castSucc V c t, PhiS3_pos V c _ _ hz]
      iintro ⟨⟨⟨⟨HS0, HS1, HS2⟩, Hrest⟩, Hg⟩, Ho, ⟨%d0, H0⟩, ⟨%d1, H1⟩, ⟨%d2, H2⟩, ⟨%d3, H3⟩, ⟨%d4, H4⟩⟩
      iapply ((runA V c t h0 h1).2.2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%e0, HS0⟩, ⟨%e1, HS1⟩, ⟨%e2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_eq_canon _ _ _ (coverA_0 V c t h0 h1)
            isplitl [HS1]
            · unfold owns; iexists _; isplitr
              swap; · iexact HS1
              ipureintro; exact View.read_writes_eq_canon _ _ _ (coverA_1 V c t h0 h1)
            unfold owns; iexists _; isplitr
            swap; · iexact HS2
            ipureintro; exact View.read_writes_eq_canon _ _ _ (coverA_2 V c t h0 h1)
          iexact Hrest
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    by_cases h1 : t.val % 16 = 15
    · have hc1 : cond3_1 (grid3.coords t) := (hcond3_1 t).mpr h1
      rw [show (dat3 V c).leavesExact 3 t = owns (c : Thread nD τ) (ms3_3 t) fullShare ((dat3 V c).after 3 t) from by
        unfold Dat.leavesExact; rw [liveAt3_3 t hc1], after3_3]
      rw [show (dat3 V c).leavesExact 4 t = owns (c : Thread nD τ) (ms3_4 t) fullShare ((dat3 V c).after 4 t) from by
        unfold Dat.leavesExact; rw [liveAt3_4 t hc1], after3_4]
      rw [stAt3_C V c t h0 h1, oAt3_C V c t h0 h1]
      unfold stOfC outOfC; (try dsimp only)
      rw [PhiS3_castSucc V c t, PhiS3_pos V c _ _ hz]
      iintro ⟨⟨⟨⟨HS0, HS1, HS2⟩, Hrest⟩, Hg⟩, Ho, ⟨%d0, H0⟩, ⟨%d1, H1⟩, ⟨%d2, H2⟩, ⟨%d3, H3⟩, ⟨%d4, H4⟩⟩
      iapply ((runC V c t h0 h1 _).2.2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      isplitl [HS2]; · iexact HS2
      iintro ⟨H0, H1, H2, ⟨%e3, H3⟩, ⟨%e4, H4⟩, ⟨%e0, HS0⟩, ⟨%e1, HS1⟩, ⟨%e2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_eq_canon _ _ _ (coverC_0 V c t h0 h1 _)
            isplitl [HS1]
            · unfold owns; iexists _; isplitr
              swap; · iexact HS1
              ipureintro; exact View.read_writes_eq_canon _ _ _ (coverC_1 V c t h0 h1 _)
            unfold owns; iexists _; isplitr
            swap; · iexact HS2
            ipureintro; exact View.read_writes_eq_canon _ _ _ (coverC_2 V c t h0 h1 _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_eq_canon _ _ _ (coverC_o V c t h0 h1 _)
      unfold owns; iexists _; isplitr
      swap; · iexact H4
      ipureintro; exact View.read_writes_eq_canon _ _ _ (coverC_e V c t h0 h1 _)
    · have hn1 : ¬cond3_1 (grid3.coords t) := fun h => h1 ((hcond3_1 t).mp h)
      rw [Dat.leavesExact_idle (dat3 V c) 3 t (idleAt3_3 t hn1) (noFlush3_3 t hn1)]
      rw [Dat.leavesExact_idle (dat3 V c) 4 t (idleAt3_4 t hn1) (noFlush3_4 t hn1)]
      rw [stAt3_B V c t h0 h1]
      unfold stOfB; (try dsimp only)
      rw [PhiS3_castSucc V c t, PhiS3_pos V c _ _ hz]
      iintro ⟨⟨⟨⟨HS0, HS1, HS2⟩, Hrest⟩, Hg⟩, Ho, ⟨%d0, H0⟩, ⟨%d1, H1⟩, ⟨%d2, H2⟩, ⟨%d3, H3⟩, ⟨%d4, H4⟩⟩
      iapply ((runB V c t h0 h1 _).2.2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%e0, HS0⟩, ⟨%e1, HS1⟩, ⟨%e2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_eq_canon _ _ _ (coverB_0 V c t h0 h1 _)
            isplitl [HS1]
            · unfold owns; iexists _; isplitr
              swap; · iexact HS1
              ipureintro; exact View.read_writes_eq_canon _ _ _ (coverB_1 V c t h0 h1 _)
            unfold owns; iexists _; isplitr
            swap; · iexact HS2
            ipureintro; exact View.read_writes_eq_canon _ _ _ (coverB_2 V c t h0 h1 _)
          iexact Hrest
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the region is entered with is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the class's back: the scratch arrays' named contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 64 := N_3; omega), PhiA3_eq]
  iintro ⟨⟨⟨HS0, HS1, HS2⟩, Hrest⟩, Hg⟩
  isplitl [HS0 HS1 HS2 Hrest]
  · isplitl [HS0 HS1 HS2]
    · isplitl [HS0]; · iexists _; iexact HS0
      isplitl [HS1]; · iexists _; iexact HS1
      iexists _; iexact HS2
    iexact Hrest
  iexact Hg

end Cert.Kernel.Hand

end
-- ==== Proof.KB.Run.lean ====
/-
  The kernel program's run, second half: each kernel region as a segment over the thread state "every unscoped buffer
  at the boundary's contents, the generator register at some state, nothing owed", the program as the list of its nine
  segments, and the launch: every weakly fair execution terminates with every unscoped buffer at the fold's last
  valuation, hence with the argument arrays as launched.

  Four of the regions keep one invariant at every grid point (the scoped rest and the generator register, untouched). The
  flash-attention pass carries scratch arrays from point to point, so its invariant at the first and at the last point
  is joined to that one by two entailments instead of an equation.

  Stated for any float instance.
-/
import proofs.«161166_j30331059044530_2_alg».proof.Proof.KB.RunData
import proofs.«161166_j30331059044530_2_alg».proof.Proof.KB.FlashBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The flash-attention pass's invariant at its first and last points -/

/-- The fourth pipeline's proof data are the flash-attention pass's, at the contents the fold has before it. -/
theorem pdats_flash (c : Dev nD) : pdats m ρ 3 c = dat3 (Vk7 m ρ) c := rfl

/-- At the first point: the generator register and the scoped buffers no window stages make the invariant (the
    prefetched tables, of which there are none, are dropped). -/
theorem hin_flash (c : Dev nD) (P : sProp 𝕄) :
    iprop((∃ r, prngReg c r) ∗ P ∗ Pipeline.scopedRest (Pipeline.pin (pcfgs (F := F)) adm 3).spec c) ⊢ (pdats m ρ 3 c).Φ 0 := by
  refine BIBase.Entails.trans ?_ (show (Pipeline.ΦA spec3 c : sProp 𝕄) ⊢ (pdats m ρ 3 c).Φ 0 from hin3 (Vk7 m ρ) c)
  unfold Pipeline.ΦA
  iintro ⟨Hp, -, Hr⟩
  isplitl [Hr]; · iexact Hr
  iexact Hp

/-- At the last point the invariant gives the generator register and those scoped buffers back. The point is kept a
    variable until it is named, so that the invariant there is never opened. -/
theorem hout_flash (c : Dev nD) :
    (pdats m ρ 3 c).Φ (Fin.last (Pipeline.pin (pcfgs (F := F)) adm 3).N)
      ⊢ iprop((∃ r, prngReg c r) ∗ (BI.emp : sProp 𝕄) ∗ Pipeline.scopedRest (Pipeline.pin (pcfgs (F := F)) adm 3).spec c) := by
  have key : ∀ i : Fin (cfg3.N + 1), i = Fin.last cfg3.N → ((dat3 (Vk7 m ρ) c).Φ i ⊢ (Pipeline.ΦA spec3 c : sProp 𝕄)) := by
    intro i hi; subst hi; exact hout3 (Vk7 m ρ) c
  rw [pdats_flash m ρ c]
  refine BIBase.Entails.trans (key _ rfl) ?_
  unfold Pipeline.ΦA
  iintro ⟨Hr, Hp⟩
  isplitl [Hp]; · iexact Hp
  isplitr; · iempintro
  iexact Hr

/-! ## The regions as segments -/

-- a library lemma stated over a pinned configuration unifies with the printed one only when unification may unfold
-- plain definitions in a metavariable's type
set_option backward.isDefEq.respectTransparency.types false in
/-- The first projection over the thread state: entered from every unscoped buffer at the contents before it, left at the
    contents after it. Its arrays are split out of the unscoped buffers at entry and put back at the exit contents; the
    generator register goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vk1 m ρ) c).loose
  hwaits := Pipeline.hwaits_of_owed_zero _ _ _ _ L lv 0 fun _ _ => rfl
  pre c := iprop(StableHlo.held (c : Thread nD τ) (Pipeline.ucRefs τ sig) (Wk1 m ρ c) ∗ R c)
  post c := iprop(StableHlo.held (c : Thread nD τ) (Pipeline.ucRefs τ sig) (Wk2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vk1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vk1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vk1 m ρ c) (Vk2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may unfold
-- plain definitions in a metavariable's type
set_option backward.isDefEq.respectTransparency.types false in
/-- The second projection over the thread state: entered from every unscoped buffer at the contents before it, left at the
    contents after it. Its arrays are split out of the unscoped buffers at entry and put back at the exit contents; the
    generator register goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vk3 m ρ) c).loose
  hwaits := Pipeline.hwaits_of_owed_zero _ _ _ _ L lv 1 fun _ _ => rfl
  pre c := iprop(StableHlo.held (c : Thread nD τ) (Pipeline.ucRefs τ sig) (Wk3 m ρ c) ∗ R c)
  post c := iprop(StableHlo.held (c : Thread nD τ) (Pipeline.ucRefs τ sig) (Wk4 m ρ c) ∗ R c)
  X c := iprop(∃ r, prngReg c r)
  Y c := iprop(∃ r, prngReg c r)
  Z c := Pipeline.unscopedRest (Ix := Unit) (Name := ℕ) (U := UR sig nD τ) (Lvl := ℕ) spec1 c (Vk3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vk3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vk3 m ρ c) (Vk4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may unfold
-- plain definitions in a metavariable's type
set_option backward.isDefEq.respectTransparency.types false in
/-- The third projection over the thread state: entered from every unscoped buffer at the contents before it, left at the
    contents after it. Its arrays are split out of the unscoped buffers at entry and put back at the exit contents; the
    generator register goes into the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vk5 m ρ) c).loose
  hwaits := Pipeline.hwaits_of_owed_zero _ _ _ _ L lv 2 fun _ _ => rfl
  pre c := iprop(StableHlo.held (c : Thread nD τ) (Pipeline.ucRefs τ sig) (Wk5 m ρ c) ∗ R c)
  post c := iprop(StableHlo.held (c : Thread nD τ) (Pipeline.ucRefs τ sig) (Wk6 m ρ c) ∗ R c)
  X c := iprop(∃ r, prngReg c r)
  Y c := iprop(∃ r, prngReg c r)
  Z c := Pipeline.unscopedRest (Ix := Unit) (Name := ℕ) (U := UR sig nD τ) (Lvl := ℕ) spec2 c (Vk5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vk5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vk5 m ρ c) (Vk6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may unfold
-- plain definitions in a metavariable's type
set_option backward.isDefEq.respectTransparency.types false in
/-- The flash-attention pass over the thread state: entered from every unscoped buffer at the contents before it, left at the
    contents after it. Its arrays are split out of the unscoped buffers at entry and put back at the exit contents; the
    generator register goes into the region's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vk7 m ρ) c).loose
  hwaits := Pipeline.hwaits_of_owed_zero _ _ _ _ L lv 3 fun _ _ => rfl
  pre c := iprop(StableHlo.held (c : Thread nD τ) (Pipeline.ucRefs τ sig) (Wk7 m ρ c) ∗ R c)
  post c := iprop(StableHlo.held (c : Thread nD τ) (Pipeline.ucRefs τ sig) (Wk8 m ρ c) ∗ R c)
  X c := iprop(∃ r, prngReg c r)
  Y c := iprop(∃ r, prngReg c r)
  Z c := Pipeline.unscopedRest (Ix := Unit) (Name := ℕ) (U := UR sig nD τ) (Lvl := ℕ) spec3 c (Vk7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vk7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin_flash m ρ c _
  hout c := by
    rw [Pipeline.ownSems0_none]
    exact hout_flash m ρ c
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vk7 m ρ c) (Vk8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may unfold
-- plain definitions in a metavariable's type
set_option backward.isDefEq.respectTransparency.types false in
/-- The attention-matrix pass over the thread state: entered from every unscoped buffer at the contents before it, left at the
    contents after it. Its arrays are split out of the unscoped buffers at entry and put back at the exit contents; the
    generator register goes into the region's invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vk8 m ρ) c).loose
  hwaits := Pipeline.hwaits_of_owed_zero _ _ _ _ L lv 4 fun _ _ => rfl
  pre c := iprop(StableHlo.held (c : Thread nD τ) (Pipeline.ucRefs τ sig) (Wk8 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (Vk8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (Vk8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (Vk8 m ρ c) (Vk9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's nine segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (Wk0 m ρ)),
    .region (reg0 m ρ),
    .host (hseg hostOps1 hostOps1_sub hostOps1_fresh (Wk2 m ρ)),
    .region (reg1 m ρ),
    .host (hseg hostOps2 hostOps2_sub hostOps2_fresh (Wk4 m ρ)),
    .region (reg2 m ρ),
    .host (hseg hostOps3 hostOps3_sub hostOps3_fresh (Wk6 m ρ)),
    .region (reg3 m ρ),
    .region (reg4 m ρ) ]
/-- The program is the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- From any memory with zero counters, every weakly fair execution of the program on the TensorCores terminates, nothing
    faulting, and in every final state each unscoped buffer holds what the fold's last valuation says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wk9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wk0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wk0 m ρ c)
        from Pipeline.unscopedBufs_held c (Wk0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wk9 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wk9 m ρ c) s')
      isplitl [Hh] <;> iassumption)
    (hQ := fun s h => h)

/-- The frame: every weakly fair execution of the program terminates, nothing faulting, and every final state has the six
    argument arrays as launched — each read off the last valuation, which at an argument is the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
      ⟨(h c _ (mem_uc main_arg0 (by decide))).trans (Wk9_main_arg0 m ρ c),
        (h c _ (mem_uc main_arg1 (by decide))).trans (Wk9_main_arg1 m ρ c),
        (h c _ (mem_uc main_arg2 (by decide))).trans (Wk9_main_arg2 m ρ c),
        (h c _ (mem_uc main_arg3 (by decide))).trans (Wk9_main_arg3 m ρ c),
        (h c _ (mem_uc main_arg4 (by decide))).trans (Wk9_main_arg4 m ρ c),
        (h c _ (mem_uc main_arg5 (by decide))).trans (Wk9_main_arg5 m ρ c)⟩)
    (run_all m ρ)

end Cert.Kernel.Hand

end
-- ==== Proof.KI.Proj0.lean ====
import proofs.«161166_j30331059044530_2_alg».proof.Proof.Gen.KernelIdeal.Launch
import proofs.«161166_j30331059044530_2_alg».proof.Proof.Gen.KernelIdeal.Skeleton
import proofs.«161166_j30331059044530_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Linear projection 0: the per-region half of the frame

The region computes y = x Wᵀ block by block: at each of its 16 grid points it takes one block of 1024 rows
of the flattened input (window 0), the whole 256 × 256 weight (window 1, brought in once, at the first
point, and left in place afterwards) and writes the 1024 × 256 block of the product (window 2). The body
reads both inputs whole, reads its output buffer once (the value read is not used), and overwrites the
output buffer whole with the rounded product.

Everything here is stated at a parameter V, the contents of the core's buffers when the region is
entered, and for any float instance. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window's staging buffer holds its block at every point: for any proof data whose array is
    the region-entry one and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds the whole weight at every point, though it is brought in at the
    first point only: where it is not brought in, its block index has not moved and the body left it in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer read or written whole -/

abbrev r0_0 : Rect S1024x256 := Rect.unit (s := S1024x256) ![0, 0] S1024x256.size inb_S1024x256_S1024x256_0_0
abbrev r0_1 : Rect S256x256 := Rect.unit (s := S256x256) ![0, 0] S256x256.size inb_S256x256_S256x256_0_0

/-! ## What the body leaves in the output window's buffer -/

/-- The output buffer after the body, from the two input blocks: one store of the whole buffer, whose value
    is the rounded product of the two blocks read whole. -/
def out0_2 (x0 : Vec F S1024x256 .f32) (x1 : Vec F S256x256 .f32) : Vec F S1024x256 .bf16 :=
  View.canon [⟨r0_0, k0_pay1 (View.ld x0 r0_0) (View.ld x1 r0_1)⟩]

/-- The one store covers the buffer. -/
theorem cover0_2 (p0 : Vec F S1024x256 .bf16) (y : S1024x256.Idx) :
    ∃ pc ∈ ([⟨r0_0, p0⟩] : List (View.Piece (Elt F) S1024x256 .bf16)), y ∈ pc.1.set :=
  View.cover_of_tiled [⟨r0_0, p0⟩] S1024x256.size (by rfl) y

/-! ## The body's triple -/

set_option maxHeartbeats 1000000 in
/-- The body on whole staging memrefs, the inputs' at contents x0, x1 and the output's at anything, runs to
    the continuation holding the inputs' as they were and the output's at out0_2 x0 x1. The read of the
    output buffer before the store sees whatever was there, and its value goes nowhere. -/
theorem sound_kernel0 (c : Dev nD) (E : Set ℕ) (i : grid0.Coords) (arg1 : Memref sig .tc .vmem S1024x256 .f32) (harg1 : arg1.IsWhole) (arg2 : Memref sig .tc .vmem S256x256 .f32) (harg2 : arg2.IsWhole) (arg3 : Memref sig .tc .vmem S1024x256 .bf16) (harg3 : arg3.IsWhole)
    (x0 : Vec F S1024x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this pipeline on core c: the arrays as the region finds them; after the body at point
    t each input's buffer at its block and the output's at out0_2 of the input blocks; the invariant that of
    a body that touches nothing but its windows; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant
    and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Proj1.lean ====
import proofs.«161166_j30331059044530_2_alg».proof.Proof.Gen.KernelIdeal.Launch
import proofs.«161166_j30331059044530_2_alg».proof.Proof.Gen.KernelIdeal.Skeleton
import proofs.«161166_j30331059044530_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Linear projection 1: the per-region half of the frame

The region computes y = x Wᵀ block by block: at each of its 16 grid points it takes one block of 1024 rows
of the flattened input (window 0), the whole 256 × 256 weight (window 1, brought in once, at the first
point, and left in place afterwards) and writes the 1024 × 256 block of the product (window 2). The body
reads both inputs whole, reads its output buffer once (the value read is not used), and overwrites the
output buffer whole with the rounded product.

Everything here is stated at a parameter V, the contents of the core's buffers when the region is
entered, and for any float instance. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block window's staging buffer holds its block at every point: for any proof data whose array is
    the region-entry one and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight window's staging buffer holds the whole weight at every point, though it is brought in at the
    first point only: where it is not brought in, its block index has not moved and the body left it in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer read or written whole -/

abbrev r1_0 : Rect S1024x256 := Rect.unit (s := S1024x256) ![0, 0] S1024x256.size inb_S1024x256_S1024x256_0_0
abbrev r1_1 : Rect S256x256 := Rect.unit (s := S256x256) ![0, 0] S256x256.size inb_S256x256_S256x256_0_0

/-! ## What the body leaves in the output window's buffer -/

/-- The output buffer after the body, from the two input blocks: one store of the whole buffer, whose value
    is the rounded product of the two blocks read whole. -/
def out1_2 (x0 : Vec F S1024x256 .f32) (x1 : Vec F S256x256 .f32) : Vec F S1024x256 .bf16 :=
  View.canon [⟨r1_0, k1_pay1 (View.ld x0 r1_0) (View.ld x1 r1_1)⟩]

/-- The one store covers the buffer. -/
theorem cover1_2 (p0 : Vec F S1024x256 .bf16) (y : S1024x256.Idx) :
    ∃ pc ∈ ([⟨r1_0, p0⟩] : List (View.Piece (Elt F) S1024x256 .bf16)), y ∈ pc.1.set :=
  View.cover_of_tiled [⟨r1_0, p0⟩] S1024x256.size (by rfl) y

/-! ## The body's triple -/

set_option maxHeartbeats 1000000 in
/-- The body on whole staging memrefs, the inputs' at contents x0, x1 and the output's at anything, runs to
    the continuation holding the inputs' as they were and the output's at out1_2 x0 x1. The read of the
    output buffer before the store sees whatever was there, and its value goes nowhere. -/
theorem sound_kernel1 (c : Dev nD) (E : Set ℕ) (i : grid1.Coords) (arg1 : Memref sig .tc .vmem S1024x256 .f32) (harg1 : arg1.IsWhole) (arg2 : Memref sig .tc .vmem S256x256 .f32) (harg2 : arg2.IsWhole) (arg3 : Memref sig .tc .vmem S1024x256 .bf16) (harg3 : arg3.IsWhole)
    (x0 : Vec F S1024x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__proj_kernel i arg1 harg1 arg2 harg2 arg3 harg3) K := by
  simp only [cc1__proj_kernel_eq_skeleton]; unfold cc1__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of this pipeline on core c: the arrays as the region finds them; after the body at point
    t each input's buffer at its block and the output's at out1_2 of the input blocks; the invariant that of
    a body that touches nothing but its windows; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant
    and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Proj2.lean ====
import proofs.«161166_j30331059044530_2_alg».proof.Proof.Gen.KernelIdeal.Launch
import proofs.«161166_j30331059044530_2_alg».proof.Proof.Gen.KernelIdeal.Skeleton
import proofs.«161166_j30331059044530_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Linear projection 2: the per-region half of the frame

The region computes y = x Wᵀ block by block: at each of its 16 grid points it takes one block of 1024 rows
of the flattened input (window 0), the whole 256 × 256 weight (window 1, brought in once, at the first
point, and left in place afterwards) and writes the 1024 × 256 block of the product (window 2). The body
reads both inputs whole, reads its output buffer once (the value read is not used), and overwrites the
output buffer whole with the rounded product.

Everything here is stated at a parameter V, the contents of the core's buffers when the region is
entered, and for any float instance. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row-block window's staging buffer holds its block at every point: for any proof data whose array is
    the region-entry one and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight window's staging buffer holds the whole weight at every point, though it is brought in at the
    first point only: where it is not brought in, its block index has not moved and the body left it in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer read or written whole -/

abbrev r2_0 : Rect S1024x256 := Rect.unit (s := S1024x256) ![0, 0] S1024x256.size inb_S1024x256_S1024x256_0_0
abbrev r2_1 : Rect S256x256 := Rect.unit (s := S256x256) ![0, 0] S256x256.size inb_S256x256_S256x256_0_0

/-! ## What the body leaves in the output window's buffer -/

/-- The output buffer after the body, from the two input blocks: one store of the whole buffer, whose value
    is the rounded product of the two blocks read whole. -/
def out2_2 (x0 : Vec F S1024x256 .f32) (x1 : Vec F S256x256 .f32) : Vec F S1024x256 .bf16 :=
  View.canon [⟨r2_0, k2_pay1 (View.ld x0 r2_0) (View.ld x1 r2_1)⟩]

/-- The one store covers the buffer. -/
theorem cover2_2 (p0 : Vec F S1024x256 .bf16) (y : S1024x256.Idx) :
    ∃ pc ∈ ([⟨r2_0, p0⟩] : List (View.Piece (Elt F) S1024x256 .bf16)), y ∈ pc.1.set :=
  View.cover_of_tiled [⟨r2_0, p0⟩] S1024x256.size (by rfl) y

/-! ## The body's triple -/

set_option maxHeartbeats 1000000 in
/-- The body on whole staging memrefs, the inputs' at contents x0, x1 and the output's at anything, runs to
    the continuation holding the inputs' as they were and the output's at out2_2 x0 x1. The read of the
    output buffer before the store sees whatever was there, and its value goes nowhere. -/
theorem sound_kernel2 (c : Dev nD) (E : Set ℕ) (i : grid2.Coords) (arg1 : Memref sig .tc .vmem S1024x256 .f32) (harg1 : arg1.IsWhole) (arg2 : Memref sig .tc .vmem S256x256 .f32) (harg2 : arg2.IsWhole) (arg3 : Memref sig .tc .vmem S1024x256 .bf16) (harg3 : arg3.IsWhole)
    (x0 : Vec F S1024x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__proj_kernel i arg1 harg1 arg2 harg2 arg3 harg3) K := by
  simp only [cc2__proj_kernel_eq_skeleton]; unfold cc2__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of this pipeline on core c: the arrays as the region finds them; after the body at point
    t each input's buffer at its block and the output's at out2_2 of the input blocks; the invariant that of
    a body that touches nothing but its windows; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant
    and the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.FlashRuns.lean ====
/-
  The flash-attention pass (the fourth kernel region): what its runs are stated over.

  The grid has 4 query tiles of 1024 rows times 16 key tiles of 256 rows, point t = 16·qi + ki. The body keeps three
  scratch arrays between points — the running maximum m and normalizer l, one number per query row, and the running
  weighted sum acc, one row of 256 features per query row. At ki = 0 it resets them (m = −∞, l = 0, acc = 0); at every
  point it folds the key tile in; at ki = 15 it also writes the two results, acc / l and m + log l. So a point is in one
  of three cases: first of a row of tiles, middle, last.
-/
import proofs.«161166_j30331059044530_2_alg».proof.Proof.Gen.KernelIdeal.Launch
import proofs.«161166_j30331059044530_2_alg».proof.Proof.Gen.KernelIdeal.Skeleton
import proofs.«161166_j30331059044530_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's two conditions -/

/-- "This is the first key tile": the body's first branch, from the grid coordinates. -/
abbrev cond3_0 (i : grid3.Coords) : Prop := (Scalar.cmpi .ne (Scalar.extui (Scalar.cmpi .eq (BitVec.ofNat 32 (i 1).val) 0#32)) 0#32) = 1#1
/-- It holds at the points ≡ 0 (mod 16). -/
theorem hcond3_0 : ∀ t : Fin cfg3.N, cond3_0 (grid3.coords t) ↔ t.val % 16 = 0 :=
  (by decide +kernel : ∀ t : Fin grid3.N, cond3_0 (grid3.coords t) ↔ t.val % 16 = 0)

/-- "This is the last key tile": the body's second branch. -/
abbrev cond3_1 (i : grid3.Coords) : Prop := k3_cond2 i = 1#1
/-- It holds at the points ≡ 15 (mod 16). -/
theorem hcond3_1 : ∀ t : Fin cfg3.N, cond3_1 (grid3.coords t) ↔ t.val % 16 = 15 :=
  (by decide +kernel : ∀ t : Fin grid3.N, cond3_1 (grid3.coords t) ↔ t.val % 16 = 15)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- Away from the last key tile the two result windows are idle and not written back. -/
theorem idleAt3_3 : ∀ t : Fin cfg3.N, ¬cond3_1 (grid3.coords t) → cfg3.idle 3 (grid3.coords t) = true := by decide +kernel
theorem noFlush3_3 : ∀ t : Fin cfg3.N, ¬cond3_1 (grid3.coords t) → (cfg3.win 3).flush t = false := by decide +kernel
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
/-- At the last key tile they are live. -/
theorem liveAt3_3 : ∀ t : Fin cfg3.N, cond3_1 (grid3.coords t) → cfg3.idle 3 (grid3.coords t) = false := by decide +kernel
theorem liveAt3_4 : ∀ t : Fin cfg3.N, cond3_1 (grid3.coords t) → cfg3.idle 4 (grid3.coords t) = false := by decide +kernel

/-! ## The memrefs the body is called with -/

abbrev ms3_0 (t : Fin cfg3.N) : Memref sig .tc .vmem S4x1024x256 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S4x256x256 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S4x256x256 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S4x1024x256 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S4x1024x1 .f32 := win3_4.stage (cfg3.slots t 4)
abbrev hs3_4 (t : Fin cfg3.N) : (ms3_4 t).IsWhole := hstage3_4 ((cfg3.slots t 4).cast nbuf3_4)
/-- The three scratch arrays: the running maximum, the running normalizer, the running weighted sum. -/
abbrev scM3_0 : Memref sig .tc .vmem S4x1024x1 .f32 := Memref.whole cc3_scratch0
abbrev scM3_1 : Memref sig .tc .vmem S4x1024x1 .f32 := Memref.whole cc3_scratch1
abbrev scM3_2 : Memref sig .tc .vmem S4x1024x256 .f32 := Memref.whole cc3_scratch2

/-- The class invariant with the three scratch arrays opened: each owned at some contents, beside the scoped buffers
    that belong to the other regions and the generator register. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d) ∗ (∃ d, owns (c : Thread nD τ) scM3_2 fullShare d))
          ∗ Pipeline.scopedRestBut (Ix := Unit) (Name := ℕ) (U := UR sig nD τ) (Lvl := ℕ) (Val := Elt F) spec3 c [cc3_scratch0, cc3_scratch1, cc3_scratch2]) ∗ (∃ r, prngReg c r)) := by
  unfold Pipeline.ΦA; rw [scopedRest3_split]; simp only [scM3_0, scM3_1, scM3_2, owns_whole]; try rfl

end Cert.KernelIdeal.Hand

end
-- ==== Proof.KI.FlashRunB.lean ====
/-
  The flash-attention pass at a middle key tile (neither the first nor the last of its row of tiles): the three scratch
  arrays come in at what the point before left and go out with this tile folded in; the two result buffers are not touched.
-/
import proofs.«161166_j30331059044530_2_alg».proof.Proof.KI.FlashRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each scratch array, as pieces (last first), with the proof that from whole memrefs —
    the three input blocks at their contents, the two result buffers at any contents handed back untouched, the scratch
    arrays at the contents the point before left — the body runs to the continuation holding the inputs as they were and
    each scratch array with its pieces written. The pieces are found by the run. -/
noncomputable def kernelRun3_B (c : Dev nD) (i : grid3.Coords) (arg2 : Memref sig .tc .vmem S4x1024x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x1024x256 .f32) (harg5 : arg5.IsWhole) (arg6 : Memref sig .tc .vmem S4x1024x1 .f32) (harg6 : arg6.IsWhole) (arg7 : Memref sig .tc .vmem S4x1024x1 .f32) (harg7 : arg7.IsWhole) (arg8 : Memref sig .tc .vmem S4x1024x1 .f32) (harg8 : arg8.IsWhole) (arg9 : Memref sig .tc .vmem S4x1024x256 .f32) (harg9 : arg9.IsWhole) (hc0 : ¬cond3_0 i) (hc1 : ¬cond3_1 i)
    (x0 : Vec F S4x1024x256 .bf16) (x1 x2 : Vec F S4x256x256 .bf16) (xs0 xs1 : Vec F S4x1024x1 .f32) (xs2 : Vec F S4x1024x256 .f32) :
    Σ' (LS0 : List (View.Piece (Elt F) S4x1024x1 .f32)) (LS1 : List (View.Piece (Elt F) S4x1024x1 .f32)), { LS2 : List (View.Piece (Elt F) S4x1024x256 .f32) //
      ∀ (xi5 : Vec F S4x1024x256 .f32) (xi6 : Vec F S4x1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi5 ∗ owns (c : Thread nD τ) arg6 fullShare xi6
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi5 ∗ owns (c : Thread nD τ) arg6 fullShare xi6
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc3__flash_fwd_kernel i arg2 harg2 arg3 harg3 arg4 harg4 arg5 harg5 arg6 harg6 arg7 harg7 arg8 harg8 arg9 harg9) K } := by
  refine ⟨?_, ?_, ?_, fun xi5 xi6 E K => ?run⟩
  case run =>
    simp only [cc3__flash_fwd_kernel_eq_skeleton]; unfold cc3__flash_fwd_kernel_skel
    simp only [k3_part1_eq_skeleton]
    unfold owns
    iintro ⟨⟨%f0, %hf0, H0⟩, ⟨%f1, %hf1, H1⟩, ⟨%f2, %hf2, H2⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf5; obtain rfl := harg6.eq_unread hf6
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; isplitr; · ipureintro; exact harg5.read_unread _
      iexact H5
    isplitl [H6]
    · iexists _; isplitr; · ipureintro; exact harg6.read_unread _
      iexact H6
    isplitl [HS0]; · iexists _; iexact HS0
    isplitl [HS1]; · iexists _; iexact HS1
    iexists _; iexact HS2

end Cert.KernelIdeal.Hand

end
-- ==== Proof.KI.FlashRunA.lean ====
/-
  The flash-attention pass at the first key tile of a row of tiles: the three scratch arrays come in at anything, are
  reset (maximum −∞, normalizer 0, weighted sum 0) and go out with this tile folded in; the two result buffers are not touched.
-/
import proofs.«161166_j30331059044530_2_alg».proof.Proof.KI.FlashRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in each scratch array at a first key tile, as pieces (last first), with the run. -/
noncomputable def kernelRun3_A (c : Dev nD) (i : grid3.Coords) (arg2 : Memref sig .tc .vmem S4x1024x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x1024x256 .f32) (harg5 : arg5.IsWhole) (arg6 : Memref sig .tc .vmem S4x1024x1 .f32) (harg6 : arg6.IsWhole) (arg7 : Memref sig .tc .vmem S4x1024x1 .f32) (harg7 : arg7.IsWhole) (arg8 : Memref sig .tc .vmem S4x1024x1 .f32) (harg8 : arg8.IsWhole) (arg9 : Memref sig .tc .vmem S4x1024x256 .f32) (harg9 : arg9.IsWhole) (hc0 : cond3_0 i) (hc1 : ¬cond3_1 i)
    (x0 : Vec F S4x1024x256 .bf16) (x1 x2 : Vec F S4x256x256 .bf16) :
    Σ' (LS0 : List (View.Piece (Elt F) S4x1024x1 .f32)) (LS1 : List (View.Piece (Elt F) S4x1024x1 .f32)), { LS2 : List (View.Piece (Elt F) S4x1024x256 .f32) //
      ∀ (xi5 : Vec F S4x1024x256 .f32) (xi6 : Vec F S4x1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi5 ∗ owns (c : Thread nD τ) arg6 fullShare xi6
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi5 ∗ owns (c : Thread nD τ) arg6 fullShare xi6
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc3__flash_fwd_kernel i arg2 harg2 arg3 harg3 arg4 harg4 arg5 harg5 arg6 harg6 arg7 harg7 arg8 harg8 arg9 harg9) K } := by
  refine ⟨?_, ?_, ?_, fun xi5 xi6 E K => ?run⟩
  case run =>
    simp only [cc3__flash_fwd_kernel_eq_skeleton]; unfold cc3__flash_fwd_kernel_skel
    simp only [k3_part1_eq_skeleton]
    unfold owns
    iintro ⟨⟨%f0, %hf0, H0⟩, ⟨%f1, %hf1, H1⟩, ⟨%f2, %hf2, H2⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    obtain rfl := harg5.eq_unread hf5; obtain rfl := harg6.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]
    · iexists _; isplitr; · ipureintro; exact harg5.read_unread _
      iexact H5
    isplitl [H6]
    · iexists _; isplitr; · ipureintro; exact harg6.read_unread _
      iexact H6
    isplitl [HS0]; · iexists _; iexact HS0
    isplitl [HS1]; · iexists _; iexact HS1
    iexists _; iexact HS2

end Cert.KernelIdeal.Hand

end
-- ==== Proof.KI.FlashRunC.lean ====
/-
  The flash-attention pass at the last key tile of a row of tiles: the three scratch arrays come in at what the point
  before left and go out with this tile folded in, and the two result buffers, at anything before, are stored whole:
  the weighted sum over the normalizer, and the maximum plus the normalizer's logarithm.
-/
import proofs.«161166_j30331059044530_2_alg».proof.Proof.KI.FlashRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the two result buffers and each scratch array at a last key tile, as pieces (last
    first), with the run. -/
noncomputable def kernelRun3_C (c : Dev nD) (i : grid3.Coords) (arg2 : Memref sig .tc .vmem S4x1024x256 .bf16) (harg2 : arg2.IsWhole) (arg3 : Memref sig .tc .vmem S4x256x256 .bf16) (harg3 : arg3.IsWhole) (arg4 : Memref sig .tc .vmem S4x256x256 .bf16) (harg4 : arg4.IsWhole) (arg5 : Memref sig .tc .vmem S4x1024x256 .f32) (harg5 : arg5.IsWhole) (arg6 : Memref sig .tc .vmem S4x1024x1 .f32) (harg6 : arg6.IsWhole) (arg7 : Memref sig .tc .vmem S4x1024x1 .f32) (harg7 : arg7.IsWhole) (arg8 : Memref sig .tc .vmem S4x1024x1 .f32) (harg8 : arg8.IsWhole) (arg9 : Memref sig .tc .vmem S4x1024x256 .f32) (harg9 : arg9.IsWhole) (hc0 : ¬cond3_0 i) (hc1 : cond3_1 i)
    (x0 : Vec F S4x1024x256 .bf16) (x1 x2 : Vec F S4x256x256 .bf16) (xs0 xs1 : Vec F S4x1024x1 .f32) (xs2 : Vec F S4x1024x256 .f32) :
    Σ' (L5 : List (View.Piece (Elt F) S4x1024x256 .f32)) (L6 : List (View.Piece (Elt F) S4x1024x1 .f32)) (LS0 : List (View.Piece (Elt F) S4x1024x1 .f32)) (LS1 : List (View.Piece (Elt F) S4x1024x1 .f32)), { LS2 : List (View.Piece (Elt F) S4x1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc3__flash_fwd_kernel i arg2 harg2 arg3 harg3 arg4 harg4 arg5 harg5 arg6 harg6 arg7 harg7 arg8 harg8 arg9 harg9) K } := by
  refine ⟨?_, ?_, ?_, ?_, ?_, fun E K => ?run⟩
  case run =>
    simp only [cc3__flash_fwd_kernel_eq_skeleton]; unfold cc3__flash_fwd_kernel_skel
    simp only [k3_part1_eq_skeleton]
    unfold owns
    iintro ⟨⟨%f0, %hf0, H0⟩, ⟨%f1, %hf1, H1⟩, ⟨%f2, %hf2, H2⟩, ⟨%d5, %f5, -, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H5]; · iexists _; iexact H5
    isplitl [H6]; · iexists _; iexact H6
    isplitl [HS0]; · iexists _; iexact HS0
    isplitl [HS1]; · iexists _; iexact HS1
    iexists _; iexact HS2

end Cert.KernelIdeal.Hand

end
-- ==== Proof.KI.Flash.lean ====
/-
  The flash-attention pass: what the three scratch arrays and the two result buffers hold after each grid point, the
  proof data built on it, and the body obligation.

  After point n the scratch arrays hold a state (m, l, acc). At the first key tile of a row of tiles the state is the
  first-tile run's; elsewhere it is the middle or last-tile run's over the state the point before left. The result
  buffers are stored at last key tiles only, from that point's state; elsewhere they are idle and nothing consults them.
-/
import proofs.«161166_j30331059044530_2_alg».proof.Proof.KI.FlashRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The state the scratch arrays carry: running maximum, running normalizer, running weighted sum. -/
abbrev St3 (F : FTy → Type) [FloatOps F] : Type := Vec F S4x1024x1 .f32 × Vec F S4x1024x1 .f32 × Vec F S4x1024x256 .f32

/-! ## The three runs at a grid point -/

abbrev runA (c : Dev nD) (t : Fin cfg3.N) (h0 : t.val % 16 = 0) (h1 : ¬t.val % 16 = 15) :=
  kernelRun3_A (F := F) c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) ((hcond3_0 t).mpr h0) (fun h => h1 ((hcond3_1 t).mp h)) (iblk3 V c 0 t) (iblk3 V c 1 t) (iblk3 V c 2 t)
abbrev runB (c : Dev nD) (t : Fin cfg3.N) (h0 : ¬t.val % 16 = 0) (h1 : ¬t.val % 16 = 15) (s : St3 F) :=
  kernelRun3_B (F := F) c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) (fun h => h0 ((hcond3_0 t).mp h)) (fun h => h1 ((hcond3_1 t).mp h)) (iblk3 V c 0 t) (iblk3 V c 1 t) (iblk3 V c 2 t) s.1 s.2.1 s.2.2
abbrev runC (c : Dev nD) (t : Fin cfg3.N) (h0 : ¬t.val % 16 = 0) (h1 : t.val % 16 = 15) (s : St3 F) :=
  kernelRun3_C (F := F) c (grid3.coords t) (ms3_0 t) (hs3_0 t) (ms3_1 t) (hs3_1 t) (ms3_2 t) (hs3_2 t) (ms3_3 t) (hs3_3 t) (ms3_4 t) (hs3_4 t) scM3_0 (Memref.isWhole_whole _) scM3_1 (Memref.isWhole_whole _) scM3_2 (Memref.isWhole_whole _) (fun h => h0 ((hcond3_0 t).mp h)) ((hcond3_1 t).mpr h1) (iblk3 V c 0 t) (iblk3 V c 1 t) (iblk3 V c 2 t) s.1 s.2.1 s.2.2

/-- The state each run leaves: its pieces for the three scratch arrays, read as whole arrays. -/
def stOfA (c : Dev nD) (t : Fin cfg3.N) (h0 : t.val % 16 = 0) (h1 : ¬t.val % 16 = 15) : St3 F :=
  (View.canon (runA V c t h0 h1).1, View.canon (runA V c t h0 h1).2.1, View.canon (runA V c t h0 h1).2.2.1)
def stOfB (c : Dev nD) (t : Fin cfg3.N) (h0 : ¬t.val % 16 = 0) (h1 : ¬t.val % 16 = 15) (s : St3 F) : St3 F :=
  (View.canon (runB V c t h0 h1 s).1, View.canon (runB V c t h0 h1 s).2.1, View.canon (runB V c t h0 h1 s).2.2.1)
def stOfC (c : Dev nD) (t : Fin cfg3.N) (h0 : ¬t.val % 16 = 0) (h1 : t.val % 16 = 15) (s : St3 F) : St3 F :=
  (View.canon (runC V c t h0 h1 s).2.2.1, View.canon (runC V c t h0 h1 s).2.2.2.1, View.canon (runC V c t h0 h1 s).2.2.2.2.1)
/-- What a last-tile run leaves in the two result buffers. -/
def outOfC (c : Dev nD) (t : Fin cfg3.N) (h0 : ¬t.val % 16 = 0) (h1 : t.val % 16 = 15) (s : St3 F) : Vec F S4x1024x256 .f32 × Vec F S4x1024x1 .f32 :=
  (View.canon (runC V c t h0 h1 s).1, View.canon (runC V c t h0 h1 s).2.1)

/-! ## Every run's pieces cover their buffer (each list ends with a whole-buffer store) -/

theorem coverA_0 (c : Dev nD) (t : Fin cfg3.N) (h0 h1) (y : S4x1024x1.Idx) : ∃ pc ∈ (runA V c t h0 h1).1, y ∈ pc.1.set :=
  View.cover_of_tiledL _ S4x1024x1.size (by sl_kernel_rfl) y
theorem coverA_1 (c : Dev nD) (t : Fin cfg3.N) (h0 h1) (y : S4x1024x1.Idx) : ∃ pc ∈ (runA V c t h0 h1).2.1, y ∈ pc.1.set :=
  View.cover_of_tiledL _ S4x1024x1.size (by sl_kernel_rfl) y
theorem coverA_2 (c : Dev nD) (t : Fin cfg3.N) (h0 h1) (y : S4x1024x256.Idx) : ∃ pc ∈ (runA V c t h0 h1).2.2.1, y ∈ pc.1.set :=
  View.cover_of_tiledL _ S4x1024x256.size (by sl_kernel_rfl) y
theorem coverB_0 (c : Dev nD) (t : Fin cfg3.N) (h0 h1) (s : St3 F) (y : S4x1024x1.Idx) : ∃ pc ∈ (runB V c t h0 h1 s).1, y ∈ pc.1.set :=
  View.cover_of_tiledL _ S4x1024x1.size (by sl_kernel_rfl) y
theorem coverB_1 (c : Dev nD) (t : Fin cfg3.N) (h0 h1) (s : St3 F) (y : S4x1024x1.Idx) : ∃ pc ∈ (runB V c t h0 h1 s).2.1, y ∈ pc.1.set :=
  View.cover_of_tiledL _ S4x1024x1.size (by sl_kernel_rfl) y
theorem coverB_2 (c : Dev nD) (t : Fin cfg3.N) (h0 h1) (s : St3 F) (y : S4x1024x256.Idx) : ∃ pc ∈ (runB V c t h0 h1 s).2.2.1, y ∈ pc.1.set :=
  View.cover_of_tiledL _ S4x1024x256.size (by sl_kernel_rfl) y
theorem coverC_o (c : Dev nD) (t : Fin cfg3.N) (h0 h1) (s : St3 F) (y : S4x1024x256.Idx) : ∃ pc ∈ (runC V c t h0 h1 s).1, y ∈ pc.1.set :=
  View.cover_of_tiledL _ S4x1024x256.size (by sl_kernel_rfl) y
theorem coverC_e (c : Dev nD) (t : Fin cfg3.N) (h0 h1) (s : St3 F) (y : S4x1024x1.Idx) : ∃ pc ∈ (runC V c t h0 h1 s).2.1, y ∈ pc.1.set :=
  View.cover_of_tiledL _ S4x1024x1.size (by sl_kernel_rfl) y
theorem coverC_0 (c : Dev nD) (t : Fin cfg3.N) (h0 h1) (s : St3 F) (y : S4x1024x1.Idx) : ∃ pc ∈ (runC V c t h0 h1 s).2.2.1, y ∈ pc.1.set :=
  View.cover_of_tiledL _ S4x1024x1.size (by sl_kernel_rfl) y
theorem coverC_1 (c : Dev nD) (t : Fin cfg3.N) (h0 h1) (s : St3 F) (y : S4x1024x1.Idx) : ∃ pc ∈ (runC V c t h0 h1 s).2.2.2.1, y ∈ pc.1.set :=
  View.cover_of_tiledL _ S4x1024x1.size (by sl_kernel_rfl) y
theorem coverC_2 (c : Dev nD) (t : Fin cfg3.N) (h0 h1) (s : St3 F) (y : S4x1024x256.Idx) : ∃ pc ∈ (runC V c t h0 h1 s).2.2.2.2.1, y ∈ pc.1.set :=
  View.cover_of_tiledL _ S4x1024x256.size (by sl_kernel_rfl) y

/-! ## The state point by point -/

/-- The scratch arrays' contents after the body at position n. -/
def stAt3 (c : Dev nD) : (n : ℕ) → n < cfg3.N → St3 F
  | 0, hn => stOfA V c ⟨0, hn⟩ (Nat.zero_mod _) (by show ¬(0 : ℕ) % 16 = 15; decide)
  | n + 1, hn =>
    if h0 : (n + 1) % 16 = 0 then stOfA V c ⟨n + 1, hn⟩ h0 (by show ¬(n + 1) % 16 = 15; omega)
    else if h1 : (n + 1) % 16 = 15 then stOfC V c ⟨n + 1, hn⟩ h0 h1 (stAt3 c n (Nat.lt_of_succ_lt hn))
    else stOfB V c ⟨n + 1, hn⟩ h0 h1 (stAt3 c n (Nat.lt_of_succ_lt hn))

theorem stAt3_A (c : Dev nD) (t : Fin cfg3.N) (h0 : t.val % 16 = 0) (h1 : ¬t.val % 16 = 15) :
    stAt3 V c t.val t.isLt = stOfA V c t h0 h1 := by
  obtain ⟨n, hn⟩ := t
  cases n with
  | zero => exact rfl
  | succ n => exact (dif_pos h0).trans rfl

theorem stAt3_B (c : Dev nD) (t : Fin cfg3.N) (h0 : ¬t.val % 16 = 0) (h1 : ¬t.val % 16 = 15) :
    stAt3 V c t.val t.isLt = stOfB V c t h0 h1 (stAt3 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem stAt3_C (c : Dev nD) (t : Fin cfg3.N) (h0 : ¬t.val % 16 = 0) (h1 : t.val % 16 = 15) :
    stAt3 V c t.val t.isLt = stOfC V c t h0 h1 (stAt3 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The two result buffers after the body at position n: stored at last key tiles; elsewhere a placeholder nothing consults. -/
def oAt3 (c : Dev nD) (n : ℕ) (hn : n < cfg3.N) : Vec F S4x1024x256 .f32 × Vec F S4x1024x1 .f32 :=
  if h1 : n % 16 = 15 then outOfC V c ⟨n, hn⟩ (by show ¬n % 16 = 0; omega) h1 (stAt3 V c (n - 1) (Nat.lt_of_le_of_lt (Nat.sub_le _ _) hn))
  else (View.canon [], View.canon [])

theorem oAt3_C (c : Dev nD) (t : Fin cfg3.N) (h0 : ¬t.val % 16 = 0) (h1 : t.val % 16 = 15) :
    oAt3 V c t.val t.isLt = outOfC V c t h0 h1 (stAt3 V c (t.val - 1) (Nat.lt_of_le_of_lt (Nat.sub_le _ _) t.isLt)) := by
  unfold oAt3; exact (dif_pos h1).trans rfl

/-! ## The invariant -/

/-- Before position n: at the start the class's invariant (every scratch array at anything); afterwards the three scratch
    arrays at the state the point before left, beside the other regions' scoped buffers and the generator register. -/
def PhiS3 (c : Dev nD) : (n : ℕ) → n ≤ cfg3.N → sProp 𝕄
  | 0, _ => Pipeline.ΦA spec3 c
  | n + 1, hn => iprop(iprop(iprop(owns (c : Thread nD τ) scM3_0 fullShare (stAt3 V c n hn).1 ∗ owns (c : Thread nD τ) scM3_1 fullShare (stAt3 V c n hn).2.1 ∗ owns (c : Thread nD τ) scM3_2 fullShare (stAt3 V c n hn).2.2)
      ∗ Pipeline.scopedRestBut (Ix := Unit) (Name := ℕ) (U := UR sig nD τ) (Lvl := ℕ) (Val := Elt F) spec3 c [cc3_scratch0, cc3_scratch1, cc3_scratch2]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare (stAt3 V c n hn).1 ∗ owns (c : Thread nD τ) scM3_1 fullShare (stAt3 V c n hn).2.1 ∗ owns (c : Thread nD τ) scM3_2 fullShare (stAt3 V c n hn).2.2)
      ∗ Pipeline.scopedRestBut (Ix := Unit) (Name := ℕ) (U := UR sig nD τ) (Lvl := ℕ) (Val := Elt F) spec3 c [cc3_scratch0, cc3_scratch1, cc3_scratch2]) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare (stAt3 V c (n - 1) (by omega)).1 ∗ owns (c : Thread nD τ) scM3_1 fullShare (stAt3 V c (n - 1) (by omega)).2.1 ∗ owns (c : Thread nD τ) scM3_2 fullShare (stAt3 V c (n - 1) (by omega)).2.2)
      ∗ Pipeline.scopedRestBut (Ix := Unit) (Name := ℕ) (U := UR sig nD τ) (Lvl := ℕ) (Val := Elt F) spec3 c [cc3_scratch0, cc3_scratch1, cc3_scratch2]) ∗ (∃ r, prngReg c r)) := by
  cases n with
  | zero => exact absurd rfl hz
  | succ n => rfl

/-! ## The proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (oAt3 V c t.val t.isLt).1
    | ⟨4, _⟩ => (oAt3 V c t.val t.isLt).2
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (oAt3 V c t.val t.isLt).1 := by dsimp only [dat3]
theorem after3_4 (c : Dev nD) (t : Fin cfg3.N) : (dat3 V c).after 4 t = (oAt3 V c t.val t.isLt).2 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

end Cert.KernelIdeal.Hand

end
-- ==== Proof.KI.AttnMat.lean ====
/- The attention-matrix kernel (the program's fifth TensorCore region) at a PARAMETER V, the TensorCore's buffer
   contents when the region is entered: each window's block at a point, what the body leaves in the output window's
   buffer as a function of the three input blocks, the body's triple, the proof data and the body obligation.
   Stated at any float instance. -/
import proofs.«161166_j30331059044530_2_alg».proof.Proof.Gen.KernelIdeal.Launch
import proofs.«161166_j30331059044530_2_alg».proof.Proof.Gen.KernelIdeal.Skeleton
import proofs.«161166_j30331059044530_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The query window's current staging buffer holds its block at every point, fetched there or not: where it is
    not fetched its block index has not moved since the point before. For any proof data whose array is V's and
    whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The same for the key window (fetched at every point). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- The same for the log-sum-exp window (fetched where the query window is). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer whole -/

abbrev r4_0 : Rect S4x1024x256 := Rect.unit (s := S4x1024x256) ![0, 0, 0] S4x1024x256.size inb_S4x1024x256_S4x1024x256_0_0_0
abbrev r4_1 : Rect S4x256x256 := Rect.unit (s := S4x256x256) ![0, 0, 0] S4x256x256.size inb_S4x256x256_S4x256x256_0_0_0
abbrev r4_2 : Rect S4x1024x1 := Rect.unit (s := S4x1024x1) ![0, 0, 0] S4x1024x1.size inb_S4x1024x1_S4x1024x1_0_0_0

/-! ## What the body leaves in the output window's buffer -/

/-- The output window's staging buffer after the body, from the three input blocks: its one store, of the whole
    buffer, of the payload exp (q · kᵀ · 2⁻⁴ − lse) computed from the three loaded blocks. -/
def out4_3 (x0 : Vec F S4x1024x256 .bf16) (x1 : Vec F S4x256x256 .bf16) (x2 : Vec F S4x1024x1 .f32) : Vec F S4x1024x256 .f32 :=
  View.canon [⟨r4_0, k4_pay1 (View.ld x0 r4_0) (View.ld x1 r4_1) (View.ld x2 r4_2)⟩]

/-- The one store covers the buffer. -/
theorem cover4_3 (p0 : Vec F S4x1024x256 .f32) (y : S4x1024x256.Idx) :
    ∃ pc ∈ ([⟨r4_0, p0⟩] : List (View.Piece (Elt F) S4x1024x256 .f32)), y ∈ pc.1.set :=
  View.cover_of_tiled [⟨r4_0, p0⟩] S4x1024x256.size (by rfl) y

/-! ## The body's triple -/

set_option maxHeartbeats 1000000 in
/-- The kernel body on whole staging memrefs, the inputs' at contents x0, x1, x2 and the output's at anything (which
    the body loads once, unused, before it stores), runs to the continuation holding the inputs' as they were and the
    output's at out4_3 of the inputs'. -/
theorem sound_kernel4 (c : Dev nD) (E : Set ℕ) (i : grid4.Coords)
    (arg2 : Memref sig .tc .vmem S4x1024x256 .bf16) (harg2 : arg2.IsWhole) (arg3 : Memref sig .tc .vmem S4x256x256 .bf16) (harg3 : arg3.IsWhole)
    (arg4 : Memref sig .tc .vmem S4x1024x1 .f32) (harg4 : arg4.IsWhole) (arg5 : Memref sig .tc .vmem S4x1024x256 .f32) (harg5 : arg5.IsWhole)
    (x0 : Vec F S4x1024x256 .bf16) (x1 : Vec F S4x256x256 .bf16) (x2 : Vec F S4x1024x1 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out4_3 x0 x1 x2)) -∗ K ⟨⟩))
      ⊢ wp frame (wpE (defs₀ (F := F)) Variants.none c none) E (cc4__attn_matrix_kernel i arg2 harg2 arg3 harg3 arg4 harg4 arg5 harg5) K := by
  simp only [cc4__attn_matrix_kernel_eq_skeleton]; unfold cc4__attn_matrix_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The pipeline's proof data -/

/-- The proof data of this pipeline on core c: the arrays as the region finds them; after the body at point t each
    input's buffer at its block and the output's at out4_3 of the three input blocks; the invariant the scoped rest
    and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the body's triple applies; the invariant and
    the core's debt pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.RunData.lean ====
/-
  The kernel program's run, first half: what the TensorCore's buffers hold at every boundary between two pieces of the
  program, and the data every region's segment is stated over.

  The program is a stretch of host operations (a reshape), the first projection, a stretch (two reshapes), the second
  projection, a stretch (two reshapes), the third projection, a stretch (a reshape), the flash-attention pass and the
  attention-matrix pass, the last two with nothing between them. The contents are a fold from the launch memory: a
  stretch rewrites the buffers its operations write; a region leaves its input arrays as entered, its output arrays at
  what the pipeline's write-backs leave, and every other buffer as entered. Each region's proof data are taken at the
  contents the fold has when the region is entered. No piece writes an argument array, so the fold read at an argument
  walks back to the launch memory.

  Stated for any float instance.
-/
import proofs.«161166_j30331059044530_2_alg».proof.Proof.KI.Proj0
import proofs.«161166_j30331059044530_2_alg».proof.Proof.KI.Proj1
import proofs.«161166_j30331059044530_2_alg».proof.Proof.KI.Proj2
import proofs.«161166_j30331059044530_2_alg».proof.Proof.KI.Flash
import proofs.«161166_j30331059044530_2_alg».proof.Proof.KI.AttnMat
import proofs.«161166_j30331059044530_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary: a fold through the program -/

/-- Core c's buffers at launch. -/
abbrev Wk0 : Dev nD → Valuation τ sig (Elt F) := fun c b => (s₀ m ρ).mem ((c : Dev nD), b)

/-- After the host operations before the first projection (its entry). -/
abbrev Wk1 : Dev nD → Valuation τ sig (Elt F) := fun c => StableHlo.after hostOps0 (Wk0 m ρ c)
/-- The same read at the TensorCore's references: what the region's proof data take. -/
abbrev Vk1 : (c : Dev nD) → (b : Ref sig .tc) → Buf (Elt F) ((c : Thread nD τ).loc b) := fun c b => Wk1 m ρ c b
/-- At the exit of the first projection: its arrays at what the pipeline leaves (an input as entered, an output with its
    write-backs folded in), every other buffer as entered. -/
def Wk2 (c : Dev nD) : Valuation τ sig (Elt F) :=
  Pipeline.withArrays spec0 c (Wk1 m ρ c) fun w => (dat0 (Vk1 m ρ) c).arrAt w cfg0.N
theorem Wk2_arr (c : Dev nD) (w : Fin cfg0.W) :
    Wk2 m ρ c (Proc.devRef .tc (Pipeline.arrRef spec0 w)) = (dat0 (Vk1 m ρ) c).arrAt w cfg0.N := by
  unfold Wk2; exact Pipeline.withArrays_arr spec0 launch0.win.arr_inj c _ _ w
theorem Wk2_of_ne (c : Dev nD) (b : Ref sig .tc) (hb : ∀ w, Pipeline.arrRef spec0 w ≠ b) :
    Wk2 m ρ c (Proc.devRef .tc b) = Wk1 m ρ c (Proc.devRef .tc b) := by
  unfold Wk2; exact Pipeline.withArrays_of_ne spec0 c _ _ b hb
/-- The same read at the TensorCore's references. -/
abbrev Vk2 : (c : Dev nD) → (b : Ref sig .tc) → Buf (Elt F) ((c : Thread nD τ).loc b) := fun c b => Wk2 m ρ c b
/-- At the exit each of the region's arrays holds what the pipeline leaves, and every other buffer what it held at entry. -/
theorem hF0 (c : Dev nD) (w : Fin cfg0.W) : (dat0 (Vk1 m ρ) c).arrAt w cfg0.N = Vk2 m ρ c (Pipeline.arrRef spec0 w) :=
  (Wk2_arr m ρ c w).symm
theorem hrest0 (c : Dev nD) : ∀ b, b ∉ Finset.univ.image (Pipeline.arrRef spec0) → Vk2 m ρ c b = Vk1 m ρ c b :=
  fun b hb => Wk2_of_ne m ρ c b fun w e => hb (Finset.mem_image.mpr ⟨w, Finset.mem_univ _, e⟩)

/-- After the host operations before the second projection (its entry). -/
abbrev Wk3 : Dev nD → Valuation τ sig (Elt F) := fun c => StableHlo.after hostOps1 (Wk2 m ρ c)
/-- The same read at the TensorCore's references: what the region's proof data take. -/
abbrev Vk3 : (c : Dev nD) → (b : Ref sig .tc) → Buf (Elt F) ((c : Thread nD τ).loc b) := fun c b => Wk3 m ρ c b
/-- At the exit of the second projection: its arrays at what the pipeline leaves (an input as entered, an output with its
    write-backs folded in), every other buffer as entered. -/
def Wk4 (c : Dev nD) : Valuation τ sig (Elt F) :=
  Pipeline.withArrays spec1 c (Wk3 m ρ c) fun w => (dat1 (Vk3 m ρ) c).arrAt w cfg1.N
theorem Wk4_arr (c : Dev nD) (w : Fin cfg1.W) :
    Wk4 m ρ c (Proc.devRef .tc (Pipeline.arrRef spec1 w)) = (dat1 (Vk3 m ρ) c).arrAt w cfg1.N := by
  unfold Wk4; exact Pipeline.withArrays_arr spec1 launch1.win.arr_inj c _ _ w
theorem Wk4_of_ne (c : Dev nD) (b : Ref sig .tc) (hb : ∀ w, Pipeline.arrRef spec1 w ≠ b) :
    Wk4 m ρ c (Proc.devRef .tc b) = Wk3 m ρ c (Proc.devRef .tc b) := by
  unfold Wk4; exact Pipeline.withArrays_of_ne spec1 c _ _ b hb
/-- The same read at the TensorCore's references. -/
abbrev Vk4 : (c : Dev nD) → (b : Ref sig .tc) → Buf (Elt F) ((c : Thread nD τ).loc b) := fun c b => Wk4 m ρ c b
/-- At the exit each of the region's arrays holds what the pipeline leaves, and every other buffer what it held at entry. -/
theorem hF1 (c : Dev nD) (w : Fin cfg1.W) : (dat1 (Vk3 m ρ) c).arrAt w cfg1.N = Vk4 m ρ c (Pipeline.arrRef spec1 w) :=
  (Wk4_arr m ρ c w).symm
theorem hrest1 (c : Dev nD) : ∀ b, b ∉ Finset.univ.image (Pipeline.arrRef spec1) → Vk4 m ρ c b = Vk3 m ρ c b :=
  fun b hb => Wk4_of_ne m ρ c b fun w e => hb (Finset.mem_image.mpr ⟨w, Finset.mem_univ _, e⟩)

/-- After the host operations before the third projection (its entry). -/
abbrev Wk5 : Dev nD → Valuation τ sig (Elt F) := fun c => StableHlo.after hostOps2 (Wk4 m ρ c)
/-- The same read at the TensorCore's references: what the region's proof data take. -/
abbrev Vk5 : (c : Dev nD) → (b : Ref sig .tc) → Buf (Elt F) ((c : Thread nD τ).loc b) := fun c b => Wk5 m ρ c b
/-- At the exit of the third projection: its arrays at what the pipeline leaves (an input as entered, an output with its
    write-backs folded in), every other buffer as entered. -/
def Wk6 (c : Dev nD) : Valuation τ sig (Elt F) :=
  Pipeline.withArrays spec2 c (Wk5 m ρ c) fun w => (dat2 (Vk5 m ρ) c).arrAt w cfg2.N
theorem Wk6_arr (c : Dev nD) (w : Fin cfg2.W) :
    Wk6 m ρ c (Proc.devRef .tc (Pipeline.arrRef spec2 w)) = (dat2 (Vk5 m ρ) c).arrAt w cfg2.N := by
  unfold Wk6; exact Pipeline.withArrays_arr spec2 launch2.win.arr_inj c _ _ w
theorem Wk6_of_ne (c : Dev nD) (b : Ref sig .tc) (hb : ∀ w, Pipeline.arrRef spec2 w ≠ b) :
    Wk6 m ρ c (Proc.devRef .tc b) = Wk5 m ρ c (Proc.devRef .tc b) := by
  unfold Wk6; exact Pipeline.withArrays_of_ne spec2 c _ _ b hb
/-- The same read at the TensorCore's references. -/
abbrev Vk6 : (c : Dev nD) → (b : Ref sig .tc) → Buf (Elt F) ((c : Thread nD τ).loc b) := fun c b => Wk6 m ρ c b
/-- At the exit each of the region's arrays holds what the pipeline leaves, and every other buffer what it held at entry. -/
theorem hF2 (c : Dev nD) (w : Fin cfg2.W) : (dat2 (Vk5 m ρ) c).arrAt w cfg2.N = Vk6 m ρ c (Pipeline.arrRef spec2 w) :=
  (Wk6_arr m ρ c w).symm
theorem hrest2 (c : Dev nD) : ∀ b, b ∉ Finset.univ.image (Pipeline.arrRef spec2) → Vk6 m ρ c b = Vk5 m ρ c b :=
  fun b hb => Wk6_of_ne m ρ c b fun w e => hb (Finset.mem_image.mpr ⟨w, Finset.mem_univ _, e⟩)

/-- After the host operations before the flash-attention pass (its entry). -/
abbrev Wk7 : Dev nD → Valuation τ sig (Elt F) := fun c => StableHlo.after hostOps3 (Wk6 m ρ c)
/-- The same read at the TensorCore's references: what the region's proof data take. -/
abbrev Vk7 : (c : Dev nD) → (b : Ref sig .tc) → Buf (Elt F) ((c : Thread nD τ).loc b) := fun c b => Wk7 m ρ c b
/-- At the exit of the flash-attention pass: its arrays at what the pipeline leaves (an input as entered, an output with its
    write-backs folded in), every other buffer as entered. -/
def Wk8 (c : Dev nD) : Valuation τ sig (Elt F) :=
  Pipeline.withArrays spec3 c (Wk7 m ρ c) fun w => (dat3 (Vk7 m ρ) c).arrAt w cfg3.N
theorem Wk8_arr (c : Dev nD) (w : Fin cfg3.W) :
    Wk8 m ρ c (Proc.devRef .tc (Pipeline.arrRef spec3 w)) = (dat3 (Vk7 m ρ) c).arrAt w cfg3.N := by
  unfold Wk8; exact Pipeline.withArrays_arr spec3 launch3.win.arr_inj c _ _ w
theorem Wk8_of_ne (c : Dev nD) (b : Ref sig .tc) (hb : ∀ w, Pipeline.arrRef spec3 w ≠ b) :
    Wk8 m ρ c (Proc.devRef .tc b) = Wk7 m ρ c (Proc.devRef .tc b) := by
  unfold Wk8; exact Pipeline.withArrays_of_ne spec3 c _ _ b hb
/-- The same read at the TensorCore's references. -/
abbrev Vk8 : (c : Dev nD) → (b : Ref sig .tc) → Buf (Elt F) ((c : Thread nD τ).loc b) := fun c b => Wk8 m ρ c b
/-- At the exit each of the region's arrays holds what the pipeline leaves, and every other buffer what it held at entry. -/
theorem hF3 (c : Dev nD) (w : Fin cfg3.W) : (dat3 (Vk7 m ρ) c).arrAt w cfg3.N = Vk8 m ρ c (Pipeline.arrRef spec3 w) :=
  (Wk8_arr m ρ c w).symm
theorem hrest3 (c : Dev nD) : ∀ b, b ∉ Finset.univ.image (Pipeline.arrRef spec3) → Vk8 m ρ c b = Vk7 m ρ c b :=
  fun b hb => Wk8_of_ne m ρ c b fun w e => hb (Finset.mem_image.mpr ⟨w, Finset.mem_univ _, e⟩)
/-- At the exit of the attention-matrix pass: its arrays at what the pipeline leaves (an input as entered, an output with its
    write-backs folded in), every other buffer as entered. -/
def Wk9 (c : Dev nD) : Valuation τ sig (Elt F) :=
  Pipeline.withArrays spec4 c (Wk8 m ρ c) fun w => (dat4 (Vk8 m ρ) c).arrAt w cfg4.N
theorem Wk9_arr (c : Dev nD) (w : Fin cfg4.W) :
    Wk9 m ρ c (Proc.devRef .tc (Pipeline.arrRef spec4 w)) = (dat4 (Vk8 m ρ) c).arrAt w cfg4.N := by
  unfold Wk9; exact Pipeline.withArrays_arr spec4 launch4.win.arr_inj c _ _ w
theorem Wk9_of_ne (c : Dev nD) (b : Ref sig .tc) (hb : ∀ w, Pipeline.arrRef spec4 w ≠ b) :
    Wk9 m ρ c (Proc.devRef .tc b) = Wk8 m ρ c (Proc.devRef .tc b) := by
  unfold Wk9; exact Pipeline.withArrays_of_ne spec4 c _ _ b hb
/-- The same read at the TensorCore's references. -/
abbrev Vk9 : (c : Dev nD) → (b : Ref sig .tc) → Buf (Elt F) ((c : Thread nD τ).loc b) := fun c b => Wk9 m ρ c b
/-- At the exit each of the region's arrays holds what the pipeline leaves, and every other buffer what it held at entry. -/
theorem hF4 (c : Dev nD) (w : Fin cfg4.W) : (dat4 (Vk8 m ρ) c).arrAt w cfg4.N = Vk9 m ρ c (Pipeline.arrRef spec4 w) :=
  (Wk9_arr m ρ c w).symm
theorem hrest4 (c : Dev nD) : ∀ b, b ∉ Finset.univ.image (Pipeline.arrRef spec4) → Vk9 m ρ c b = Vk8 m ρ c b :=
  fun b hb => Wk9_of_ne m ρ c b fun w e => hb (Finset.mem_image.mpr ⟨w, Finset.mem_univ _, e⟩)

/-! ### The arguments end as launched

No host operation writes an argument, and a region either bypasses it or reads it through an input window, so the
fold at an argument's buffer walks back to the launch memory. -/

theorem Wk9_main_arg0 (c : Dev nD) : Wk9 m ρ c (Proc.devRef .tc main_arg0) = m ((c : Thread nD τ).loc main_arg0) :=
  calc Wk9 m ρ c (Proc.devRef .tc main_arg0)
    _ = Wk8 m ρ c (Proc.devRef .tc main_arg0) := Wk9_of_ne m ρ c main_arg0 (by decide)
    _ = Wk7 m ρ c (Proc.devRef .tc main_arg0) := Wk8_of_ne m ρ c main_arg0 (by decide)
    _ = Wk6 m ρ c (Proc.devRef .tc main_arg0) := StableHlo.after_of_writes_sub hostOps3 _ hostOps3_writes (by decide)
    _ = Wk5 m ρ c (Proc.devRef .tc main_arg0) := Wk6_of_ne m ρ c main_arg0 (by decide)
    _ = Wk4 m ρ c (Proc.devRef .tc main_arg0) := StableHlo.after_of_writes_sub hostOps2 _ hostOps2_writes (by decide)
    _ = Wk3 m ρ c (Proc.devRef .tc main_arg0) := Wk4_of_ne m ρ c main_arg0 (by decide)
    _ = Wk2 m ρ c (Proc.devRef .tc main_arg0) := StableHlo.after_of_writes_sub hostOps1 _ hostOps1_writes (by decide)
    _ = Wk1 m ρ c (Proc.devRef .tc main_arg0) := Wk2_of_ne m ρ c main_arg0 (by decide)
    _ = Wk0 m ρ c (Proc.devRef .tc main_arg0) := StableHlo.after_of_writes_sub hostOps0 _ hostOps0_writes (by decide)
    _ = m ((c : Thread nD τ).loc main_arg0) := rfl

theorem Wk9_main_arg1 (c : Dev nD) : Wk9 m ρ c (Proc.devRef .tc main_arg1) = m ((c : Thread nD τ).loc main_arg1) :=
  calc Wk9 m ρ c (Proc.devRef .tc main_arg1)
    _ = Wk8 m ρ c (Proc.devRef .tc main_arg1) := Wk9_of_ne m ρ c main_arg1 (by decide)
    _ = Wk7 m ρ c (Proc.devRef .tc main_arg1) := Wk8_of_ne m ρ c main_arg1 (by decide)
    _ = Wk6 m ρ c (Proc.devRef .tc main_arg1) := StableHlo.after_of_writes_sub hostOps3 _ hostOps3_writes (by decide)
    _ = Wk5 m ρ c (Proc.devRef .tc main_arg1) := Wk6_of_ne m ρ c main_arg1 (by decide)
    _ = Wk4 m ρ c (Proc.devRef .tc main_arg1) := StableHlo.after_of_writes_sub hostOps2 _ hostOps2_writes (by decide)
    _ = Wk3 m ρ c (Proc.devRef .tc main_arg1) := Wk4_of_ne m ρ c main_arg1 (by decide)
    _ = Wk2 m ρ c (Proc.devRef .tc main_arg1) := StableHlo.after_of_writes_sub hostOps1 _ hostOps1_writes (by decide)
    _ = Wk1 m ρ c (Proc.devRef .tc main_arg1) := Wk2_of_ne m ρ c main_arg1 (by decide)
    _ = Wk0 m ρ c (Proc.devRef .tc main_arg1) := StableHlo.after_of_writes_sub hostOps0 _ hostOps0_writes (by decide)
    _ = m ((c : Thread nD τ).loc main_arg1) := rfl

theorem Wk9_main_arg2 (c : Dev nD) : Wk9 m ρ c (Proc.devRef .tc main_arg2) = m ((c : Thread nD τ).loc main_arg2) :=
  calc Wk9 m ρ c (Proc.devRef .tc main_arg2)
    _ = Wk8 m ρ c (Proc.devRef .tc main_arg2) := Wk9_of_ne m ρ c main_arg2 (by decide)
    _ = Wk7 m ρ c (Proc.devRef .tc main_arg2) := Wk8_of_ne m ρ c main_arg2 (by decide)
    _ = Wk6 m ρ c (Proc.devRef .tc main_arg2) := StableHlo.after_of_writes_sub hostOps3 _ hostOps3_writes (by decide)
    _ = Wk5 m ρ c (Proc.devRef .tc main_arg2) := Wk6_of_ne m ρ c main_arg2 (by decide)
    _ = Wk4 m ρ c (Proc.devRef .tc main_arg2) := StableHlo.after_of_writes_sub hostOps2 _ hostOps2_writes (by decide)
    _ = Wk3 m ρ c (Proc.devRef .tc main_arg2) := Wk4_of_ne m ρ c main_arg2 (by decide)
    _ = Wk2 m ρ c (Proc.devRef .tc main_arg2) := StableHlo.after_of_writes_sub hostOps1 _ hostOps1_writes (by decide)
    _ = Wk1 m ρ c (Proc.devRef .tc main_arg2) := Wk2_of_ne m ρ c main_arg2 (by decide)
    _ = Wk0 m ρ c (Proc.devRef .tc main_arg2) := StableHlo.after_of_writes_sub hostOps0 _ hostOps0_writes (by decide)
    _ = m ((c : Thread nD τ).loc main_arg2) := rfl

theorem Wk9_main_arg3 (c : Dev nD) : Wk9 m ρ c (Proc.devRef .tc main_arg3) = m ((c : Thread nD τ).loc main_arg3) :=
  calc Wk9 m ρ c (Proc.devRef .tc main_arg3)
    _ = Wk8 m ρ c (Proc.devRef .tc main_arg3) := Wk9_of_ne m ρ c main_arg3 (by decide)
    _ = Wk7 m ρ c (Proc.devRef .tc main_arg3) := Wk8_of_ne m ρ c main_arg3 (by decide)
    _ = Wk6 m ρ c (Proc.devRef .tc main_arg3) := StableHlo.after_of_writes_sub hostOps3 _ hostOps3_writes (by decide)
    _ = Wk5 m ρ c (Proc.devRef .tc main_arg3) := Wk6_of_ne m ρ c main_arg3 (by decide)
    _ = Wk4 m ρ c (Proc.devRef .tc main_arg3) := StableHlo.after_of_writes_sub hostOps2 _ hostOps2_writes (by decide)
    _ = Wk3 m ρ c (Proc.devRef .tc main_arg3) := Wk4_of_ne m ρ c main_arg3 (by decide)
    _ = Wk2 m ρ c (Proc.devRef .tc main_arg3) := StableHlo.after_of_writes_sub hostOps1 _ hostOps1_writes (by decide)
    _ = Wk1 m ρ c (Proc.devRef .tc main_arg3) := (Wk2_arr m ρ c 1).trans (((dat0 (Vk1 m ρ) c).arrAt_in 1 rfl _).trans (A_eq0 (Vk1 m ρ) c 1))
    _ = Wk0 m ρ c (Proc.devRef .tc main_arg3) := StableHlo.after_of_writes_sub hostOps0 _ hostOps0_writes (by decide)
    _ = m ((c : Thread nD τ).loc main_arg3) := rfl

theorem Wk9_main_arg4 (c : Dev nD) : Wk9 m ρ c (Proc.devRef .tc main_arg4) = m ((c : Thread nD τ).loc main_arg4) :=
  calc Wk9 m ρ c (Proc.devRef .tc main_arg4)
    _ = Wk8 m ρ c (Proc.devRef .tc main_arg4) := Wk9_of_ne m ρ c main_arg4 (by decide)
    _ = Wk7 m ρ c (Proc.devRef .tc main_arg4) := Wk8_of_ne m ρ c main_arg4 (by decide)
    _ = Wk6 m ρ c (Proc.devRef .tc main_arg4) := StableHlo.after_of_writes_sub hostOps3 _ hostOps3_writes (by decide)
    _ = Wk5 m ρ c (Proc.devRef .tc main_arg4) := Wk6_of_ne m ρ c main_arg4 (by decide)
    _ = Wk4 m ρ c (Proc.devRef .tc main_arg4) := StableHlo.after_of_writes_sub hostOps2 _ hostOps2_writes (by decide)
    _ = Wk3 m ρ c (Proc.devRef .tc main_arg4) := (Wk4_arr m ρ c 1).trans (((dat1 (Vk3 m ρ) c).arrAt_in 1 rfl _).trans (A_eq1 (Vk3 m ρ) c 1))
    _ = Wk2 m ρ c (Proc.devRef .tc main_arg4) := StableHlo.after_of_writes_sub hostOps1 _ hostOps1_writes (by decide)
    _ = Wk1 m ρ c (Proc.devRef .tc main_arg4) := Wk2_of_ne m ρ c main_arg4 (by decide)
    _ = Wk0 m ρ c (Proc.devRef .tc main_arg4) := StableHlo.after_of_writes_sub hostOps0 _ hostOps0_writes (by decide)
    _ = m ((c : Thread nD τ).loc main_arg4) := rfl

theorem Wk9_main_arg5 (c : Dev nD) : Wk9 m ρ c (Proc.devRef .tc main_arg5) = m ((c : Thread nD τ).loc main_arg5) :=
  calc Wk9 m ρ c (Proc.devRef .tc main_arg5)
    _ = Wk8 m ρ c (Proc.devRef .tc main_arg5) := Wk9_of_ne m ρ c main_arg5 (by decide)
    _ = Wk7 m ρ c (Proc.devRef .tc main_arg5) := Wk8_of_ne m ρ c main_arg5 (by decide)
    _ = Wk6 m ρ c (Proc.devRef .tc main_arg5) := StableHlo.after_of_writes_sub hostOps3 _ hostOps3_writes (by decide)
    _ = Wk5 m ρ c (Proc.devRef .tc main_arg5) := (Wk6_arr m ρ c 1).trans (((dat2 (Vk5 m ρ) c).arrAt_in 1 rfl _).trans (A_eq2 (Vk5 m ρ) c 1))
    _ = Wk4 m ρ c (Proc.devRef .tc main_arg5) := StableHlo.after_of_writes_sub hostOps2 _ hostOps2_writes (by decide)
    _ = Wk3 m ρ c (Proc.devRef .tc main_arg5) := Wk4_of_ne m ρ c main_arg5 (by decide)
    _ = Wk2 m ρ c (Proc.devRef .tc main_arg5) := StableHlo.after_of_writes_sub hostOps1 _ hostOps1_writes (by decide)
    _ = Wk1 m ρ c (Proc.devRef .tc main_arg5) := Wk2_of_ne m ρ c main_arg5 (by decide)
    _ = Wk0 m ρ c (Proc.devRef .tc main_arg5) := StableHlo.after_of_writes_sub hostOps0 _ hostOps0_writes (by decide)
    _ = m ((c : Thread nD τ).loc main_arg5) := rfl

/-! ## The proof data family and the thread state -/

/-- Every pipeline's proof data, each at its region's entry contents: a literal match, so that the configuration
    pinned at a numeral reduces to the printed one. -/
def pdats : (p : Fin 5) → (c : Dev nD) → Dat τ (Elt F) Unit ℕ (UR sig nD τ) ℕ (Pipeline.pin (pcfgs (F := F)) adm p) c
  | ⟨0, _⟩ => fun c => dat0 (Vk1 m ρ) c
  | ⟨1, _⟩ => fun c => dat1 (Vk3 m ρ) c
  | ⟨2, _⟩ => fun c => dat2 (Vk5 m ρ) c
  | ⟨3, _⟩ => fun c => dat3 (Vk7 m ρ) c
  | ⟨4, _⟩ => fun c => dat4 (Vk8 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its debts, none. -/
abbrev R (c : Dev nD) : sProp 𝕄 := iprop((∃ r, prngReg c r) ∗ ∃ W, owes (c : Thread nD τ) (0 : CellTallies nD τ sig Unit) W)
/-- A stretch of host operations as a segment: over the unscoped references from the contents W, R riding along;
    it ends at those references at the contents after the operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (Wk9 m ρ c) ∗ ∃ r, prngReg c r)

end Cert.KernelIdeal.Hand

end
-- ==== Proof.KI.FlashBody.lean ====
/-
  The flash-attention pass: the body obligation at every grid point, by the point's case, and the invariant's two ends.
-/
import proofs.«161166_j30331059044530_2_alg».proof.Proof.KI.Flash

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t
    ∗ (dat3 V c).leavesExact 3 t ∗ (dat3 V c).leavesExact 4 t)

set_option maxHeartbeats 4800000 in
/-- The body at any point. The input buffers hold their blocks; the point's residue mod 16 says which case it is in;
    the invariant hands the body the scratch arrays at the state the point before left (at anything before the first
    point) and takes them back at this point's state; away from last key tiles the result buffers go back untouched, at
    a last key tile they come back stored whole; nothing is owed throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 64 := lt_of_lt_of_eq t.isLt (show cfg3.N = 64 from N_3)
  rw [show (dat3 V c).leavesExact 0 t = owns (c : Thread nD τ) (ms3_0 t) fullShare ((dat3 V c).after 0 t) from by
      unfold Dat.leavesExact; rw [liveAt3_0 t], after3_0]
  rw [show (dat3 V c).leavesExact 1 t = owns (c : Thread nD τ) (ms3_1 t) fullShare ((dat3 V c).after 1 t) from by
      unfold Dat.leavesExact; rw [liveAt3_1 t], after3_1]
  rw [show (dat3 V c).leavesExact 2 t = owns (c : Thread nD τ) (ms3_2 t) fullShare ((dat3 V c).after 2 t) from by
      unfold Dat.leavesExact; rw [liveAt3_2 t], after3_2]
  by_cases h0 : t.val % 16 = 0
  · have h1 : ¬t.val % 16 = 15 := by omega
    have hn1 : ¬cond3_1 (grid3.coords t) := fun h => h1 ((hcond3_1 t).mp h)
    rw [Dat.leavesExact_idle (dat3 V c) 3 t (idleAt3_3 t hn1) (noFlush3_3 t hn1)]
    rw [Dat.leavesExact_idle (dat3 V c) 4 t (idleAt3_4 t hn1) (noFlush3_4 t hn1)]
    rw [stAt3_A V c t h0 h1]
    unfold stOfA; (try dsimp only)
    by_cases hz : t.val = 0
    · rw [PhiS3_castSucc V c t, PhiS3_zero V c _ _ hz, PhiA3_eq]
      iintro ⟨⟨⟨⟨HS0, HS1, HS2⟩, Hrest⟩, Hg⟩, Ho, ⟨%d0, H0⟩, ⟨%d1, H1⟩, ⟨%d2, H2⟩, ⟨%d3, H3⟩, ⟨%d4, H4⟩⟩
      iapply ((runA V c t h0 h1).2.2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%e0, HS0⟩, ⟨%e1, HS1⟩, ⟨%e2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_eq_canon _ _ _ (coverA_0 V c t h0 h1)
            isplitl [HS1]
            · unfold owns; iexists _; isplitr
              swap; · iexact HS1
              ipureintro; exact View.read_writes_eq_canon _ _ _ (coverA_1 V c t h0 h1)
            unfold owns; iexists _; isplitr
            swap; · iexact HS2
            ipureintro; exact View.read_writes_eq_canon _ _ _ (coverA_2 V c t h0 h1)
          iexact Hrest
        iexact Hg
      isplitl [Ho]; · iexact Ho
      isplitl [H0]; · iexact H0
      isplitl [H1]; · iexact H1
      isplitl [H2]; · iexact H2
      isplitl [H3]; · iexists _; iexact H3
      iexists _; iexact H4
    · rw [PhiS3_castSucc V c t, PhiS3_pos V c _ _ hz]
      iintro ⟨⟨⟨⟨HS0, HS1, HS2⟩, Hrest⟩, Hg⟩, Ho, ⟨%d0, H0⟩, ⟨%d1, H1⟩, ⟨%d2, H2⟩, ⟨%d3, H3⟩, ⟨%d4, H4⟩⟩
      iapply ((runA V c t h0 h1).2.2.2 _ _ Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      isplitl [HS2]; · iexists _; iexact HS2
      iintro ⟨H0, H1, H2, H3, H4, ⟨%e0, HS0⟩, ⟨%e1, HS1⟩, ⟨%e2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_eq_canon _ _ _ (coverA_0 V c t h0 h1)
            isplitl [HS1]
            · unfold owns; iexists _; isplitr
              swap; · iexact HS1
              ipureintro; exact View.read_writes_eq_canon _ _ _ (coverA_1 V c t h0 h1)
            unfold owns; iexists _; isplitr
            swap; · iexact HS2
            ipureintro; exact View.read_writes_eq_canon _ _ _ (coverA_2 V c t h0 h1)
          iexact Hrest
        iexact Hg
      isplitl [Ho]; · iexact Ho
      isplitl [H0]; · iexact H0
      isplitl [H1]; · iexact H1
      isplitl [H2]; · iexact H2
      isplitl [H3]; · iexists _; iexact H3
      iexists _; iexact H4
  · have hz : t.val ≠ 0 := fun h => h0 (by rw [h])
    by_cases h1 : t.val % 16 = 15
    · have hc1 : cond3_1 (grid3.coords t) := (hcond3_1 t).mpr h1
      rw [show (dat3 V c).leavesExact 3 t = owns (c : Thread nD τ) (ms3_3 t) fullShare ((dat3 V c).after 3 t) from by
        unfold Dat.leavesExact; rw [liveAt3_3 t hc1], after3_3]
      rw [show (dat3 V c).leavesExact 4 t = owns (c : Thread nD τ) (ms3_4 t) fullShare ((dat3 V c).after 4 t) from by
        unfold Dat.leavesExact; rw [liveAt3_4 t hc1], after3_4]
      rw [stAt3_C V c t h0 h1, oAt3_C V c t h0 h1]
      unfold stOfC outOfC; (try dsimp only)
      rw [PhiS3_castSucc V c t, PhiS3_pos V c _ _ hz]
      iintro ⟨⟨⟨⟨HS0, HS1, HS2⟩, Hrest⟩, Hg⟩, Ho, ⟨%d0, H0⟩, ⟨%d1, H1⟩, ⟨%d2, H2⟩, ⟨%d3, H3⟩, ⟨%d4, H4⟩⟩
      iapply ((runC V c t h0 h1 _).2.2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      isplitl [HS2]; · iexact HS2
      iintro ⟨H0, H1, H2, ⟨%e3, H3⟩, ⟨%e4, H4⟩, ⟨%e0, HS0⟩, ⟨%e1, HS1⟩, ⟨%e2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_eq_canon _ _ _ (coverC_0 V c t h0 h1 _)
            isplitl [HS1]
            · unfold owns; iexists _; isplitr
              swap; · iexact HS1
              ipureintro; exact View.read_writes_eq_canon _ _ _ (coverC_1 V c t h0 h1 _)
            unfold owns; iexists _; isplitr
            swap; · iexact HS2
            ipureintro; exact View.read_writes_eq_canon _ _ _ (coverC_2 V c t h0 h1 _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_eq_canon _ _ _ (coverC_o V c t h0 h1 _)
      unfold owns; iexists _; isplitr
      swap; · iexact H4
      ipureintro; exact View.read_writes_eq_canon _ _ _ (coverC_e V c t h0 h1 _)
    · have hn1 : ¬cond3_1 (grid3.coords t) := fun h => h1 ((hcond3_1 t).mp h)
      rw [Dat.leavesExact_idle (dat3 V c) 3 t (idleAt3_3 t hn1) (noFlush3_3 t hn1)]
      rw [Dat.leavesExact_idle (dat3 V c) 4 t (idleAt3_4 t hn1) (noFlush3_4 t hn1)]
      rw [stAt3_B V c t h0 h1]
      unfold stOfB; (try dsimp only)
      rw [PhiS3_castSucc V c t, PhiS3_pos V c _ _ hz]
      iintro ⟨⟨⟨⟨HS0, HS1, HS2⟩, Hrest⟩, Hg⟩, Ho, ⟨%d0, H0⟩, ⟨%d1, H1⟩, ⟨%d2, H2⟩, ⟨%d3, H3⟩, ⟨%d4, H4⟩⟩
      iapply ((runB V c t h0 h1 _).2.2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%e0, HS0⟩, ⟨%e1, HS1⟩, ⟨%e2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_eq_canon _ _ _ (coverB_0 V c t h0 h1 _)
            isplitl [HS1]
            · unfold owns; iexists _; isplitr
              swap; · iexact HS1
              ipureintro; exact View.read_writes_eq_canon _ _ _ (coverB_1 V c t h0 h1 _)
            unfold owns; iexists _; isplitr
            swap; · iexact HS2
            ipureintro; exact View.read_writes_eq_canon _ _ _ (coverB_2 V c t h0 h1 _)
          iexact Hrest
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the region is entered with is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the class's back: the scratch arrays' named contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 64 := N_3; omega), PhiA3_eq]
  iintro ⟨⟨⟨HS0, HS1, HS2⟩, Hrest⟩, Hg⟩
  isplitl [HS0 HS1 HS2 Hrest]
  · isplitl [HS0 HS1 HS2]
    · isplitl [HS0]; · iexists _; iexact HS0
      isplitl [HS1]; · iexists _; iexact HS1
      iexists _; iexact HS2
    iexact Hrest
  iexact Hg

end Cert.KernelIdeal.Hand

end
-- ==== Proof.KI.Run.lean ====
/-
  The kernel program's run, second half: each kernel region as a segment over the thread state "every unscoped buffer
  at the boundary's contents, the generator register at some state, nothing owed", the program as the list of its nine
  segments, and the launch: every weakly fair execution terminates with every unscoped buffer at the fold's last
  valuation, hence with the argument arrays as launched.

  Four of the regions keep one invariant at every grid point (the scoped rest and the generator register, untouched). The
  flash-attention pass carries scratch arrays from point to point, so its invariant at the first and at the last point
  is joined to that one by two entailments instead of an equation.

  Stated for any float instance.
-/
import proofs.«161166_j30331059044530_2_alg».proof.Proof.KI.RunData
import proofs.«161166_j30331059044530_2_alg».proof.Proof.KI.FlashBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The flash-attention pass's invariant at its first and last points -/

/-- The fourth pipeline's proof data are the flash-attention pass's, at the contents the fold has before it. -/
theorem pdats_flash (c : Dev nD) : pdats m ρ 3 c = dat3 (Vk7 m ρ) c := rfl

/-- At the first point: the generator register and the scoped buffers no window stages make the invariant (the
    prefetched tables, of which there are none, are dropped). -/
theorem hin_flash (c : Dev nD) (P : sProp 𝕄) :
    iprop((∃ r, prngReg c r) ∗ P ∗ Pipeline.scopedRest (Pipeline.pin (pcfgs (F := F)) adm 3).spec c) ⊢ (pdats m ρ 3 c).Φ 0 := by
  refine BIBase.Entails.trans ?_ (show (Pipeline.ΦA spec3 c : sProp 𝕄) ⊢ (pdats m ρ 3 c).Φ 0 from hin3 (Vk7 m ρ) c)
  unfold Pipeline.ΦA
  iintro ⟨Hp, -, Hr⟩
  isplitl [Hr]; · iexact Hr
  iexact Hp

/-- At the last point the invariant gives the generator register and those scoped buffers back. The point is kept a
    variable until it is named, so that the invariant there is never opened. -/
theorem hout_flash (c : Dev nD) :
    (pdats m ρ 3 c).Φ (Fin.last (Pipeline.pin (pcfgs (F := F)) adm 3).N)
      ⊢ iprop((∃ r, prngReg c r) ∗ (BI.emp : sProp 𝕄) ∗ Pipeline.scopedRest (Pipeline.pin (pcfgs (F := F)) adm 3).spec c) := by
  have key : ∀ i : Fin (cfg3.N + 1), i = Fin.last cfg3.N → ((dat3 (Vk7 m ρ) c).Φ i ⊢ (Pipeline.ΦA spec3 c : sProp 𝕄)) := by
    intro i hi; subst hi; exact hout3 (Vk7 m ρ) c
  rw [pdats_flash m ρ c]
  refine BIBase.Entails.trans (key _ rfl) ?_
  unfold Pipeline.ΦA
  iintro ⟨Hr, Hp⟩
  isplitl [Hp]; · iexact Hp
  isplitr; · iempintro
  iexact Hr

/-! ## The regions as segments -/

-- a library lemma stated over a pinned configuration unifies with the printed one only when unification may unfold
-- plain definitions in a metavariable's type
set_option backward.isDefEq.respectTransparency.types false in
/-- The first projection over the thread state: entered from every unscoped buffer at the contents before it, left at the
    contents after it. Its arrays are split out of the unscoped buffers at entry and put back at the exit contents; the
    generator register goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vk1 m ρ) c).loose
  hwaits := Pipeline.hwaits_of_owed_zero _ _ _ _ L lv 0 fun _ _ => rfl
  pre c := iprop(StableHlo.held (c : Thread nD τ) (Pipeline.ucRefs τ sig) (Wk1 m ρ c) ∗ R c)
  post c := iprop(StableHlo.held (c : Thread nD τ) (Pipeline.ucRefs τ sig) (Wk2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vk1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vk1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vk1 m ρ c) (Vk2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may unfold
-- plain definitions in a metavariable's type
set_option backward.isDefEq.respectTransparency.types false in
/-- The second projection over the thread state: entered from every unscoped buffer at the contents before it, left at the
    contents after it. Its arrays are split out of the unscoped buffers at entry and put back at the exit contents; the
    generator register goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vk3 m ρ) c).loose
  hwaits := Pipeline.hwaits_of_owed_zero _ _ _ _ L lv 1 fun _ _ => rfl
  pre c := iprop(StableHlo.held (c : Thread nD τ) (Pipeline.ucRefs τ sig) (Wk3 m ρ c) ∗ R c)
  post c := iprop(StableHlo.held (c : Thread nD τ) (Pipeline.ucRefs τ sig) (Wk4 m ρ c) ∗ R c)
  X c := iprop(∃ r, prngReg c r)
  Y c := iprop(∃ r, prngReg c r)
  Z c := Pipeline.unscopedRest (Ix := Unit) (Name := ℕ) (U := UR sig nD τ) (Lvl := ℕ) spec1 c (Vk3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vk3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vk3 m ρ c) (Vk4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may unfold
-- plain definitions in a metavariable's type
set_option backward.isDefEq.respectTransparency.types false in
/-- The third projection over the thread state: entered from every unscoped buffer at the contents before it, left at the
    contents after it. Its arrays are split out of the unscoped buffers at entry and put back at the exit contents; the
    generator register goes into the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vk5 m ρ) c).loose
  hwaits := Pipeline.hwaits_of_owed_zero _ _ _ _ L lv 2 fun _ _ => rfl
  pre c := iprop(StableHlo.held (c : Thread nD τ) (Pipeline.ucRefs τ sig) (Wk5 m ρ c) ∗ R c)
  post c := iprop(StableHlo.held (c : Thread nD τ) (Pipeline.ucRefs τ sig) (Wk6 m ρ c) ∗ R c)
  X c := iprop(∃ r, prngReg c r)
  Y c := iprop(∃ r, prngReg c r)
  Z c := Pipeline.unscopedRest (Ix := Unit) (Name := ℕ) (U := UR sig nD τ) (Lvl := ℕ) spec2 c (Vk5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vk5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vk5 m ρ c) (Vk6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may unfold
-- plain definitions in a metavariable's type
set_option backward.isDefEq.respectTransparency.types false in
/-- The flash-attention pass over the thread state: entered from every unscoped buffer at the contents before it, left at the
    contents after it. Its arrays are split out of the unscoped buffers at entry and put back at the exit contents; the
    generator register goes into the region's invariant and comes back; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vk7 m ρ) c).loose
  hwaits := Pipeline.hwaits_of_owed_zero _ _ _ _ L lv 3 fun _ _ => rfl
  pre c := iprop(StableHlo.held (c : Thread nD τ) (Pipeline.ucRefs τ sig) (Wk7 m ρ c) ∗ R c)
  post c := iprop(StableHlo.held (c : Thread nD τ) (Pipeline.ucRefs τ sig) (Wk8 m ρ c) ∗ R c)
  X c := iprop(∃ r, prngReg c r)
  Y c := iprop(∃ r, prngReg c r)
  Z c := Pipeline.unscopedRest (Ix := Unit) (Name := ℕ) (U := UR sig nD τ) (Lvl := ℕ) spec3 c (Vk7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vk7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin_flash m ρ c _
  hout c := by
    rw [Pipeline.ownSems0_none]
    exact hout_flash m ρ c
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vk7 m ρ c) (Vk8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may unfold
-- plain definitions in a metavariable's type
set_option backward.isDefEq.respectTransparency.types false in
/-- The attention-matrix pass over the thread state: entered from every unscoped buffer at the contents before it, left at the
    contents after it. Its arrays are split out of the unscoped buffers at entry and put back at the exit contents; the
    generator register goes into the region's invariant and comes back; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vk8 m ρ) c).loose
  hwaits := Pipeline.hwaits_of_owed_zero _ _ _ _ L lv 4 fun _ _ => rfl
  pre c := iprop(StableHlo.held (c : Thread nD τ) (Pipeline.ucRefs τ sig) (Wk8 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (Vk8 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (Vk8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (Vk8 m ρ c) (Vk9 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's nine segments in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (Wk0 m ρ)),
    .region (reg0 m ρ),
    .host (hseg hostOps1 hostOps1_sub hostOps1_fresh (Wk2 m ρ)),
    .region (reg1 m ρ),
    .host (hseg hostOps2 hostOps2_sub hostOps2_fresh (Wk4 m ρ)),
    .region (reg2 m ρ),
    .host (hseg hostOps3 hostOps3_sub hostOps3_fresh (Wk6 m ρ)),
    .region (reg3 m ρ),
    .region (reg4 m ρ) ]
/-- The program is the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- From any memory with zero counters, every weakly fair execution of the program on the TensorCores terminates, nothing
    faulting, and in every final state each unscoped buffer holds what the fold's last valuation says. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wk9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wk0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Wk0 m ρ c)
        from Pipeline.unscopedBufs_held c (Wk0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wk9 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wk9 m ρ c) s')
      isplitl [Hh] <;> iassumption)
    (hQ := fun s h => h)

/-- The frame: every weakly fair execution of the program terminates, nothing faulting, and every final state has the six
    argument arrays as launched — each read off the last valuation, which at an argument is the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
      ⟨(h c _ (mem_uc main_arg0 (by decide))).trans (Wk9_main_arg0 m ρ c),
        (h c _ (mem_uc main_arg1 (by decide))).trans (Wk9_main_arg1 m ρ c),
        (h c _ (mem_uc main_arg2 (by decide))).trans (Wk9_main_arg2 m ρ c),
        (h c _ (mem_uc main_arg3 (by decide))).trans (Wk9_main_arg3 m ρ c),
        (h c _ (mem_uc main_arg4 (by decide))).trans (Wk9_main_arg4 m ρ c),
        (h c _ (mem_uc main_arg5 (by decide))).trans (Wk9_main_arg5 m ρ c)⟩)
    (run_all m ρ)

end Cert.KernelIdeal.Hand

end
-- ==== Proof.KI.ProjSpec.lean ====
import Idealize.ShloMosaic.PureOps.Ideal.Laws
import Idealize.ShloMosaic.Lib.ValueIdx

/-! # The linear projections' result, as one function of the input and the weight

For a 16384 × 256 input x and a 256 × 256 weight W, the matrix x Wᵀ: at row r and column n,
∑ d, x (r, d) · W (n, d) — row r of the input against ROW n of the weight. Stated over the extended reals,
where the sum and the products are the exact ones. -/

noncomputable section

open scoped BigOperators

namespace Cert.KernelIdeal.HandValue

open Idealize.ShloMosaic Idealize.ShloMosaic.ValueIdx

/-- x Wᵀ, entry by entry. -/
abbrev xWt (x : (⟨2, ![16384, 256]⟩ : Shape).Idx → EReal) (w : (⟨2, ![256, 256]⟩ : Shape).Idx → EReal) :
    (⟨2, ![16384, 256]⟩ : Shape).Idx → EReal :=
  fun i => ∑ d : Fin 256, x (ix2 (i 0) d) * w (ix2 (i 1) d)

/-- The same entry with the row and the column named. -/
theorem xWt_apply (x : (⟨2, ![16384, 256]⟩ : Shape).Idx → EReal) (w : (⟨2, ![256, 256]⟩ : Shape).Idx → EReal)
    (r : Fin 16384) (n : Fin 256) : xWt x w (ix2 r n) = ∑ d : Fin 256, x (ix2 r d) * w (ix2 n d) := rfl

end Cert.KernelIdeal.HandValue

end
-- ==== Proof.LibTransposedRhsMatmul.lean ====
/-
  A matrix product whose right operand is contracted on its LAST axis, read at an index at the ideal values.

  For an M × K left operand and an N × K right operand (the right one is the transpose of the matrix a textbook
  product would take), the product into the zero accumulator has, at (i, j), the entry
      ∑_k  lhs (i, k) · rhs (j, k) :
  row i of the left operand against ROW j of the right one. The dimension numbers are the library's
  DotDims.transposedRhs M K N (contract axis 1 of both operands; rows of the left operand, then rows of the right one,
  index the result); a printed record with those six lists equals it by rfl.

  At a result index (i, j) and a contraction position k the left operand is read at (i, k) and the right one at
  (j, k): the free axis of each operand takes its coordinate from the result index, the contracted axis takes the one
  coordinate of the contraction position. The sum over contraction positions is then a sum over k : Fin K.

  Stated for any M, K, N and any operand formats; a change of float format is the identity at the ideal values, so
  operands rounded to a shorter format before the product read the same.
-/
import Idealize.ShloMosaic.PureOps.Ideal.Laws
import Idealize.ShloMosaic.Lib.ValueIdx

noncomputable section

open scoped BigOperators

namespace Idealize.ShloMosaic.TransposedRhsMatmul

open Idealize.ShloMosaic Idealize.ShloMosaic.ValueIdx

variable {M K N : Nat}

/-- The left operand's row coordinate is the result's row coordinate. -/
theorem lhsIdx_free (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch by simp [DotDims.transposedRhs]),
    dif_pos (show (0 : Fin (⟨2, ![M, K]⟩ : Shape).rank) ∈ (DotDims.transposedRhs M K N).lhsNonContracting by simp [DotDims.transposedRhs])]
  rfl

/-- The left operand's column coordinate is the contraction position. -/
theorem lhsIdx_contr (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand's row coordinate is the result's column coordinate. -/
theorem rhsIdx_free (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch by simp [DotDims.transposedRhs]),
    dif_pos (show (0 : Fin (⟨2, ![N, K]⟩ : Shape).rank) ∈ (DotDims.transposedRhs M K N).rhsNonContracting by simp [DotDims.transposedRhs])]
  rfl

/-- The right operand's column coordinate is the contraction position too. -/
theorem rhsIdx_contr (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The product into the zero accumulator at (i, j): row i of the left operand against row j of the right one. -/
theorem transposedRhsMatmul_apply {φ₁ φ₂ : FTy} (prec : Option ContractPrecision)
    (lhs : FVec Ideal ⟨2, ![M, K]⟩ φ₁) (rhs : FVec Ideal ⟨2, ![N, K]⟩ φ₂) (i : Fin M) (j : Fin N) :
    FloatOps.matmul (DotDims.transposedRhs M K N) prec lhs rhs (constant ⟨2, ![M, N]⟩ .f32 0x00000000#32) (ix2 i j)
      = ∑ k : Fin K, lhs (ix2 i k) * rhs (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k) = ix2 i k :=
    funext fun a => Fin.ext (by
      match a with
      | ⟨0, _⟩ => exact lhsIdx_free _ _
      | ⟨1, _⟩ => exact (lhsIdx_contr _ _).trans hk)
  have er : (DotDims.transposedRhs M K N).rhsIdx (ix2 i j) ((contrEquiv1 (DotDims.transposedRhs M K N) K rfl rfl).symm k) = ix2 j k :=
    funext fun a => Fin.ext (by
      match a with
      | ⟨0, _⟩ => exact rhsIdx_free _ _
      | ⟨1, _⟩ => exact (rhsIdx_contr _ _).trans hk)
  rw [el, er]

end Idealize.ShloMosaic.TransposedRhsMatmul

end
-- ==== Proof.KI.Proj0Value.lean ====
import proofs.«161166_j30331059044530_2_alg».proof.Proof.KI.Proj0
import proofs.«161166_j30331059044530_2_alg».proof.Proof.KI.ProjSpec
import proofs.«161166_j30331059044530_2_alg».proof.Proof.LibTransposedRhsMatmul
import Idealize.ShloMosaic.Lib.Pipeline.Value
import Idealize.ShloMosaic.Lib.ValueIdx
import Idealize.ShloMosaic.Lib.ValueLayout
import Idealize.ShloMosaic.PureOps.Ideal.Laws

/-! # Linear projection 0: what the region leaves in its output array, at the ideal values

At the ideal values a change of float format is the identity and the matrix product into a zero
accumulator is the plain sum of products, so the region's output array ends holding, at row r and column n,

    ∑ d, x (r, d) · W (n, d)

where x is the flattened input as the region finds it and W the weight: row r of x against ROW n of W
(both operands are contracted on their last axis, which is x Wᵀ).

Grid point t handles rows 1024 t … 1024 t + 1023: its input block is those rows of x, its weight block
is all of W, and its output block is those rows of the output. The 16 output blocks tile the 16384 rows,
so every entry of the output array is written by the point r / 1024. -/

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx Idealize.ShloMosaic.TransposedRhsMatmul

variable (V : (c : Dev nD) → (b : Ref sig .tc) → Buf (Elt Ideal) ((c : Thread nD τ).loc b))

/-- The zero offsets of a whole-buffer access, as a constant function. -/
theorem hz0 : (![0, 0] : Fin 2 → Nat) = fun _ => 0 := funext fun a => by fin_cases a <;> rfl

/-! ## The body's value at an entry of its block -/

/-- Entry (p, q) of what the body stores: row p of the input block against row q of the weight block. -/
theorem proj0_pay_apply (x : Vec Ideal S1024x256 .f32) (w : Vec Ideal S256x256 .f32) (p : Fin 1024) (q : Fin 256) :
    k0_pay1 x w (ix2 p q) = ∑ d : Fin 256, x (ix2 p d) * w (ix2 q d) := by
  unfold k0_pay1
  exact (transposedRhsMatmul_apply (M := 1024) (K := 256) (N := 256) (φ₁ := .bf16) (φ₂ := .bf16) none
      (truncf .bf16 (shapeCast S1024x256 x shapeCasts_S1024x256_S1024x256) bitsLt_bf16_f32) (truncf .bf16 w bitsLt_bf16_f32) p q).trans
    (Finset.sum_congr rfl fun d _ => by rw [truncf_apply, truncf_apply, shapeCast_self])

/-! ## The windows' blocks, read off the arrays -/

/-- The printed index maps, decided once over the grid: point t's input block and output block are block row
    t, in the one block column; the weight's block is always the one at the origin. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, d) of point t's input block is entry (1024 t + p, d) of the input array. -/
theorem xblk0_apply (c : Dev nD) (t : Fin cfg0.N) (p : Fin 1024) (d : Fin 256) (k : Fin 16384) (hk : k.val = t.val * 1024 + p.val) :
    (iblk0 V c 0 t : Vec Ideal S1024x256 .f32) (ix2 p d) = (V c main_v0 : S16384x256.Idx → EReal) (ix2 k d) := by
  obtain ⟨e0, e1, -⟩ := idx_facts0 t
  unfold iblk0
  rw [View.read_apply]
  show (V c main_v0 : S16384x256.Idx → EReal) _ = _
  refine congrArg _ ?_
  funext a
  apply Fin.ext
  match a with
  | ⟨0, _⟩ => show win0_0.index t (0 : Fin 2) * 1024 + 1 * p.val = k.val; rw [e0, hk]; omega
  | ⟨1, _⟩ => show win0_0.index t (1 : Fin 2) * 256 + 1 * d.val = d.val; rw [e1]; omega

/-- The weight's block at every point is the whole weight. -/
theorem wblk0_apply (c : Dev nD) (t : Fin cfg0.N) (q : Fin 256) (d : Fin 256) :
    (iblk0 V c 1 t : Vec Ideal S256x256 .f32) (ix2 q d) = (V c main_arg3 : S256x256.Idx → EReal) (ix2 q d) := by
  obtain ⟨-, -, e2, e3, -⟩ := idx_facts0 t
  unfold iblk0
  rw [View.read_apply]
  show (V c main_arg3 : S256x256.Idx → EReal) _ = _
  refine congrArg _ ?_
  funext a
  apply Fin.ext
  match a with
  | ⟨0, _⟩ => show win0_1.index t (0 : Fin 2) * 256 + 1 * q.val = q.val; rw [e2]; omega
  | ⟨1, _⟩ => show win0_1.index t (1 : Fin 2) * 256 + 1 * d.val = d.val; rw [e3]; omega

/-! ## The whole output array -/

/-- What point t writes back is block t of the input times the transposed weight. -/
theorem flushed0_2_eq (c : Dev nD) (t : Fin cfg0.N) :
    (dat0 (F := Ideal) V c).flushed 2 t = ((cfg0.win 2).blk t).view.read (Elt Ideal) (xWt (V c main_v0) (V c main_arg3)) := by
  show (cfg0.win 2).cut (grid0.coords t) ((dat0 (F := Ideal) V c).after 2 t) = _
  rw [after0_2]
  unfold out0_2
  rw [View.canon_unit_zero hz0]
  simp only [View.ld_unit_zero (S := S1024x256) hz0, View.ld_unit_zero (S := S256x256) hz0]
  obtain ⟨-, -, -, -, e4, e5⟩ := idx_facts0 t
  have hN : t.val < 16 := lt_of_lt_of_eq t.isLt N_0
  funext j
  obtain ⟨p, q, rfl⟩ : ∃ (p : Fin 1024) (q : Fin 256), j = ix2 p q := ⟨j 0, j 1, eq_ix2 j⟩
  rw [View.read_apply]
  have hemb : (((cfg0.win 2).blk t).view.emb (ix2 p q) : S16384x256.Idx)
      = ix2 (⟨t.val * 1024 + p.val, by have := p.isLt; omega⟩ : Fin 16384) q := by
    funext a
    apply Fin.ext
    match a with
    | ⟨0, _⟩ => show win0_2.index t (0 : Fin 2) * 1024 + 1 * p.val = t.val * 1024 + p.val; rw [e4]; omega
    | ⟨1, _⟩ => show win0_2.index t (1 : Fin 2) * 256 + 1 * q.val = q.val; rw [e5]; omega
  refine (proj0_pay_apply (iblk0 V c 0 t) (iblk0 V c 1 t) p q).trans ?_
  refine ((Finset.sum_congr rfl fun d _ => ?_).trans (xWt_apply (V c main_v0) (V c main_arg3) _ q).symm).trans (congrArg _ hemb.symm)
  rw [xblk0_apply V c t p d ⟨t.val * 1024 + p.val, by have := p.isLt; omega⟩ rfl, wblk0_apply V c t q d]

/-- An index of the output array is in point t's block iff each coordinate is in the block's range. -/
theorem mem_blk0_2 (t : Fin cfg0.N) (i : S16384x256.Idx) :
    i ∈ ((cfg0.win 2).blk t).view.set ↔ ∀ a : Fin 2, win0_2.index t a * S1024x256.size a ≤ (i a).val ∧ (i a).val < win0_2.index t a * S1024x256.size a + S1024x256.size a := by
  show i ∈ ((View.whole main_v1).slice (win0_2.rect t)).set ↔ _
  rw [View.set_slice_whole, Rect.mem_set_unit]
  exact Iff.rfl

/-- Every entry of the output array is in the block of the point that handles its row, and that point writes back. -/
theorem covered0_2 (i : S16384x256.Idx) :
    ∃ t : Fin cfg0.N, (cfg0.win 2).flush t = true ∧ i ∈ ((cfg0.win 2).blk t).view.set := by
  have hi0 : (i 0).val < 16384 := (i 0).isLt
  have hi1 : (i 1).val < 256 := (i 1).isLt
  have ht : (i 0).val / 1024 < cfg0.N := lt_of_lt_of_eq (by omega : (i 0).val / 1024 < 16) N_0.symm
  obtain ⟨-, -, -, -, e4, e5⟩ := idx_facts0 ⟨(i 0).val / 1024, ht⟩
  refine ⟨⟨(i 0).val / 1024, ht⟩, flush0_2 _, ?_⟩
  rw [mem_blk0_2]
  intro a
  match a with
  | ⟨0, _⟩ => show win0_2.index _ (0 : Fin 2) * 1024 ≤ (i 0).val ∧ (i 0).val < win0_2.index _ (0 : Fin 2) * 1024 + 1024; rw [e4]; show (i 0).val / 1024 * 1024 ≤ (i 0).val ∧ (i 0).val < (i 0).val / 1024 * 1024 + 1024; omega
  | ⟨1, _⟩ => show win0_2.index _ (1 : Fin 2) * 256 ≤ (i 1).val ∧ (i 1).val < win0_2.index _ (1 : Fin 2) * 256 + 256; rw [e5]; omega

/-- THE OUTPUT ARRAY after the region: the input times the transposed weight. -/
theorem arrAt0_2 (c : Dev nD) : (dat0 (F := Ideal) V c).arrAt 2 cfg0.N = xWt (V c main_v0) (V c main_arg3) :=
  (dat0 (F := Ideal) V c).arrAt_eq_of_cover 2 (xWt (V c main_v0) (V c main_arg3)) (fun t _ => flushed0_2_eq V c t) (covered0_2)

end Cert.KernelIdeal.HandValue

end
-- ==== Proof.KI.Proj1Value.lean ====
import proofs.«161166_j30331059044530_2_alg».proof.Proof.KI.Proj1
import proofs.«161166_j30331059044530_2_alg».proof.Proof.KI.ProjSpec
import proofs.«161166_j30331059044530_2_alg».proof.Proof.LibTransposedRhsMatmul
import Idealize.ShloMosaic.Lib.Pipeline.Value
import Idealize.ShloMosaic.Lib.ValueIdx
import Idealize.ShloMosaic.Lib.ValueLayout
import Idealize.ShloMosaic.PureOps.Ideal.Laws

/-! # Linear projection 1: what the region leaves in its output array, at the ideal values

At the ideal values a change of float format is the identity and the matrix product into a zero
accumulator is the plain sum of products, so the region's output array ends holding, at row r and column n,

    ∑ d, x (r, d) · W (n, d)

where x is the flattened input as the region finds it and W the weight: row r of x against ROW n of W
(both operands are contracted on their last axis, which is x Wᵀ).

Grid point t handles rows 1024 t … 1024 t + 1023: its input block is those rows of x, its weight block
is all of W, and its output block is those rows of the output. The 16 output blocks tile the 16384 rows,
so every entry of the output array is written by the point r / 1024. -/

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx Idealize.ShloMosaic.TransposedRhsMatmul

variable (V : (c : Dev nD) → (b : Ref sig .tc) → Buf (Elt Ideal) ((c : Thread nD τ).loc b))

/-- The zero offsets of a whole-buffer access, as a constant function. -/
theorem hz1 : (![0, 0] : Fin 2 → Nat) = fun _ => 0 := funext fun a => by fin_cases a <;> rfl

/-! ## The body's value at an entry of its block -/

/-- Entry (p, q) of what the body stores: row p of the input block against row q of the weight block. -/
theorem proj1_pay_apply (x : Vec Ideal S1024x256 .f32) (w : Vec Ideal S256x256 .f32) (p : Fin 1024) (q : Fin 256) :
    k1_pay1 x w (ix2 p q) = ∑ d : Fin 256, x (ix2 p d) * w (ix2 q d) := by
  unfold k1_pay1
  exact (transposedRhsMatmul_apply (M := 1024) (K := 256) (N := 256) (φ₁ := .bf16) (φ₂ := .bf16) none
      (truncf .bf16 (shapeCast S1024x256 x shapeCasts_S1024x256_S1024x256) bitsLt_bf16_f32) (truncf .bf16 w bitsLt_bf16_f32) p q).trans
    (Finset.sum_congr rfl fun d _ => by rw [truncf_apply, truncf_apply, shapeCast_self])

/-! ## The windows' blocks, read off the arrays -/

/-- The printed index maps, decided once over the grid: point t's input block and output block are block row
    t, in the one block column; the weight's block is always the one at the origin. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry (p, d) of point t's input block is entry (1024 t + p, d) of the input array. -/
theorem xblk1_apply (c : Dev nD) (t : Fin cfg1.N) (p : Fin 1024) (d : Fin 256) (k : Fin 16384) (hk : k.val = t.val * 1024 + p.val) :
    (iblk1 V c 0 t : Vec Ideal S1024x256 .f32) (ix2 p d) = (V c main_v3 : S16384x256.Idx → EReal) (ix2 k d) := by
  obtain ⟨e0, e1, -⟩ := idx_facts1 t
  unfold iblk1
  rw [View.read_apply]
  show (V c main_v3 : S16384x256.Idx → EReal) _ = _
  refine congrArg _ ?_
  funext a
  apply Fin.ext
  match a with
  | ⟨0, _⟩ => show win1_0.index t (0 : Fin 2) * 1024 + 1 * p.val = k.val; rw [e0, hk]; omega
  | ⟨1, _⟩ => show win1_0.index t (1 : Fin 2) * 256 + 1 * d.val = d.val; rw [e1]; omega

/-- The weight's block at every point is the whole weight. -/
theorem wblk1_apply (c : Dev nD) (t : Fin cfg1.N) (q : Fin 256) (d : Fin 256) :
    (iblk1 V c 1 t : Vec Ideal S256x256 .f32) (ix2 q d) = (V c main_arg4 : S256x256.Idx → EReal) (ix2 q d) := by
  obtain ⟨-, -, e2, e3, -⟩ := idx_facts1 t
  unfold iblk1
  rw [View.read_apply]
  show (V c main_arg4 : S256x256.Idx → EReal) _ = _
  refine congrArg _ ?_
  funext a
  apply Fin.ext
  match a with
  | ⟨0, _⟩ => show win1_1.index t (0 : Fin 2) * 256 + 1 * q.val = q.val; rw [e2]; omega
  | ⟨1, _⟩ => show win1_1.index t (1 : Fin 2) * 256 + 1 * d.val = d.val; rw [e3]; omega

/-! ## The whole output array -/

/-- What point t writes back is block t of the input times the transposed weight. -/
theorem flushed1_2_eq (c : Dev nD) (t : Fin cfg1.N) :
    (dat1 (F := Ideal) V c).flushed 2 t = ((cfg1.win 2).blk t).view.read (Elt Ideal) (xWt (V c main_v3) (V c main_arg4)) := by
  show (cfg1.win 2).cut (grid1.coords t) ((dat1 (F := Ideal) V c).after 2 t) = _
  rw [after1_2]
  unfold out1_2
  rw [View.canon_unit_zero hz1]
  simp only [View.ld_unit_zero (S := S1024x256) hz1, View.ld_unit_zero (S := S256x256) hz1]
  obtain ⟨-, -, -, -, e4, e5⟩ := idx_facts1 t
  have hN : t.val < 16 := lt_of_lt_of_eq t.isLt N_1
  funext j
  obtain ⟨p, q, rfl⟩ : ∃ (p : Fin 1024) (q : Fin 256), j = ix2 p q := ⟨j 0, j 1, eq_ix2 j⟩
  rw [View.read_apply]
  have hemb : (((cfg1.win 2).blk t).view.emb (ix2 p q) : S16384x256.Idx)
      = ix2 (⟨t.val * 1024 + p.val, by have := p.isLt; omega⟩ : Fin 16384) q := by
    funext a
    apply Fin.ext
    match a with
    | ⟨0, _⟩ => show win1_2.index t (0 : Fin 2) * 1024 + 1 * p.val = t.val * 1024 + p.val; rw [e4]; omega
    | ⟨1, _⟩ => show win1_2.index t (1 : Fin 2) * 256 + 1 * q.val = q.val; rw [e5]; omega
  refine (proj1_pay_apply (iblk1 V c 0 t) (iblk1 V c 1 t) p q).trans ?_
  refine ((Finset.sum_congr rfl fun d _ => ?_).trans (xWt_apply (V c main_v3) (V c main_arg4) _ q).symm).trans (congrArg _ hemb.symm)
  rw [xblk1_apply V c t p d ⟨t.val * 1024 + p.val, by have := p.isLt; omega⟩ rfl, wblk1_apply V c t q d]

/-- An index of the output array is in point t's block iff each coordinate is in the block's range. -/
theorem mem_blk1_2 (t : Fin cfg1.N) (i : S16384x256.Idx) :
    i ∈ ((cfg1.win 2).blk t).view.set ↔ ∀ a : Fin 2, win1_2.index t a * S1024x256.size a ≤ (i a).val ∧ (i a).val < win1_2.index t a * S1024x256.size a + S1024x256.size a := by
  show i ∈ ((View.whole main_v4).slice (win1_2.rect t)).set ↔ _
  rw [View.set_slice_whole, Rect.mem_set_unit]
  exact Iff.rfl

/-- Every entry of the output array is in the block of the point that handles its row, and that point writes back. -/
theorem covered1_2 (i : S16384x256.Idx) :
    ∃ t : Fin cfg1.N, (cfg1.win 2).flush t = true ∧ i ∈ ((cfg1.win 2).blk t).view.set := by
  have hi0 : (i 0).val < 16384 := (i 0).isLt
  have hi1 : (i 1).val < 256 := (i 1).isLt
  have ht : (i 0).val / 1024 < cfg1.N := lt_of_lt_of_eq (by omega : (i 0).val / 1024 < 16) N_1.symm
  obtain ⟨-, -, -, -, e4, e5⟩ := idx_facts1 ⟨(i 0).val / 1024, ht⟩
  refine ⟨⟨(i 0).val / 1024, ht⟩, flush1_2 _, ?_⟩
  rw [mem_blk1_2]
  intro a
  match a with
  | ⟨0, _⟩ => show win1_2.index _ (0 : Fin 2) * 1024 ≤ (i 0).val ∧ (i 0).val < win1_2.index _ (0 : Fin 2) * 1024 + 1024; rw [e4]; show (i 0).val / 1024 * 1024 ≤ (i 0).val ∧ (i 0).val < (i 0).val / 1024 * 1024 + 1024; omega
  | ⟨1, _⟩ => show win1_2.index _ (1 : Fin 2) * 256 ≤ (i 1).val ∧ (i 1).val < win1_2.index _ (1 : Fin 2) * 256 + 256; rw [e5]; omega

/-- THE OUTPUT ARRAY after the region: the input times the transposed weight. -/
theorem arrAt1_2 (c : Dev nD) : (dat1 (F := Ideal) V c).arrAt 2 cfg1.N = xWt (V c main_v3) (V c main_arg4) :=
  (dat1 (F := Ideal) V c).arrAt_eq_of_cover 2 (xWt (V c main_v3) (V c main_arg4)) (fun t _ => flushed1_2_eq V c t) (covered1_2)

end Cert.KernelIdeal.HandValue

end
-- ==== Proof.KI.Proj2Value.lean ====
import proofs.«161166_j30331059044530_2_alg».proof.Proof.KI.Proj2
import proofs.«161166_j30331059044530_2_alg».proof.Proof.KI.ProjSpec
import proofs.«161166_j30331059044530_2_alg».proof.Proof.LibTransposedRhsMatmul
import Idealize.ShloMosaic.Lib.Pipeline.Value
import Idealize.ShloMosaic.Lib.ValueIdx
import Idealize.ShloMosaic.Lib.ValueLayout
import Idealize.ShloMosaic.PureOps.Ideal.Laws

/-! # Linear projection 2: what the region leaves in its output array, at the ideal values

At the ideal values a change of float format is the identity and the matrix product into a zero
accumulator is the plain sum of products, so the region's output array ends holding, at row r and column n,

    ∑ d, x (r, d) · W (n, d)

where x is the flattened input as the region finds it and W the weight: row r of x against ROW n of W
(both operands are contracted on their last axis, which is x Wᵀ).

Grid point t handles rows 1024 t … 1024 t + 1023: its input block is those rows of x, its weight block
is all of W, and its output block is those rows of the output. The 16 output blocks tile the 16384 rows,
so every entry of the output array is written by the point r / 1024. -/

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx Idealize.ShloMosaic.TransposedRhsMatmul

variable (V : (c : Dev nD) → (b : Ref sig .tc) → Buf (Elt Ideal) ((c : Thread nD τ).loc b))

/-- The zero offsets of a whole-buffer access, as a constant function. -/
theorem hz2 : (![0, 0] : Fin 2 → Nat) = fun _ => 0 := funext fun a => by fin_cases a <;> rfl

/-! ## The body's value at an entry of its block -/

/-- Entry (p, q) of what the body stores: row p of the input block against row q of the weight block. -/
theorem proj2_pay_apply (x : Vec Ideal S1024x256 .f32) (w : Vec Ideal S256x256 .f32) (p : Fin 1024) (q : Fin 256) :
    k2_pay1 x w (ix2 p q) = ∑ d : Fin 256, x (ix2 p d) * w (ix2 q d) := by
  unfold k2_pay1
  exact (transposedRhsMatmul_apply (M := 1024) (K := 256) (N := 256) (φ₁ := .bf16) (φ₂ := .bf16) none
      (truncf .bf16 (shapeCast S1024x256 x shapeCasts_S1024x256_S1024x256) bitsLt_bf16_f32) (truncf .bf16 w bitsLt_bf16_f32) p q).trans
    (Finset.sum_congr rfl fun d _ => by rw [truncf_apply, truncf_apply, shapeCast_self])

/-! ## The windows' blocks, read off the arrays -/

/-- The printed index maps, decided once over the grid: point t's input block and output block are block row
    t, in the one block column; the weight's block is always the one at the origin. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (p, d) of point t's input block is entry (1024 t + p, d) of the input array. -/
theorem xblk2_apply (c : Dev nD) (t : Fin cfg2.N) (p : Fin 1024) (d : Fin 256) (k : Fin 16384) (hk : k.val = t.val * 1024 + p.val) :
    (iblk2 V c 0 t : Vec Ideal S1024x256 .f32) (ix2 p d) = (V c main_v6 : S16384x256.Idx → EReal) (ix2 k d) := by
  obtain ⟨e0, e1, -⟩ := idx_facts2 t
  unfold iblk2
  rw [View.read_apply]
  show (V c main_v6 : S16384x256.Idx → EReal) _ = _
  refine congrArg _ ?_
  funext a
  apply Fin.ext
  match a with
  | ⟨0, _⟩ => show win2_0.index t (0 : Fin 2) * 1024 + 1 * p.val = k.val; rw [e0, hk]; omega
  | ⟨1, _⟩ => show win2_0.index t (1 : Fin 2) * 256 + 1 * d.val = d.val; rw [e1]; omega

/-- The weight's block at every point is the whole weight. -/
theorem wblk2_apply (c : Dev nD) (t : Fin cfg2.N) (q : Fin 256) (d : Fin 256) :
    (iblk2 V c 1 t : Vec Ideal S256x256 .f32) (ix2 q d) = (V c main_arg5 : S256x256.Idx → EReal) (ix2 q d) := by
  obtain ⟨-, -, e2, e3, -⟩ := idx_facts2 t
  unfold iblk2
  rw [View.read_apply]
  show (V c main_arg5 : S256x256.Idx → EReal) _ = _
  refine congrArg _ ?_
  funext a
  apply Fin.ext
  match a with
  | ⟨0, _⟩ => show win2_1.index t (0 : Fin 2) * 256 + 1 * q.val = q.val; rw [e2]; omega
  | ⟨1, _⟩ => show win2_1.index t (1 : Fin 2) * 256 + 1 * d.val = d.val; rw [e3]; omega

/-! ## The whole output array -/

/-- What point t writes back is block t of the input times the transposed weight. -/
theorem flushed2_2_eq (c : Dev nD) (t : Fin cfg2.N) :
    (dat2 (F := Ideal) V c).flushed 2 t = ((cfg2.win 2).blk t).view.read (Elt Ideal) (xWt (V c main_v6) (V c main_arg5)) := by
  show (cfg2.win 2).cut (grid2.coords t) ((dat2 (F := Ideal) V c).after 2 t) = _
  rw [after2_2]
  unfold out2_2
  rw [View.canon_unit_zero hz2]
  simp only [View.ld_unit_zero (S := S1024x256) hz2, View.ld_unit_zero (S := S256x256) hz2]
  obtain ⟨-, -, -, -, e4, e5⟩ := idx_facts2 t
  have hN : t.val < 16 := lt_of_lt_of_eq t.isLt N_2
  funext j
  obtain ⟨p, q, rfl⟩ : ∃ (p : Fin 1024) (q : Fin 256), j = ix2 p q := ⟨j 0, j 1, eq_ix2 j⟩
  rw [View.read_apply]
  have hemb : (((cfg2.win 2).blk t).view.emb (ix2 p q) : S16384x256.Idx)
      = ix2 (⟨t.val * 1024 + p.val, by have := p.isLt; omega⟩ : Fin 16384) q := by
    funext a
    apply Fin.ext
    match a with
    | ⟨0, _⟩ => show win2_2.index t (0 : Fin 2) * 1024 + 1 * p.val = t.val * 1024 + p.val; rw [e4]; omega
    | ⟨1, _⟩ => show win2_2.index t (1 : Fin 2) * 256 + 1 * q.val = q.val; rw [e5]; omega
  refine (proj2_pay_apply (iblk2 V c 0 t) (iblk2 V c 1 t) p q).trans ?_
  refine ((Finset.sum_congr rfl fun d _ => ?_).trans (xWt_apply (V c main_v6) (V c main_arg5) _ q).symm).trans (congrArg _ hemb.symm)
  rw [xblk2_apply V c t p d ⟨t.val * 1024 + p.val, by have := p.isLt; omega⟩ rfl, wblk2_apply V c t q d]

/-- An index of the output array is in point t's block iff each coordinate is in the block's range. -/
theorem mem_blk2_2 (t : Fin cfg2.N) (i : S16384x256.Idx) :
    i ∈ ((cfg2.win 2).blk t).view.set ↔ ∀ a : Fin 2, win2_2.index t a * S1024x256.size a ≤ (i a).val ∧ (i a).val < win2_2.index t a * S1024x256.size a + S1024x256.size a := by
  show i ∈ ((View.whole main_v7).slice (win2_2.rect t)).set ↔ _
  rw [View.set_slice_whole, Rect.mem_set_unit]
  exact Iff.rfl

/-- Every entry of the output array is in the block of the point that handles its row, and that point writes back. -/
theorem covered2_2 (i : S16384x256.Idx) :
    ∃ t : Fin cfg2.N, (cfg2.win 2).flush t = true ∧ i ∈ ((cfg2.win 2).blk t).view.set := by
  have hi0 : (i 0).val < 16384 := (i 0).isLt
  have hi1 : (i 1).val < 256 := (i 1).isLt
  have ht : (i 0).val / 1024 < cfg2.N := lt_of_lt_of_eq (by omega : (i 0).val / 1024 < 16) N_2.symm
  obtain ⟨-, -, -, -, e4, e5⟩ := idx_facts2 ⟨(i 0).val / 1024, ht⟩
  refine ⟨⟨(i 0).val / 1024, ht⟩, flush2_2 _, ?_⟩
  rw [mem_blk2_2]
  intro a
  match a with
  | ⟨0, _⟩ => show win2_2.index _ (0 : Fin 2) * 1024 ≤ (i 0).val ∧ (i 0).val < win2_2.index _ (0 : Fin 2) * 1024 + 1024; rw [e4]; show (i 0).val / 1024 * 1024 ≤ (i 0).val ∧ (i 0).val < (i 0).val / 1024 * 1024 + 1024; omega
  | ⟨1, _⟩ => show win2_2.index _ (1 : Fin 2) * 256 ≤ (i 1).val ∧ (i 1).val < win2_2.index _ (1 : Fin 2) * 256 + 256; rw [e5]; omega

/-- THE OUTPUT ARRAY after the region: the input times the transposed weight. -/
theorem arrAt2_2 (c : Dev nD) : (dat2 (F := Ideal) V c).arrAt 2 cfg2.N = xWt (V c main_v6) (V c main_arg5) :=
  (dat2 (F := Ideal) V c).arrAt_eq_of_cover 2 (xWt (V c main_v6) (V c main_arg5)) (fun t _ => flushed2_2_eq V c t) (covered2_2)

end Cert.KernelIdeal.HandValue

end
-- ==== Proof.LibOnlineSoftmax.lean ====
/-
  The online softmax of one attention row, on the extended reals.

  A row of scores is met tile by tile. Before tile k the row carries a running maximum m_k, a running normalizer l_k and,
  for one output column, a running weighted sum a_k of that column's values; tile k replaces them by

      m_{k+1} = max m_k (max of the tile's scores),
      l_{k+1} = exp (m_k − m_{k+1}) · l_k + ∑_c exp (s_{k,c} − m_{k+1}),
      a_{k+1} = exp (m_k − m_{k+1}) · a_k + ∑_c exp (s_{k,c} − m_{k+1}) · v_{k,c},

  starting from m_0 = −∞, l_0 = a_0 = 0. When every score and value is a real number, then after n ≥ 1 tiles m_n is a
  real number and

      l_n = (∑_{k<n} ∑_c exp s_{k,c}) / exp m_n ,      a_n = (∑_{k<n} ∑_c exp s_{k,c} · v_{k,c}) / exp m_n :

  by induction, since exp (m − m') · (L / exp m) = L / exp m' and exp (s − m') = exp s / exp m'; the first tile is the same
  computation with exp (−∞ − m') · 0 = 0. So a_n / l_n is the softmax-weighted mean ∑ exp s · v / ∑ exp s, whatever the
  maxima were. The textbook form — subtract the row's maximum M, exponentiate, divide by the sum, then weight the values —
  is the same mean for the same reason (exp (s − M) = exp s / exp M cancels in the quotient). A sum over 4·1024 columns is
  the double sum over 4 tiles of 1024 columns.
-/
import Idealize.ShloMosaic.PureOps.Ideal
import Idealize.ShloMosaic.PureOps.Ideal.Laws

noncomputable section

open scoped BigOperators

namespace Cert.OnlineSoftmax

open Idealize.ShloMosaic

variable {W : Nat}

/-- The greatest score of a tile, folded from the starting value. -/
def tileMax (ninf : EReal) (σ : Fin W → EReal) : EReal := (Finset.univ : Finset (Fin W)).fold max ninf σ

/-- The running maximum before tile k. -/
def mSt (ninf : EReal) (σ : ℕ → Fin W → EReal) : ℕ → EReal
  | 0 => ninf
  | k + 1 => max (mSt ninf σ k) (tileMax ninf (σ k))

/-- The running normalizer before tile k. -/
def lSt (ninf z : EReal) (σ : ℕ → Fin W → EReal) : ℕ → EReal
  | 0 => z
  | k + 1 => Ideal.exp (mSt ninf σ k - mSt ninf σ (k + 1)) * lSt ninf z σ k
      + ∑ c : Fin W, Ideal.exp (σ k c - mSt ninf σ (k + 1))

/-- The running weighted sum of one output column before tile k. -/
def aSt (ninf z : EReal) (σ ν : ℕ → Fin W → EReal) : ℕ → EReal
  | 0 => z
  | k + 1 => Ideal.exp (mSt ninf σ k - mSt ninf σ (k + 1)) * aSt ninf z σ ν k
      + ∑ c : Fin W, Ideal.exp (σ k c - mSt ninf σ (k + 1)) * ν k c

/-- A finite sum of real numbers, taken on the extended reals, is the real sum. -/
theorem coe_sum {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The greatest of finitely many reals, folded from −∞ over a nonempty index type, is a real number. -/
theorem fold_max_real {ι : Type*} [Fintype ι] [Nonempty ι] (f : ι → ℝ) :
    ∃ r : ℝ, (Finset.univ : Finset ι).fold max (⊥ : EReal) (fun k => (f k : EReal)) = r := by
  have hlt : (Finset.univ : Finset ι).fold max (⊥ : EReal) (fun k => (f k : EReal)) < ⊤ := by
    rw [Finset.fold_max_lt]
    exact ⟨bot_lt_top, fun k _ => EReal.coe_lt_top _⟩
  have hgt : (⊥ : EReal) < (Finset.univ : Finset ι).fold max (⊥ : EReal) (fun k => (f k : EReal)) := by
    rw [Finset.lt_fold_max]
    obtain ⟨k⟩ := ‹Nonempty ι›
    exact Or.inr ⟨k, Finset.mem_univ k, EReal.bot_lt_coe _⟩
  exact ⟨_, (EReal.coe_toReal hlt.ne hgt.ne').symm⟩

/-- One tile, for real scores and values: from a row state that is either the start (−∞, 0, 0) or real with
    l = L / exp m and a = A / exp m, the next state is real with the tile's terms added to L and A. -/
theorem step_real [NeZero W] (σr νr : Fin W → ℝ) (m l a : EReal) (L A : ℝ)
    (h : (m = ⊥ ∧ l = 0 ∧ a = 0 ∧ L = 0 ∧ A = 0)
      ∨ ∃ mr : ℝ, m = mr ∧ l = ((L / Real.exp mr : ℝ) : EReal) ∧ a = ((A / Real.exp mr : ℝ) : EReal)) :
    ∃ mr' : ℝ, max m (tileMax ⊥ (fun c => (σr c : EReal))) = mr'
      ∧ Ideal.exp (m - mr') * l + ∑ c : Fin W, Ideal.exp ((σr c : EReal) - mr')
          = (((L + ∑ c : Fin W, Real.exp (σr c)) / Real.exp mr' : ℝ) : EReal)
      ∧ Ideal.exp (m - mr') * a + ∑ c : Fin W, Ideal.exp ((σr c : EReal) - mr') * (νr c : EReal)
          = (((A + ∑ c : Fin W, Real.exp (σr c) * νr c) / Real.exp mr' : ℝ) : EReal) := by
  haveI : Nonempty (Fin W) := ⟨⟨0, Nat.pos_of_ne_zero (NeZero.ne W)⟩⟩
  obtain ⟨tm, htm⟩ := fold_max_real σr
  have hsum1 : ∀ mr' : ℝ, ∑ c : Fin W, Ideal.exp ((σr c : EReal) - mr')
      = ((∑ c : Fin W, Real.exp (σr c) / Real.exp mr' : ℝ) : EReal) := fun mr' => by
    rw [← coe_sum]
    refine Finset.sum_congr rfl fun c _ => ?_
    rw [← EReal.coe_sub, Ideal.exp_coe, Real.exp_sub]
  have hsum2 : ∀ mr' : ℝ, ∑ c : Fin W, Ideal.exp ((σr c : EReal) - mr') * (νr c : EReal)
      = ((∑ c : Fin W, Real.exp (σr c) * νr c / Real.exp mr' : ℝ) : EReal) := fun mr' => by
    rw [← coe_sum]
    refine Finset.sum_congr rfl fun c _ => ?_
    rw [← EReal.coe_sub, Ideal.exp_coe, Real.exp_sub, ← EReal.coe_mul]
    congr 1; ring
  rcases h with ⟨rfl, rfl, rfl, rfl, rfl⟩ | ⟨mr, rfl, rfl, rfl⟩
  · refine ⟨tm, ?_, ?_, ?_⟩
    · unfold tileMax; rw [htm]; exact max_eq_right bot_le
    · rw [hsum1, EReal.bot_sub, Ideal.exp_bot, zero_mul, zero_add, zero_add, Finset.sum_div]
    · rw [hsum2, EReal.bot_sub, Ideal.exp_bot, zero_mul, zero_add, zero_add, Finset.sum_div]
  · refine ⟨max mr tm, ?_, ?_, ?_⟩
    · unfold tileMax; rw [htm]; exact (EReal.coe_strictMono.monotone.map_max (a := mr) (b := tm)).symm
    · rw [hsum1, ← EReal.coe_sub, Ideal.exp_coe, ← EReal.coe_mul, ← EReal.coe_add, Real.exp_sub, add_div,
        Finset.sum_div]
      congr 2
      field_simp
    · rw [hsum2, ← EReal.coe_sub, Ideal.exp_coe, ← EReal.coe_mul, ← EReal.coe_add, Real.exp_sub, add_div,
        Finset.sum_div]
      congr 2
      field_simp

/-- After n ≥ 1 tiles of real scores and values the running maximum is real, and the normalizer and the weighted sum are
    the plain sums of exponentials divided by its exponential. -/
theorem state_real [NeZero W] (σr νr : ℕ → Fin W → ℝ) (n : ℕ) :
    ∃ mr : ℝ, mSt ⊥ (fun k c => (σr k c : EReal)) (n + 1) = mr
      ∧ lSt ⊥ 0 (fun k c => (σr k c : EReal)) (n + 1)
          = (((∑ k ∈ Finset.range (n + 1), ∑ c : Fin W, Real.exp (σr k c)) / Real.exp mr : ℝ) : EReal)
      ∧ aSt ⊥ 0 (fun k c => (σr k c : EReal)) (fun k c => (νr k c : EReal)) (n + 1)
          = (((∑ k ∈ Finset.range (n + 1), ∑ c : Fin W, Real.exp (σr k c) * νr k c) / Real.exp mr : ℝ) : EReal) := by
  induction n with
  | zero =>
    obtain ⟨mr', h1, h2, h3⟩ := step_real (σr 0) (νr 0) ⊥ 0 0 0 0 (Or.inl ⟨rfl, rfl, rfl, rfl, rfl⟩)
    refine ⟨mr', h1, ?_, ?_⟩
    · show Ideal.exp (⊥ - max ⊥ (tileMax ⊥ fun c => (σr 0 c : EReal))) * 0 + ∑ c : Fin W, Ideal.exp ((σr 0 c : EReal) - max ⊥ (tileMax ⊥ fun c => (σr 0 c : EReal))) = _
      rw [h1, h2, Finset.sum_range_one, zero_add]
    · show Ideal.exp (⊥ - max ⊥ (tileMax ⊥ fun c => (σr 0 c : EReal))) * 0 + ∑ c : Fin W, Ideal.exp ((σr 0 c : EReal) - max ⊥ (tileMax ⊥ fun c => (σr 0 c : EReal))) * (νr 0 c : EReal) = _
      rw [h1, h3, Finset.sum_range_one, zero_add]
  | succ n ih =>
    obtain ⟨mr, hm, hl, ha⟩ := ih
    obtain ⟨mr', h1, h2, h3⟩ := step_real (σr (n + 1)) (νr (n + 1)) _ _ _ _ _ (Or.inr ⟨mr, hm, hl, ha⟩)
    refine ⟨mr', h1, ?_, ?_⟩
    · show Ideal.exp (mSt ⊥ _ (n + 1) - max (mSt ⊥ _ (n + 1)) (tileMax ⊥ fun c => (σr (n + 1) c : EReal))) * lSt ⊥ 0 _ (n + 1) + ∑ c : Fin W, Ideal.exp ((σr (n + 1) c : EReal) - max (mSt ⊥ _ (n + 1)) (tileMax ⊥ fun c => (σr (n + 1) c : EReal))) = _
      rw [h1, h2, Finset.sum_range_succ _ (n + 1)]
    · show Ideal.exp (mSt ⊥ _ (n + 1) - max (mSt ⊥ _ (n + 1)) (tileMax ⊥ fun c => (σr (n + 1) c : EReal))) * aSt ⊥ 0 _ _ (n + 1) + ∑ c : Fin W, Ideal.exp ((σr (n + 1) c : EReal) - max (mSt ⊥ _ (n + 1)) (tileMax ⊥ fun c => (σr (n + 1) c : EReal))) * (νr (n + 1) c : EReal) = _
      rw [h1, h3, Finset.sum_range_succ _ (n + 1)]

/-- The ideal quotient of a real by a nonzero real is the real quotient. -/
theorem div_coe_coe (p q : ℝ) (hq : q ≠ 0) : Ideal.div (p : EReal) (q : EReal) = ((p / q : ℝ) : EReal) := by
  rw [Ideal.div_coe hq, ← EReal.coe_mul, mul_one_div]

/-- The online result: after n ≥ 1 tiles of real scores and values, weighted sum over normalizer is the softmax-weighted mean. -/
theorem online_quotient [NeZero W] (σr νr : ℕ → Fin W → ℝ) (n : ℕ) :
    Ideal.div (aSt ⊥ 0 (fun k c => (σr k c : EReal)) (fun k c => (νr k c : EReal)) (n + 1))
        (lSt ⊥ 0 (fun k c => (σr k c : EReal)) (n + 1))
      = (((∑ k ∈ Finset.range (n + 1), ∑ c : Fin W, Real.exp (σr k c) * νr k c)
          / (∑ k ∈ Finset.range (n + 1), ∑ c : Fin W, Real.exp (σr k c)) : ℝ) : EReal) := by
  obtain ⟨mr, -, hl, ha⟩ := state_real σr νr n
  have hpos : 0 < ∑ k ∈ Finset.range (n + 1), ∑ c : Fin W, Real.exp (σr k c) :=
    Finset.sum_pos (fun k _ => Finset.sum_pos (fun c _ => Real.exp_pos _)
      ⟨⟨0, Nat.pos_of_ne_zero (NeZero.ne W)⟩, Finset.mem_univ _⟩) ⟨0, Finset.mem_range.mpr (Nat.succ_pos n)⟩
  rw [hl, ha, div_coe_coe _ _ (div_ne_zero hpos.ne' (Real.exp_pos mr).ne')]
  congr 1
  field_simp

/-- The textbook form: for a nonempty row of real scores and real values, subtracting the row's maximum (taken once
    more against −∞), exponentiating, dividing by zero plus the sum, and weighting the values gives the same mean. -/
theorem textbook_quotient {ι : Type*} [Fintype ι] [Nonempty ι] (sr vr : ι → ℝ) :
    ∑ j : ι, Ideal.div (Ideal.exp ((sr j : EReal) - max ⊥ ((Finset.univ : Finset ι).fold max ⊥ fun j => (sr j : EReal))))
        (0 + ∑ j' : ι, Ideal.exp ((sr j' : EReal) - max ⊥ ((Finset.univ : Finset ι).fold max ⊥ fun j => (sr j : EReal))))
        * (vr j : EReal)
      = (((∑ j : ι, Real.exp (sr j) * vr j) / (∑ j : ι, Real.exp (sr j)) : ℝ) : EReal) := by
  obtain ⟨M, hM⟩ := fold_max_real sr
  have hpos : 0 < ∑ j : ι, Real.exp (sr j) :=
    Finset.sum_pos (fun j _ => Real.exp_pos _) (Finset.univ_nonempty)
  have hden : (0 : EReal) + ∑ j' : ι, Ideal.exp ((sr j' : EReal) - (M : EReal))
      = (((∑ j : ι, Real.exp (sr j)) / Real.exp M : ℝ) : EReal) := by
    rw [zero_add, Finset.sum_div, ← coe_sum]
    refine Finset.sum_congr rfl fun j _ => ?_
    rw [← EReal.coe_sub, Ideal.exp_coe, Real.exp_sub]
  rw [hM, max_eq_right bot_le, hden]
  refine ((Finset.sum_congr rfl fun j _ => ?_).trans
    (coe_sum Finset.univ (fun j => Real.exp (sr j) * vr j / ∑ j, Real.exp (sr j)))).trans (by rw [Finset.sum_div])
  rw [← EReal.coe_sub, Ideal.exp_coe, div_coe_coe _ _ (div_ne_zero hpos.ne' (Real.exp_pos M).ne'), ← EReal.coe_mul,
    Real.exp_sub]
  congr 1
  field_simp

/-- Column c of tile k among 4 · 1024 columns. -/
abbrev col (k : ℕ) (c : Fin 1024) : Fin 4096 := ⟨(1024 * k + c.val) % 4096, Nat.mod_lt _ (by decide)⟩

/-- A sum over the 4096 columns is the sum over the 4 tiles of the sums over a tile's 1024 columns. -/
theorem sum_cols (g : Fin 4096 → ℝ) :
    ∑ j : Fin 4096, g j = ∑ k ∈ Finset.range 4, ∑ c : Fin 1024, g (col k c) := by
  rw [Finset.sum_range (fun k => ∑ c : Fin 1024, g (col k c)), ← Equiv.sum_comp (finProdFinEquiv (m := 4) (n := 1024)),
    Fintype.sum_prod_type]
  refine Finset.sum_congr rfl fun k _ => Finset.sum_congr rfl fun c _ => congrArg g (Fin.ext ?_)
  have hk := k.isLt; have hc := c.isLt
  show c.val + 1024 * k.val = (1024 * k.val + c.val) % 4096
  omega

end Cert.OnlineSoftmax

end
-- ==== Proof.AttnSpec.lean ====
/-
  Scaled dot-product attention with linear projections, as functions on the extended reals.

  The inputs are query, key, value : [4, 4096, 256] and three weights [256, 256]. A projection is y = x Wᵀ,
  y(b, l, e) = ∑_d x(b, l, d) · W(e, d). The score of query row i against key row j is the feature contraction
  times 1/16 (the feature width is 256, its square root 16). A row of scores is turned into weights by the softmax:
  subtract the row's greatest score, exponentiate, divide by the row's sum; the context is the weights' mean of the
  value rows.

  The same two results are also written the way a tiled pass meets a row: sixteen tiles of 256 key columns, a running
  maximum, normalizer and weighted sum carried from tile to tile (the online softmax), the context the last weighted
  sum over the last normalizer, and the weights exp (s − (m + log l)) from the last maximum m and normalizer l.
-/
import Idealize.ShloMosaic.PureOps.Ideal
import Idealize.ShloMosaic.Lib.ValueIdx
import proofs.«161166_j30331059044530_2_alg».proof.Proof.LibOnlineSoftmax

noncomputable section

open scoped BigOperators

namespace Cert.AttnSpec

open Idealize.ShloMosaic Idealize.ShloMosaic.ValueIdx Cert.OnlineSoftmax

/-- An array [4, 4096, 256] of extended reals: batch, position, feature. -/
abbrev A3 : Type := (⟨3, ![4, 4096, 256]⟩ : Shape).Idx → EReal
/-- A weight matrix [256, 256]: output feature, input feature. -/
abbrev W2 : Type := (⟨2, ![256, 256]⟩ : Shape).Idx → EReal
/-- An array [4, 4096, 4096]: batch, query position, key position. -/
abbrev P3 : Type := (⟨3, ![4, 4096, 4096]⟩ : Shape).Idx → EReal

/-! ## The textbook form -/

/-- The projection y = x Wᵀ at (b, l, e). -/
def proj (x : A3) (w : W2) (b : Fin 4) (l : Fin 4096) (e : Fin 256) : EReal :=
  ∑ d : Fin 256, x (ix3 b l d) * w (ix2 e d)

/-- The projection as an array. -/
def projArr (x : A3) (w : W2) : A3 := fun i => proj x w (i 0) (i 1) (i 2)

theorem projArr_ix3 (x : A3) (w : W2) (b : Fin 4) (l : Fin 4096) (e : Fin 256) :
    projArr x w (ix3 b l e) = proj x w b l e := rfl

/-- One sixteenth. -/
def c16 : EReal := ((1 / 16 : ℝ) : EReal)

/-- The score of query row i against key row j of batch b. -/
def score (q k : A3) (b : Fin 4) (i j : Fin 4096) : EReal :=
  (∑ d : Fin 256, q (ix3 b i d) * k (ix3 b j d)) * c16

/-- The greatest score of row (b, i), folded from −∞ and taken once more against −∞. -/
def rowMax (q k : A3) (b : Fin 4) (i : Fin 4096) : EReal :=
  max ⊥ ((Finset.univ : Finset (Fin 4096)).fold max ⊥ fun j => score q k b i j)

/-- The row's normalizer: zero plus the sum of the shifted exponentials. -/
def rowSum (q k : A3) (b : Fin 4) (i : Fin 4096) : EReal :=
  0 + ∑ j : Fin 4096, Ideal.exp (score q k b i j - rowMax q k b i)

/-- The softmax weight of key j for query i. -/
def attn (q k : A3) (b : Fin 4) (i j : Fin 4096) : EReal :=
  Ideal.div (Ideal.exp (score q k b i j - rowMax q k b i)) (rowSum q k b i)

/-- The context: the weights' mean of the value rows, at feature d. -/
def ctx (q k v : A3) (b : Fin 4) (i : Fin 4096) (d : Fin 256) : EReal :=
  ∑ j : Fin 4096, attn q k b i j * v (ix3 b j d)

/-- The two results as arrays of the six inputs. -/
def attnArr (x0 x1 : A3) (w0 w1 : W2) : P3 :=
  fun i => attn (projArr x0 w0) (projArr x1 w1) (i 0) (i 1) (i 2)
def ctxArr (x0 x1 x2 : A3) (w0 w1 w2 : W2) : A3 :=
  fun i => ctx (projArr x0 w0) (projArr x1 w1) (projArr x2 w2) (i 0) (i 1) (i 2)

theorem attnArr_ix3 (x0 x1 : A3) (w0 w1 : W2) (b : Fin 4) (i j : Fin 4096) :
    attnArr x0 x1 w0 w1 (ix3 b i j) = attn (projArr x0 w0) (projArr x1 w1) b i j := rfl
theorem ctxArr_ix3 (x0 x1 x2 : A3) (w0 w1 w2 : W2) (b : Fin 4) (i : Fin 4096) (d : Fin 256) :
    ctxArr x0 x1 x2 w0 w1 w2 (ix3 b i d) = ctx (projArr x0 w0) (projArr x1 w1) (projArr x2 w2) b i d := rfl

/-! ## The tiled form -/

/-- Key column c of tile T among 16 · 256 columns. -/
abbrev colOf (T : ℕ) (c : Fin 256) : Fin 4096 := ⟨(256 * T + c.val) % 4096, Nat.mod_lt _ (by decide)⟩

/-- Row (b, i)'s scores, tile by tile. -/
def tileScores (q k : A3) (b : Fin 4) (i : Fin 4096) : ℕ → Fin 256 → EReal :=
  fun T c => score q k b i (colOf T c)

/-- Feature d of the value rows, tile by tile. -/
def tileVals (v : A3) (b : Fin 4) (d : Fin 256) : ℕ → Fin 256 → EReal :=
  fun T c => v (ix3 b (colOf T c) d)

/-- The running maximum, normalizer and weighted sum of row (b, i) before tile T. -/
def mAt (q k : A3) (b : Fin 4) (i : Fin 4096) (T : ℕ) : EReal := mSt ⊥ (tileScores q k b i) T
def lAt (q k : A3) (b : Fin 4) (i : Fin 4096) (T : ℕ) : EReal := lSt ⊥ 0 (tileScores q k b i) T
def aAt (q k v : A3) (b : Fin 4) (i : Fin 4096) (d : Fin 256) (T : ℕ) : EReal :=
  aSt ⊥ 0 (tileScores q k b i) (tileVals v b d) T

/-- The tiled context: the last weighted sum over the last normalizer. -/
def tiledCtx (q k v : A3) (b : Fin 4) (i : Fin 4096) (d : Fin 256) : EReal :=
  Ideal.div (aAt q k v b i d 16) (lAt q k b i 16)

/-- The row's log-sum-exp from the last maximum and normalizer. -/
def tiledLse (q k : A3) (b : Fin 4) (i : Fin 4096) : EReal := mAt q k b i 16 + Ideal.log (lAt q k b i 16)

/-- The tiled weight: the score's exponential shifted by the row's log-sum-exp. -/
def tiledAttn (q k : A3) (b : Fin 4) (i j : Fin 4096) : EReal :=
  Ideal.exp (score q k b i j - tiledLse q k b i)

/-- The tiled results as arrays of the six inputs. -/
def tiledAttnArr (x0 x1 : A3) (w0 w1 : W2) : P3 :=
  fun i => tiledAttn (projArr x0 w0) (projArr x1 w1) (i 0) (i 1) (i 2)
def tiledCtxArr (x0 x1 x2 : A3) (w0 w1 w2 : W2) : A3 :=
  fun i => tiledCtx (projArr x0 w0) (projArr x1 w1) (projArr x2 w2) (i 0) (i 1) (i 2)

theorem tiledAttnArr_ix3 (x0 x1 : A3) (w0 w1 : W2) (b : Fin 4) (i j : Fin 4096) :
    tiledAttnArr x0 x1 w0 w1 (ix3 b i j) = tiledAttn (projArr x0 w0) (projArr x1 w1) b i j := rfl
theorem tiledCtxArr_ix3 (x0 x1 x2 : A3) (w0 w1 w2 : W2) (b : Fin 4) (i : Fin 4096) (d : Fin 256) :
    tiledCtxArr x0 x1 x2 w0 w1 w2 (ix3 b i d) = tiledCtx (projArr x0 w0) (projArr x1 w1) (projArr x2 w2) b i d := rfl

end Cert.AttnSpec

end
-- ==== Proof.KI.Thread.lean ====
import proofs.«161166_j30331059044530_2_alg».proof.Proof.KI.RunData
import proofs.«161166_j30331059044530_2_alg».proof.Proof.KI.Proj0Value
import proofs.«161166_j30331059044530_2_alg».proof.Proof.KI.Proj1Value
import proofs.«161166_j30331059044530_2_alg».proof.Proof.KI.Proj2Value
import proofs.«161166_j30331059044530_2_alg».proof.Proof.AttnSpec
import Idealize.ShloMosaic.Lib.StableHlo.Run

/-! # The three projections, threaded through the program to its arguments

Between the regions the program only reshapes: each input [4, 4096, 256] is flattened to [16384, 256] before
its projection, and each projection's [16384, 256] result is unflattened to [4, 4096, 256] after it. Row
(b, l) of the rank-3 array is row 4096 b + l of the flat one, so a flatten, x Wᵀ on the flat array, and an
unflatten is the projection y (b, l, e) = ∑ d, x (b, l, d) · W (e, d) of the rank-3 input.

No piece of the program writes an argument, and after a projection's result is unflattened nothing writes
it again, so the query, key and value arrays the two attention passes read are the three projections of
the launch arguments; and what those passes leave in their output arrays is what their own pipelines'
write-backs leave. -/

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open Cert.AttnSpec (A3 W2 projArr)

/-! ## Flatten, project, unflatten -/

/-- Unflattening x Wᵀ of the flattened input is the projection of the rank-3 input. -/
theorem unflatten_xWt_flatten (a : A3) (w : W2) :
    shapeCast S4x4096x256 (xWt (shapeCast S16384x256 a shapeCasts_S4x4096x256_S16384x256) w) shapeCasts_S16384x256_S4x4096x256
      = projArr a w := by
  funext i
  obtain ⟨b, l, e, rfl⟩ : ∃ (b : Fin 4) (l : Fin 4096) (e : Fin 256), i = ix3 b l e := ⟨i 0, i 1, i 2, eq_ix3 i⟩
  have hb := b.isLt
  have hl := l.isLt
  have he := e.isLt
  have hrow : b.val * 4096 + l.val < 16384 := by omega
  refine (shapeCast_apply _ _ (ix3 b l e) (ix2 (⟨b.val * 4096 + l.val, hrow⟩ : Fin 16384) e) ?_).trans ?_
  · rw [Shape.rowMajor_val_two, Shape.rowMajor_val_three]
    show (b.val * 4096 + l.val) * 256 + e.val = (b.val * 4096 + l.val) * 256 + e.val
    rfl
  refine (xWt_apply _ w ⟨b.val * 4096 + l.val, hrow⟩ e).trans ?_
  show _ = ∑ d : Fin 256, a (ix3 b l d) * w (ix2 e d)
  refine Finset.sum_congr rfl fun d _ => ?_
  have hd := d.isLt
  refine congrArg (· * w (ix2 e d)) ?_
  refine shapeCast_apply _ _ (ix2 (⟨b.val * 4096 + l.val, hrow⟩ : Fin 16384) d) (ix3 b l d) ?_
  rw [Shape.rowMajor_val_two, Shape.rowMajor_val_three]
  show (b.val * 4096 + l.val) * 256 + d.val = (b.val * 4096 + l.val) * 256 + d.val
  rfl

/-! ## The host stretches, read at the buffers they write -/

section Stretches
variable (W : Valuation τ sig (Elt Ideal))

theorem after0_v0 : StableHlo.after hostOps0 W (Proc.devRef .tc main_v0)
    = shapeCast S16384x256 (W (Proc.devRef .tc main_arg0)) shapeCasts_S4x4096x256_S16384x256 := by
  after_results; rfl
theorem after1_v2 : StableHlo.after hostOps1 W (Proc.devRef .tc main_v2)
    = shapeCast S4x4096x256 (W (Proc.devRef .tc main_v1)) shapeCasts_S16384x256_S4x4096x256 := by
  after_results; rfl
theorem after1_v3 : StableHlo.after hostOps1 W (Proc.devRef .tc main_v3)
    = shapeCast S16384x256 (W (Proc.devRef .tc main_arg1)) shapeCasts_S4x4096x256_S16384x256 := by
  after_results; rfl
theorem after2_v5 : StableHlo.after hostOps2 W (Proc.devRef .tc main_v5)
    = shapeCast S4x4096x256 (W (Proc.devRef .tc main_v4)) shapeCasts_S16384x256_S4x4096x256 := by
  after_results; rfl
theorem after2_v6 : StableHlo.after hostOps2 W (Proc.devRef .tc main_v6)
    = shapeCast S16384x256 (W (Proc.devRef .tc main_arg2)) shapeCasts_S4x4096x256_S16384x256 := by
  after_results; rfl
theorem after3_v8 : StableHlo.after hostOps3 W (Proc.devRef .tc main_v8)
    = shapeCast S4x4096x256 (W (Proc.devRef .tc main_v7)) shapeCasts_S16384x256_S4x4096x256 := by
  after_results; rfl

end Stretches

variable (m : (ℓ : Loc nD τ sig) → Buf (Elt Ideal) ℓ) (ρ : Dev nD → PrngReg)

/-! ## The query -/

/-- The first projection's weight, as the region finds it, is the argument. -/
theorem Vk1_arg3 (c : Dev nD) : Vk1 m ρ c main_arg3 = m ((c : Thread nD τ).loc main_arg3) :=
  StableHlo.after_of_writes_sub hostOps0 _ hostOps0_writes (by decide)

/-- The first projection's input, as the region finds it, is the flattened query argument. -/
theorem Vk1_v0 (c : Dev nD) : Vk1 m ρ c main_v0
    = shapeCast S16384x256 (m ((c : Thread nD τ).loc main_arg0)) shapeCasts_S4x4096x256_S16384x256 :=
  after0_v0 (Wk0 m ρ c)

/-- The unflattened result of the first projection, where it is written. -/
theorem q_at3 (c : Dev nD) : Wk3 m ρ c (Proc.devRef .tc main_v2)
    = projArr (m ((c : Thread nD τ).loc main_arg0)) (m ((c : Thread nD τ).loc main_arg3)) := by
  refine (after1_v2 (Wk2 m ρ c)).trans ?_
  rw [Wk2_arr m ρ c 2, arrAt0_2 (Vk1 m ρ) c, Vk1_v0, Vk1_arg3]
  exact unflatten_xWt_flatten _ _

/-- Nothing between there and the flash-attention pass writes it. -/
theorem q_at7 (c : Dev nD) : Vk7 m ρ c main_v2
    = projArr (m ((c : Thread nD τ).loc main_arg0)) (m ((c : Thread nD τ).loc main_arg3)) :=
  calc Wk7 m ρ c (Proc.devRef .tc main_v2)
    _ = Wk6 m ρ c (Proc.devRef .tc main_v2) := StableHlo.after_of_writes_sub hostOps3 _ hostOps3_writes (by decide)
    _ = Wk5 m ρ c (Proc.devRef .tc main_v2) := Wk6_of_ne m ρ c main_v2 (by decide)
    _ = Wk4 m ρ c (Proc.devRef .tc main_v2) := StableHlo.after_of_writes_sub hostOps2 _ hostOps2_writes (by decide)
    _ = Wk3 m ρ c (Proc.devRef .tc main_v2) := Wk4_of_ne m ρ c main_v2 (by decide)
    _ = _ := q_at3 m ρ c

/-- And the flash-attention pass reads it without writing it. -/
theorem q_at8 (c : Dev nD) : Vk8 m ρ c main_v2
    = projArr (m ((c : Thread nD τ).loc main_arg0)) (m ((c : Thread nD τ).loc main_arg3)) :=
  ((Wk8_arr m ρ c 0).trans (((dat3 (Vk7 m ρ) c).arrAt_in 0 rfl _).trans (A_eq3 (Vk7 m ρ) c 0))).trans (q_at7 m ρ c)

/-! ## The key -/

/-- The key argument is untouched up to the stretch before the second projection. -/
theorem Wk2_arg1 (c : Dev nD) : Wk2 m ρ c (Proc.devRef .tc main_arg1) = m ((c : Thread nD τ).loc main_arg1) :=
  calc Wk2 m ρ c (Proc.devRef .tc main_arg1)
    _ = Wk1 m ρ c (Proc.devRef .tc main_arg1) := Wk2_of_ne m ρ c main_arg1 (by decide)
    _ = Wk0 m ρ c (Proc.devRef .tc main_arg1) := StableHlo.after_of_writes_sub hostOps0 _ hostOps0_writes (by decide)
    _ = m ((c : Thread nD τ).loc main_arg1) := rfl

/-- The second projection's weight, as the region finds it, is the argument. -/
theorem Vk3_arg4 (c : Dev nD) : Vk3 m ρ c main_arg4 = m ((c : Thread nD τ).loc main_arg4) :=
  calc Wk3 m ρ c (Proc.devRef .tc main_arg4)
    _ = Wk2 m ρ c (Proc.devRef .tc main_arg4) := StableHlo.after_of_writes_sub hostOps1 _ hostOps1_writes (by decide)
    _ = Wk1 m ρ c (Proc.devRef .tc main_arg4) := Wk2_of_ne m ρ c main_arg4 (by decide)
    _ = Wk0 m ρ c (Proc.devRef .tc main_arg4) := StableHlo.after_of_writes_sub hostOps0 _ hostOps0_writes (by decide)
    _ = m ((c : Thread nD τ).loc main_arg4) := rfl

/-- The second projection's input, as the region finds it, is the flattened key argument. -/
theorem Vk3_v3 (c : Dev nD) : Vk3 m ρ c main_v3
    = shapeCast S16384x256 (m ((c : Thread nD τ).loc main_arg1)) shapeCasts_S4x4096x256_S16384x256 :=
  (after1_v3 (Wk2 m ρ c)).trans (by rw [Wk2_arg1])

/-- The unflattened result of the second projection, where it is written. -/
theorem k_at5 (c : Dev nD) : Wk5 m ρ c (Proc.devRef .tc main_v5)
    = projArr (m ((c : Thread nD τ).loc main_arg1)) (m ((c : Thread nD τ).loc main_arg4)) := by
  refine (after2_v5 (Wk4 m ρ c)).trans ?_
  rw [Wk4_arr m ρ c 2, arrAt1_2 (Vk3 m ρ) c, Vk3_v3, Vk3_arg4]
  exact unflatten_xWt_flatten _ _

theorem k_at7 (c : Dev nD) : Vk7 m ρ c main_v5
    = projArr (m ((c : Thread nD τ).loc main_arg1)) (m ((c : Thread nD τ).loc main_arg4)) :=
  calc Wk7 m ρ c (Proc.devRef .tc main_v5)
    _ = Wk6 m ρ c (Proc.devRef .tc main_v5) := StableHlo.after_of_writes_sub hostOps3 _ hostOps3_writes (by decide)
    _ = Wk5 m ρ c (Proc.devRef .tc main_v5) := Wk6_of_ne m ρ c main_v5 (by decide)
    _ = _ := k_at5 m ρ c

theorem k_at8 (c : Dev nD) : Vk8 m ρ c main_v5
    = projArr (m ((c : Thread nD τ).loc main_arg1)) (m ((c : Thread nD τ).loc main_arg4)) :=
  ((Wk8_arr m ρ c 1).trans (((dat3 (Vk7 m ρ) c).arrAt_in 1 rfl _).trans (A_eq3 (Vk7 m ρ) c 1))).trans (k_at7 m ρ c)

/-! ## The value -/

/-- The value argument is untouched up to the stretch before the third projection. -/
theorem Wk4_arg2 (c : Dev nD) : Wk4 m ρ c (Proc.devRef .tc main_arg2) = m ((c : Thread nD τ).loc main_arg2) :=
  calc Wk4 m ρ c (Proc.devRef .tc main_arg2)
    _ = Wk3 m ρ c (Proc.devRef .tc main_arg2) := Wk4_of_ne m ρ c main_arg2 (by decide)
    _ = Wk2 m ρ c (Proc.devRef .tc main_arg2) := StableHlo.after_of_writes_sub hostOps1 _ hostOps1_writes (by decide)
    _ = Wk1 m ρ c (Proc.devRef .tc main_arg2) := Wk2_of_ne m ρ c main_arg2 (by decide)
    _ = Wk0 m ρ c (Proc.devRef .tc main_arg2) := StableHlo.after_of_writes_sub hostOps0 _ hostOps0_writes (by decide)
    _ = m ((c : Thread nD τ).loc main_arg2) := rfl

/-- The third projection's weight, as the region finds it, is the argument. -/
theorem Vk5_arg5 (c : Dev nD) : Vk5 m ρ c main_arg5 = m ((c : Thread nD τ).loc main_arg5) :=
  calc Wk5 m ρ c (Proc.devRef .tc main_arg5)
    _ = Wk4 m ρ c (Proc.devRef .tc main_arg5) := StableHlo.after_of_writes_sub hostOps2 _ hostOps2_writes (by decide)
    _ = Wk3 m ρ c (Proc.devRef .tc main_arg5) := Wk4_of_ne m ρ c main_arg5 (by decide)
    _ = Wk2 m ρ c (Proc.devRef .tc main_arg5) := StableHlo.after_of_writes_sub hostOps1 _ hostOps1_writes (by decide)
    _ = Wk1 m ρ c (Proc.devRef .tc main_arg5) := Wk2_of_ne m ρ c main_arg5 (by decide)
    _ = Wk0 m ρ c (Proc.devRef .tc main_arg5) := StableHlo.after_of_writes_sub hostOps0 _ hostOps0_writes (by decide)
    _ = m ((c : Thread nD τ).loc main_arg5) := rfl

/-- The third projection's input, as the region finds it, is the flattened value argument. -/
theorem Vk5_v6 (c : Dev nD) : Vk5 m ρ c main_v6
    = shapeCast S16384x256 (m ((c : Thread nD τ).loc main_arg2)) shapeCasts_S4x4096x256_S16384x256 :=
  (after2_v6 (Wk4 m ρ c)).trans (by rw [Wk4_arg2])

/-- The unflattened result of the third projection is written by the last stretch, right before the
    flash-attention pass. -/
theorem v_at7 (c : Dev nD) : Vk7 m ρ c main_v8
    = projArr (m ((c : Thread nD τ).loc main_arg2)) (m ((c : Thread nD τ).loc main_arg5)) := by
  refine (after3_v8 (Wk6 m ρ c)).trans ?_
  rw [Wk6_arr m ρ c 2, arrAt2_2 (Vk5 m ρ) c, Vk5_v6, Vk5_arg5]
  exact unflatten_xWt_flatten _ _

/-! ## What the two attention passes leave -/

/-- The row statistics the flash-attention pass writes are what the attention-matrix pass finds. -/
theorem lse_at8 (c : Dev nD) : Vk8 m ρ c main_v9_1 = (dat3 (F := Ideal) (Vk7 m ρ) c).arrAt 4 cfg3.N :=
  Wk8_arr m ρ c 4

/-- The context array at the end: the flash-attention pass's, which the attention-matrix pass does not touch. -/
theorem ctx_at9 (c : Dev nD) : Wk9 m ρ c (Proc.devRef .tc main_v9_0) = (dat3 (F := Ideal) (Vk7 m ρ) c).arrAt 3 cfg3.N :=
  (Wk9_of_ne m ρ c main_v9_0 (by decide)).trans (Wk8_arr m ρ c 3)

/-- The attention matrix at the end: the attention-matrix pass's. -/
theorem attn_at9 (c : Dev nD) : Wk9 m ρ c (Proc.devRef .tc main_v10) = (dat4 (F := Ideal) (Vk8 m ρ) c).arrAt 3 cfg4.N :=
  Wk9_arr m ρ c 3

end Cert.KernelIdeal.HandValue

end
-- ==== Proof.LibKeepdims.lean ====
/-
  Small facts about reading a vector operation AT AN INDEX, over shapes with literal rank and any extents — the ones a
  kernel written with `keepdims=True` sums and trailing-axis broadcasts meets, and a 7 × 7 window flattened to 49 lanes:

  * a lane sum of a rank-3 vector, and a row sum of a rank-2 vector, as `Fin`-indexed sums (`laneSum3_apply`, `rowSum2_apply`);
  * the casts [a] → [a, 1] and [a, b] → [a, b, 1] (`cast_col_apply`, `cast_col3_apply`);
  * the broadcasts [a, 1] → [a, b] and [a, b, 1] → [a, b, c] (`bcast_col_apply`, `bcast_col3_apply`);
  * the reshapes between [a, b, 7, 7] and [a, b, 49] (`flatten77_apply`, `unflatten77_apply`);
  * the host's sum over the two trailing axes of [a, b, 7, 7] as the initial value plus the sum over the 49 row-major
    positions (`hostSum77_apply`).

  All at the ideal values where a sum is involved; the layout ones for any element type.
-/
import Idealize.ShloMosaic.PureOps.Ideal.Laws
import Idealize.ShloMosaic.Lib.Pipeline.Value
import Idealize.ShloMosaic.Lib.ValueIdx

noncomputable section

open scoped BigOperators

namespace Idealize.ShloMosaic.Keepdims

open Idealize.ShloMosaic Idealize.ShloMosaic.ValueIdx

/-! ## Sums -/

/-- A lane sum (over the last axis) of a rank-3 vector, at (a, b): the sum over the lane coordinate. -/
theorem laneSum3_apply {n0 n1 n2 : Nat} {φ : FTy} (v : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.add.neutral φ hφ)
    (a : Fin n0) (b : Fin n1) :
    multiReduction .add [2] ⟨2, ![n0, n1]⟩ v acc h hφ hacc (ix2 a b) = ∑ k : Fin n2, v (ix3 a b k) :=
  (Ideal.multiReduction_add_single v acc h hφ hacc (ix2 a b)).trans
    (Finset.sum_congr rfl fun k _ => congrArg v (funext fun d => Fin.ext (by
      match d with | ⟨0, _⟩ => rfl | ⟨1, _⟩ => rfl | ⟨2, _⟩ => rfl)))

/-- A sum over the second axis of a rank-2 vector, at a: the sum over the column coordinate. -/
theorem rowSum2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.add.neutral φ hφ)
    (a : Fin n0) :
    multiReduction .add [1] ⟨1, ![n0]⟩ v acc h hφ hacc (ix1 a) = ∑ c : Fin n1, v (ix2 a c) :=
  (Ideal.multiReduction_add_single v acc h hφ hacc (ix1 a)).trans
    (Finset.sum_congr rfl fun k _ => congrArg v (funext fun d => Fin.ext (by
      match d with | ⟨0, _⟩ => rfl | ⟨1, _⟩ => rfl)))

/-! ## Keepdims casts and trailing-axis broadcasts -/

section Layout
variable {α : Type}

/-- [a] viewed [a, 1]: entry (i, 0) is entry i. -/
theorem cast_col_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) :=
  shapeCast_apply v h (ix2 i z) (ix1 i) (by
    rw [Shape.rowMajor_val_one, Shape.rowMajor_val_two]
    show i.val = i.val * 1 + z.val
    have := z.isLt; omega)

/-- [a, b] viewed [a, b, 1]: entry (i, j, 0) is entry (i, j). -/
theorem cast_col3_apply {a b : Nat} (v : (⟨2, ![a, b]⟩ : Shape).Idx → α) (h : (⟨2, ![a, b]⟩ : Shape).ShapeCasts ⟨3, ![a, b, 1]⟩)
    (i : Fin a) (j : Fin b) (z : Fin 1) : shapeCast ⟨3, ![a, b, 1]⟩ v h (ix3 i j z) = v (ix2 i j) :=
  shapeCast_apply v h (ix3 i j z) (ix2 i j) (by
    rw [Shape.rowMajor_val_two, Shape.rowMajor_val_three]
    show i.val * b + j.val = (i.val * b + j.val) * 1 + z.val
    have := z.isLt; omega)

/-- A column [a, 1] broadcast along a new second extent: entry (i, j) is the column's entry (i, 0). -/
theorem bcast_col_apply {a b : Nat} (u : (⟨2, ![a, 1]⟩ : Shape).Idx → α) (h : (⟨2, ![a, 1]⟩ : Shape).Broadcasts ⟨2, ![a, b]⟩)
    (i : Fin a) (j : Fin b) : broadcastTo ⟨2, ![a, b]⟩ u h (ix2 i j) = u (ix2 i 0) :=
  broadcastTo_apply u h (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A [a, b, 1] vector broadcast along a new last extent: entry (i, j, k) is entry (i, j, 0). -/
theorem bcast_col3_apply {a b c : Nat} (u : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ u h (ix3 i j k) = u (ix3 i j 0) :=
  broadcastTo_apply u h (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-! ## A 7 × 7 window as 49 lanes -/

/-- Lane `k` of 49 as the row-major pair (k / 7, k % 7), and the pair's lane. -/
abbrev hi7 (k : Fin 49) : Fin 7 := ⟨k.val / 7, by have := k.isLt; omega⟩
abbrev lo7 (k : Fin 49) : Fin 7 := ⟨k.val % 7, Nat.mod_lt _ (by decide)⟩
abbrev lane7 (p q : Fin 7) : Fin 49 := ⟨7 * p.val + q.val, by have := p.isLt; have := q.isLt; omega⟩

/-- [a, b, 7, 7] reshaped to [a, b, 49]: lane k of (i, j) is entry (i, j, k / 7, k % 7). -/
theorem flatten77_apply {a b : Nat} (X : (⟨4, ![a, b, 7, 7]⟩ : Shape).Idx → α)
    (h : (⟨4, ![a, b, 7, 7]⟩ : Shape).ShapeCasts ⟨3, ![a, b, 49]⟩) (i : Fin a) (j : Fin b) (k : Fin 49) :
    shapeCast ⟨3, ![a, b, 49]⟩ X h (ix3 i j k) = X (ix4 i j (hi7 k) (lo7 k)) :=
  shapeCast_apply X h (ix3 i j k) (ix4 i j (hi7 k) (lo7 k)) (by
    rw [Shape.rowMajor_val_three, Shape.rowMajor_val_four]
    show ((i.val * b + j.val) * 7 + k.val / 7) * 7 + k.val % 7 = (i.val * b + j.val) * 49 + k.val
    omega)

/-- [a, b, 49] reshaped to [a, b, 7, 7]: entry (i, j, p, q) is lane 7p + q of (i, j). -/
theorem unflatten77_apply {a b : Nat} (A : (⟨3, ![a, b, 49]⟩ : Shape).Idx → α)
    (h : (⟨3, ![a, b, 49]⟩ : Shape).ShapeCasts ⟨4, ![a, b, 7, 7]⟩) (i : Fin a) (j : Fin b) (p q : Fin 7) :
    shapeCast ⟨4, ![a, b, 7, 7]⟩ A h (ix4 i j p q) = A (ix3 i j (lane7 p q)) :=
  shapeCast_apply A h (ix4 i j p q) (ix3 i j (lane7 p q)) (by
    rw [Shape.rowMajor_val_three, Shape.rowMajor_val_four]
    show (i.val * b + j.val) * 49 + (7 * p.val + q.val) = ((i.val * b + j.val) * 7 + p.val) * 7 + q.val
    omega)

end Layout

/-- The host's sum over the two trailing axes of a [a, b, 7, 7] array, at (i, j): the initial value plus the sum over the
    49 row-major positions. The indices that drop to (i, j) are exactly the (i, j, k / 7, k % 7). -/
theorem hostSum77_apply {a b : Nat} (h' : (⟨4, ![a, b, 7, 7]⟩ : Shape).ReducesTo [2, 3] ⟨2, ![a, b]⟩)
    (X : (⟨4, ![a, b, 7, 7]⟩ : Shape).Idx → EReal) (init : EReal) (i : Fin a) (j : Fin b) :
    Ideal.hostReduceAdd h' X init (ix2 i j) = init + ∑ k : Fin 49, X (ix4 i j (hi7 k) (lo7 k)) := by
  unfold Ideal.hostReduceAdd
  refine congrArg (init + ·) (Eq.symm ?_)
  refine Finset.sum_bij (fun k _ => ix4 i j (hi7 k) (lo7 k)) ?_ ?_ ?_ ?_
  · intro k _
    rw [Finset.mem_filter]
    refine ⟨Finset.mem_univ _, funext fun d => Fin.ext ?_⟩
    match d with
    | ⟨0, _⟩ => rfl
    | ⟨1, _⟩ => rfl
  · intro k _ k' _ e
    have e2 : k.val / 7 = k'.val / 7 := congrArg (fun x : (⟨4, ![a, b, 7, 7]⟩ : Shape).Idx => (x 2).val) e
    have e3 : k.val % 7 = k'.val % 7 := congrArg (fun x : (⟨4, ![a, b, 7, 7]⟩ : Shape).Idx => (x 3).val) e
    exact Fin.ext (by omega)
  · intro x hx
    rw [Finset.mem_filter] at hx
    have h0 : (x 0).val = i.val := congrArg (fun y : (⟨2, ![a, b]⟩ : Shape).Idx => (y 0).val) hx.2
    have h1 : (x 1).val = j.val := congrArg (fun y : (⟨2, ![a, b]⟩ : Shape).Idx => (y 1).val) hx.2
    have h2 : (x 2).val < 7 := (x 2).isLt
    have h3 : (x 3).val < 7 := (x 3).isLt
    refine ⟨⟨7 * (x 2).val + (x 3).val, by omega⟩, Finset.mem_univ _, funext fun d => Fin.ext ?_⟩
    match d with
    | ⟨0, _⟩ => exact h0.symm
    | ⟨1, _⟩ => exact h1.symm
    | ⟨2, _⟩ => show (7 * (x 2).val + (x 3).val) / 7 = (x 2).val; omega
    | ⟨3, _⟩ => show (7 * (x 2).val + (x 3).val) % 7 = (x 3).val; omega
  · intro k _; rfl

end Idealize.ShloMosaic.Keepdims

end
-- ==== Proof.KI.AttnMatValue.lean ====
/- What the attention-matrix kernel leaves in its output array, as one function of the contents of its three input
   arrays when the region is entered: entry (b, r, k) is exp (⟨q[b, r, ·], k[b, k, ·]⟩ · 2⁻⁴ − lse[b, r, 0]). The
   payload at an index; what a grid point writes back as the block of that function; the blocks cover the array. -/
import proofs.«161166_j30331059044530_2_alg».proof.Proof.KI.AttnMat
import proofs.«161166_j30331059044530_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

/-! ## The payload at an index -/

theorem attn_hz : (![0, 0, 0] : Fin 3 → Nat) = fun _ => 0 := funext fun a => by fin_cases a <;> rfl

/-! The operand indices of the batched product at output index i and contraction index q: the left operand is read at
    (i 0, i 1, q), the right one at (i 0, i 2, q). -/
theorem attn_qk_lhs_0 (i : S4x1024x256.Idx) (q : dot_S4x1024x256_S4x256x256_S4x1024x256_2_2_1_1_0_0.contr.Idx) :
    (dot_S4x1024x256_S4x256x256_S4x1024x256_2_2_1_1_0_0.lhsIdx i q 0).val = (i 0).val := by
  unfold DotDims.lhsIdx
  rw [dif_pos (show (0 : Fin S4x1024x256.rank) ∈ dot_S4x1024x256_S4x256x256_S4x1024x256_2_2_1_1_0_0.lhsBatch by decide)]
  rfl
theorem attn_qk_lhs_1 (i : S4x1024x256.Idx) (q : dot_S4x1024x256_S4x256x256_S4x1024x256_2_2_1_1_0_0.contr.Idx) :
    (dot_S4x1024x256_S4x256x256_S4x1024x256_2_2_1_1_0_0.lhsIdx i q 1).val = (i 1).val := by
  unfold DotDims.lhsIdx
  rw [dif_neg (show ¬(1 : Fin S4x1024x256.rank) ∈ dot_S4x1024x256_S4x256x256_S4x1024x256_2_2_1_1_0_0.lhsBatch by decide), dif_pos (show (1 : Fin S4x1024x256.rank) ∈ dot_S4x1024x256_S4x256x256_S4x1024x256_2_2_1_1_0_0.lhsNonContracting by decide)]
  rfl
theorem attn_qk_lhs_2 (i : S4x1024x256.Idx) (q : dot_S4x1024x256_S4x256x256_S4x1024x256_2_2_1_1_0_0.contr.Idx) :
    (dot_S4x1024x256_S4x256x256_S4x1024x256_2_2_1_1_0_0.lhsIdx i q 2).val = (q ⟨0, by decide⟩).val :=
  dot_S4x1024x256_S4x256x256_S4x1024x256_2_2_1_1_0_0.lhsIdx_val_of_single rfl i q
theorem attn_qk_rhs_0 (i : S4x1024x256.Idx) (q : dot_S4x1024x256_S4x256x256_S4x1024x256_2_2_1_1_0_0.contr.Idx) :
    (dot_S4x1024x256_S4x256x256_S4x1024x256_2_2_1_1_0_0.rhsIdx i q 0).val = (i 0).val := by
  unfold DotDims.rhsIdx
  rw [dif_pos (show (0 : Fin S4x256x256.rank) ∈ dot_S4x1024x256_S4x256x256_S4x1024x256_2_2_1_1_0_0.rhsBatch by decide)]
  rfl
theorem attn_qk_rhs_1 (i : S4x1024x256.Idx) (q : dot_S4x1024x256_S4x256x256_S4x1024x256_2_2_1_1_0_0.contr.Idx) :
    (dot_S4x1024x256_S4x256x256_S4x1024x256_2_2_1_1_0_0.rhsIdx i q 1).val = (i 2).val := by
  unfold DotDims.rhsIdx
  rw [dif_neg (show ¬(1 : Fin S4x256x256.rank) ∈ dot_S4x1024x256_S4x256x256_S4x1024x256_2_2_1_1_0_0.rhsBatch by decide), dif_pos (show (1 : Fin S4x256x256.rank) ∈ dot_S4x1024x256_S4x256x256_S4x1024x256_2_2_1_1_0_0.rhsNonContracting by decide)]
  rfl
theorem attn_qk_rhs_2 (i : S4x1024x256.Idx) (q : dot_S4x1024x256_S4x256x256_S4x1024x256_2_2_1_1_0_0.contr.Idx) :
    (dot_S4x1024x256_S4x256x256_S4x1024x256_2_2_1_1_0_0.rhsIdx i q 2).val = (q ⟨0, by decide⟩).val :=
  dot_S4x1024x256_S4x256x256_S4x1024x256_2_2_1_1_0_0.rhsIdx_val_of_single rfl i q

/-- The batched product q · kᵀ (batch axis 0, both operands contracted on their last axis) accumulated into a zero
    splat, at (b, r, k): the sum over the contracted coordinate. -/
theorem attn_qk_apply (y0 : FVec Ideal S4x1024x256 .bf16) (y1 : FVec Ideal S4x256x256 .bf16) (b : Fin 4) (r : Fin 1024) (k : Fin 256) :
    matmul dot_S4x1024x256_S4x256x256_S4x1024x256_2_2_1_1_0_0 none y0 y1 (constant (F := Ideal) S4x1024x256 .f32 0x00000000#32) (ix3 b r k)
      = ∑ d : Fin 256, y0 (ix3 b r d) * y1 (ix3 b k d) := by
  show FloatOps.matmul dot_S4x1024x256_S4x256x256_S4x1024x256_2_2_1_1_0_0 none y0 y1 (constant (F := Ideal) S4x1024x256 .f32 0x00000000#32) (ix3 b r k) = _
  rw [Ideal.matmul_constant_zero_apply, ← Equiv.sum_comp (contrEquiv1 dot_S4x1024x256_S4x256x256_S4x1024x256_2_2_1_1_0_0 256 rfl rfl).symm]
  refine Finset.sum_congr rfl fun d _ => ?_
  have hd := contrEquiv1_symm_val dot_S4x1024x256_S4x256x256_S4x1024x256_2_2_1_1_0_0 256 rfl rfl d
  have el : dot_S4x1024x256_S4x256x256_S4x1024x256_2_2_1_1_0_0.lhsIdx (ix3 b r k) ((contrEquiv1 dot_S4x1024x256_S4x256x256_S4x1024x256_2_2_1_1_0_0 256 rfl rfl).symm d) = ix3 b r d := funext fun a => Fin.ext (by
    match a with
    | ⟨0, _⟩ => exact attn_qk_lhs_0 _ _
    | ⟨1, _⟩ => exact attn_qk_lhs_1 _ _
    | ⟨2, _⟩ => exact (attn_qk_lhs_2 _ _).trans hd)
  have er : dot_S4x1024x256_S4x256x256_S4x1024x256_2_2_1_1_0_0.rhsIdx (ix3 b r k) ((contrEquiv1 dot_S4x1024x256_S4x256x256_S4x1024x256_2_2_1_1_0_0 256 rfl rfl).symm d) = ix3 b k d := funext fun a => Fin.ext (by
    match a with
    | ⟨0, _⟩ => exact attn_qk_rhs_0 _ _
    | ⟨1, _⟩ => exact attn_qk_rhs_1 _ _
    | ⟨2, _⟩ => exact (attn_qk_rhs_2 _ _).trans hd)
  rw [el, er]

/-- The kernel's payload at (b, r, k): exp of the scaled product minus the row's log-sum-exp. -/
theorem attn_pay_apply (x0 : Vec Ideal S4x1024x256 .bf16) (x1 : Vec Ideal S4x256x256 .bf16) (x2 : Vec Ideal S4x1024x1 .f32)
    (b : Fin 4) (r : Fin 1024) (k : Fin 256) :
    k4_pay1 (F := Ideal) x0 x1 x2 (ix3 b r k)
      = Ideal.exp ((∑ d : Fin 256, x0 (ix3 b r d) * x1 (ix3 b k d)) * Ideal.ofBits .f32 0x3D800000#32 - x2 (ix3 b r 0)) := by
  unfold k4_pay1
  simp only [shapeCast_self]
  show Ideal.exp (matmul dot_S4x1024x256_S4x256x256_S4x1024x256_2_2_1_1_0_0 none x0 x1 (constant (F := Ideal) S4x1024x256 .f32 0x00000000#32) (ix3 b r k)
      * Ideal.ofBits .f32 0x3D800000#32
      - broadcastTo S4x1024x256 x2 broadcasts_S4x1024x1_S4x1024x256 (ix3 b r k)) = _
  rw [attn_qk_apply, Keepdims.bcast_col3_apply]

/-! ## From blocks to the array -/

/-- The function the output array ends holding, of the three input arrays: entry (b, r, k) is
    exp (⟨q[b, r, ·], k[b, k, ·]⟩ · 2⁻⁴ − lse[b, r, 0]). -/
abbrev expScores (a0 : S4x4096x256.Idx → Elt Ideal .bf16) (a1 : S4x4096x256.Idx → Elt Ideal .bf16) (a2 : S4x4096x1.Idx → Elt Ideal .f32) :
    S4x4096x4096.Idx → Elt Ideal .f32 := fun i =>
  Ideal.exp ((∑ d : Fin 256, a0 (ix3 (i 0) (i 1) d) * a1 (ix3 (i 0) (i 2) d)) * Ideal.ofBits .f32 0x3D800000#32 - a2 (ix3 (i 0) (i 1) 0))

/-- The payload of three blocks that are rows 1024·q … of the query array, rows 256·κ … of the key array and rows
    1024·q … of the log-sum-exp array, at the block index j, is that function at the array index
    (j 0, 1024·q + j 1, 256·κ + j 2). -/
theorem attn_point_eq (a0 : S4x4096x256.Idx → Elt Ideal .bf16) (a1 : S4x4096x256.Idx → Elt Ideal .bf16) (a2 : S4x4096x1.Idx → Elt Ideal .f32)
    (x0 : Vec Ideal S4x1024x256 .bf16) (x1 : Vec Ideal S4x256x256 .bf16) (x2 : Vec Ideal S4x1024x1 .f32) (q κ : Nat)
    (h0 : ∀ (b : Fin 4) (r : Fin 1024) (d : Fin 256) (i : S4x4096x256.Idx),
      (i 0).val = b.val → (i 1).val = 1024 * q + r.val → (i 2).val = d.val → x0 (ix3 b r d) = a0 i)
    (h1 : ∀ (b : Fin 4) (k : Fin 256) (d : Fin 256) (i : S4x4096x256.Idx),
      (i 0).val = b.val → (i 1).val = 256 * κ + k.val → (i 2).val = d.val → x1 (ix3 b k d) = a1 i)
    (h2 : ∀ (b : Fin 4) (r : Fin 1024) (i : S4x4096x1.Idx),
      (i 0).val = b.val → (i 1).val = 1024 * q + r.val → x2 (ix3 b r 0) = a2 i)
    (j : S4x1024x256.Idx) (i : S4x4096x4096.Idx)
    (e0 : (i 0).val = (j 0).val) (e1 : (i 1).val = 1024 * q + (j 1).val) (e2 : (i 2).val = 256 * κ + (j 2).val) :
    k4_pay1 (F := Ideal) x0 x1 x2 j = expScores a0 a1 a2 i := by
  obtain ⟨b, r, k, rfl⟩ : ∃ (b : Fin 4) (r : Fin 1024) (k : Fin 256), j = ix3 b r k := ⟨j 0, j 1, j 2, eq_ix3 j⟩
  rw [attn_pay_apply, h2 b r (ix3 (i 0) (i 1) 0) e0 e1]
  refine congrArg (fun s => Ideal.exp (s * Ideal.ofBits .f32 0x3D800000#32 - a2 (ix3 (i 0) (i 1) 0))) ?_
  refine Finset.sum_congr rfl fun d _ => ?_
  rw [h0 b r d (ix3 (i 0) (i 1) d) e0 e1 rfl, h1 b k d (ix3 (i 0) (i 2) d) e0 e2 rfl]

variable (V : (c : Dev nD) → (b : Ref sig .tc) → Buf (Elt Ideal) ((c : Thread nD τ).loc b))

/-- The printed index maps, decided over the 64 grid points: at point t = 16·q + κ the query and log-sum-exp windows are
    at row block q, the key window at row block κ, the output window at (q, κ). -/
theorem idx4 : ∀ t : Fin cfg4.N,
    win4_0.index t (0 : Fin 3) = 0 ∧ win4_0.index t (1 : Fin 3) = t.val / 16 ∧ win4_0.index t (2 : Fin 3) = 0
    ∧ win4_1.index t (0 : Fin 3) = 0 ∧ win4_1.index t (1 : Fin 3) = t.val % 16 ∧ win4_1.index t (2 : Fin 3) = 0
    ∧ win4_2.index t (0 : Fin 3) = 0 ∧ win4_2.index t (1 : Fin 3) = t.val / 16 ∧ win4_2.index t (2 : Fin 3) = 0
    ∧ win4_3.index t (0 : Fin 3) = 0 ∧ win4_3.index t (1 : Fin 3) = t.val / 16 ∧ win4_3.index t (2 : Fin 3) = t.val % 16 :=
  (by decide +kernel : ∀ t : Fin grid4.N, _)

/-- The query window's block at point t is rows 1024·(t / 16) … of the query array. -/
theorem iblk4_0_apply (c : Dev nD) (t : Fin cfg4.N) (b : Fin 4) (r : Fin 1024) (d : Fin 256) (i : S4x4096x256.Idx)
    (h0 : (i 0).val = b.val) (h1 : (i 1).val = 1024 * (t.val / 16) + r.val) (h2 : (i 2).val = d.val) :
    (iblk4 V c 0 t : Vec Ideal S4x1024x256 .bf16) (ix3 b r d) = (V c main_v2 : S4x4096x256.Idx → Elt Ideal .bf16) i := by
  obtain ⟨f0, f1, f2, -⟩ := idx4 t
  unfold iblk4
  rw [View.read_apply]
  show V c main_v2 _ = V c main_v2 _
  refine congrArg (V c main_v2) (funext fun a => Fin.ext ?_)
  match a with
  | ⟨0, _⟩ => show win4_0.index t (0 : Fin 3) * 4 + 1 * b.val = (i 0).val; rw [f0, h0]; omega
  | ⟨1, _⟩ => show win4_0.index t (1 : Fin 3) * 1024 + 1 * r.val = (i 1).val; rw [f1, h1]; omega
  | ⟨2, _⟩ => show win4_0.index t (2 : Fin 3) * 256 + 1 * d.val = (i 2).val; rw [f2, h2]; omega

/-- The key window's block at point t is rows 256·(t % 16) … of the key array. -/
theorem iblk4_1_apply (c : Dev nD) (t : Fin cfg4.N) (b : Fin 4) (k : Fin 256) (d : Fin 256) (i : S4x4096x256.Idx)
    (h0 : (i 0).val = b.val) (h1 : (i 1).val = 256 * (t.val % 16) + k.val) (h2 : (i 2).val = d.val) :
    (iblk4 V c 1 t : Vec Ideal S4x256x256 .bf16) (ix3 b k d) = (V c main_v5 : S4x4096x256.Idx → Elt Ideal .bf16) i := by
  obtain ⟨-, -, -, f0, f1, f2, -⟩ := idx4 t
  unfold iblk4
  rw [View.read_apply]
  show V c main_v5 _ = V c main_v5 _
  refine congrArg (V c main_v5) (funext fun a => Fin.ext ?_)
  match a with
  | ⟨0, _⟩ => show win4_1.index t (0 : Fin 3) * 4 + 1 * b.val = (i 0).val; rw [f0, h0]; omega
  | ⟨1, _⟩ => show win4_1.index t (1 : Fin 3) * 256 + 1 * k.val = (i 1).val; rw [f1, h1]; omega
  | ⟨2, _⟩ => show win4_1.index t (2 : Fin 3) * 256 + 1 * d.val = (i 2).val; rw [f2, h2]; omega

/-- The log-sum-exp window's block at point t is rows 1024·(t / 16) … of the log-sum-exp array. -/
theorem iblk4_2_apply (c : Dev nD) (t : Fin cfg4.N) (b : Fin 4) (r : Fin 1024) (i : S4x4096x1.Idx)
    (h0 : (i 0).val = b.val) (h1 : (i 1).val = 1024 * (t.val / 16) + r.val) :
    (iblk4 V c 2 t : Vec Ideal S4x1024x1 .f32) (ix3 b r 0) = (V c main_v9_1 : S4x4096x1.Idx → Elt Ideal .f32) i := by
  obtain ⟨-, -, -, -, -, -, f0, f1, f2, -⟩ := idx4 t
  unfold iblk4
  rw [View.read_apply]
  show V c main_v9_1 _ = V c main_v9_1 _
  refine congrArg (V c main_v9_1) (funext fun a => Fin.ext ?_)
  have hz : (i 2).val < 1 := (i 2).isLt
  match a with
  | ⟨0, _⟩ => show win4_2.index t (0 : Fin 3) * 4 + 1 * b.val = (i 0).val; rw [f0, h0]; omega
  | ⟨1, _⟩ => show win4_2.index t (1 : Fin 3) * 1024 + 1 * r.val = (i 1).val; rw [f1, h1]; omega
  | ⟨2, _⟩ => show win4_2.index t (2 : Fin 3) * 1 + 1 * 0 = (i 2).val; rw [f2]; omega

/-- What point t writes back is block t of expScores of the three input arrays as the region finds them. -/
theorem flushed4_3_eq (c : Dev nD) (t : Fin cfg4.N) :
    (dat4 V c).flushed 3 t = ((cfg4.win 3).blk t).view.read (Elt Ideal) (expScores (V c main_v2) (V c main_v5) (V c main_v9_1)) := by
  show (cfg4.win 3).cut (grid4.coords t) ((dat4 V c).after 3 t) = _
  rw [after4_3]
  unfold out4_3
  rw [View.canon_unit_zero attn_hz]
  simp only [View.ld_unit_zero (S := S4x1024x256) attn_hz, View.ld_unit_zero (S := S4x256x256) attn_hz, View.ld_unit_zero (S := S4x1024x1) attn_hz]
  obtain ⟨-, -, -, -, -, -, -, -, -, f0, f1, f2⟩ := idx4 t
  funext j
  show k4_pay1 (F := Ideal) (iblk4 V c 0 t) (iblk4 V c 1 t) (iblk4 V c 2 t) j
    = expScores (V c main_v2) (V c main_v5) (V c main_v9_1) (((cfg4.win 3).blk t).view.emb j)
  refine attn_point_eq (V c main_v2) (V c main_v5) (V c main_v9_1) (iblk4 V c 0 t) (iblk4 V c 1 t) (iblk4 V c 2 t) (t.val / 16) (t.val % 16)
    (fun b r d i => iblk4_0_apply V c t b r d i) (fun b k d i => iblk4_1_apply V c t b k d i) (fun b r i => iblk4_2_apply V c t b r i)
    j _ ?_ ?_ ?_
  · show win4_3.index t (0 : Fin 3) * 4 + 1 * (j 0).val = (j 0).val; rw [f0]; omega
  · show win4_3.index t (1 : Fin 3) * 1024 + 1 * (j 1).val = 1024 * (t.val / 16) + (j 1).val; rw [f1]; omega
  · show win4_3.index t (2 : Fin 3) * 256 + 1 * (j 2).val = 256 * (t.val % 16) + (j 2).val; rw [f2]; omega

/-- An index of the output array is in point t's block iff each coordinate is in the block's range on its axis. -/
theorem mem_blk4_3 (t : Fin cfg4.N) (i : S4x4096x4096.Idx) :
    i ∈ ((cfg4.win 3).blk t).view.set ↔ ∀ a : Fin 3, win4_3.index t a * S4x1024x256.size a ≤ (i a).val ∧ (i a).val < win4_3.index t a * S4x1024x256.size a + S4x1024x256.size a := by
  show i ∈ ((View.whole main_v10).slice (win4_3.rect t)).set ↔ _
  rw [View.set_slice_whole, Rect.mem_set_unit]
  exact Iff.rfl

/-- Every index of the output array is in the block of the point 16·(i 1 / 1024) + i 2 / 256, which writes back. -/
theorem covered4_3 (i : S4x4096x4096.Idx) : ∃ t : Fin cfg4.N, (cfg4.win 3).flush t = true ∧ i ∈ ((cfg4.win 3).blk t).view.set := by
  have hi0 : (i 0).val < 4 := (i 0).isLt
  have hi1 : (i 1).val < 4096 := (i 1).isLt
  have hi2 : (i 2).val < 4096 := (i 2).isLt
  have hN : cfg4.N = 64 := N_4
  obtain ⟨t, ht⟩ : ∃ t : Fin cfg4.N, t.val = 16 * ((i 1).val / 1024) + (i 2).val / 256 :=
    ⟨⟨16 * ((i 1).val / 1024) + (i 2).val / 256, by rw [hN]; omega⟩, rfl⟩
  obtain ⟨-, -, -, -, -, -, -, -, -, f0, f1, f2⟩ := idx4 t
  refine ⟨t, flush4_3 t, ?_⟩
  rw [mem_blk4_3]
  intro a
  match a with
  | ⟨0, _⟩ => show win4_3.index t (0 : Fin 3) * 4 ≤ (i 0).val ∧ (i 0).val < win4_3.index t (0 : Fin 3) * 4 + 4; rw [f0]; omega
  | ⟨1, _⟩ => show win4_3.index t (1 : Fin 3) * 1024 ≤ (i 1).val ∧ (i 1).val < win4_3.index t (1 : Fin 3) * 1024 + 1024; rw [f1, ht]; omega
  | ⟨2, _⟩ => show win4_3.index t (2 : Fin 3) * 256 ≤ (i 2).val ∧ (i 2).val < win4_3.index t (2 : Fin 3) * 256 + 256; rw [f2, ht]; omega

/-- THE OUTPUT ARRAY after the region: entry (b, r, k) is exp (⟨q[b, r, ·], k[b, k, ·]⟩ · 2⁻⁴ − lse[b, r, 0]) of the
    three input arrays as the region finds them. -/
theorem arrAt4_3 (c : Dev nD) : (dat4 (F := Ideal) V c).arrAt 3 cfg4.N = expScores (V c main_v2) (V c main_v5) (V c main_v9_1) :=
  (dat4 V c).arrAt_eq_of_cover 3 (expScores (V c main_v2) (V c main_v5) (V c main_v9_1)) (fun t _ => flushed4_3_eq V c t) covered4_3

/-- The same at an index: the function's definition unfolded. -/
theorem arrAt4_3_apply (c : Dev nD) (i : S4x4096x4096.Idx) :
    (dat4 (F := Ideal) V c).arrAt 3 cfg4.N i = expScores (V c main_v2) (V c main_v5) (V c main_v9_1) i :=
  congrFun (arrAt4_3 V c) i

/-- The function at an index, over arrays typed as functions of literal-shape indices. -/
theorem expScores_apply (a0 : S4x4096x256.Idx → Elt Ideal .bf16) (a1 : S4x4096x256.Idx → Elt Ideal .bf16) (a2 : S4x4096x1.Idx → Elt Ideal .f32)
    (i : S4x4096x4096.Idx) :
    expScores a0 a1 a2 i = Ideal.exp ((∑ d : Fin 256, a0 (ix3 (i 0) (i 1) d) * a1 (ix3 (i 0) (i 2) d)) * Ideal.ofBits .f32 0x3D800000#32 - a2 (ix3 (i 0) (i 1) 0)) := rfl

end Cert.KernelIdeal.HandValue

end
-- ==== Proof.LibExpSubLog.lean ====
/-
  The one analytic law this certificate needs, on the extended reals.

  A softmax can be normalised in two ways.  Dividing: exp a / s.  Or through the logarithm of the
  normaliser: exp (a - log s).  For a real exponent a and a real, strictly positive normaliser s the two
  agree, because exp (a - log s) = exp a * exp (-(log s)) = exp a / s.  Away from that domain they need not:
  at s = 0 the logarithm is -inf and the left side is +inf while the right side is the quotient's
  convention at zero; so the law is stated with its hypotheses and used only where they hold.
-/
import Idealize.ShloMosaic.PureOps.Ideal

noncomputable section

namespace Idealize.ShloMosaic.ExpSubLog

open Idealize.ShloMosaic

/-- For a real `a` and a real `s > 0`: `exp (a - log s) = exp a / s` as extended reals, with the
    exponential, the logarithm and the quotient read as the ideal instance reads them. -/
theorem exp_sub_log (a s : ℝ) (hs : 0 < s) :
    Ideal.exp ((a : EReal) - Ideal.log (s : EReal)) = Ideal.div (Ideal.exp (a : EReal)) (s : EReal) := by
  rw [Ideal.log_coe, if_neg (not_le.mpr hs), ← EReal.coe_sub, Ideal.exp_coe, Ideal.exp_coe,
    Ideal.div_coe (ne_of_gt hs), ← EReal.coe_mul, Real.exp_sub, Real.exp_log hs, div_eq_mul_one_div]

end Idealize.ShloMosaic.ExpSubLog

end
-- ==== Proof.AttnMath.lean ====
/-
  The tiled form of attention equals the textbook form, on the extended reals, when every input entry is a real number.

  A projection of real arrays is a real array, and a score (a finite sum of products of reals, times one sixteenth) is a
  real number. So a row's 4096 scores s_j and one column of values v_j are real. The online softmax over sixteen tiles of
  256 columns ends with weighted sum over normalizer equal to (∑ exp s_j · v_j) / (∑ exp s_j), and the textbook softmax
  (subtract the row's maximum M, exponentiate, divide by the sum, weight the values) is the same quotient, because
  exp (s − M) = exp s / exp M cancels. The double sum over tiles and columns is the sum over the 4096 columns.

  For the weights: after the sixteen tiles the running maximum is a real m and the normalizer is l = S / exp m with
  S = ∑ exp s_j > 0. Hence exp (s − (m + log l)) = exp s / (exp m · (S / exp m)) = exp s / S, and the textbook weight
  exp (s − M) / (S / exp M) is exp s / S as well.
-/
import proofs.«161166_j30331059044530_2_alg».proof.Proof.AttnSpec
import proofs.«161166_j30331059044530_2_alg».proof.Proof.LibOnlineSoftmax
import proofs.«161166_j30331059044530_2_alg».proof.Proof.LibExpSubLog
import Idealize.ShloMosaic.PureOps.Ideal.Laws

noncomputable section

open scoped BigOperators

namespace Cert.AttnMath

open Idealize.ShloMosaic Idealize.ShloMosaic.ValueIdx Cert.OnlineSoftmax Cert.AttnSpec

/-- Every entry of the family is a real number. -/
def IsReal {ι : Type*} (f : ι → EReal) : Prop := ∀ i, ∃ r : ℝ, f i = (r : EReal)

/-- A finite sum of products of real numbers, taken on the extended reals, is a real number. -/
theorem sum_mul_real {n : ℕ} (f g : Fin n → EReal) (hf : ∀ d, ∃ r : ℝ, f d = (r : EReal))
    (hg : ∀ d, ∃ r : ℝ, g d = (r : EReal)) : ∃ r : ℝ, ∑ d : Fin n, f d * g d = (r : EReal) := by
  choose fr hfr using hf
  choose gr hgr using hg
  refine ⟨∑ d : Fin n, fr d * gr d, ?_⟩
  rw [← coe_sum]
  exact Finset.sum_congr rfl fun d _ => by rw [hfr, hgr, EReal.coe_mul]

/-- A projection of a real array by a real weight matrix is a real array. -/
theorem projArr_real (x : A3) (w : W2) (hx : IsReal x) (hw : IsReal w) : IsReal (projArr x w) := fun i =>
  sum_mul_real (fun d => x (ix3 (i 0) (i 1) d)) (fun d => w (ix2 (i 2) d)) (fun _ => hx _) (fun _ => hw _)

/-- A score of real queries against real keys is a real number. -/
theorem score_real (q k : A3) (hq : IsReal q) (hk : IsReal k) (b : Fin 4) (i j : Fin 4096) :
    ∃ r : ℝ, score q k b i j = (r : EReal) := by
  obtain ⟨r, hr⟩ := sum_mul_real (fun d => q (ix3 b i d)) (fun d => k (ix3 b j d)) (fun _ => hq _) (fun _ => hk _)
  have hr' : ∑ d : Fin 256, q (ix3 b i d) * k (ix3 b j d) = (r : EReal) := hr
  exact ⟨r * (1 / 16), by unfold score c16; rw [hr', EReal.coe_mul]⟩

/-- A sum over the 4096 columns is the sum over the 16 tiles of the sums over a tile's 256 columns. -/
theorem sum_cols16 (g : Fin 4096 → ℝ) :
    ∑ j : Fin 4096, g j = ∑ T ∈ Finset.range 16, ∑ c : Fin 256, g (colOf T c) := by
  rw [Finset.sum_range (fun T => ∑ c : Fin 256, g (colOf T c)), ← Equiv.sum_comp (finProdFinEquiv (m := 16) (n := 256)),
    Fintype.sum_prod_type]
  refine Finset.sum_congr rfl fun T _ => Finset.sum_congr rfl fun c _ => congrArg g (Fin.ext ?_)
  have hT := T.isLt; have hc := c.isLt
  show c.val + 256 * T.val = (256 * T.val + c.val) % 4096
  omega

/-- The weight read off the last running maximum m and normalizer S / exp m: exp (s − (m + log (S / exp m))) = exp s / S. -/
theorem online_weight (s mr S : ℝ) (hS : 0 < S) :
    Ideal.exp ((s : EReal) - ((mr : EReal) + Ideal.log ((S / Real.exp mr : ℝ) : EReal)))
      = ((Real.exp s / S : ℝ) : EReal) := by
  have hpos : 0 < S / Real.exp mr := div_pos hS (Real.exp_pos mr)
  rw [Ideal.log_coe, if_neg (not_le.mpr hpos), ← EReal.coe_add, ← EReal.coe_sub, Ideal.exp_coe]
  congr 1
  rw [Real.exp_sub, Real.exp_add, Real.exp_log hpos]
  field_simp

/-- The textbook weight of a nonempty row of real scores: exp (s_j − M) / (0 + ∑ exp (s − M)) = exp s_j / ∑ exp s. -/
theorem textbook_weight {ι : Type*} [Fintype ι] [Nonempty ι] (sr : ι → ℝ) (j : ι) :
    Ideal.div (Ideal.exp ((sr j : EReal) - max ⊥ ((Finset.univ : Finset ι).fold max ⊥ fun j => (sr j : EReal))))
        (0 + ∑ j' : ι, Ideal.exp ((sr j' : EReal) - max ⊥ ((Finset.univ : Finset ι).fold max ⊥ fun j => (sr j : EReal))))
      = ((Real.exp (sr j) / ∑ j : ι, Real.exp (sr j) : ℝ) : EReal) := by
  obtain ⟨M, hM⟩ := fold_max_real sr
  have hpos : 0 < ∑ j : ι, Real.exp (sr j) :=
    Finset.sum_pos (fun j _ => Real.exp_pos _) Finset.univ_nonempty
  have hden : (0 : EReal) + ∑ j' : ι, Ideal.exp ((sr j' : EReal) - (M : EReal))
      = (((∑ j : ι, Real.exp (sr j)) / Real.exp M : ℝ) : EReal) := by
    rw [zero_add, Finset.sum_div, ← coe_sum]
    refine Finset.sum_congr rfl fun j _ => ?_
    rw [← EReal.coe_sub, Ideal.exp_coe, Real.exp_sub]
  rw [hM, max_eq_right bot_le, hden, ← EReal.coe_sub, Ideal.exp_coe,
    div_coe_coe _ _ (div_ne_zero hpos.ne' (Real.exp_pos M).ne'), Real.exp_sub]
  congr 1
  field_simp

/-- The tiled context of real queries, keys and values is the textbook context. -/
theorem tiledCtx_eq (q k v : A3) (hq : IsReal q) (hk : IsReal k) (hv : IsReal v) (b : Fin 4) (i : Fin 4096)
    (d : Fin 256) : tiledCtx q k v b i d = ctx q k v b i d := by
  choose sr hsr using fun j => score_real q k hq hk b i j
  choose vr hvr using fun j : Fin 4096 => hv (ix3 b j d)
  have hts : tileScores q k b i = fun T c => ((sr (colOf T c) : ℝ) : EReal) := by
    funext T c; exact hsr _
  have htv : tileVals v b d = fun T c => ((vr (colOf T c) : ℝ) : EReal) := by
    funext T c; exact hvr _
  have h1 : tiledCtx q k v b i d
      = (((∑ T ∈ Finset.range 16, ∑ c : Fin 256, Real.exp (sr (colOf T c)) * vr (colOf T c))
          / (∑ T ∈ Finset.range 16, ∑ c : Fin 256, Real.exp (sr (colOf T c))) : ℝ) : EReal) := by
    unfold tiledCtx aAt lAt
    rw [hts, htv]
    exact online_quotient (W := 256) (fun T c => sr (colOf T c)) (fun T c => vr (colOf T c)) 15
  have h2 : ctx q k v b i d
      = (((∑ j : Fin 4096, Real.exp (sr j) * vr j) / (∑ j : Fin 4096, Real.exp (sr j)) : ℝ) : EReal) := by
    unfold ctx attn rowSum rowMax
    simp only [hsr, hvr]
    exact textbook_quotient sr vr
  rw [h1, h2, sum_cols16 (fun j => Real.exp (sr j) * vr j), sum_cols16 (fun j => Real.exp (sr j))]

/-- The tiled weight of real queries and keys is the textbook softmax weight. -/
theorem tiledAttn_eq (q k : A3) (hq : IsReal q) (hk : IsReal k) (b : Fin 4) (i j : Fin 4096) :
    tiledAttn q k b i j = attn q k b i j := by
  choose sr hsr using fun j => score_real q k hq hk b i j
  have hts : tileScores q k b i = fun T c => ((sr (colOf T c) : ℝ) : EReal) := by
    funext T c; exact hsr _
  obtain ⟨mr, hm, hl, -⟩ := state_real (W := 256) (fun T c => sr (colOf T c)) (fun _ _ => (0 : ℝ)) 15
  have hm' : mSt ⊥ (fun T (c : Fin 256) => ((sr (colOf T c) : ℝ) : EReal)) 16 = (mr : EReal) := hm
  have hl' : lSt ⊥ 0 (fun T (c : Fin 256) => ((sr (colOf T c) : ℝ) : EReal)) 16
      = (((∑ j : Fin 4096, Real.exp (sr j)) / Real.exp mr : ℝ) : EReal) := by
    rw [sum_cols16 (fun j => Real.exp (sr j))]; exact hl
  have hpos : 0 < ∑ j : Fin 4096, Real.exp (sr j) :=
    Finset.sum_pos (fun j _ => Real.exp_pos _) Finset.univ_nonempty
  have h1 : tiledAttn q k b i j = ((Real.exp (sr j) / ∑ j : Fin 4096, Real.exp (sr j) : ℝ) : EReal) := by
    unfold tiledAttn tiledLse mAt lAt
    rw [hts, hm', hl', hsr]
    exact online_weight (sr j) mr _ hpos
  have h2 : attn q k b i j = ((Real.exp (sr j) / ∑ j : Fin 4096, Real.exp (sr j) : ℝ) : EReal) := by
    unfold attn rowSum rowMax
    simp only [hsr]
    exact textbook_weight sr j
  rw [h1, h2]

/-- The tiled context array of real inputs is the textbook context array. -/
theorem tiledCtxArr_eq (x0 x1 x2 : A3) (w0 w1 w2 : W2) (h0 : IsReal x0) (h1 : IsReal x1) (h2 : IsReal x2)
    (h3 : IsReal w0) (h4 : IsReal w1) (h5 : IsReal w2) :
    tiledCtxArr x0 x1 x2 w0 w1 w2 = ctxArr x0 x1 x2 w0 w1 w2 := by
  funext i
  exact tiledCtx_eq _ _ _ (projArr_real x0 w0 h0 h3) (projArr_real x1 w1 h1 h4) (projArr_real x2 w2 h2 h5)
    (i 0) (i 1) (i 2)

/-- The tiled weight array of real inputs is the textbook weight array. -/
theorem tiledAttnArr_eq (x0 x1 : A3) (w0 w1 : W2) (h0 : IsReal x0) (h1 : IsReal x1) (h3 : IsReal w0)
    (h4 : IsReal w1) : tiledAttnArr x0 x1 w0 w1 = attnArr x0 x1 w0 w1 := by
  funext i
  exact tiledAttn_eq _ _ (projArr_real x0 w0 h0 h3) (projArr_real x1 w1 h1 h4) (i 0) (i 1) (i 2)

/-- The f32 pattern 0x3D800000 denotes one sixteenth. -/
theorem c16_bits : Ideal.ofBits .f32 0x3D800000#32 = Cert.AttnSpec.c16 := by
  simp [Ideal.ofBits, Ideal.ieee, Cert.AttnSpec.c16, -EReal.coe_mul]; norm_num

/-- The f32 pattern 0xFF800000 denotes minus infinity. -/
theorem neg_inf_bits : Ideal.ofBits .f32 0xFF800000#32 = (⊥ : EReal) := by
  simp [Ideal.ofBits, Ideal.ieee]

end Cert.AttnMath

end
-- ==== Proof.LibSoftmaxRows.lean ====
/-
  A softmax along the rows of a matrix, read AT AN INDEX at the ideal values, for kernels and references that spell it the
  numerically careful way: subtract the row's maximum, exponentiate, divide by the row's sum, with both reductions kept as a
  column (`keepdims`) and broadcast back along the row.

  * `softmaxAt row init j`: the value — `exp (row j − M) / ∑ c, exp (row c − M)` with `M` the fold of `max` from `init`
    over the row;
  * `rowMax2_apply`: a `multi_reduction <maximumf>` over the second axis of a rank-2 vector, at a row, is that fold;
  * `hostLaneMax3_apply`: the host's one-operand reduce with a `maximum` body over the last axis of a rank-3 array, at
    (a, b), is the same fold over the lane coordinate;
  * `max_fold_max_self`: taking the maximum with the fold's own starting value once more changes nothing;
  * `softmaxRows_apply`: the whole keepdims chain of a kernel (maximum, cast to a column, broadcast, subtract, exponentiate,
    sum, cast, broadcast, divide) at (r, j) is `softmaxAt` of row r.

  Nothing here needs the entries to be finite: the two sides of a claim that both spell the softmax this way are the same
  function on the extended reals.
-/
import Idealize.ShloMosaic.PureOps.Ideal.Laws
import Idealize.ShloMosaic.Lib.Pipeline.Value
import Idealize.ShloMosaic.Lib.ValueIdx
import proofs.«161166_j30331059044530_2_alg».proof.Proof.LibKeepdims

noncomputable section

open scoped BigOperators

namespace Idealize.ShloMosaic.SoftmaxRows

open Idealize.ShloMosaic Idealize.ShloMosaic.ValueIdx

/-- The softmax of one row at position `j`, the row's maximum taken as a fold of `max` from `init`. -/
def softmaxAt {n : Nat} (row : Fin n → EReal) (init : EReal) (j : Fin n) : EReal :=
  Ideal.div (Ideal.exp (row j - (Finset.univ : Finset (Fin n)).fold max init row))
    (∑ c : Fin n, Ideal.exp (row c - (Finset.univ : Finset (Fin n)).fold max init row))

/-- The maximum of a fold of `max` with the value the fold started from is the fold. -/
theorem max_fold_max_self {ι : Type} (s : Finset ι) (b : EReal) (f : ι → EReal) :
    max b (s.fold max b f) = s.fold max b f :=
  max_eq_right ((Finset.le_fold_max b).mpr (Or.inl le_rfl))

/-- A maximum over the second axis of a rank-2 vector, at row a: the fold of `max` over the column coordinate. -/
theorem rowMax2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.maximumf.neutral φ hφ)
    (a : Fin n0) :
    multiReduction .maximumf [1] ⟨1, ![n0]⟩ v acc h hφ hacc (ix1 a)
      = (Finset.univ : Finset (Fin n1)).fold max (Ideal.ofBits φ acc) (fun c => v (ix2 a c)) :=
  (Ideal.multiReduction_maximumf_single v acc h hφ hacc (ix1 a)).trans
    (Finset.fold_congr fun c _ => congrArg v (funext fun d => Fin.ext (by
      match d with | ⟨0, _⟩ => rfl | ⟨1, _⟩ => rfl)))

/-- The host's reduce with a `maximum` body over the last axis of a rank-3 array, at (a, b): the fold of `max` from the
    initial value's element over the lane coordinate. -/
theorem hostLaneMax3_apply {n0 n1 n2 : Nat} {φ : FTy} {u : Shape} (x : (⟨3, ![n0, n1, n2]⟩ : Shape).Idx → Ideal φ)
    (init : u.Idx → Ideal φ) (h' : (⟨3, ![n0, n1, n2]⟩ : Shape).ReducesTo [2] ⟨2, ![n0, n1]⟩)
    (h : (⟨3, ![n0, n1, n2]⟩ : Shape).Reduces [2] ⟨2, ![n0, n1]⟩) (hu : 0 < u.numel) (a : Fin n0) (b : Fin n1) :
    Host.reduce (FloatOps.maximumf (F := Ideal) (φ := φ)) x init h' hu (ix2 a b)
      = (Finset.univ : Finset (Fin n2)).fold max (init (Shape.Idx.first hu)) (fun c => x (ix3 a b c)) :=
  (Host.reduce_eq_fold_single (FloatOps.maximumf (F := Ideal) (φ := φ)) x init h' h hu (ix2 a b)).trans
    (Finset.fold_congr fun c _ => congrArg x (funext fun d => Fin.ext (by
      match d with | ⟨0, _⟩ => rfl | ⟨1, _⟩ => rfl | ⟨2, _⟩ => rfl)))

/-- The keepdims softmax chain of a kernel over the rows of `s`, at (r, j): the row's maximum and the row's sum of
    exponentials each reduced to a vector, cast to a column and broadcast back along the row. -/
theorem softmaxRows_apply {n0 n1 : Nat} (s : FVec Ideal ⟨2, ![n0, n1]⟩ .f32) (accM accS : BitVec 32)
    (hr : (⟨2, ![n0, n1]⟩ : Shape).Reduces [1] ⟨1, ![n0]⟩) (hc : (⟨1, ![n0]⟩ : Shape).ShapeCasts ⟨2, ![n0, 1]⟩)
    (hb : (⟨2, ![n0, 1]⟩ : Shape).Broadcasts ⟨2, ![n0, n1]⟩) (hφ : FKind.Formats .f32)
    (hM : accM = FKind.maximumf.neutral .f32 hφ) (hS : accS = FKind.add.neutral .f32 hφ) (r : Fin n0) (j : Fin n1) :
    divf (exp (subf s (broadcastTo ⟨2, ![n0, n1]⟩ (shapeCast ⟨2, ![n0, 1]⟩ (multiReduction .maximumf [1] ⟨1, ![n0]⟩ s accM hr hφ hM) hc) hb)))
        (broadcastTo ⟨2, ![n0, n1]⟩ (shapeCast ⟨2, ![n0, 1]⟩ (multiReduction .add [1] ⟨1, ![n0]⟩
          (exp (subf s (broadcastTo ⟨2, ![n0, n1]⟩ (shapeCast ⟨2, ![n0, 1]⟩ (multiReduction .maximumf [1] ⟨1, ![n0]⟩ s accM hr hφ hM) hc) hb)))
          accS hr hφ hS) hc) hb) (ix2 r j)
      = softmaxAt (fun c => s (ix2 r c)) (Ideal.ofBits .f32 accM) j := by
  have hmax : ∀ c : Fin n1, broadcastTo ⟨2, ![n0, n1]⟩ (shapeCast ⟨2, ![n0, 1]⟩ (multiReduction .maximumf [1] ⟨1, ![n0]⟩ s accM hr hφ hM) hc) hb (ix2 r c)
      = (Finset.univ : Finset (Fin n1)).fold max (Ideal.ofBits .f32 accM) (fun c => s (ix2 r c)) := fun c =>
    (Keepdims.bcast_col_apply _ hb r c).trans ((Keepdims.cast_col_apply _ hc r 0).trans (rowMax2_apply s accM hr hφ hM r))
  have hexp : ∀ c : Fin n1, exp (subf s (broadcastTo ⟨2, ![n0, n1]⟩ (shapeCast ⟨2, ![n0, 1]⟩ (multiReduction .maximumf [1] ⟨1, ![n0]⟩ s accM hr hφ hM) hc) hb)) (ix2 r c)
      = Ideal.exp (s (ix2 r c) - (Finset.univ : Finset (Fin n1)).fold max (Ideal.ofBits .f32 accM) (fun c => s (ix2 r c))) := fun c =>
    congrArg (fun m => Ideal.exp (s (ix2 r c) - m)) (hmax c)
  have hsum : broadcastTo ⟨2, ![n0, n1]⟩ (shapeCast ⟨2, ![n0, 1]⟩ (multiReduction .add [1] ⟨1, ![n0]⟩
          (exp (subf s (broadcastTo ⟨2, ![n0, n1]⟩ (shapeCast ⟨2, ![n0, 1]⟩ (multiReduction .maximumf [1] ⟨1, ![n0]⟩ s accM hr hφ hM) hc) hb)))
          accS hr hφ hS) hc) hb (ix2 r j)
      = ∑ c : Fin n1, Ideal.exp (s (ix2 r c) - (Finset.univ : Finset (Fin n1)).fold max (Ideal.ofBits .f32 accM) (fun c => s (ix2 r c))) :=
    (Keepdims.bcast_col_apply _ hb r j).trans ((Keepdims.cast_col_apply _ hc r 0).trans
      ((Keepdims.rowSum2_apply _ accS hr hφ hS r).trans (Finset.sum_congr rfl fun c _ => hexp c)))
  show Ideal.div _ _ = _
  unfold softmaxAt
  exact congrArg₂ Ideal.div (hexp j) hsum

end Idealize.ShloMosaic.SoftmaxRows

end
-- ==== Proof.LibSoftmaxLanes.lean ====
/-
  A softmax along the LANES (the last axis) of a rank-3 vector, read AT AN INDEX at the ideal values, for a kernel that
  spells it the numerically careful way with both reductions kept (`keepdims`) and broadcast back along the lanes:

  * `laneMax3_apply`: a `multi_reduction <maximumf>` over the last axis of a rank-3 vector, at (a, b), is the fold of
    `max` from the accumulator's value over the lane coordinate;
  * `softmaxLanes3_apply`: the whole chain (maximum, cast [a, b] → [a, b, 1], broadcast to [a, b, c], subtract,
    exponentiate, sum, cast, broadcast, divide) at (a, b, j) is `SoftmaxRows.softmaxAt` of the lane row at (a, b).

  Nothing here needs the entries to be finite.
-/
import Idealize.ShloMosaic.PureOps.Ideal.Laws
import Idealize.ShloMosaic.Lib.Pipeline.Value
import Idealize.ShloMosaic.Lib.ValueIdx
import proofs.«161166_j30331059044530_2_alg».proof.Proof.LibKeepdims
import proofs.«161166_j30331059044530_2_alg».proof.Proof.LibSoftmaxRows

noncomputable section

open scoped BigOperators

namespace Idealize.ShloMosaic.SoftmaxLanes

open Idealize.ShloMosaic Idealize.ShloMosaic.ValueIdx Idealize.ShloMosaic.SoftmaxRows

/-- A maximum over the last axis of a rank-3 vector, at (a, b): the fold of `max` over the lane coordinate. -/
theorem laneMax3_apply {n0 n1 n2 : Nat} {φ : FTy} (v : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.maximumf.neutral φ hφ)
    (a : Fin n0) (b : Fin n1) :
    multiReduction .maximumf [2] ⟨2, ![n0, n1]⟩ v acc h hφ hacc (ix2 a b)
      = (Finset.univ : Finset (Fin n2)).fold max (Ideal.ofBits φ acc) (fun c => v (ix3 a b c)) :=
  (Ideal.multiReduction_maximumf_single v acc h hφ hacc (ix2 a b)).trans
    (Finset.fold_congr fun c _ => congrArg v (funext fun d => Fin.ext (by
      match d with | ⟨0, _⟩ => rfl | ⟨1, _⟩ => rfl | ⟨2, _⟩ => rfl)))

/-- The keepdims softmax chain of a kernel over the lanes of `s`, at (a, b, j). -/
theorem softmaxLanes3_apply {n0 n1 n2 : Nat} (s : FVec Ideal ⟨3, ![n0, n1, n2]⟩ .f32) (accM accS : BitVec 32)
    (hr : (⟨3, ![n0, n1, n2]⟩ : Shape).Reduces [2] ⟨2, ![n0, n1]⟩) (hc : (⟨2, ![n0, n1]⟩ : Shape).ShapeCasts ⟨3, ![n0, n1, 1]⟩)
    (hb : (⟨3, ![n0, n1, 1]⟩ : Shape).Broadcasts ⟨3, ![n0, n1, n2]⟩) (hφ : FKind.Formats .f32)
    (hM : accM = FKind.maximumf.neutral .f32 hφ) (hS : accS = FKind.add.neutral .f32 hφ) (a : Fin n0) (b : Fin n1) (j : Fin n2) :
    divf (exp (subf s (broadcastTo ⟨3, ![n0, n1, n2]⟩ (shapeCast ⟨3, ![n0, n1, 1]⟩ (multiReduction .maximumf [2] ⟨2, ![n0, n1]⟩ s accM hr hφ hM) hc) hb)))
        (broadcastTo ⟨3, ![n0, n1, n2]⟩ (shapeCast ⟨3, ![n0, n1, 1]⟩ (multiReduction .add [2] ⟨2, ![n0, n1]⟩
          (exp (subf s (broadcastTo ⟨3, ![n0, n1, n2]⟩ (shapeCast ⟨3, ![n0, n1, 1]⟩ (multiReduction .maximumf [2] ⟨2, ![n0, n1]⟩ s accM hr hφ hM) hc) hb)))
          accS hr hφ hS) hc) hb) (ix3 a b j)
      = softmaxAt (fun c => s (ix3 a b c)) (Ideal.ofBits .f32 accM) j := by
  have hmax : ∀ c : Fin n2, broadcastTo ⟨3, ![n0, n1, n2]⟩ (shapeCast ⟨3, ![n0, n1, 1]⟩ (multiReduction .maximumf [2] ⟨2, ![n0, n1]⟩ s accM hr hφ hM) hc) hb (ix3 a b c)
      = (Finset.univ : Finset (Fin n2)).fold max (Ideal.ofBits .f32 accM) (fun c => s (ix3 a b c)) := fun c =>
    (Keepdims.bcast_col3_apply _ hb a b c).trans ((Keepdims.cast_col3_apply _ hc a b 0).trans (laneMax3_apply s accM hr hφ hM a b))
  have hexp : ∀ c : Fin n2, exp (subf s (broadcastTo ⟨3, ![n0, n1, n2]⟩ (shapeCast ⟨3, ![n0, n1, 1]⟩ (multiReduction .maximumf [2] ⟨2, ![n0, n1]⟩ s accM hr hφ hM) hc) hb)) (ix3 a b c)
      = Ideal.exp (s (ix3 a b c) - (Finset.univ : Finset (Fin n2)).fold max (Ideal.ofBits .f32 accM) (fun c => s (ix3 a b c))) := fun c =>
    congrArg (fun m => Ideal.exp (s (ix3 a b c) - m)) (hmax c)
  have hsum : broadcastTo ⟨3, ![n0, n1, n2]⟩ (shapeCast ⟨3, ![n0, n1, 1]⟩ (multiReduction .add [2] ⟨2, ![n0, n1]⟩
          (exp (subf s (broadcastTo ⟨3, ![n0, n1, n2]⟩ (shapeCast ⟨3, ![n0, n1, 1]⟩ (multiReduction .maximumf [2] ⟨2, ![n0, n1]⟩ s accM hr hφ hM) hc) hb)))
          accS hr hφ hS) hc) hb (ix3 a b j)
      = ∑ c : Fin n2, Ideal.exp (s (ix3 a b c) - (Finset.univ : Finset (Fin n2)).fold max (Ideal.ofBits .f32 accM) (fun c => s (ix3 a b c))) :=
    (Keepdims.bcast_col3_apply _ hb a b j).trans ((Keepdims.cast_col3_apply _ hc a b 0).trans
      ((Keepdims.laneSum3_apply _ accS hr hφ hS a b).trans (Finset.sum_congr rfl fun c _ => hexp c)))
  show Ideal.div _ _ = _
  unfold softmaxAt
  exact congrArg₂ Ideal.div (hexp j) hsum

end Idealize.ShloMosaic.SoftmaxLanes

end
-- ==== Proof.KI.FlashStep.lean ====
/-
  The arithmetic of one step of the tiled attention body, read at an index, at the ideal values.

  At a grid point the body holds a block of 1024 query rows and a tile of 256 key rows and 256 value rows for each of the
  4 batches, and a carried state per query row: a running maximum m, a running normalizer l and a running weighted sum
  acc. The scores of the tile are s(b, r, c) = (∑_d q(b, r, d) · k(b, c, d)) / 16. The step replaces the state by

      m' = max m (max_c s(b, r, c)),
      l' = exp (m − m') · l + ∑_c exp (s(b, r, c) − m'),
      acc'(d) = exp (m − m') · acc(d) + ∑_c exp (s(b, r, c) − m') · v(b, c, d),

  and after the last tile the results are acc' / l' and m' + log l'. Each lemma below reads one of the body's values at
  explicit coordinates (b, r, c) or (b, r, d): a batched contraction is a sum over the contracted coordinate, a maximum
  along the lanes is a fold of max from minus infinity, a lane sum is a sum over the lane coordinate, a cast that adds a
  unit axis and a broadcast along it keep the entry, a rounding to a narrower format is the identity at the ideal values.
-/
import proofs.«161166_j30331059044530_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«161166_j30331059044530_2_alg».proof.Proof.LibSoftmaxLanes
import proofs.«161166_j30331059044530_2_alg».proof.Proof.LibKeepdims
import proofs.«161166_j30331059044530_2_alg».proof.Proof.LibOnlineSoftmax
import proofs.«161166_j30331059044530_2_alg».proof.Proof.AttnMath

noncomputable section

open scoped BigOperators

namespace Cert.KernelIdeal.HandValue

open Cert.KernelIdeal Cert.KernelIdeal.Gen Idealize.ShloMosaic Idealize.ShloMosaic.ValueIdx

/-! ## The two batched contractions -/

local notation "Dqk" => dot_S4x1024x256_S4x256x256_S4x1024x256_2_2_1_1_0_0
local notation "Dpv" => dot_S4x1024x256_S4x256x256_S4x1024x256_2_1_1_2_0_0

/-! The operand indices of the first contraction (batch axis 0; both operands contracted on their last axis). -/

theorem qk_lhs_0 (i : S4x1024x256.Idx) (q : (Dqk).contr.Idx) : ((Dqk).lhsIdx i q 0).val = (i 0).val := by
  unfold DotDims.lhsIdx
  rw [dif_pos (show (0 : Fin S4x1024x256.rank) ∈ (Dqk).lhsBatch by decide)]
  rfl
theorem qk_lhs_1 (i : S4x1024x256.Idx) (q : (Dqk).contr.Idx) : ((Dqk).lhsIdx i q 1).val = (i 1).val := by
  unfold DotDims.lhsIdx
  rw [dif_neg (show ¬(1 : Fin S4x1024x256.rank) ∈ (Dqk).lhsBatch by decide),
    dif_pos (show (1 : Fin S4x1024x256.rank) ∈ (Dqk).lhsNonContracting by decide)]
  rfl
theorem qk_lhs_2 (i : S4x1024x256.Idx) (q : (Dqk).contr.Idx) : ((Dqk).lhsIdx i q 2).val = (q ⟨0, by decide⟩).val :=
  (Dqk).lhsIdx_val_of_single rfl i q
theorem qk_rhs_0 (i : S4x1024x256.Idx) (q : (Dqk).contr.Idx) : ((Dqk).rhsIdx i q 0).val = (i 0).val := by
  unfold DotDims.rhsIdx
  rw [dif_pos (show (0 : Fin S4x256x256.rank) ∈ (Dqk).rhsBatch by decide)]
  rfl
theorem qk_rhs_1 (i : S4x1024x256.Idx) (q : (Dqk).contr.Idx) : ((Dqk).rhsIdx i q 1).val = (i 2).val := by
  unfold DotDims.rhsIdx
  rw [dif_neg (show ¬(1 : Fin S4x256x256.rank) ∈ (Dqk).rhsBatch by decide),
    dif_pos (show (1 : Fin S4x256x256.rank) ∈ (Dqk).rhsNonContracting by decide)]
  rfl
theorem qk_rhs_2 (i : S4x1024x256.Idx) (q : (Dqk).contr.Idx) : ((Dqk).rhsIdx i q 2).val = (q ⟨0, by decide⟩).val :=
  (Dqk).rhsIdx_val_of_single rfl i q

/-- Queries against keys: batch axis 0, both operands contracted on their last axis, into the zero accumulator. At
    (b, r, c) it is the sum over d of the query at (b, r, d) times the key at (b, c, d). -/
theorem qk_dot_apply (y0 : FVec Ideal S4x1024x256 .bf16) (y1 : FVec Ideal S4x256x256 .bf16) (b : Fin 4) (r : Fin 1024)
    (cj : Fin 256) :
    matmul Dqk none y0 y1 (constant (F := Ideal) S4x1024x256 .f32 0x00000000#32) (ix3 b r cj)
      = ∑ d : Fin 256, y0 (ix3 b r d) * y1 (ix3 b cj d) := by
  simp only [matmul]
  rw [Ideal.matmul_constant_zero_apply, ← Equiv.sum_comp (contrEquiv1 Dqk 256 rfl rfl).symm]
  refine Finset.sum_congr rfl fun k _ => ?_
  have hk := contrEquiv1_symm_val Dqk 256 rfl rfl k
  have el : (Dqk).lhsIdx (ix3 b r cj) ((contrEquiv1 Dqk 256 rfl rfl).symm k) = ix3 b r k :=
    funext fun a => Fin.ext (by
      match a with
      | ⟨0, _⟩ => exact qk_lhs_0 _ _
      | ⟨1, _⟩ => exact qk_lhs_1 _ _
      | ⟨2, _⟩ => exact (qk_lhs_2 _ _).trans hk)
  have er : (Dqk).rhsIdx (ix3 b r cj) ((contrEquiv1 Dqk 256 rfl rfl).symm k) = ix3 b cj k :=
    funext fun a => Fin.ext (by
      match a with
      | ⟨0, _⟩ => exact qk_rhs_0 _ _
      | ⟨1, _⟩ => exact qk_rhs_1 _ _
      | ⟨2, _⟩ => exact (qk_rhs_2 _ _).trans hk)
  rw [el, er]

/-! The operand indices of the second contraction (batch axis 0; the left operand contracted on its last axis, the right
    on its middle axis). -/

theorem pv_lhs_0 (i : S4x1024x256.Idx) (q : (Dpv).contr.Idx) : ((Dpv).lhsIdx i q 0).val = (i 0).val := by
  unfold DotDims.lhsIdx
  rw [dif_pos (show (0 : Fin S4x1024x256.rank) ∈ (Dpv).lhsBatch by decide)]
  rfl
theorem pv_lhs_1 (i : S4x1024x256.Idx) (q : (Dpv).contr.Idx) : ((Dpv).lhsIdx i q 1).val = (i 1).val := by
  unfold DotDims.lhsIdx
  rw [dif_neg (show ¬(1 : Fin S4x1024x256.rank) ∈ (Dpv).lhsBatch by decide),
    dif_pos (show (1 : Fin S4x1024x256.rank) ∈ (Dpv).lhsNonContracting by decide)]
  rfl
theorem pv_lhs_2 (i : S4x1024x256.Idx) (q : (Dpv).contr.Idx) : ((Dpv).lhsIdx i q 2).val = (q ⟨0, by decide⟩).val :=
  (Dpv).lhsIdx_val_of_single rfl i q
theorem pv_rhs_0 (i : S4x1024x256.Idx) (q : (Dpv).contr.Idx) : ((Dpv).rhsIdx i q 0).val = (i 0).val := by
  unfold DotDims.rhsIdx
  rw [dif_pos (show (0 : Fin S4x256x256.rank) ∈ (Dpv).rhsBatch by decide)]
  rfl
theorem pv_rhs_1 (i : S4x1024x256.Idx) (q : (Dpv).contr.Idx) : ((Dpv).rhsIdx i q 1).val = (q ⟨0, by decide⟩).val :=
  (Dpv).rhsIdx_val_of_single rfl i q
theorem pv_rhs_2 (i : S4x1024x256.Idx) (q : (Dpv).contr.Idx) : ((Dpv).rhsIdx i q 2).val = (i 2).val := by
  unfold DotDims.rhsIdx
  rw [dif_neg (show ¬(2 : Fin S4x256x256.rank) ∈ (Dpv).rhsBatch by decide),
    dif_pos (show (2 : Fin S4x256x256.rank) ∈ (Dpv).rhsNonContracting by decide)]
  rfl

/-- Weights against values: batch axis 0, the left operand contracted on its last axis and the right on its middle axis,
    into the zero accumulator. At (b, r, d) it is the sum over c of the weight at (b, r, c) times the value at (b, c, d). -/
theorem pv_dot_apply (y0 : FVec Ideal S4x1024x256 .bf16) (y1 : FVec Ideal S4x256x256 .bf16) (b : Fin 4) (r : Fin 1024)
    (d : Fin 256) :
    matmul Dpv none y0 y1 (constant (F := Ideal) S4x1024x256 .f32 0x00000000#32) (ix3 b r d)
      = ∑ cj : Fin 256, y0 (ix3 b r cj) * y1 (ix3 b cj d) := by
  simp only [matmul]
  rw [Ideal.matmul_constant_zero_apply, ← Equiv.sum_comp (contrEquiv1 Dpv 256 rfl rfl).symm]
  refine Finset.sum_congr rfl fun k _ => ?_
  have hk := contrEquiv1_symm_val Dpv 256 rfl rfl k
  have el : (Dpv).lhsIdx (ix3 b r d) ((contrEquiv1 Dpv 256 rfl rfl).symm k) = ix3 b r k :=
    funext fun a => Fin.ext (by
      match a with
      | ⟨0, _⟩ => exact pv_lhs_0 _ _
      | ⟨1, _⟩ => exact pv_lhs_1 _ _
      | ⟨2, _⟩ => exact (pv_lhs_2 _ _).trans hk)
  have er : (Dpv).rhsIdx (ix3 b r d) ((contrEquiv1 Dpv 256 rfl rfl).symm k) = ix3 b k d :=
    funext fun a => Fin.ext (by
      match a with
      | ⟨0, _⟩ => exact pv_rhs_0 _ _
      | ⟨1, _⟩ => exact (pv_rhs_1 _ _).trans hk
      | ⟨2, _⟩ => exact pv_rhs_2 _ _)
  rw [el, er]

/-! ## The body's values at an index -/

/-- The tile's scores: the contraction of query row (b, r) against key row (b, c), times one sixteenth. -/
theorem pay9_apply (x0 : Vec Ideal S4x1024x256 .bf16) (x1 : Vec Ideal S4x256x256 .bf16) (b : Fin 4) (r : Fin 1024)
    (cj : Fin 256) :
    k3_pay9 x0 x1 (ix3 b r cj) = (∑ d : Fin 256, x0 (ix3 b r d) * x1 (ix3 b cj d)) * Cert.AttnSpec.c16 := by
  unfold k3_pay9
  rw [shapeCast_self x0, shapeCast_self x1]
  show matmul Dqk none x0 x1 (constant (F := Ideal) S4x1024x256 .f32 0x00000000#32) (ix3 b r cj)
      * Ideal.ofBits .f32 0x3D800000#32 = _
  rw [Cert.AttnMath.c16_bits]
  exact congrArg (· * Cert.AttnSpec.c16) (qk_dot_apply x0 x1 b r cj)

/-- The casts to the same shape are the identity. -/
theorem pay2_eq (v : FVec Ideal S4x1024x1 .f32) : k3_pay2 v = v := shapeCast_self v _

theorem pay8_eq (v : Vec Ideal S4x256x256 .bf16) : k3_pay8 v = v := shapeCast_self v _

/-- The new running maximum: the old one against the greatest score of the tile's row, folded from minus infinity. -/
theorem pay10_apply (x0 : Vec Ideal S4x1024x256 .bf16) (x1 : Vec Ideal S4x256x256 .bf16) (m : Vec Ideal S4x1024x1 .f32)
    (b : Fin 4) (r : Fin 1024) :
    k3_pay10 x0 x1 m (ix3 b r 0)
      = max (m (ix3 b r 0)) (Cert.OnlineSoftmax.tileMax ⊥ fun cj => k3_pay9 x0 x1 (ix3 b r cj)) := by
  unfold k3_pay10
  refine congrArg (max (m (ix3 b r 0))) ?_
  refine (Keepdims.cast_col3_apply _ _ b r 0).trans ?_
  refine (SoftmaxLanes.laneMax3_apply (k3_pay9 x0 x1) 0xFF800000#32 _ _ _ b r).trans ?_
  unfold Cert.OnlineSoftmax.tileMax
  rw [Cert.AttnMath.neg_inf_bits]

/-- The rescaling factor of the carried state: exp (m₂ − m'). -/
theorem pay11_apply (x0 : Vec Ideal S4x1024x256 .bf16) (x1 : Vec Ideal S4x256x256 .bf16) (m m₂ : Vec Ideal S4x1024x1 .f32)
    (b : Fin 4) (r : Fin 1024) :
    k3_pay11 x0 x1 m m₂ (ix3 b r 0) = Ideal.exp (m₂ (ix3 b r 0) - k3_pay10 x0 x1 m (ix3 b r 0)) := rfl

/-- The tile's shifted exponentials: exp (s − m'), the new maximum broadcast along the lanes. -/
theorem pay12_apply (x0 : Vec Ideal S4x1024x256 .bf16) (x1 : Vec Ideal S4x256x256 .bf16) (m : Vec Ideal S4x1024x1 .f32)
    (b : Fin 4) (r : Fin 1024) (cj : Fin 256) :
    k3_pay12 x0 x1 m (ix3 b r cj) = Ideal.exp (k3_pay9 x0 x1 (ix3 b r cj) - k3_pay10 x0 x1 m (ix3 b r 0)) := by
  unfold k3_pay12
  exact congrArg (fun t => Ideal.exp (k3_pay9 x0 x1 (ix3 b r cj) - t))
    (Keepdims.bcast_col3_apply (k3_pay10 x0 x1 m) _ b r cj)

/-- The new normalizer: the rescaled old one plus the lane sum of the shifted exponentials. -/
theorem pay13_apply (x0 : Vec Ideal S4x1024x256 .bf16) (x1 : Vec Ideal S4x256x256 .bf16)
    (m m₂ l : Vec Ideal S4x1024x1 .f32) (b : Fin 4) (r : Fin 1024) :
    k3_pay13 x0 x1 m m₂ l (ix3 b r 0)
      = k3_pay11 x0 x1 m m₂ (ix3 b r 0) * l (ix3 b r 0) + ∑ cj : Fin 256, k3_pay12 x0 x1 m (ix3 b r cj) := by
  unfold k3_pay13
  refine (congrFun (shapeCast_self _ _) (ix3 b r 0)).trans ?_
  refine congrArg (k3_pay11 x0 x1 m m₂ (ix3 b r 0) * l (ix3 b r 0) + ·) ?_
  exact (Keepdims.cast_col3_apply _ _ b r 0).trans
    (Keepdims.laneSum3_apply (k3_pay12 x0 x1 m) 0x00000000#32 _ _ _ b r)

/-- The new weighted sum: the rescaled old one plus the weights' contraction against the values. -/
theorem pay1_apply (v8 : FVec Ideal S4x256x256 .bf16) (v18 : FVec Ideal S4x1024x1 .f32) (v21 : FVec Ideal S4x1024x256 .f32)
    (v30 : Vec Ideal S4x1024x256 .f32) (b : Fin 4) (r : Fin 1024) (d : Fin 256) :
    k3_pay1 v8 v18 v21 v30 (ix3 b r d)
      = v18 (ix3 b r 0) * v30 (ix3 b r d) + ∑ cj : Fin 256, v21 (ix3 b r cj) * v8 (ix3 b cj d) := by
  unfold k3_pay1
  refine (congrFun (shapeCast_self _ _) (ix3 b r d)).trans ?_
  exact congrArg₂ (· + ·) (congrArg (· * v30 (ix3 b r d)) (Keepdims.bcast_col3_apply v18 _ b r d))
    (pv_dot_apply (truncf .bf16 v21 bitsLt_bf16_f32) v8 b r d)

/-- The result rows: the weighted sum over the normalizer, the normalizer broadcast along the lanes. -/
theorem pay3_apply (a : Vec Ideal S4x1024x256 .f32) (l : Vec Ideal S4x1024x1 .f32) (b : Fin 4) (r : Fin 1024) (d : Fin 256) :
    k3_pay3 a l (ix3 b r d) = Ideal.div (a (ix3 b r d)) (l (ix3 b r 0)) := by
  unfold k3_pay3
  exact congrArg (Ideal.div (a (ix3 b r d))) (Keepdims.bcast_col3_apply l _ b r d)

/-- The row's log-sum-exp: the maximum plus the logarithm of the normalizer. -/
theorem pay4_apply (m l : Vec Ideal S4x1024x1 .f32) (b : Fin 4) (r : Fin 1024) :
    k3_pay4 m l (ix3 b r 0) = m (ix3 b r 0) + Ideal.log (l (ix3 b r 0)) := rfl

/-- The reset state: minus infinity, zero, zero. -/
theorem pay5_apply (b : Fin 4) (r : Fin 1024) : k3_pay5 (F := Ideal) (ix3 b r 0) = ⊥ := by
  unfold k3_pay5
  refine (congrFun (shapeCast_self _ _) (ix3 b r 0)).trans ?_
  exact Cert.AttnMath.neg_inf_bits

theorem pay6_apply (b : Fin 4) (r : Fin 1024) : k3_pay6 (F := Ideal) (ix3 b r 0) = 0 := by
  unfold k3_pay6
  refine (congrFun (shapeCast_self _ _) (ix3 b r 0)).trans ?_
  exact Ideal.ofBits_zero_f32

theorem pay7_apply (b : Fin 4) (r : Fin 1024) (d : Fin 256) : k3_pay7 (F := Ideal) (ix3 b r d) = 0 := by
  unfold k3_pay7
  refine (congrFun (shapeCast_self _ _) (ix3 b r d)).trans ?_
  exact Ideal.ofBits_zero_f32

end Cert.KernelIdeal.HandValue

end
-- ==== Proof.KI.FlashBlocks.lean ====
/- The flash-attention pass, from blocks to arrays: each input window's block at a grid point read as rows of its array
   (the query block at rows 1024·(t / 16) …, the key and value blocks at rows 256·(t % 16) …), and the two result arrays
   after the region from what the result buffers hold at the last key tile of each row of tiles: the blocks written
   back there are disjoint row bands that cover the arrays. -/
import proofs.«161166_j30331059044530_2_alg».proof.Proof.KI.Flash
import Idealize.ShloMosaic.Lib.Pipeline.Value
import Idealize.ShloMosaic.Lib.ValueIdx
import Idealize.ShloMosaic.Lib.ValueLayout

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

variable {F : FTy → Type} [FloatOps F]
variable (V : (c : Dev nD) → (b : Ref sig .tc) → Buf (Elt F) ((c : Thread nD τ).loc b))

/-! ## The index maps and the rows a block holds -/

/-- The printed index maps, decided over the 64 grid points: at point t = 16·q + κ the query window and the two result
    windows are at row block q, the key and value windows at row block κ. -/
theorem idx3 : ∀ t : Fin cfg3.N,
    win3_0.index t (0 : Fin 3) = 0 ∧ win3_0.index t (1 : Fin 3) = t.val / 16 ∧ win3_0.index t (2 : Fin 3) = 0
    ∧ win3_1.index t (0 : Fin 3) = 0 ∧ win3_1.index t (1 : Fin 3) = t.val % 16 ∧ win3_1.index t (2 : Fin 3) = 0
    ∧ win3_2.index t (0 : Fin 3) = 0 ∧ win3_2.index t (1 : Fin 3) = t.val % 16 ∧ win3_2.index t (2 : Fin 3) = 0
    ∧ win3_3.index t (0 : Fin 3) = 0 ∧ win3_3.index t (1 : Fin 3) = t.val / 16 ∧ win3_3.index t (2 : Fin 3) = 0
    ∧ win3_4.index t (0 : Fin 3) = 0 ∧ win3_4.index t (1 : Fin 3) = t.val / 16 ∧ win3_4.index t (2 : Fin 3) = 0 :=
  (by decide +kernel : ∀ t : Fin grid3.N, _)

/-- Row r of the row band of 1024 rows that point t's query and result blocks hold: row 1024·(t / 16) + r of 4096. -/
abbrev qrow3 (t : Fin cfg3.N) (r : Fin 1024) : Fin 4096 :=
  ⟨1024 * (t.val / 16) + r.val, by have h : t.val < 64 := lt_of_lt_of_eq t.isLt N_3; have := r.isLt; omega⟩

/-- Row k of the row band of 256 rows that point t's key and value blocks hold: row 256·(t % 16) + k of 4096. -/
abbrev krow3 (t : Fin cfg3.N) (k : Fin 256) : Fin 4096 :=
  ⟨256 * (t.val % 16) + k.val, by have := k.isLt; omega⟩

/-- The query window's block at point t is rows 1024·(t / 16) … of the query array. -/
theorem iblk3_0_apply (c : Dev nD) (t : Fin cfg3.N) (b : Fin 4) (r : Fin 1024) (d : Fin 256) :
    (iblk3 V c 0 t : Vec F S4x1024x256 .bf16) (ix3 b r d) = (V c main_v2 : S4x4096x256.Idx → Elt F .bf16) (ix3 b (qrow3 t r) d) := by
  obtain ⟨f0, f1, f2, -⟩ := idx3 t
  unfold iblk3
  rw [View.read_apply]
  show V c main_v2 _ = V c main_v2 _
  refine congrArg (V c main_v2) (funext fun a => Fin.ext ?_)
  match a with
  | ⟨0, _⟩ => show win3_0.index t (0 : Fin 3) * 4 + 1 * b.val = b.val; rw [f0]; omega
  | ⟨1, _⟩ => show win3_0.index t (1 : Fin 3) * 1024 + 1 * r.val = 1024 * (t.val / 16) + r.val; rw [f1]; omega
  | ⟨2, _⟩ => show win3_0.index t (2 : Fin 3) * 256 + 1 * d.val = d.val; rw [f2]; omega

/-- The key window's block at point t is rows 256·(t % 16) … of the key array. -/
theorem iblk3_1_apply (c : Dev nD) (t : Fin cfg3.N) (b : Fin 4) (k : Fin 256) (d : Fin 256) :
    (iblk3 V c 1 t : Vec F S4x256x256 .bf16) (ix3 b k d) = (V c main_v5 : S4x4096x256.Idx → Elt F .bf16) (ix3 b (krow3 t k) d) := by
  obtain ⟨-, -, -, f0, f1, f2, -⟩ := idx3 t
  unfold iblk3
  rw [View.read_apply]
  show V c main_v5 _ = V c main_v5 _
  refine congrArg (V c main_v5) (funext fun a => Fin.ext ?_)
  match a with
  | ⟨0, _⟩ => show win3_1.index t (0 : Fin 3) * 4 + 1 * b.val = b.val; rw [f0]; omega
  | ⟨1, _⟩ => show win3_1.index t (1 : Fin 3) * 256 + 1 * k.val = 256 * (t.val % 16) + k.val; rw [f1]; omega
  | ⟨2, _⟩ => show win3_1.index t (2 : Fin 3) * 256 + 1 * d.val = d.val; rw [f2]; omega

/-- The value window's block at point t is rows 256·(t % 16) … of the value array. -/
theorem iblk3_2_apply (c : Dev nD) (t : Fin cfg3.N) (b : Fin 4) (k : Fin 256) (d : Fin 256) :
    (iblk3 V c 2 t : Vec F S4x256x256 .bf16) (ix3 b k d) = (V c main_v8 : S4x4096x256.Idx → Elt F .bf16) (ix3 b (krow3 t k) d) := by
  obtain ⟨-, -, -, -, -, -, f0, f1, f2, -⟩ := idx3 t
  unfold iblk3
  rw [View.read_apply]
  show V c main_v8 _ = V c main_v8 _
  refine congrArg (V c main_v8) (funext fun a => Fin.ext ?_)
  match a with
  | ⟨0, _⟩ => show win3_2.index t (0 : Fin 3) * 4 + 1 * b.val = b.val; rw [f0]; omega
  | ⟨1, _⟩ => show win3_2.index t (1 : Fin 3) * 256 + 1 * k.val = 256 * (t.val % 16) + k.val; rw [f1]; omega
  | ⟨2, _⟩ => show win3_2.index t (2 : Fin 3) * 256 + 1 * d.val = d.val; rw [f2]; omega

/-! ## The context array after the region -/

/-- An index of the context array is in point t's block iff each coordinate is in the block's range on its axis. -/
theorem mem_blk3_3 (t : Fin cfg3.N) (i : S4x4096x256.Idx) :
    i ∈ ((cfg3.win 3).blk t).view.set ↔ ∀ a : Fin 3, win3_3.index t a * S4x1024x256.size a ≤ (i a).val ∧ (i a).val < win3_3.index t a * S4x1024x256.size a + S4x1024x256.size a := by
  show i ∈ ((View.whole main_v9_0).slice (win3_3.rect t)).set ↔ _
  rw [View.set_slice_whole, Rect.mem_set_unit]
  exact Iff.rfl

/-- Every index of the context array is in the block of the last key tile of its row of tiles, the point
    16·(i 1 / 1024) + 15, which writes back. -/
theorem cover3_3 (i : S4x4096x256.Idx) : ∃ t : Fin cfg3.N, (cfg3.win 3).flush t = true ∧ i ∈ ((cfg3.win 3).blk t).view.set := by
  have hi0 : (i 0).val < 4 := (i 0).isLt
  have hi1 : (i 1).val < 4096 := (i 1).isLt
  have hi2 : (i 2).val < 256 := (i 2).isLt
  have hN : cfg3.N = 64 := N_3
  obtain ⟨t, ht⟩ : ∃ t : Fin cfg3.N, t.val = 16 * ((i 1).val / 1024) + 15 :=
    ⟨⟨16 * ((i 1).val / 1024) + 15, by rw [hN]; omega⟩, rfl⟩
  obtain ⟨-, -, -, -, -, -, -, -, -, f0, f1, f2, -⟩ := idx3 t
  refine ⟨t, (flush3_3 t).mpr (by rw [ht]; omega), ?_⟩
  rw [mem_blk3_3]
  intro a
  match a with
  | ⟨0, _⟩ => show win3_3.index t (0 : Fin 3) * 4 ≤ (i 0).val ∧ (i 0).val < win3_3.index t (0 : Fin 3) * 4 + 4; rw [f0]; omega
  | ⟨1, _⟩ => show win3_3.index t (1 : Fin 3) * 1024 ≤ (i 1).val ∧ (i 1).val < win3_3.index t (1 : Fin 3) * 1024 + 1024; rw [f1, ht]; omega
  | ⟨2, _⟩ => show win3_3.index t (2 : Fin 3) * 256 ≤ (i 2).val ∧ (i 2).val < win3_3.index t (2 : Fin 3) * 256 + 256; rw [f2]; omega

/-- THE CONTEXT ARRAY after the region is G, when at every last key tile the context buffer holds the rows of G of
    its row band. -/
theorem arrAt3_3 (c : Dev nD) (G : S4x4096x256.Idx → Elt F .f32)
    (h : ∀ t : Fin cfg3.N, t.val % 16 = 15 → ∀ (b : Fin 4) (r : Fin 1024) (d : Fin 256),
      ((dat3 (F := F) V c).after 3 t : Vec F S4x1024x256 .f32) (ix3 b r d) = G (ix3 b (qrow3 t r) d)) :
    (dat3 (F := F) V c).arrAt 3 cfg3.N = G := by
  refine (dat3 V c).arrAt_eq_of_cover 3 G (fun t hf => ?_) cover3_3
  have ht : t.val % 16 = 15 := (flush3_3 t).mp hf
  obtain ⟨-, -, -, -, -, -, -, -, -, f0, f1, f2, -⟩ := idx3 t
  show (cfg3.win 3).cut (grid3.coords t) ((dat3 V c).after 3 t) = _
  refine funext fun (j : S4x1024x256.Idx) => ?_
  show ((dat3 V c).after 3 t : Vec F S4x1024x256 .f32) j = G (((cfg3.win 3).blk t).view.emb j)
  refine ((congrArg ((dat3 V c).after 3 t : Vec F S4x1024x256 .f32) (eq_ix3 j)).trans (h t ht (j 0) (j 1) (j 2))).trans
    (congrArg G (funext fun a => Fin.ext ?_))
  match a with
  | ⟨0, _⟩ => show (j 0).val = win3_3.index t (0 : Fin 3) * 4 + 1 * (j 0).val; rw [f0]; omega
  | ⟨1, _⟩ => show 1024 * (t.val / 16) + (j 1).val = win3_3.index t (1 : Fin 3) * 1024 + 1 * (j 1).val; rw [f1]; omega
  | ⟨2, _⟩ => show (j 2).val = win3_3.index t (2 : Fin 3) * 256 + 1 * (j 2).val; rw [f2]; omega

/-! ## The log-sum-exp array after the region -/

/-- An index of the log-sum-exp array is in point t's block iff each coordinate is in the block's range on its axis. -/
theorem mem_blk3_4 (t : Fin cfg3.N) (i : S4x4096x1.Idx) :
    i ∈ ((cfg3.win 4).blk t).view.set ↔ ∀ a : Fin 3, win3_4.index t a * S4x1024x1.size a ≤ (i a).val ∧ (i a).val < win3_4.index t a * S4x1024x1.size a + S4x1024x1.size a := by
  show i ∈ ((View.whole main_v9_1).slice (win3_4.rect t)).set ↔ _
  rw [View.set_slice_whole, Rect.mem_set_unit]
  exact Iff.rfl

/-- Every index of the log-sum-exp array is in the block of the point 16·(i 1 / 1024) + 15, which writes back. -/
theorem cover3_4 (i : S4x4096x1.Idx) : ∃ t : Fin cfg3.N, (cfg3.win 4).flush t = true ∧ i ∈ ((cfg3.win 4).blk t).view.set := by
  have hi0 : (i 0).val < 4 := (i 0).isLt
  have hi1 : (i 1).val < 4096 := (i 1).isLt
  have hi2 : (i 2).val < 1 := (i 2).isLt
  have hN : cfg3.N = 64 := N_3
  obtain ⟨t, ht⟩ : ∃ t : Fin cfg3.N, t.val = 16 * ((i 1).val / 1024) + 15 :=
    ⟨⟨16 * ((i 1).val / 1024) + 15, by rw [hN]; omega⟩, rfl⟩
  obtain ⟨-, -, -, -, -, -, -, -, -, -, -, -, f0, f1, f2⟩ := idx3 t
  refine ⟨t, (flush3_4 t).mpr (by rw [ht]; omega), ?_⟩
  rw [mem_blk3_4]
  intro a
  match a with
  | ⟨0, _⟩ => show win3_4.index t (0 : Fin 3) * 4 ≤ (i 0).val ∧ (i 0).val < win3_4.index t (0 : Fin 3) * 4 + 4; rw [f0]; omega
  | ⟨1, _⟩ => show win3_4.index t (1 : Fin 3) * 1024 ≤ (i 1).val ∧ (i 1).val < win3_4.index t (1 : Fin 3) * 1024 + 1024; rw [f1, ht]; omega
  | ⟨2, _⟩ => show win3_4.index t (2 : Fin 3) * 1 ≤ (i 2).val ∧ (i 2).val < win3_4.index t (2 : Fin 3) * 1 + 1; rw [f2]; omega

/-- THE LOG-SUM-EXP ARRAY after the region is G, when at every last key tile the log-sum-exp buffer holds the rows
    of G of its row band. -/
theorem arrAt3_4 (c : Dev nD) (G : S4x4096x1.Idx → Elt F .f32)
    (h : ∀ t : Fin cfg3.N, t.val % 16 = 15 → ∀ (b : Fin 4) (r : Fin 1024),
      ((dat3 (F := F) V c).after 4 t : Vec F S4x1024x1 .f32) (ix3 b r 0) = G (ix3 b (qrow3 t r) 0)) :
    (dat3 (F := F) V c).arrAt 4 cfg3.N = G := by
  refine (dat3 V c).arrAt_eq_of_cover 4 G (fun t hf => ?_) cover3_4
  have ht : t.val % 16 = 15 := (flush3_4 t).mp hf
  obtain ⟨-, -, -, -, -, -, -, -, -, -, -, -, f0, f1, f2⟩ := idx3 t
  show (cfg3.win 4).cut (grid3.coords t) ((dat3 V c).after 4 t) = _
  refine funext fun (j : S4x1024x1.Idx) => ?_
  show ((dat3 V c).after 4 t : Vec F S4x1024x1 .f32) j = G (((cfg3.win 4).blk t).view.emb j)
  have hj2 : (j 2).val = 0 := by have : (j 2).val < 1 := (j 2).isLt; omega
  have ej : j = ix3 (j 0) (j 1) 0 := funext fun a => Fin.ext (by
    match a with
    | ⟨0, _⟩ => rfl
    | ⟨1, _⟩ => rfl
    | ⟨2, _⟩ => exact hj2)
  refine ((congrArg ((dat3 V c).after 4 t : Vec F S4x1024x1 .f32) ej).trans (h t ht (j 0) (j 1))).trans
    (congrArg G (funext fun a => Fin.ext ?_))
  match a with
  | ⟨0, _⟩ => show (j 0).val = win3_4.index t (0 : Fin 3) * 4 + 1 * (j 0).val; rw [f0]; omega
  | ⟨1, _⟩ => show 1024 * (t.val / 16) + (j 1).val = win3_4.index t (1 : Fin 3) * 1024 + 1 * (j 1).val; rw [f1]; omega
  | ⟨2, _⟩ => show 0 = win3_4.index t (2 : Fin 3) * 1 + 1 * (j 2).val; rw [f2, hj2]

end Cert.KernelIdeal.HandValue

end
-- ==== Proof.KI.FlashPieces.lean ====
/-
  The flash-attention pass: each run's found pieces, read back, are the body's arithmetic applied to the point's three
  input blocks and the state it was handed — one pure step on the state (m, l, acc), from the reset state at a first key
  tile — and at a last key tile the two results are read off the state that step leaves.
-/
import proofs.«161166_j30331059044530_2_alg».proof.Proof.KI.Flash
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz3 : (![0, 0, 0] : Fin 3 → Nat) = fun _ => 0 := funext fun a => by fin_cases a <;> rfl

/-- A whole scratch array read back through its own view is what was put there. -/
theorem ru0 (h : (scM3_0 : Memref sig .tc .vmem S4x1024x1 .f32).IsWhole) (X : Vec F S4x1024x1 .f32) :
    View.read (Elt F) (View.whole cc3_scratch0) (h.unread X) = X := h.read_unread X
theorem ru1 (h : (scM3_1 : Memref sig .tc .vmem S4x1024x1 .f32).IsWhole) (X : Vec F S4x1024x1 .f32) :
    View.read (Elt F) (View.whole cc3_scratch1) (h.unread X) = X := h.read_unread X
theorem ru2 (h : (scM3_2 : Memref sig .tc .vmem S4x1024x256 .f32).IsWhole) (X : Vec F S4x1024x256 .f32) :
    View.read (Elt F) (View.whole cc3_scratch2) (h.unread X) = X := h.read_unread X

/-- The reset state: maximum −∞, normalizer 0, weighted sum 0. -/
def initSt : St3 F := (k3_pay5, k3_pay6, k3_pay7)

/-- One key tile folded into the state: the new maximum, the rescaled normalizer plus the tile's exponentials, the
    rescaled weighted sum plus the tile's exponentials times its value rows. -/
def stepSt (x0 : Vec F S4x1024x256 .bf16) (x1 x2 : Vec F S4x256x256 .bf16) (s : St3 F) : St3 F :=
  (k3_pay2 (k3_pay10 x0 x1 s.1), k3_pay13 x0 x1 s.1 s.1 s.2.1,
    k3_pay1 (k3_pay8 x2) (k3_pay11 x0 x1 s.1 s.1) (k3_pay12 x0 x1 s.1) s.2.2)

/-- The two results read off a state: weighted sum over normalizer, maximum plus the normalizer's logarithm. -/
def outSt (s : St3 F) : Vec F S4x1024x256 .f32 × Vec F S4x1024x1 .f32 := (k3_pay3 s.2.2 s.2.1, k3_pay4 s.1 s.2.1)

theorem stOfB_eq (c : Dev nD) (t : Fin cfg3.N) (h0 : ¬t.val % 16 = 0) (h1 : ¬t.val % 16 = 15) (s : St3 F) :
    stOfB V c t h0 h1 s = stepSt (iblk3 V c 0 t) (iblk3 V c 1 t) (iblk3 V c 2 t) s := by
  unfold stOfB runB stepSt
  unfold kernelRun3_B
  dsimp only
  sl_unfold_words
  refine Prod.ext ?_ (Prod.ext ?_ ?_)
  · dsimp only
    first | rw [View.canon_unit_zero (S := S4x1024x1) hz3] | rw [View.canon_cons_unit_zero (S := S4x1024x1) hz3]
    simp only [View.readAt_eq_ld, (hs3_0 t).read_unread, (hs3_1 t).read_unread, (hs3_2 t).read_unread, (hs3_3 t).read_unread, (hs3_4 t).read_unread, Memref.IsWhole.read_unread, ru0, ru1, ru2, View.readCov_unit_zero (S := S4x1024x1) _ hz3, View.readCov_unit_zero (S := S4x1024x256) _ hz3, View.ld_unit_zero (S := S4x1024x256) hz3, View.ld_unit_zero (S := S4x256x256) hz3, View.ld_unit_zero (S := S4x1024x1) hz3]
  · dsimp only
    first | rw [View.canon_unit_zero (S := S4x1024x1) hz3] | rw [View.canon_cons_unit_zero (S := S4x1024x1) hz3]
    simp only [View.readAt_eq_ld, (hs3_0 t).read_unread, (hs3_1 t).read_unread, (hs3_2 t).read_unread, (hs3_3 t).read_unread, (hs3_4 t).read_unread, Memref.IsWhole.read_unread, ru0, ru1, ru2, View.readCov_unit_zero (S := S4x1024x1) _ hz3, View.readCov_unit_zero (S := S4x1024x256) _ hz3, View.ld_unit_zero (S := S4x1024x256) hz3, View.ld_unit_zero (S := S4x256x256) hz3, View.ld_unit_zero (S := S4x1024x1) hz3]
  · dsimp only
    first | rw [View.canon_unit_zero (S := S4x1024x256) hz3] | rw [View.canon_cons_unit_zero (S := S4x1024x256) hz3]
    simp only [View.readAt_eq_ld, (hs3_0 t).read_unread, (hs3_1 t).read_unread, (hs3_2 t).read_unread, (hs3_3 t).read_unread, (hs3_4 t).read_unread, Memref.IsWhole.read_unread, ru0, ru1, ru2, View.readCov_unit_zero (S := S4x1024x1) _ hz3, View.readCov_unit_zero (S := S4x1024x256) _ hz3, View.ld_unit_zero (S := S4x1024x256) hz3, View.ld_unit_zero (S := S4x256x256) hz3, View.ld_unit_zero (S := S4x1024x1) hz3]

theorem stOfA_eq (c : Dev nD) (t : Fin cfg3.N) (h0 : t.val % 16 = 0) (h1 : ¬t.val % 16 = 15) :
    stOfA V c t h0 h1 = stepSt (iblk3 V c 0 t) (iblk3 V c 1 t) (iblk3 V c 2 t) initSt := by
  unfold stOfA runA stepSt initSt
  unfold kernelRun3_A
  dsimp only
  sl_unfold_words
  refine Prod.ext ?_ (Prod.ext ?_ ?_)
  · dsimp only
    first | rw [View.canon_unit_zero (S := S4x1024x1) hz3] | rw [View.canon_cons_unit_zero (S := S4x1024x1) hz3]
    simp only [View.readAt_eq_ld, (hs3_0 t).read_unread, (hs3_1 t).read_unread, (hs3_2 t).read_unread, (hs3_3 t).read_unread, (hs3_4 t).read_unread, Memref.IsWhole.read_unread, ru0, ru1, ru2, View.readCov_unit_zero (S := S4x1024x1) _ hz3, View.readCov_unit_zero (S := S4x1024x256) _ hz3, View.ld_unit_zero (S := S4x1024x256) hz3, View.ld_unit_zero (S := S4x256x256) hz3, View.ld_unit_zero (S := S4x1024x1) hz3]
  · dsimp only
    first | rw [View.canon_unit_zero (S := S4x1024x1) hz3] | rw [View.canon_cons_unit_zero (S := S4x1024x1) hz3]
    simp only [View.readAt_eq_ld, (hs3_0 t).read_unread, (hs3_1 t).read_unread, (hs3_2 t).read_unread, (hs3_3 t).read_unread, (hs3_4 t).read_unread, Memref.IsWhole.read_unread, ru0, ru1, ru2, View.readCov_unit_zero (S := S4x1024x1) _ hz3, View.readCov_unit_zero (S := S4x1024x256) _ hz3, View.ld_unit_zero (S := S4x1024x256) hz3, View.ld_unit_zero (S := S4x256x256) hz3, View.ld_unit_zero (S := S4x1024x1) hz3]
  · dsimp only
    first | rw [View.canon_unit_zero (S := S4x1024x256) hz3] | rw [View.canon_cons_unit_zero (S := S4x1024x256) hz3]
    simp only [View.readAt_eq_ld, (hs3_0 t).read_unread, (hs3_1 t).read_unread, (hs3_2 t).read_unread, (hs3_3 t).read_unread, (hs3_4 t).read_unread, Memref.IsWhole.read_unread, ru0, ru1, ru2, View.readCov_unit_zero (S := S4x1024x1) _ hz3, View.readCov_unit_zero (S := S4x1024x256) _ hz3, View.ld_unit_zero (S := S4x1024x256) hz3, View.ld_unit_zero (S := S4x256x256) hz3, View.ld_unit_zero (S := S4x1024x1) hz3]

theorem stOfC_eq (c : Dev nD) (t : Fin cfg3.N) (h0 : ¬t.val % 16 = 0) (h1 : t.val % 16 = 15) (s : St3 F) :
    stOfC V c t h0 h1 s = stepSt (iblk3 V c 0 t) (iblk3 V c 1 t) (iblk3 V c 2 t) s := by
  unfold stOfC runC stepSt
  unfold kernelRun3_C
  dsimp only
  sl_unfold_words
  refine Prod.ext ?_ (Prod.ext ?_ ?_)
  · dsimp only
    first | rw [View.canon_unit_zero (S := S4x1024x1) hz3] | rw [View.canon_cons_unit_zero (S := S4x1024x1) hz3]
    simp only [View.readAt_eq_ld, (hs3_0 t).read_unread, (hs3_1 t).read_unread, (hs3_2 t).read_unread, (hs3_3 t).read_unread, (hs3_4 t).read_unread, Memref.IsWhole.read_unread, ru0, ru1, ru2, View.readCov_unit_zero (S := S4x1024x1) _ hz3, View.readCov_unit_zero (S := S4x1024x256) _ hz3, View.ld_unit_zero (S := S4x1024x256) hz3, View.ld_unit_zero (S := S4x256x256) hz3, View.ld_unit_zero (S := S4x1024x1) hz3]
  · dsimp only
    first | rw [View.canon_unit_zero (S := S4x1024x1) hz3] | rw [View.canon_cons_unit_zero (S := S4x1024x1) hz3]
    simp only [View.readAt_eq_ld, (hs3_0 t).read_unread, (hs3_1 t).read_unread, (hs3_2 t).read_unread, (hs3_3 t).read_unread, (hs3_4 t).read_unread, Memref.IsWhole.read_unread, ru0, ru1, ru2, View.readCov_unit_zero (S := S4x1024x1) _ hz3, View.readCov_unit_zero (S := S4x1024x256) _ hz3, View.ld_unit_zero (S := S4x1024x256) hz3, View.ld_unit_zero (S := S4x256x256) hz3, View.ld_unit_zero (S := S4x1024x1) hz3]
  · dsimp only
    first | rw [View.canon_unit_zero (S := S4x1024x256) hz3] | rw [View.canon_cons_unit_zero (S := S4x1024x256) hz3]
    simp only [View.readAt_eq_ld, (hs3_0 t).read_unread, (hs3_1 t).read_unread, (hs3_2 t).read_unread, (hs3_3 t).read_unread, (hs3_4 t).read_unread, Memref.IsWhole.read_unread, ru0, ru1, ru2, View.readCov_unit_zero (S := S4x1024x1) _ hz3, View.readCov_unit_zero (S := S4x1024x256) _ hz3, View.ld_unit_zero (S := S4x1024x256) hz3, View.ld_unit_zero (S := S4x256x256) hz3, View.ld_unit_zero (S := S4x1024x1) hz3]

theorem outOfC_eq (c : Dev nD) (t : Fin cfg3.N) (h0 : ¬t.val % 16 = 0) (h1 : t.val % 16 = 15) (s : St3 F) :
    outOfC V c t h0 h1 s = outSt (stepSt (iblk3 V c 0 t) (iblk3 V c 1 t) (iblk3 V c 2 t) s) := by
  unfold outOfC runC outSt stepSt
  unfold kernelRun3_C
  dsimp only
  sl_unfold_words
  refine Prod.ext ?_ ?_
  · dsimp only
    first | rw [View.canon_unit_zero (S := S4x1024x256) hz3] | rw [View.canon_cons_unit_zero (S := S4x1024x256) hz3]
    simp only [View.readAt_eq_ld, (hs3_0 t).read_unread, (hs3_1 t).read_unread, (hs3_2 t).read_unread, (hs3_3 t).read_unread, (hs3_4 t).read_unread, Memref.IsWhole.read_unread, ru0, ru1, ru2, View.readCov_unit_zero (S := S4x1024x1) _ hz3, View.readCov_unit_zero (S := S4x1024x256) _ hz3, View.ld_unit_zero (S := S4x1024x256) hz3, View.ld_unit_zero (S := S4x256x256) hz3, View.ld_unit_zero (S := S4x1024x1) hz3]
  · dsimp only
    first | rw [View.canon_unit_zero (S := S4x1024x1) hz3] | rw [View.canon_cons_unit_zero (S := S4x1024x1) hz3]
    simp only [View.readAt_eq_ld, (hs3_0 t).read_unread, (hs3_1 t).read_unread, (hs3_2 t).read_unread, (hs3_3 t).read_unread, (hs3_4 t).read_unread, Memref.IsWhole.read_unread, ru0, ru1, ru2, View.readCov_unit_zero (S := S4x1024x1) _ hz3, View.readCov_unit_zero (S := S4x1024x256) _ hz3, View.ld_unit_zero (S := S4x1024x256) hz3, View.ld_unit_zero (S := S4x256x256) hz3, View.ld_unit_zero (S := S4x1024x1) hz3]

/-! ## The state's recursion, without the cases -/

theorem stAt3_first (c : Dev nD) (t : Fin cfg3.N) (h0 : t.val % 16 = 0) :
    stAt3 V c t.val t.isLt = stepSt (iblk3 V c 0 t) (iblk3 V c 1 t) (iblk3 V c 2 t) initSt := by
  have h1 : ¬t.val % 16 = 15 := by omega
  rw [stAt3_A V c t h0 h1, stOfA_eq]

theorem stAt3_next (c : Dev nD) (t : Fin cfg3.N) (h0 : ¬t.val % 16 = 0) :
    stAt3 V c t.val t.isLt = stepSt (iblk3 V c 0 t) (iblk3 V c 1 t) (iblk3 V c 2 t) (stAt3 V c (t.val - 1) (Nat.lt_of_le_of_lt (Nat.sub_le _ _) t.isLt)) := by
  by_cases h1 : t.val % 16 = 15
  · rw [stAt3_C V c t h0 h1, stOfC_eq]
  · rw [stAt3_B V c t h0 h1, stOfB_eq]

theorem oAt3_last (c : Dev nD) (t : Fin cfg3.N) (h1 : t.val % 16 = 15) :
    oAt3 V c t.val t.isLt = outSt (stAt3 V c t.val t.isLt) := by
  have h0 : ¬t.val % 16 = 0 := by omega
  rw [oAt3_C V c t h0 h1, outOfC_eq, stAt3_C V c t h0 h1, stOfC_eq]

end Cert.KernelIdeal.Hand

end
-- ==== Proof.KI.FlashValue.lean ====
/-
  The tiled attention pass, tile by tile, is the tiled specification.

  Fix a batch b and a query row i. The pass meets the row's 4096 key columns in sixteen tiles of 256; before tile T the
  row's carried state is the running maximum, normalizer and weighted sum of the online softmax after T tiles. One step
  of the body is one step of that recursion: the tile's scores are the row's scores at the tile's columns, the new
  maximum is the old one against the tile's greatest score, and the normalizer and the weighted sum are rescaled by
  exp (m − m') and take the tile's shifted exponentials, plain or weighted by the tile's values. The reset state is the
  recursion's start (−∞, 0, 0). So by induction over the tiles the state after tile T is the recursion's state after
  T + 1 tiles, and at the last tile the two results are the specification's weighted sum over normalizer and
  maximum plus logarithm of the normalizer. No finiteness is used: these are identities between the recursion's own terms.
-/
import proofs.«161166_j30331059044530_2_alg».proof.Proof.KI.Flash
import proofs.«161166_j30331059044530_2_alg».proof.Proof.KI.FlashStep
import proofs.«161166_j30331059044530_2_alg».proof.Proof.KI.FlashBlocks
import proofs.«161166_j30331059044530_2_alg».proof.Proof.KI.FlashPieces
import proofs.«161166_j30331059044530_2_alg».proof.Proof.AttnSpec
import proofs.«161166_j30331059044530_2_alg».proof.Proof.AttnMath

noncomputable section

open scoped BigOperators

namespace Cert.KernelIdeal.HandValue

open Cert.KernelIdeal Cert.KernelIdeal.Gen Cert.KernelIdeal.Hand Idealize.ShloMosaic Idealize.ShloMosaic.ValueIdx
open Idealize.ShloMosaic.TcCoe Idealize.SL.Sem
open Cert.AttnSpec Cert.OnlineSoftmax

/-! ## One step of the body against one step of the recursion -/

/-- Column c of tile T, for T < 16, is column 256 · T + c. -/
theorem colOf_eq (T : ℕ) (hT : T < 16) (c : Fin 256) (h : 256 * T + c.val < 4096) :
    colOf T c = ⟨256 * T + c.val, h⟩ := Fin.ext (Nat.mod_eq_of_lt h)

/-- The tile's scores are the row's scores at the tile's columns. -/
theorem score_block (q k : A3) (X0 : Vec Ideal S4x1024x256 .bf16) (X1 : Vec Ideal S4x256x256 .bf16) (b : Fin 4)
    (r : Fin 1024) (i : Fin 4096) (T : ℕ) (h0 : ∀ d : Fin 256, X0 (ix3 b r d) = q (ix3 b i d))
    (h1 : ∀ cj d : Fin 256, X1 (ix3 b cj d) = k (ix3 b (colOf T cj) d)) (cj : Fin 256) :
    k3_pay9 X0 X1 (ix3 b r cj) = tileScores q k b i T cj := by
  rw [pay9_apply]
  show _ = (∑ d : Fin 256, q (ix3 b i d) * k (ix3 b (colOf T cj) d)) * c16
  exact congrArg (· * c16) (Finset.sum_congr rfl fun d _ => by rw [h0 d, h1 cj d])

/-- The state (m, l, acc) holds, at row r of the block, the recursion's state of row i before tile T. -/
def HoldsAt (q k v : A3) (m l : Vec Ideal S4x1024x1 .f32) (acc : Vec Ideal S4x1024x256 .f32) (b : Fin 4) (r : Fin 1024)
    (i : Fin 4096) (T : ℕ) : Prop :=
  m (ix3 b r 0) = mAt q k b i T ∧ l (ix3 b r 0) = lAt q k b i T ∧ ∀ d : Fin 256, acc (ix3 b r d) = aAt q k v b i d T

/-- The reset state is the recursion's start. -/
theorem init_spec (q k v : A3) (b : Fin 4) (r : Fin 1024) (i : Fin 4096) :
    HoldsAt q k v (k3_pay5 (F := Ideal)) (k3_pay6 (F := Ideal)) (k3_pay7 (F := Ideal)) b r i 0 :=
  ⟨pay5_apply b r, pay6_apply b r, fun d => pay7_apply b r d⟩

/-- One step of the body over tile T's blocks takes the recursion's state before tile T to its state before tile T + 1. -/
theorem step_spec (q k v : A3) (X0 : Vec Ideal S4x1024x256 .bf16) (X1 X2 : Vec Ideal S4x256x256 .bf16)
    (m l : Vec Ideal S4x1024x1 .f32) (acc : Vec Ideal S4x1024x256 .f32) (b : Fin 4) (r : Fin 1024) (i : Fin 4096) (T : ℕ)
    (h0 : ∀ d : Fin 256, X0 (ix3 b r d) = q (ix3 b i d))
    (h1 : ∀ cj d : Fin 256, X1 (ix3 b cj d) = k (ix3 b (colOf T cj) d))
    (h2 : ∀ cj d : Fin 256, X2 (ix3 b cj d) = v (ix3 b (colOf T cj) d))
    (h : HoldsAt q k v m l acc b r i T) :
    HoldsAt q k v (k3_pay2 (k3_pay10 X0 X1 m)) (k3_pay13 X0 X1 m m l)
      (k3_pay1 (k3_pay8 X2) (k3_pay11 X0 X1 m m) (k3_pay12 X0 X1 m) acc) b r i (T + 1) := by
  obtain ⟨hm, hl, ha⟩ := h
  have hs : (fun cj => k3_pay9 X0 X1 (ix3 b r cj)) = tileScores q k b i T :=
    funext (score_block q k X0 X1 b r i T h0 h1)
  have h10 : k3_pay10 X0 X1 m (ix3 b r 0) = mAt q k b i (T + 1) := by
    rw [pay10_apply, hs, hm]; rfl
  have h11 : k3_pay11 X0 X1 m m (ix3 b r 0) = Ideal.exp (mAt q k b i T - mAt q k b i (T + 1)) := by
    rw [pay11_apply, hm, h10]
  have h12 : ∀ cj : Fin 256, k3_pay12 X0 X1 m (ix3 b r cj)
      = Ideal.exp (tileScores q k b i T cj - mAt q k b i (T + 1)) := fun cj => by
    rw [pay12_apply, h10, score_block q k X0 X1 b r i T h0 h1 cj]
  refine ⟨?_, ?_, fun d => ?_⟩
  · rw [pay2_eq]; exact h10
  · rw [pay13_apply, h11, hl]
    exact congrArg (Ideal.exp (mAt q k b i T - mAt q k b i (T + 1)) * lAt q k b i T + ·)
      (Finset.sum_congr rfl fun cj _ => h12 cj)
  · rw [pay1_apply, pay8_eq, h11, ha d]
    exact congrArg (Ideal.exp (mAt q k b i T - mAt q k b i (T + 1)) * aAt q k v b i d T + ·)
      (Finset.sum_congr rfl fun cj _ => by rw [h12 cj, h2 cj d]; rfl)

/-- At a last tile the two results are the specification's. -/
theorem out_spec (q k v : A3) (m l : Vec Ideal S4x1024x1 .f32) (acc : Vec Ideal S4x1024x256 .f32) (b : Fin 4)
    (r : Fin 1024) (i : Fin 4096) (h : HoldsAt q k v m l acc b r i 16) :
    (∀ d : Fin 256, k3_pay3 acc l (ix3 b r d) = tiledCtx q k v b i d) ∧ k3_pay4 m l (ix3 b r 0) = tiledLse q k b i := by
  obtain ⟨hm, hl, ha⟩ := h
  refine ⟨fun d => ?_, ?_⟩
  · rw [pay3_apply, ha d, hl]; rfl
  · rw [pay4_apply, hm, hl]; rfl

/-! ## The induction over the tiles -/

/-- The body's step on a carried state, and the reset state, as triples. -/
abbrev stepS (X0 : Vec Ideal S4x1024x256 .bf16) (X1 X2 : Vec Ideal S4x256x256 .bf16) (s : St3 Ideal) : St3 Ideal :=
  (k3_pay2 (k3_pay10 X0 X1 s.1), k3_pay13 X0 X1 s.1 s.1 s.2.1,
    k3_pay1 (k3_pay8 X2) (k3_pay11 X0 X1 s.1 s.1) (k3_pay12 X0 X1 s.1) s.2.2)
abbrev initS : St3 Ideal := (k3_pay5 (F := Ideal), k3_pay6 (F := Ideal), k3_pay7 (F := Ideal))
/-- The two results read off a state. -/
abbrev outS (s : St3 Ideal) : Vec Ideal S4x1024x256 .f32 × Vec Ideal S4x1024x1 .f32 := (k3_pay3 s.2.2 s.2.1, k3_pay4 s.1 s.2.1)

/-- A sequence of states, point n = 16 · (query tile) + (key tile): reset and stepped at a first key tile, stepped from
    the point before elsewhere, over blocks that are the query tile's rows and the key tile's columns. After point n,
    row r of the block holds the recursion's state of row 1024 · (n / 16) + r after n % 16 + 1 tiles. -/
theorem state_at_gen (q k v : A3) (N : ℕ) (st : (n : ℕ) → n < N → St3 Ideal)
    (X0 : (n : ℕ) → n < N → Vec Ideal S4x1024x256 .bf16) (X1 X2 : (n : ℕ) → n < N → Vec Ideal S4x256x256 .bf16)
    (hX0 : ∀ n hn (b : Fin 4) (r : Fin 1024) (i : Fin 4096), i.val = 1024 * (n / 16) + r.val →
      ∀ d : Fin 256, X0 n hn (ix3 b r d) = q (ix3 b i d))
    (hX1 : ∀ n hn (b : Fin 4) (cj d : Fin 256), X1 n hn (ix3 b cj d) = k (ix3 b (colOf (n % 16) cj) d))
    (hX2 : ∀ n hn (b : Fin 4) (cj d : Fin 256), X2 n hn (ix3 b cj d) = v (ix3 b (colOf (n % 16) cj) d))
    (hfirst : ∀ n hn, n % 16 = 0 → st n hn = stepS (X0 n hn) (X1 n hn) (X2 n hn) initS)
    (hnext : ∀ n hn, ¬n % 16 = 0 →
      st n hn = stepS (X0 n hn) (X1 n hn) (X2 n hn) (st (n - 1) (Nat.lt_of_le_of_lt (Nat.sub_le _ _) hn))) :
    ∀ n hn (b : Fin 4) (r : Fin 1024) (i : Fin 4096), i.val = 1024 * (n / 16) + r.val →
      HoldsAt q k v (st n hn).1 (st n hn).2.1 (st n hn).2.2 b r i (n % 16 + 1) := by
  have first : ∀ n hn, n % 16 = 0 → ∀ (b : Fin 4) (r : Fin 1024) (i : Fin 4096), i.val = 1024 * (n / 16) + r.val →
      HoldsAt q k v (st n hn).1 (st n hn).2.1 (st n hn).2.2 b r i (n % 16 + 1) := by
    intro n hn h0 b r i hi
    have hinit : HoldsAt q k v (k3_pay5 (F := Ideal)) (k3_pay6 (F := Ideal)) (k3_pay7 (F := Ideal)) b r i (n % 16) := by
      rw [h0]; exact init_spec q k v b r i
    rw [hfirst n hn h0]
    exact step_spec q k v (X0 n hn) (X1 n hn) (X2 n hn) _ _ _ b r i (n % 16) (hX0 n hn b r i hi) (hX1 n hn b) (hX2 n hn b) hinit
  intro n
  induction n with
  | zero => exact fun hn => first 0 hn rfl
  | succ n ih =>
    intro hn b r i hi
    by_cases h0 : (n + 1) % 16 = 0
    · exact first (n + 1) hn h0 b r i hi
    · have hdiv : (n + 1) / 16 = n / 16 := by omega
      have hT : n % 16 + 1 = (n + 1) % 16 := by omega
      have ih' := ih (Nat.lt_of_succ_lt hn) b r i (by rw [hi, hdiv])
      rw [hT] at ih'
      rw [hnext (n + 1) hn h0]
      exact step_spec q k v (X0 (n + 1) hn) (X1 (n + 1) hn) (X2 (n + 1) hn) _ _ _ b r i ((n + 1) % 16)
        (hX0 (n + 1) hn b r i hi) (hX1 (n + 1) hn b) (hX2 (n + 1) hn b) ih'

/-! ## The region's states and results -/

section Region

variable (V : (c : Dev nD) → (b : Ref sig .tc) → Buf (Elt Ideal) ((c : Thread nD τ).loc b))

/-- The three projected arrays the pass reads, as arrays of extended reals. -/
abbrev qArr (c : Dev nD) : A3 := (V c main_v2 : S4x4096x256.Idx → Elt Ideal .bf16)
abbrev kArr (c : Dev nD) : A3 := (V c main_v5 : S4x4096x256.Idx → Elt Ideal .bf16)
abbrev vArr (c : Dev nD) : A3 := (V c main_v8 : S4x4096x256.Idx → Elt Ideal .bf16)

/-- A key block's row is the tile's column. -/
theorem krow3_eq_colOf (t : Fin cfg3.N) (cj : Fin 256) : krow3 t cj = colOf (t.val % 16) cj :=
  Fin.ext (Nat.mod_eq_of_lt (krow3 t cj).isLt).symm

/-- The scratch arrays after point t hold, at row r, the recursion's state of row 1024 · (t / 16) + r after t % 16 + 1
    tiles — given that the state is reset and stepped at a first key tile and stepped from the point before elsewhere. -/
theorem state_at_of (c : Dev nD)
    (hfirst : ∀ t : Fin cfg3.N, t.val % 16 = 0 →
      stAt3 V c t.val t.isLt = stepS (iblk3 V c 0 t) (iblk3 V c 1 t) (iblk3 V c 2 t) initS)
    (hnext : ∀ t : Fin cfg3.N, ¬t.val % 16 = 0 →
      stAt3 V c t.val t.isLt = stepS (iblk3 V c 0 t) (iblk3 V c 1 t) (iblk3 V c 2 t)
        (stAt3 V c (t.val - 1) (Nat.lt_of_le_of_lt (Nat.sub_le _ _) t.isLt)))
    (t : Fin cfg3.N) (b : Fin 4) (r : Fin 1024) :
    (stAt3 V c t.val t.isLt).1 (ix3 b r 0) = mAt (qArr V c) (kArr V c) b (qrow3 t r) (t.val % 16 + 1)
    ∧ (stAt3 V c t.val t.isLt).2.1 (ix3 b r 0) = lAt (qArr V c) (kArr V c) b (qrow3 t r) (t.val % 16 + 1)
    ∧ ∀ d : Fin 256, (stAt3 V c t.val t.isLt).2.2 (ix3 b r d)
        = aAt (qArr V c) (kArr V c) (vArr V c) b (qrow3 t r) d (t.val % 16 + 1) :=
  state_at_gen (qArr V c) (kArr V c) (vArr V c) cfg3.N (stAt3 V c)
    (fun n hn => (iblk3 V c 0 ⟨n, hn⟩ : Vec Ideal S4x1024x256 .bf16))
    (fun n hn => (iblk3 V c 1 ⟨n, hn⟩ : Vec Ideal S4x256x256 .bf16))
    (fun n hn => (iblk3 V c 2 ⟨n, hn⟩ : Vec Ideal S4x256x256 .bf16))
    (fun n hn b r i hi d => (iblk3_0_apply V c ⟨n, hn⟩ b r d).trans
      (congrArg (fun j : Fin 4096 => qArr V c (ix3 b j d)) (Fin.ext hi.symm)))
    (fun n hn b cj d => (iblk3_1_apply V c ⟨n, hn⟩ b cj d).trans
      (congrArg (fun j : Fin 4096 => kArr V c (ix3 b j d)) (krow3_eq_colOf ⟨n, hn⟩ cj)))
    (fun n hn b cj d => (iblk3_2_apply V c ⟨n, hn⟩ b cj d).trans
      (congrArg (fun j : Fin 4096 => vArr V c (ix3 b j d)) (krow3_eq_colOf ⟨n, hn⟩ cj)))
    (fun n hn h0 => hfirst ⟨n, hn⟩ h0) (fun n hn h0 => hnext ⟨n, hn⟩ h0) t.val t.isLt b r (qrow3 t r) rfl

/-- At a last key tile the two result buffers hold the tiled specification's rows — given also that the results are
    read off the state the point leaves. -/
theorem blocks_of (c : Dev nD)
    (hfirst : ∀ t : Fin cfg3.N, t.val % 16 = 0 →
      stAt3 V c t.val t.isLt = stepS (iblk3 V c 0 t) (iblk3 V c 1 t) (iblk3 V c 2 t) initS)
    (hnext : ∀ t : Fin cfg3.N, ¬t.val % 16 = 0 →
      stAt3 V c t.val t.isLt = stepS (iblk3 V c 0 t) (iblk3 V c 1 t) (iblk3 V c 2 t)
        (stAt3 V c (t.val - 1) (Nat.lt_of_le_of_lt (Nat.sub_le _ _) t.isLt)))
    (hlast : ∀ t : Fin cfg3.N, t.val % 16 = 15 → oAt3 V c t.val t.isLt = outS (stAt3 V c t.val t.isLt))
    (t : Fin cfg3.N) (h1 : t.val % 16 = 15) (b : Fin 4) (r : Fin 1024) :
    (∀ d : Fin 256, ((dat3 (F := Ideal) V c).after 3 t : Vec Ideal S4x1024x256 .f32) (ix3 b r d)
        = tiledCtx (qArr V c) (kArr V c) (vArr V c) b (qrow3 t r) d)
    ∧ ((dat3 (F := Ideal) V c).after 4 t : Vec Ideal S4x1024x1 .f32) (ix3 b r 0)
        = tiledLse (qArr V c) (kArr V c) b (qrow3 t r) := by
  have hs := state_at_of V c hfirst hnext t b r
  have h16 : t.val % 16 + 1 = 16 := by omega
  rw [h16] at hs
  have ho := out_spec (qArr V c) (kArr V c) (vArr V c) _ _ _ b r (qrow3 t r) hs
  rw [after3_3, after3_4, hlast t h1]
  exact ho

/-- The two result arrays after the region are the tiled specification — under the same three facts. -/
theorem arrAt3_3_of (c : Dev nD)
    (hfirst : ∀ t : Fin cfg3.N, t.val % 16 = 0 →
      stAt3 V c t.val t.isLt = stepS (iblk3 V c 0 t) (iblk3 V c 1 t) (iblk3 V c 2 t) initS)
    (hnext : ∀ t : Fin cfg3.N, ¬t.val % 16 = 0 →
      stAt3 V c t.val t.isLt = stepS (iblk3 V c 0 t) (iblk3 V c 1 t) (iblk3 V c 2 t)
        (stAt3 V c (t.val - 1) (Nat.lt_of_le_of_lt (Nat.sub_le _ _) t.isLt)))
    (hlast : ∀ t : Fin cfg3.N, t.val % 16 = 15 → oAt3 V c t.val t.isLt = outS (stAt3 V c t.val t.isLt)) :
    (dat3 (F := Ideal) V c).arrAt 3 cfg3.N
      = fun j : S4x4096x256.Idx => tiledCtx (qArr V c) (kArr V c) (vArr V c) (j 0) (j 1) (j 2) :=
  arrAt3_3 V c (fun j : S4x4096x256.Idx => tiledCtx (qArr V c) (kArr V c) (vArr V c) (j 0) (j 1) (j 2))
    (fun t h1 b r d => (blocks_of V c hfirst hnext hlast t h1 b r).1 d)

theorem arrAt3_4_of (c : Dev nD)
    (hfirst : ∀ t : Fin cfg3.N, t.val % 16 = 0 →
      stAt3 V c t.val t.isLt = stepS (iblk3 V c 0 t) (iblk3 V c 1 t) (iblk3 V c 2 t) initS)
    (hnext : ∀ t : Fin cfg3.N, ¬t.val % 16 = 0 →
      stAt3 V c t.val t.isLt = stepS (iblk3 V c 0 t) (iblk3 V c 1 t) (iblk3 V c 2 t)
        (stAt3 V c (t.val - 1) (Nat.lt_of_le_of_lt (Nat.sub_le _ _) t.isLt)))
    (hlast : ∀ t : Fin cfg3.N, t.val % 16 = 15 → oAt3 V c t.val t.isLt = outS (stAt3 V c t.val t.isLt)) :
    (dat3 (F := Ideal) V c).arrAt 4 cfg3.N
      = fun j : S4x4096x1.Idx => tiledLse (qArr V c) (kArr V c) (j 0) (j 1) :=
  arrAt3_4 V c (fun j : S4x4096x1.Idx => tiledLse (qArr V c) (kArr V c) (j 0) (j 1))
    (fun t h1 b r => (blocks_of V c hfirst hnext hlast t h1 b r).2)

/-! ### With the three facts supplied -/

/-- The scratch arrays after point t hold, at row r, the recursion's state of row 1024 · (t / 16) + r after t % 16 + 1 tiles. -/
theorem state_at (c : Dev nD) (t : Fin cfg3.N) (b : Fin 4) (r : Fin 1024) :
    (stAt3 V c t.val t.isLt).1 (ix3 b r 0) = mAt (qArr V c) (kArr V c) b (qrow3 t r) (t.val % 16 + 1)
    ∧ (stAt3 V c t.val t.isLt).2.1 (ix3 b r 0) = lAt (qArr V c) (kArr V c) b (qrow3 t r) (t.val % 16 + 1)
    ∧ ∀ d : Fin 256, (stAt3 V c t.val t.isLt).2.2 (ix3 b r d)
        = aAt (qArr V c) (kArr V c) (vArr V c) b (qrow3 t r) d (t.val % 16 + 1) :=
  state_at_of V c (stAt3_first V c) (stAt3_next V c) t b r

/-- At a last key tile the context buffer holds the tiled context's rows. -/
theorem ctx_block (c : Dev nD) (t : Fin cfg3.N) (h1 : t.val % 16 = 15) (b : Fin 4) (r : Fin 1024) (d : Fin 256) :
    ((dat3 (F := Ideal) V c).after 3 t : Vec Ideal S4x1024x256 .f32) (ix3 b r d)
      = tiledCtx (qArr V c) (kArr V c) (vArr V c) b (qrow3 t r) d :=
  (blocks_of V c (stAt3_first V c) (stAt3_next V c) (oAt3_last V c) t h1 b r).1 d

/-- At a last key tile the log-sum-exp buffer holds the tiled log-sum-exp's rows. -/
theorem lse_block (c : Dev nD) (t : Fin cfg3.N) (h1 : t.val % 16 = 15) (b : Fin 4) (r : Fin 1024) :
    ((dat3 (F := Ideal) V c).after 4 t : Vec Ideal S4x1024x1 .f32) (ix3 b r 0)
      = tiledLse (qArr V c) (kArr V c) b (qrow3 t r) :=
  (blocks_of V c (stAt3_first V c) (stAt3_next V c) (oAt3_last V c) t h1 b r).2

/-- The context array after the region is the tiled context. -/
theorem arrAt3_3_eq (c : Dev nD) :
    (dat3 (F := Ideal) V c).arrAt 3 cfg3.N
      = fun j : S4x4096x256.Idx => tiledCtx (qArr V c) (kArr V c) (vArr V c) (j 0) (j 1) (j 2) :=
  arrAt3_3_of V c (stAt3_first V c) (stAt3_next V c) (oAt3_last V c)

/-- The log-sum-exp array after the region is the tiled log-sum-exp. -/
theorem arrAt3_4_eq (c : Dev nD) :
    (dat3 (F := Ideal) V c).arrAt 4 cfg3.N = fun j : S4x4096x1.Idx => tiledLse (qArr V c) (kArr V c) (j 0) (j 1) :=
  arrAt3_4_of V c (stAt3_first V c) (stAt3_next V c) (oAt3_last V c)

end Region

end Cert.KernelIdeal.HandValue

end
-- ==== Proof.KI.Final.lean ====
/- The kernel program's two results as functions of its six arguments: the context array is the tiled context of the
   three projections, the attention matrix the tiled weights of the first two; the arguments are unchanged. The
   attention-matrix pass leaves exp (⟨q, k⟩ · 2⁻⁴ − lse) with lse the row statistic the flash-attention pass wrote,
   which is the tiled log-sum-exp: that is the tiled weight, the f32 word 0x3D800000 being one sixteenth. -/
import proofs.«161166_j30331059044530_2_alg».proof.Proof.KI.Thread
import proofs.«161166_j30331059044530_2_alg».proof.Proof.KI.AttnMatValue
import proofs.«161166_j30331059044530_2_alg».proof.Proof.AttnMath
import proofs.«161166_j30331059044530_2_alg».proof.Proof.KI.FlashValue
import proofs.«161166_j30331059044530_2_alg».proof.Proof.KI.Run

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open Cert.AttnSpec (A3 W2 projArr tiledCtx tiledLse tiledAttn tiledCtxArr tiledAttnArr score c16)

variable (m : (ℓ : Loc nD τ sig) → Buf (Elt Ideal) ℓ) (ρ : Dev nD → PrngReg)

/-- The tiled weight from the attention-matrix pass's entry: exp of the scaled contraction minus the tiled
    log-sum-exp of the row. -/
theorem expScores_tiled (q k : A3) :
    expScores q k (fun j => tiledLse q k (j 0) (j 1)) = fun i => tiledAttn q k (i 0) (i 1) (i 2) := by
  funext i
  show Ideal.exp ((∑ d : Fin 256, q (ix3 (i 0) (i 1) d) * k (ix3 (i 0) (i 2) d)) * Ideal.ofBits .f32 0x3D800000#32
      - tiledLse q k (i 0) (i 1)) = _
  rw [Cert.AttnMath.c16_bits]
  rfl

/-- The context array at the end of the program is the tiled context of the three projections of the arguments. -/
theorem ctx_final (c : Dev nD) : Wk9 m ρ c (Proc.devRef .tc main_v9_0)
    = tiledCtxArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [ctx_at9, arrAt3_3_eq (Vk7 m ρ) c]
  show (fun j : S4x4096x256.Idx => tiledCtx (Vk7 m ρ c main_v2) (Vk7 m ρ c main_v5) (Vk7 m ρ c main_v8) (j 0) (j 1) (j 2)) = _
  rw [q_at7, k_at7, v_at7]
  rfl

/-- The attention matrix at the end of the program is the tiled weights of the first two projections. -/
theorem attn_final (c : Dev nD) : Wk9 m ρ c (Proc.devRef .tc main_v10)
    = tiledAttnArr (m ((c : Thread nD τ).loc main_arg0)) (m ((c : Thread nD τ).loc main_arg1))
        (m ((c : Thread nD τ).loc main_arg3)) (m ((c : Thread nD τ).loc main_arg4)) := by
  rw [attn_at9, arrAt4_3 (Vk8 m ρ) c, q_at8, k_at8, lse_at8, arrAt3_4_eq (Vk7 m ρ) c]
  show expScores _ _ (fun j : S4x4096x1.Idx => tiledLse (Vk7 m ρ c main_v2) (Vk7 m ρ c main_v5) (j 0) (j 1)) = _
  rw [q_at7, k_at7]
  exact expScores_tiled _ _

/-- THE KERNEL PROGRAM'S RUN, read: from any memory with zero counters every weakly fair execution terminates with
    the context array and the attention matrix at the tiled results of the arguments, the arguments as launched. -/
theorem kernel_run : θ_run (Cert.KernelIdeal.defs (F := Ideal)) (onTc (τ := τ) (main (F := Ideal))) ⟨m, fun _ => 0, ρ⟩ (fun r => ∀ c : Dev nD,
      r.2.mem ((c.tc : Thread nD τ).loc main_v9_0)
        = tiledCtxArr (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_v10)
        = tiledAttnArr (m ((c.tc : Thread nD τ).loc main_arg0)) (m ((c.tc : Thread nD τ).loc main_arg1))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun r h c =>
    ⟨(h c _ (mem_uc main_v9_0 (by decide))).trans (ctx_final m ρ c),
     (h c _ (mem_uc main_v10 (by decide))).trans (attn_final m ρ c),
     (h c _ (mem_uc main_arg0 (by decide))).trans (Wk9_main_arg0 m ρ c),
     (h c _ (mem_uc main_arg1 (by decide))).trans (Wk9_main_arg1 m ρ c),
     (h c _ (mem_uc main_arg2 (by decide))).trans (Wk9_main_arg2 m ρ c),
     (h c _ (mem_uc main_arg3 (by decide))).trans (Wk9_main_arg3 m ρ c),
     (h c _ (mem_uc main_arg4 (by decide))).trans (Wk9_main_arg4 m ρ c),
     (h c _ (mem_uc main_arg5 (by decide))).trans (Wk9_main_arg5 m ρ c)⟩) (run_all (F := Ideal) m ρ)

end Cert.KernelIdeal.HandValue

end
-- ==== Proof.RefSide.lean ====
/-
  The reference program, read at an index, is the specification.

  The reference computes three projections y = x Wᵀ, the scores as the feature contraction of the projected queries and
  keys divided by the literal 16, a softmax over the key axis spelt the careful way (the maximum of a row, taken as a
  reduce-maximum from −∞ and once more against a broadcast of −∞; the exponentials of the scores less that maximum; their
  reduce-add from zero; the quotient), and the weights' contraction with the projected values.

  Stage by stage, over explicit coordinates (b, i, j) and (b, i, d), each of these is the function the specification
  names: proj, score, rowMax, rowSum, attn, ctx. Only one law is used: division by the real 16 is multiplication by 1/16
  on every extended real, the infinities included. The specification's row maximum and row sum are spelt exactly as the
  reference's operations (max ⊥ of a fold from ⊥; 0 plus the sum), so no entry has to be finite.

  The last section restates the reference's run with its two result arrays named by the specification.
-/
import proofs.«161166_j30331059044530_2_alg».proof.Proof.Gen.ReferenceIdeal.Read
import proofs.«161166_j30331059044530_2_alg».proof.Proof.AttnSpec
import proofs.«161166_j30331059044530_2_alg».proof.Proof.LibSoftmaxRows

noncomputable section

open scoped BigOperators

namespace Cert.RefSide

open Idealize.ShloMosaic Idealize.ShloMosaic.ValueIdx Idealize.ShloMosaic.TcCoe Idealize.SL.Sem Cert.ReferenceIdeal Cert.AttnSpec

/-- The pattern of 16.0 denotes the real 16. -/
theorem ofBits_sixteen : Ideal.ofBits .f32 0x41800000#32 = ((16 : ℝ) : EReal) := by
  simp [Ideal.ofBits, Ideal.ieee, -EReal.coe_mul]; norm_num

/-- The pattern of the negative infinity denotes ⊥. -/
theorem ofBits_neg_inf : Ideal.ofBits .f32 0xFF800000#32 = (⊥ : EReal) := by
  simp [Ideal.ofBits, Ideal.ieee]

/-! ## The index functions of the generated reads, over explicit coordinates -/

theorem lidx_v0 (b : Fin 4) (l : Fin 4096) (e k : Fin 256) : Read.lidx_main_v0 (ix3 b l e) k = ix3 b l k :=
  funext fun a => Fin.ext (by match a with | ⟨0, _⟩ => rfl | ⟨1, _⟩ => rfl | ⟨2, _⟩ => rfl)
theorem ridx_v0 (b : Fin 4) (l : Fin 4096) (e k : Fin 256) : Read.ridx_main_v0 (ix3 b l e) k = ix2 e k :=
  funext fun a => Fin.ext (by match a with | ⟨0, _⟩ => rfl | ⟨1, _⟩ => rfl)

/-- A projection of the reference is the specification's. -/
theorem ref_proj0 (x0 : A3) (x3 : W2) : Read.val_main_v0 (F := Ideal) x0 x3 = projArr x0 x3 := by
  funext i
  obtain ⟨b, l, e, rfl⟩ : ∃ (b : Fin 4) (l : Fin 4096) (e : Fin 256), i = ix3 b l e := ⟨i 0, i 1, i 2, eq_ix3 i⟩
  rw [Read.val_main_v0_apply, projArr_ix3]
  exact Finset.sum_congr rfl fun k _ => by rw [lidx_v0, ridx_v0]

theorem ref_proj1 (x1 : A3) (x4 : W2) : Read.val_main_v1 (F := Ideal) x1 x4 = projArr x1 x4 := by
  funext i
  obtain ⟨b, l, e, rfl⟩ : ∃ (b : Fin 4) (l : Fin 4096) (e : Fin 256), i = ix3 b l e := ⟨i 0, i 1, i 2, eq_ix3 i⟩
  rw [Read.val_main_v1_apply, projArr_ix3]
  exact Finset.sum_congr rfl fun k _ => congrArg₂ (fun p q => x1 p * x4 q) (lidx_v0 b l e k) (ridx_v0 b l e k)

theorem ref_proj2 (x2 : A3) (x5 : W2) : Read.val_main_v2 (F := Ideal) x2 x5 = projArr x2 x5 := by
  funext i
  obtain ⟨b, l, e, rfl⟩ : ∃ (b : Fin 4) (l : Fin 4096) (e : Fin 256), i = ix3 b l e := ⟨i 0, i 1, i 2, eq_ix3 i⟩
  rw [Read.val_main_v2_apply, projArr_ix3]
  exact Finset.sum_congr rfl fun k _ => congrArg₂ (fun p q => x2 p * x5 q) (lidx_v0 b l e k) (ridx_v0 b l e k)

theorem lidx_v3 (b : Fin 4) (i j : Fin 4096) (k : Fin 256) : Read.lidx_main_v3 (ix3 b i j) k = ix3 b i k :=
  funext fun a => Fin.ext (by match a with | ⟨0, _⟩ => rfl | ⟨1, _⟩ => rfl | ⟨2, _⟩ => rfl)
theorem ridx_v3 (b : Fin 4) (i j : Fin 4096) (k : Fin 256) : Read.ridx_main_v3 (ix3 b i j) k = ix3 b j k :=
  funext fun a => Fin.ext (by match a with | ⟨0, _⟩ => rfl | ⟨1, _⟩ => rfl | ⟨2, _⟩ => rfl)

/-- The scaled score: the contraction of the two projections divided by 16 is the contraction times 1/16. -/
theorem ref_score (x0 x1 : A3) (x3 x4 : W2) (b : Fin 4) (i j : Fin 4096) :
    Read.val_main_v5 (F := Ideal) x0 x1 x3 x4 (ix3 b i j) = score (projArr x0 x3) (projArr x1 x4) b i j := by
  rw [Read.val_main_v5_apply, Read.val_main_v3_apply, Read.val_main_v4_apply, Read.val_main_cst_apply, ref_proj0, ref_proj1,
    Ideal.hostDivf_def, Ideal.ofBits_def, ofBits_sixteen, Ideal.div_coe (by norm_num : (16 : ℝ) ≠ 0)]
  unfold score c16
  exact congrArg (· * ((1 / 16 : ℝ) : EReal)) (Finset.sum_congr rfl fun k _ => by rw [lidx_v3, ridx_v3])

/-! ## The row maximum -/

/-- The reduce-maximum of the scores over the key axis, from the negative infinity, is the fold of max from ⊥. -/
theorem ref_lanemax (x0 x1 : A3) (x3 x4 : W2) (b : Fin 4) (i : Fin 4096) :
    Read.val_main_v6 (F := Ideal) x0 x1 x3 x4 (ix2 b i)
      = (Finset.univ : Finset (Fin 4096)).fold max ⊥ (fun j => score (projArr x0 x3) (projArr x1 x4) b i j) := by
  unfold Read.val_main_v6
  refine (SoftmaxRows.hostLaneMax3_apply _ _ _ (by decide) _ b i).trans ?_
  rw [Read.val_main_cst_0_apply, Ideal.ofBits_def, ofBits_neg_inf]
  exact Finset.fold_congr fun c _ => ref_score x0 x1 x3 x4 b i c

/-- The maximum of the negative-infinity broadcast with the reduce-maximum is the specification's row maximum. -/
theorem ref_rowmax (x0 x1 : A3) (x3 x4 : W2) (b : Fin 4) (i : Fin 4096) :
    Read.val_main_v8 (F := Ideal) x0 x1 x3 x4 (ix2 b i) = rowMax (projArr x0 x3) (projArr x1 x4) b i := by
  rw [Read.val_main_v8_apply, Read.val_main_v7_apply, Read.val_main_cst_1_apply, ref_lanemax, Ideal.maximumf_def,
    Ideal.ofBits_def, ofBits_neg_inf]
  rfl

theorem idx_v9_v10 (b : Fin 4) (i j : Fin 4096) : Read.idx_main_v9 (Read.idx_main_v10 (ix3 b i j)) = ix2 b i :=
  funext fun a => Fin.ext (by match a with | ⟨0, _⟩ => rfl | ⟨1, _⟩ => rfl)

/-! ## The shifted exponentials, their sum, the weights -/

/-- The exponential of the score less the row maximum. -/
theorem ref_exp (x0 x1 : A3) (x3 x4 : W2) (b : Fin 4) (i j : Fin 4096) :
    Read.val_main_v12 (F := Ideal) x0 x1 x3 x4 (ix3 b i j)
      = Ideal.exp (score (projArr x0 x3) (projArr x1 x4) b i j - rowMax (projArr x0 x3) (projArr x1 x4) b i) := by
  rw [Read.val_main_v12_apply, Read.val_main_v11_apply, Read.val_main_v10_apply, Read.val_main_v9_apply, idx_v9_v10,
    ref_rowmax, ref_score, Ideal.hostUnary_exp_def, Ideal.subf_def]

theorem idx_v13 (b : Fin 4) (i k : Fin 4096) : Read.idx_main_v13 (ix2 b i) k = ix3 b i k :=
  funext fun a => Fin.ext (by match a with | ⟨0, _⟩ => rfl | ⟨1, _⟩ => rfl | ⟨2, _⟩ => rfl)

/-- The reduce-add of the exponentials over the key axis, from zero, is the specification's row sum. -/
theorem ref_rowsum (x0 x1 : A3) (x3 x4 : W2) (b : Fin 4) (i : Fin 4096) :
    Read.val_main_v13 (F := Ideal) x0 x1 x3 x4 (ix2 b i) = rowSum (projArr x0 x3) (projArr x1 x4) b i := by
  rw [Read.val_main_v13_apply, Read.val_main_cst_2_apply, Ideal.ofBits_def, Ideal.ofBits_zero_f32]
  unfold rowSum
  exact congrArg (0 + ·) (Finset.sum_congr rfl fun k _ => by rw [idx_v13, ref_exp])

theorem idx_v14_v15 (b : Fin 4) (i j : Fin 4096) : Read.idx_main_v14 (Read.idx_main_v15 (ix3 b i j)) = ix2 b i :=
  funext fun a => Fin.ext (by match a with | ⟨0, _⟩ => rfl | ⟨1, _⟩ => rfl)

/-- The weight: the shifted exponential over the row sum. -/
theorem ref_attn_at (x0 x1 : A3) (x3 x4 : W2) (b : Fin 4) (i j : Fin 4096) :
    Read.val_main_v16 (F := Ideal) x0 x1 x3 x4 (ix3 b i j) = attn (projArr x0 x3) (projArr x1 x4) b i j := by
  rw [Read.val_main_v16_apply, Read.val_main_v15_apply, Read.val_main_v14_apply, idx_v14_v15, ref_rowsum, ref_exp,
    Ideal.hostDivf_def]
  rfl

/-- The reference's weights are the specification's. -/
theorem ref_attn (x0 x1 : A3) (x3 x4 : W2) :
    Read.val_main_v16 (F := Ideal) x0 x1 x3 x4 = attnArr x0 x1 x3 x4 := by
  funext i
  obtain ⟨b, p, q, rfl⟩ : ∃ (b : Fin 4) (p q : Fin 4096), i = ix3 b p q := ⟨i 0, i 1, i 2, eq_ix3 i⟩
  rw [ref_attn_at, attnArr_ix3]

/-! ## The context -/

theorem lidx_v17 (b : Fin 4) (i : Fin 4096) (d : Fin 256) (k : Fin 4096) : Read.lidx_main_v17 (ix3 b i d) k = ix3 b i k :=
  funext fun a => Fin.ext (by match a with | ⟨0, _⟩ => rfl | ⟨1, _⟩ => rfl | ⟨2, _⟩ => rfl)
theorem ridx_v17 (b : Fin 4) (i : Fin 4096) (d : Fin 256) (k : Fin 4096) : Read.ridx_main_v17 (ix3 b i d) k = ix3 b k d :=
  funext fun a => Fin.ext (by match a with | ⟨0, _⟩ => rfl | ⟨1, _⟩ => rfl | ⟨2, _⟩ => rfl)

/-- The reference's context is the specification's. -/
theorem ref_ctx (x0 x1 x2 : A3) (x3 x4 x5 : W2) :
    Read.val_main_v17 (F := Ideal) x0 x1 x2 x3 x4 x5 = ctxArr x0 x1 x2 x3 x4 x5 := by
  funext i
  obtain ⟨b, p, d, rfl⟩ : ∃ (b : Fin 4) (p : Fin 4096) (d : Fin 256), i = ix3 b p d := ⟨i 0, i 1, i 2, eq_ix3 i⟩
  rw [Read.val_main_v17_apply, ctxArr_ix3, ref_proj2]
  unfold ctx
  exact Finset.sum_congr rfl fun k _ => by rw [lidx_v17, ridx_v17, ref_attn_at]

/-! ## The reference's run, its results named by the specification -/

/-- From any memory with zero counters, every weakly fair execution of the reference terminates with its first result the
    specification's context and its second the specification's weights, both of the argument arrays as launched, and the
    arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v17)
          = ctxArr (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_v16)
          = attnArr (m ((c.tc : Thread nD τ).loc main_arg0)) (m ((c.tc : Thread nD τ).loc main_arg1))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run (defs (F := Ideal)) _ _).mono
    (fun _ h c =>
      ⟨(h c).1.trans ((Read.val_main_v17_eq (F := Ideal) _ _ _ _ _ _).trans (ref_ctx _ _ _ _ _ _)),
        (h c).2.1.trans ((Read.val_main_v16_eq (F := Ideal) _ _ _ _).trans (ref_attn _ _ _ _)),
        (h c).2.2⟩)
    (Cert.ReferenceIdeal.Value.run (F := Ideal) m ρ)

end Cert.RefSide

end
-- ==== Proof.LibFiniteEntries.lean ====
/-
  Real entries from a finiteness test, at the ideal values.

  A precondition "every float input is finite" is printed, per argument, as: the absolute value of the array, compared
  entry by entry below the bit pattern of plus infinity broadcast from a scalar, the bits then reduced by conjunction
  to one bit. At the ideal values an entry is an extended real, its absolute value is max x (-x), and the pattern
  0x7F800000 denotes plus infinity; max x (-x) < plus infinity fails exactly at the two infinities. So where the
  reduced bit is one, every entry of the array is a real number, whatever the array's shape.
-/
import Idealize.ShloMosaic.PureOps.Ideal
import Idealize.ShloMosaic.Lib.ValueIdx
import Idealize.ShloMosaic.Lib.ReduceAll

noncomputable section

namespace Cert.LibFiniteEntries

open Idealize.ShloMosaic Idealize.ShloMosaic.ValueIdx

/-- The rank-0 shape has one index. -/
instance subsingleton_scalar_idx : Subsingleton (⟨0, ![]⟩ : Shape).Idx := ⟨fun a b => funext fun d => d.elim0⟩

/-- The f32 bit pattern 0x7F800000 denotes plus infinity. -/
theorem inf_pattern_f32 : Ideal.ofBits .f32 0x7F800000#32 = ⊤ := by simp [Ideal.ofBits, Ideal.ieee]

/-- An extended real whose absolute value max x (-x) compares below plus infinity is a real number. -/
theorem real_of_abs_lt_inf (x : EReal)
    (h : Ideal.cmp .olt (max x (-x)) (Ideal.ofBits .f32 0x7F800000#32) = 1#1) : ∃ v : ℝ, x = v := by
  rw [inf_pattern_f32] at h
  induction x using EReal.rec with
  | bot => simp [Ideal.cmp] at h
  | top => simp [Ideal.cmp] at h
  | coe r => exact ⟨r, rfl⟩

/-- The printed test of one argument: if the conjunction, over every entry of an f32 array of any shape, of
    "absolute value below the plus-infinity pattern" is one, every entry is a real number. -/
theorem real_entries_of_all_lt_inf {s : Shape} {axes : List (Fin s.rank)} (a : FVec Ideal s .f32)
    (hb : (⟨0, ![]⟩ : Shape).BroadcastsInDim s (![] : Fin 0 → Fin s.rank))
    (h : s.ReducesTo axes ⟨0, ![]⟩) (hu : 0 < (⟨0, ![]⟩ : Shape).numel) (init : (⟨0, ![]⟩ : Shape).Idx → BitVec 1)
    (e : Host.reduce IntOp.andi
        (cmpf .olt (Host.absf a) (broadcastInDim s ![] hb (constant (F := Ideal) ⟨0, ![]⟩ .f32 0x7F800000#32))) init h hu ix0 = 1#1)
    (i : s.Idx) : ∃ v : ℝ, a i = v :=
  real_of_abs_lt_inf (a i) (Host.reduce_andi_all _ _ _ _ ix0 e i)

end Cert.LibFiniteEntries

end
-- ==== Proof.FiniteArgs.lean ====
/-
  From the printed finite-inputs test to "every entry of every argument is a real number".

  The test is one bit: the conjunction of six bits, one per argument array, each the conjunction over the array's entries
  of "the absolute value compares below plus infinity". A conjunction of bits is one exactly when each of them is one, and
  where an argument's bit is one every entry of that argument is a real number.
-/
import proofs.«161166_j30331059044530_2_alg».proof.Pre_finite_inputs
import proofs.«161166_j30331059044530_2_alg».proof.Proof.LibFiniteEntries
import proofs.«161166_j30331059044530_2_alg».proof.Proof.AttnMath

noncomputable section

namespace Cert.FiniteArgs

open Idealize.ShloMosaic Idealize.ShloMosaic.ValueIdx Cert.AttnSpec Cert.AttnMath Cert.LibFiniteEntries

/-- Where the printed test of the six arguments is one, every entry of each argument is a real number. -/
theorem args_real [Cert.Pre_finite_inputs.Facts] (a0 a1 a2 : A3) (a3 a4 a5 : W2)
    (h : Cert.Pre_finite_inputs.fn (F := Ideal) a0 a1 a2 a3 a4 a5 = fun _ => 1#1) :
    IsReal a0 ∧ IsReal a1 ∧ IsReal a2 ∧ IsReal a3 ∧ IsReal a4 ∧ IsReal a5 := by
  have e := congrFun h ValueIdx.ix0
  dsimp only [Cert.Pre_finite_inputs.fn, Cert.Pre_finite_inputs.fn_part1, andi] at e
  obtain ⟨e01234, e5⟩ := IntOp.andi_eq_one.1 e
  obtain ⟨e0123, e4⟩ := IntOp.andi_eq_one.1 e01234
  obtain ⟨e012, e3⟩ := IntOp.andi_eq_one.1 e0123
  obtain ⟨e01, e2⟩ := IntOp.andi_eq_one.1 e012
  obtain ⟨e0, e1⟩ := IntOp.andi_eq_one.1 e01
  exact ⟨fun i => real_entries_of_all_lt_inf a0 _ _ _ _ e0 i, fun i => real_entries_of_all_lt_inf a1 _ _ _ _ e1 i,
    fun i => real_entries_of_all_lt_inf a2 _ _ _ _ e2 i, fun i => real_entries_of_all_lt_inf a3 _ _ _ _ e3 i,
    fun i => real_entries_of_all_lt_inf a4 _ _ _ _ e4 i, fun i => real_entries_of_all_lt_inf a5 _ _ _ _ e5 i⟩

end Cert.FiniteArgs

end
-- ==== Proof.lean ====
/-
  Scaled dot-product attention with three linear projections, a Pallas program of five kernel regions against plain jnp.

  The kernel projects query, key and value by x Wᵀ (three regions, row blocks of 1024), then meets each query row's
  scores tile by tile — sixteen tiles of 256 keys — carrying a running maximum m, normalizer l and weighted sum of value
  rows acc (the online softmax), and writes the context acc / l and the row's log-sum-exp m + log l; a last region
  recomputes the scores and writes the weights exp (s − (m + log l)). The reference computes the scores at once,
  subtracts each row's maximum, exponentiates, divides by the row's sum, and multiplies by the values.

  On the extended reals the two agree wherever every input is a real number: both contexts are the softmax-weighted mean
  ∑ exp s · v / ∑ exp s of the value rows and both weights are exp s / ∑ exp s, whatever maxima were subtracted on the
  way, because exp (a − b) = exp a / exp b for real a, b and exp (a − log L) = exp a / L for L > 0; the scale is the same
  on both sides since multiplying by 1/16 is dividing by 16. Real inputs are what the precondition gives; sums and
  products of reals are real, so every score is real and every normalizer is positive. A change of float format is the
  identity on the extended reals, so the kernel's narrowings of the projections and of the exponentials drop out.

  The three frames: the reference is a host program whose run is read back operation by operation; the kernel's run goes
  region by region, each region's body run once per case of its grid point, the contents of every buffer between two
  regions named, at any float instance — read at words for the printed kernel and at extended reals for its idealization.
-/
import proofs.«161166_j30331059044530_2_alg».proof.Defs
import proofs.«161166_j30331059044530_2_alg».proof.Proof.Gen.Kernel
import proofs.«161166_j30331059044530_2_alg».proof.Proof.Gen.KernelIdeal
import proofs.«161166_j30331059044530_2_alg».proof.Proof.Gen.ReferenceIdeal
import proofs.«161166_j30331059044530_2_alg».proof.Proof.Gen.ReferenceIdeal.Run
import proofs.«161166_j30331059044530_2_alg».proof.Proof.Gen.ReferenceIdeal.Read
import proofs.«161166_j30331059044530_2_alg».proof.Proof.Gen.Pre_finite_inputs
import proofs.«161166_j30331059044530_2_alg».proof.Proof.KB.Run
import proofs.«161166_j30331059044530_2_alg».proof.Proof.KI.Run
import proofs.«161166_j30331059044530_2_alg».proof.Proof.KI.Final
import proofs.«161166_j30331059044530_2_alg».proof.Proof.RefSide
import proofs.«161166_j30331059044530_2_alg».proof.Proof.AttnMath
import proofs.«161166_j30331059044530_2_alg».proof.Proof.FiniteArgs
import Idealize.ShloMosaic.Adequacy
import Idealize.ShloMosaic.Init

noncomputable section

namespace Cert.Proof

open Idealize.ShloMosaic Idealize.SL.Sem

/-- The printed kernel runs to the end and leaves its six arguments as launched. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference's run, with its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- On real inputs the kernel's tiled context and weights are the reference's. -/
theorem algebraic : Cert.algebraic_KernelIdeal_ReferenceIdeal := by
  intro m ρ m' ρ' hpre hagree
  refine ⟨_, _, Cert.KernelIdeal.HandValue.kernel_run m ρ, ?_⟩
  refine (θ_run Cert.ReferenceIdeal.defs _ _).mono (fun _ h c => ⟨(h c).1.trans ?_, (h c).2.1.trans ?_, (h c).2.2⟩)
    (Cert.RefSide.ref_run m' ρ')
  · obtain ⟨h0, h1, h2, h3, h4, h5⟩ := Cert.FiniteArgs.args_real _ _ _ _ _ _ (hpre c)
    rw [(hagree c).1, (hagree c).2.1, (hagree c).2.2.1, (hagree c).2.2.2.1, (hagree c).2.2.2.2.1, (hagree c).2.2.2.2.2]
    exact (Cert.AttnMath.tiledCtxArr_eq _ _ _ _ _ _ h0 h1 h2 h3 h4 h5).symm
  · obtain ⟨h0, h1, -, h3, h4, -⟩ := Cert.FiniteArgs.args_real _ _ _ _ _ _ (hpre c)
    rw [(hagree c).1, (hagree c).2.1, (hagree c).2.2.2.1, (hagree c).2.2.2.2.1]
    exact (Cert.AttnMath.tiledAttnArr_eq _ _ _ _ h0 h1 h3 h4).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
